-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S4096x128 : Shape := ⟨2, ![4096, 128]⟩
abbrev S16384x128 : Shape := ⟨2, ![16384, 128]⟩
abbrev S32x32 : Shape := ⟨2, ![32, 32]⟩
abbrev S288x256 : Shape := ⟨2, ![288, 256]⟩
abbrev S256 : Shape := ⟨1, ![256]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S32x32 : S_.BroadcastsInDim S32x32 (![] : Fin 0 → Fin S32x32.rank)
  reducesTo_S32x32_S_d0_1 : S32x32.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg2 : IVec S16384 32) (main_v47 : IVec S_ 1) (main_v49 : IVec S16384 1) (main_c_19 : IVec S_ 32) : IVec S_ 1 :=
  let main_v50 : IVec S16384 32 := broadcastInDim S16384 ![] bcast_S_S16384 main_c_19
  let main_v51 : IVec S16384 1 := cmpi .sle main_arg2 main_v50
  let main_v52 : IVec S16384 1 := andi main_v49 main_v51
  let main_c_20 : IVec S_ 1 := constantI S_ 1 1#1
  let main_v53 : IVec S_ 1 := (fun x v => Host.reduce IntOp.andi x v reducesTo_S16384_S_d0 h_S_) main_v52 main_c_20
  let main_v54 : IVec S_ 1 := andi main_v47 main_v53
  main_v54

def fn_part2 {F : FTy → Type} [FloatOps F] (main_arg0 : IVec S16384 32) (main_arg1 : IVec S16384 32) (main_arg2 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg0 main_v34
  let main_c_13 : IVec S_ 32 := constantI S_ 32 4095#32
  let main_v36 : IVec S16384 32 := broadcastInDim S16384 ![] bcast_S_S16384 main_c_13
  let main_v37 : IVec S16384 1 := cmpi .sle main_arg0 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  let main_c_15 : IVec S_ 32 := constantI S_ 32 0#32
  let main_v41 : IVec S16384 32 := broadcastInDim S16384 ![] bcast_S_S16384 main_c_15
  let main_v42 : IVec S16384 1 := cmpi .sge main_arg1 main_v41
  let main_c_16 : IVec S_ 32 := constantI S_ 32 16383#32
  let main_v43 : IVec S16384 32 := broadcastInDim S16384 ![] bcast_S_S16384 main_c_16
  let main_v44 : IVec S16384 1 := cmpi .sle main_arg1 main_v43
  let main_v45 : IVec S16384 1 := andi main_v42 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v40 main_v46
  let main_c_18 : IVec S_ 32 := constantI S_ 32 0#32
  let main_v48 : IVec S16384 32 := broadcastInDim S16384 ![] bcast_S_S16384 main_c_18
  let main_v49 : IVec S16384 1 := cmpi .sge main_arg2 main_v48
  let main_c_19 : IVec S_ 32 := constantI S_ 32 31#32
  fn_part3 (F := F) main_arg2 main_v47 main_v49 main_c_19

def fn_part1 {F : FTy → Type} [FloatOps F] (main_arg0 : IVec S16384 32) (main_arg1 : IVec S16384 32) (main_arg2 : IVec S16384 32) (main_arg7 : FVec F S256 .f32) (main_arg8 : FVec F S256 .f32) (main_arg9 : FVec F S256 .f32) (main_v13 : IVec S_ 1) (main_v16 : IVec S288x256 1) : IVec S_ 1 :=
  let main_c_5 : IVec S_ 1 := constantI S_ 1 1#1
  let main_v17 : IVec S_ 1 := (fun x v => Host.reduce IntOp.andi x v reducesTo_S288x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg2 main_v33

def fn {F : FTy → Type} [FloatOps F] (main_arg0 : IVec S16384 32) (main_arg1 : IVec S16384 32) (main_arg2 : IVec S16384 32) (main_arg3 : FVec F S4096x128 .f32) (main_arg4 : FVec F S16384x128 .f32) (main_arg5 : FVec F S32x32 .f32) (main_arg6 : FVec F S288x256 .f32) (main_arg7 : FVec F S256 .f32) (main_arg8 : FVec F S256 .f32) (main_arg9 : FVec F S256 .f32) : IVec S_ 1 :=
  let main_v0 : FVec F S4096x128 .f32 := Host.absf main_arg3
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg4
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S32x32 .f32 := Host.absf main_arg5
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S288x256 .f32 := Host.absf main_arg6
  let main_cst_4 : FVec F S_ .f32 := constant S_ .f32 0x7F800000#32
  let main_v15 : FVec F S288x256 .f32 := broadcastInDim S288x256 ![] bcast_S_S288x256 main_cst_4
  let main_v16 : IVec S288x256 1 := cmpf .olt main_v14 main_v15
  fn_part1 (F := F) main_arg0 main_arg1 main_arg2 main_arg7 main_arg8 main_arg9 main_v13 main_v16
-- ==== Kernel.lean ====
abbrev S16384 : Shape := ⟨1, ![16384]⟩
abbrev S4096x128 : Shape := ⟨2, ![4096, 128]⟩
abbrev S16384x128 : Shape := ⟨2, ![16384, 128]⟩
abbrev S32x32 : Shape := ⟨2, ![32, 32]⟩
abbrev S288x256 : Shape := ⟨2, ![288, 256]⟩
abbrev S256 : Shape := ⟨1, ![256]⟩
abbrev S2x32x2x128 : Shape := ⟨4, ![2, 32, 2, 128]⟩
abbrev S8x1x2048 : Shape := ⟨3, ![8, 1, 2048]⟩
abbrev S1x256 : Shape := ⟨2, ![1, 256]⟩
abbrev S8192x128 : Shape := ⟨2, ![8192, 128]⟩
abbrev S2x128 : Shape := ⟨2, ![2, 128]⟩
abbrev S128x128 : Shape := ⟨2, ![128, 128]⟩
abbrev S_ : Shape := ⟨0, ![]⟩
abbrev S1x1x2x128 : Shape := ⟨4, ![1, 1, 2, 128]⟩
abbrev S1x128 : Shape := ⟨2, ![1, 128]⟩
abbrev S128 : Shape := ⟨1, ![128]⟩
abbrev S16384x256 : Shape := ⟨2, ![16384, 256]⟩
abbrev S1x1x2048 : Shape := ⟨3, ![1, 1, 2048]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S2048x32 : Shape := ⟨2, ![2048, 32]⟩
abbrev S32x256 : Shape := ⟨2, ![32, 256]⟩
abbrev S128x256 : Shape := ⟨2, ![128, 256]⟩

abbrev nBuf : Table → Nat
  | .hbm => 22
  | .local .tc .vmem => 26
  | .local .scVector .vmem => 12
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S4096x128, .f32⟩
  | .hbm, ⟨4, _⟩ => ⟨S16384x128, .f32⟩
  | .hbm, ⟨5, _⟩ => ⟨S32x32, .f32⟩
  | .hbm, ⟨6, _⟩ => ⟨S288x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S2x32x2x128, .i32⟩
  | .hbm, ⟨11, _⟩ => ⟨S2x32x2x128, .i32⟩
  | .hbm, ⟨12, _⟩ => ⟨S8x1x2048, .i32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S16384x256, .f32⟩
  | .hbm, ⟨21, _⟩ => ⟨S16384x256, .f32⟩
  | .local .tc .vmem, ⟨0, _⟩ => ⟨S1x1x2048, .i32⟩
  | .local .tc .vmem, ⟨1, _⟩ => ⟨S1x1x2048, .i32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S32x32, .f32⟩
  | .local .tc .vmem, ⟨7, _⟩ => ⟨S288x256, .f32⟩
  | .local .tc .vmem, ⟨8, _⟩ => ⟨S1x256, .f32⟩
  | .local .tc .vmem, ⟨9, _⟩ => ⟨S1x256, .f32⟩
  | .local .tc .vmem, ⟨10, _⟩ => ⟨S1x256, .f32⟩
  | .local .tc .vmem, ⟨11, _⟩ => ⟨S2048x256, .f32⟩
  | .local .tc .vmem, ⟨12, _⟩ => ⟨S2048x256, .f32⟩
  | .local .tc .vmem, ⟨13, _⟩ => ⟨S1x1x2048, .i32⟩
  | .local .tc .vmem, ⟨14, _⟩ => ⟨S1x1x2048, .i32⟩
  | .local .tc .vmem, ⟨15, _⟩ => ⟨S2048x128, .f32⟩
  | .local .tc .vmem, ⟨16, _⟩ => ⟨S2048x128, .f32⟩
  | .local .tc .vmem, ⟨17, _⟩ => ⟨S2048x128, .f32⟩
  | .local .tc .vmem, ⟨18, _⟩ => ⟨S2048x128, .f32⟩
  | .local .tc .vmem, ⟨19, _⟩ => ⟨S32x32, .f32⟩
  | .local .tc .vmem, ⟨20, _⟩ => ⟨S288x256, .f32⟩
  | .local .tc .vmem, ⟨21, _⟩ => ⟨S1x256, .f32⟩
  | .local .tc .vmem, ⟨22, _⟩ => ⟨S1x256, .f32⟩
  | .local .tc .vmem, ⟨23, _⟩ => ⟨S1x256, .f32⟩
  | .local .tc .vmem, ⟨24, _⟩ => ⟨S2048x256, .f32⟩
  | .local .tc .vmem, ⟨25, _⟩ => ⟨S2048x256, .f32⟩
  | .local .scVector .vmem, ⟨0, _⟩ => ⟨S2x128, .i32⟩
  | .local .scVector .vmem, ⟨1, _⟩ => ⟨S2x128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S2x128, .i32⟩
  | .local .scVector .vmem, ⟨7, _⟩ => ⟨S2x128, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 46 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTables nBuf rfl bufTy 4 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev main_v0_scv : Ref sig .scVector := ⟨.hbm, 10, rfl⟩
abbrev main_v1_scv : Ref sig .scVector := ⟨.hbm, 11, rfl⟩
abbrev main_arg3_scv : Ref sig .scVector := ⟨.hbm, 3, rfl⟩
abbrev main_arg4_scv : Ref sig .scVector := ⟨.hbm, 4, rfl⟩
abbrev main_v6_0_scv : Ref sig .scVector := ⟨.hbm, 16, rfl⟩
abbrev main_v6_1_scv : Ref sig .scVector := ⟨.hbm, 17, rfl⟩
abbrev main_v7_0_scv : Ref sig .scVector := ⟨.hbm, 18, rfl⟩
abbrev main_v7_1_scv : Ref sig .scVector := ⟨.hbm, 19, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg7_0 : Ref sig .tc := ⟨.vmem, 10, rfl⟩
abbrev cc2_stg8_0 : Ref sig .tc := ⟨.vmem, 11, rfl⟩
abbrev cc2_stg8_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg8_1 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_51_r0 : BitVec 32 := 0#32
  let c0_i32_52_r0 : BitVec 32 := 0#32
  ![0, v1.toNat, 0, 0]
def k0_off2 (i : grid0.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v18 : BitVec 32 := Scalar.addi v2 c0_i32_20
  let c0_i32_21 : BitVec 32 := 0#32
  ![v18.toNat, 0]
abbrev grid1 : Pipeline.Grid := ⟨2, ![2, 16], ![false, false]⟩

def k1_off1 (i : grid1.Coords) : Fin 4 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_51_r0 : BitVec 32 := 0#32
  let c0_i32_52_r0 : BitVec 32 := 0#32
  ![1, v1.toNat, 0, 0]
def k1_off2 (i : grid1.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v18 : BitVec 32 := Scalar.addi v2 c0_i32_20
  let c0_i32_21 : BitVec 32 := 0#32
  ![v18.toNat, 0]
abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S288x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![4], ![false]⟩

def cc3_transform_1 (i : grid3.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage3_0 : Fin 2 → Memref sig .tc .vmem S1x1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S288x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S16384_S2x32x2x128 : S16384.ShapeCasts S2x32x2x128
  shapeCasts_S16384_S8x1x2048 : S16384.ShapeCasts S8x1x2048
  shapeCasts_S256_S1x256 : S256.ShapeCasts S1x256
  squeezes_S1x1x2x128_S2x128 : S1x1x2x128.Squeezes S2x128
  inb_S2x128_S1x128_0_0 : ∀ a, (![0, 0] : Fin 2 → Nat) a + S1x128.size a ≤ S2x128.size a
  squeezes_S1x128_S128 : S1x128.Squeezes S128
  inb_S4096x128_S4096x128_0_0 : ∀ a, (![0, 0] : Fin 2 → Nat) a + S4096x128.size a ≤ S4096x128.size a
  gathers_S4096x128_S128x128 : S4096x128.Gathers 0 S128x128
  inb_S2x128_S1x128_1_0 : ∀ a, (![1, 0] : Fin 2 → Nat) a + S1x128.size a ≤ S2x128.size a
  inb_S16384x128_S16384x128_0_0 : ∀ a, (![0, 0] : Fin 2 → Nat) a + S16384x128.size a ≤ S16384x128.size a
  gathers_S16384x128_S128x128 : S16384x128.Gathers 0 S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  inb_S288x256_S288x256_0_0 : ∀ a, (![0, 0] : Fin 2 → Nat) a + S288x256.size a ≤ S288x256.size a
  h_S288x256 : 0 < S288x256.numel
  shapeCasts_S2048_S2048x1 : S2048.ShapeCasts S2048x1
  iota_S2048x32_d1_w32 : S2048x32.Iotas .tc 32 [1]
  broadcasts_S2048x1_S2048x32 : S2048x1.Broadcasts S2048x32
  natLt_1_32 : 1 < 32
  inb_S32x32_S32x32_0_0 : ∀ a, (![0, 0] : Fin 2 → Nat) a + S32x32.size a ≤ S32x32.size a
  h_S32x32 : 0 < S32x32.numel
  slices_S288x256_o256_0_S32x256 : S288x256.Slices ![256, 0] S32x256
  slices_S288x256_o0_0_S128x256 : S288x256.Slices ![0, 0] S128x256
  slices_S288x256_o128_0_S128x256 : S288x256.Slices ![128, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  dot_S32x32_S32x256_S32x256_1_0_0_1_n_n_wf : DotDims.WF S32x32 S32x256 S32x256 [1] [0] [0] [1] [] []
  dot_S2048x128_S128x256_S2048x256_1_0_0_1_n_n_wf : DotDims.WF S2048x128 S128x256 S2048x256 [1] [0] [0] [1] [] []
  dot_S2048x32_S32x256_S2048x256_1_0_0_1_n_n_wf : DotDims.WF S2048x32 S32x256 S2048x256 [1] [0] [0] [1] [] []
  hcc0_scratch6 : 0 + S_.numel ≤ 46
  hcc0_scratch7 : 1 + S_.numel ≤ 46
  hcc0_scratch8 : 2 + S_.numel ≤ 46
  hcc0_scratch9 : 3 + S_.numel ≤ 46
  hcc0_scratch10 : 4 + S_.numel ≤ 46
  hcc0_scratch11 : 5 + S_.numel ≤ 46
  hcc0_scratch12 : 6 + S_.numel ≤ 46
  hcc0_scratch13 : 7 + S_.numel ≤ 46
  hcc0_scoped0 : 8 + S_.numel ≤ 46
  hcc0_scoped1 : 9 + S_.numel ≤ 46
  hcc1_scratch6 : 10 + S_.numel ≤ 46
  hcc1_scratch7 : 11 + S_.numel ≤ 46
  hcc1_scratch8 : 12 + S_.numel ≤ 46
  hcc1_scratch9 : 13 + S_.numel ≤ 46
  hcc1_scratch10 : 14 + S_.numel ≤ 46
  hcc1_scratch11 : 15 + S_.numel ≤ 46
  hcc1_scratch12 : 16 + S_.numel ≤ 46
  hcc1_scratch13 : 17 + S_.numel ≤ 46
  hcc1_scoped0 : 18 + S_.numel ≤ 46
  hcc1_scoped1 : 19 + S_.numel ≤ 46
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x2x128.size a ≤ S2x32x2x128.size a
  k0_off2_inb : ∀ i : grid0.Coords, ∀ (r : Fin 2), ∀ a, (k0_off2 i (BitVec.ofNat 32 (128 * r.val))) a + S128x128.size a ≤ S8192x128.size a
  hcore1 : grid1.bound 0 ≤ τ.nSC
  hsub1 : grid1.bound 1 ≤ τ.nSub
  k1_off1_inb : ∀ i : grid1.Coords, ∀ a, (k1_off1 i) a + S1x1x2x128.size a ≤ S2x32x2x128.size a
  k1_off2_inb : ∀ i : grid1.Coords, ∀ (r : Fin 2), ∀ a, (k1_off2 i (BitVec.ofNat 32 (128 * r.val))) a + S128x128.size a ≤ S8192x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x2048.size a ≤ S8x1x2048.size a
  hwx2_0 : ∀ i : grid2.Coords, EltTy.bits .i32 = 32 ∨ (Rect.block (s := S8x1x2048) S1x1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S288x256.size a ≤ S288x256.size a
  hwx2_4 : ∀ i : grid2.Coords, EltTy.bits .f32 = 32 ∨ (Rect.block (s := S288x256) S288x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x256.size a ≤ S16384x256.size a
  hwx2_8 : ∀ i : grid2.Coords, EltTy.bits .f32 = 32 ∨ (Rect.block (s := S16384x256) S2048x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S1x1x2048.size a ≤ S8x1x2048.size a
  hwx3_0 : ∀ i : grid3.Coords, EltTy.bits .i32 = 32 ∨ (Rect.block (s := S8x1x2048) S1x1x2048.size (cc3_transform_1 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S2048x128.size a ≤ S8192x128.size a
  hwx3_1 : ∀ i : grid3.Coords, EltTy.bits .f32 = 32 ∨ (Rect.block (s := S8192x128) S2048x128.size (cc3_transform_2 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hinb3_2 : ∀ (i : grid3.Coords) a, (cc3_transform_3 i a + 1) * S2048x128.size a ≤ S8192x128.size a
  hwx3_2 : ∀ i : grid3.Coords, EltTy.bits .f32 = 32 ∨ (Rect.block (s := S8192x128) S2048x128.size (cc3_transform_3 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_4 i = cc3_transform_4 i'
  hinb3_3 : ∀ (i : grid3.Coords) a, (cc3_transform_4 i a + 1) * S32x32.size a ≤ S32x32.size a
  hwx3_3 : ∀ i : grid3.Coords, EltTy.bits .f32 = 32 ∨ (Rect.block (s := S32x32) S32x32.size (cc3_transform_4 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_5 i = cc3_transform_5 i'
  hinb3_4 : ∀ (i : grid3.Coords) a, (cc3_transform_5 i a + 1) * S288x256.size a ≤ S288x256.size a
  hwx3_4 : ∀ i : grid3.Coords, EltTy.bits .f32 = 32 ∨ (Rect.block (s := S288x256) S288x256.size (cc3_transform_5 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_6 i = cc3_transform_6 i'
  hinb3_5 : ∀ (i : grid3.Coords) a, (cc3_transform_6 i a + 1) * S1x256.size a ≤ S1x256.size a
  hwx3_5 : ∀ i : grid3.Coords, EltTy.bits .f32 = 32 ∨ (Rect.block (s := S1x256) S1x256.size (cc3_transform_6 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_7 i = cc3_transform_7 i'
  hinb3_6 : ∀ (i : grid3.Coords) a, (cc3_transform_7 i a + 1) * S1x256.size a ≤ S1x256.size a
  hwx3_6 : ∀ i : grid3.Coords, EltTy.bits .f32 = 32 ∨ (Rect.block (s := S1x256) S1x256.size (cc3_transform_7 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_8 i = cc3_transform_8 i'
  hinb3_7 : ∀ (i : grid3.Coords) a, (cc3_transform_8 i a + 1) * S1x256.size a ≤ S1x256.size a
  hwx3_7 : ∀ i : grid3.Coords, EltTy.bits .f32 = 32 ∨ (Rect.block (s := S1x256) S1x256.size (cc3_transform_8 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_9 i = cc3_transform_9 i'
  hinb3_8 : ∀ (i : grid3.Coords) a, (cc3_transform_9 i a + 1) * S2048x256.size a ≤ S16384x256.size a
  hwx3_8 : ∀ i : grid3.Coords, EltTy.bits .f32 = 32 ∨ (Rect.block (s := S16384x256) S2048x256.size (cc3_transform_9 i) (hinb3_8 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scoped0 : DmaSems sig S_ := SemArray.consecutive 8 S_ hcc0_scoped0
abbrev cc0_scoped1 : DmaSems sig S_ := SemArray.consecutive 9 S_ hcc0_scoped1
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scratch10 : DmaSems sig S_ := SemArray.consecutive 14 S_ hcc1_scratch10
abbrev cc1_scratch11 : DmaSems sig S_ := SemArray.consecutive 15 S_ hcc1_scratch11
abbrev cc1_scratch12 : DmaSems sig S_ := SemArray.consecutive 16 S_ hcc1_scratch12
abbrev cc1_scratch13 : DmaSems sig S_ := SemArray.consecutive 17 S_ hcc1_scratch13
abbrev cc1_scoped0 : DmaSems sig S_ := SemArray.consecutive 18 S_ hcc1_scoped0
abbrev cc1_scoped1 : DmaSems sig S_ := SemArray.consecutive 19 S_ hcc1_scoped1
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf

abbrev win2_0 : Pipeline.Window sig grid2 :=
  Pipeline.Window.ofSpec (Memref.whole main_v2) S1x1x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S288x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v5) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S2048x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v2) S1x1x2048.size cc3_transform_1 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7_0) S2048x128.size cc3_transform_2 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7_1) S2048x128.size cc3_transform_3 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S32x32.size cc3_transform_4 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S288x256.size cc3_transform_5 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S1x256.size cc3_transform_6 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v4) S1x256.size cc3_transform_7 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v5) S1x256.size cc3_transform_8 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v9) S2048x256.size cc3_transform_9 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S16384 : Shape := ⟨1, ![16384]⟩
abbrev S4096x128 : Shape := ⟨2, ![4096, 128]⟩
abbrev S16384x128 : Shape := ⟨2, ![16384, 128]⟩
abbrev S32x32 : Shape := ⟨2, ![32, 32]⟩
abbrev S288x256 : Shape := ⟨2, ![288, 256]⟩
abbrev S256 : Shape := ⟨1, ![256]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x288 : Shape := ⟨2, ![16384, 288]⟩
abbrev S16384x256 : Shape := ⟨2, ![16384, 256]⟩
abbrev S1x256 : Shape := ⟨2, ![1, 256]⟩

abbrev nBuf : Space → Nat
  | .hbm => 128
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S4096x128, .f32⟩
  | .hbm, ⟨4, _⟩ => ⟨S16384x128, .f32⟩
  | .hbm, ⟨5, _⟩ => ⟨S32x32, .f32⟩
  | .hbm, ⟨6, _⟩ => ⟨S288x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x32, .f32⟩
  | .hbm, ⟨75, _⟩ => ⟨S16384x32, .i1⟩
  | .hbm, ⟨76, _⟩ => ⟨S_, .f32⟩
  | .hbm, ⟨77, _⟩ => ⟨S16384x32, .f32⟩
  | .hbm, ⟨78, _⟩ => ⟨S16384x32, .f32⟩
  | .hbm, ⟨79, _⟩ => ⟨S16384x288, .f32⟩
  | .hbm, ⟨80, _⟩ => ⟨S16384x256, .f32⟩
  | .hbm, ⟨81, _⟩ => ⟨S1x256, .f32⟩
  | .hbm, ⟨82, _⟩ => ⟨S16384x256, .f32⟩
  | .hbm, ⟨83, _⟩ => ⟨S16384x256, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .i32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x256, .f32⟩
  | .hbm, ⟨98, _⟩ => ⟨S16384x256, .f32⟩
  | .hbm, ⟨99, _⟩ => ⟨S16384x256, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S_, .i1⟩
  | .hbm, ⟨110, _⟩ => ⟨S_, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S16384x256, .f32⟩
  | .hbm, ⟨115, _⟩ => ⟨S16384x256, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | .hbm, ⟨120, _⟩ => ⟨S16384x256, .f32⟩
  | .hbm, ⟨121, _⟩ => ⟨S16384x256, .f32⟩
  | .hbm, ⟨122, _⟩ => ⟨S1x256, .f32⟩
  | .hbm, ⟨123, _⟩ => ⟨S16384x256, .f32⟩
  | .hbm, ⟨124, _⟩ => ⟨S16384x256, .f32⟩
  | .hbm, ⟨125, _⟩ => ⟨S1x256, .f32⟩
  | .hbm, ⟨126, _⟩ => ⟨S16384x256, .f32⟩
  | .hbm, ⟨127, _⟩ => ⟨S16384x256, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v2 : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_cst : Ref sig .tc := ⟨.hbm, 84, rfl⟩
abbrev main_v8 : Ref sig .tc := ⟨.hbm, 85, rfl⟩
abbrev main_v9 : Ref sig .tc := ⟨.hbm, 86, rfl⟩
abbrev main_cst_0 : Ref sig .tc := ⟨.hbm, 87, rfl⟩
abbrev main_v10 : Ref sig .tc := ⟨.hbm, 88, rfl⟩
abbrev main_v11 : Ref sig .tc := ⟨.hbm, 89, rfl⟩
abbrev main_c : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_cst_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_cst_1 : Ref sig .tc := ⟨.hbm, 101, rfl⟩
abbrev main_call3_v8 : Ref sig .tc := ⟨.hbm, 102, rfl⟩
abbrev main_call3_cst_2 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_cst_3 : Ref sig .tc := ⟨.hbm, 108, rfl⟩
abbrev main_call3_v13 : Ref sig .tc := ⟨.hbm, 109, rfl⟩
abbrev main_call3_cst_4 : Ref sig .tc := ⟨.hbm, 110, rfl⟩
abbrev main_call3_call0_v0 : Ref sig .tc := ⟨.hbm, 111, rfl⟩
abbrev main_call3_call0_v1 : Ref sig .tc := ⟨.hbm, 112, rfl⟩
abbrev main_v12 : Ref sig .tc := ⟨.hbm, 113, rfl⟩
abbrev main_v13 : Ref sig .tc := ⟨.hbm, 114, rfl⟩
abbrev main_v14 : Ref sig .tc := ⟨.hbm, 115, rfl⟩
abbrev main_cst_1 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384_S16384x32_0 : S16384.BroadcastsInDim S16384x32 (![0] : Fin 1 → Fin S16384x32.rank)
  bcast_S_S16384x32 : S_.BroadcastsInDim S16384x32 (![] : Fin 0 → Fin S16384x32.rank)
  concatenates_S16384x128_S16384x128_S16384x32_S16384x288_d1 : Shape.Concatenates [S16384x128, S16384x128, S16384x32] S16384x288 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  bcast_S16384x1_S16384x256_0_1 : S16384x1.BroadcastsInDim S16384x256 (![0, 1] : Fin 2 → Fin S16384x256.rank)
  gather_S4096x128_S16384x1_S16384x128_1_0_n_n_0_1_1128_wf : GatherDims.WF S4096x128 S16384x1 S16384x128 [1] [0] [] [0] [] 1 ![1, 128]
  gather_S16384x128_S16384x1_S16384x128_1_0_n_n_0_1_1128_wf : GatherDims.WF S16384x128 S16384x1 S16384x128 [1] [0] [] [0] [] 1 ![1, 128]
  gather_S32x32_S16384x1_S16384x32_1_0_n_n_0_1_132_wf : GatherDims.WF S32x32 S16384x1 S16384x32 [1] [0] [] [0] [] 1 ![1, 32]
  dot_S16384x288_S288x256_S16384x256_1_0_0_1_n_n_wf : DotDims.WF S16384x288 S288x256 S16384x256 [1] [0] [0] [1] [] []

variable [Facts₀]

def gather_S4096x128_S16384x1_S16384x128_1_0_n_n_0_1_1128 : GatherDims S4096x128 S16384x1 S16384x128 where
  offsetDims := [1]
  collapsedSliceDims := [0]
  operandBatchingDims := []
  startIndicesBatchingDims := []
  startIndexMap := [0]
  indexVectorDim := 1
  sliceSizes := ![1, 128]
  wf := gather_S4096x128_S16384x1_S16384x128_1_0_n_n_0_1_1128_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def gather_S32x32_S16384x1_S16384x32_1_0_n_n_0_1_132 : GatherDims S32x32 S16384x1 S16384x32 where
  offsetDims := [1]
  collapsedSliceDims := [0]
  operandBatchingDims := []
  startIndicesBatchingDims := []
  startIndexMap := [0]
  indexVectorDim := 1
  sliceSizes := ![1, 32]
  wf := gather_S32x32_S16384x1_S16384x32_1_0_n_n_0_1_132_wf
def dot_S16384x288_S288x256_S16384x256_1_0_0_1_n_n : DotDims S16384x288 S288x256 S16384x256 where
  lhsContracting := [1]
  rhsContracting := [0]
  lhsNonContracting := [0]
  rhsNonContracting := [1]
  lhsBatch := []
  rhsBatch := []
  wf := dot_S16384x288_S288x256_S16384x256_1_0_0_1_n_n_wf

class Facts : Prop extends Facts₀ where

variable [Facts]
-- ==== Proof.ScSetup.lean ====
/-
  The kernel program as the SparseCore launch theorem sees it, and the resource algebra of its proof.

  The program is @main on the TensorCore — six reshapes, two SparseCore calls (each a row gather on
  2 × 16 vector subcores), and two TensorCore pipelines of four grid points each — beside the sequencers'
  and vector subcores' fixed programs. Three ghost components stand side by side: the launch handshakes'
  rounds (levels in ℕ), the TensorCore pipelines' staging cells' rounds (duties unnamed), and the counters
  of the vector subcores' own local copies, which need no schedule.
-/
import proofs.«204006_g8589934699_cont_9to1c4b_872_29_alg».proof.KernelIdeal
import proofs.«204006_g8589934699_cont_9to1c4b_872_29_alg».proof.Proof.Gen.KernelIdeal
import proofs.«204006_g8589934699_cont_9to1c4b_872_29_alg».proof.Proof.Gen.KernelIdeal.Skeleton
import proofs.«204006_g8589934699_cont_9to1c4b_872_29_alg».proof.Proof.Gen.KernelIdeal.Launch
import proofs.«204006_g8589934699_cont_9to1c4b_872_29_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the TensorCore pipelines' staging cells' rounds -/
abbrev UP : Type := URounds (GSem nD τ sig) Unit
/-- the three components side by side; the counters last, where the local copies' rules find them -/
abbrev UU : Type := UH × (UP × Counters)

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by unfold EP; infer_instance

example : CountersIn UU := inferInstance

end Cert.KernelIdeal.Setup

end
-- ==== Proof.MainHost.lean ====
/-
  @main on the TensorCore, its host part: the six reshapes that open the program run as one straight line
  over the TensorCore's unscoped arrays held whole; what follows them is the rest of the program.
-/
import proofs.«204006_g8589934699_cont_9to1c4b_872_29_alg».proof.Proof.ScSetup
import Idealize.ShloMosaic.Lib.Pipeline.Frame

noncomputable section

namespace Cert.KernelIdeal.MainSide

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The host operations -/

/-- the six reshapes: the three index vectors into the shapes the kernels slice, the three rows into [1, 256] -/
abbrev opR0 : HloOp τ sig (Elt F) := StableHlo.reshape main_arg0 main_v0 rfl shapeCasts_S16384_S2x32x2x128
abbrev opR1 : HloOp τ sig (Elt F) := StableHlo.reshape main_arg1 main_v1 rfl shapeCasts_S16384_S2x32x2x128
abbrev opR2 : HloOp τ sig (Elt F) := StableHlo.reshape main_arg2 main_v2 rfl shapeCasts_S16384_S8x1x2048
abbrev opR3 : HloOp τ sig (Elt F) := StableHlo.reshape main_arg7 main_v3 rfl shapeCasts_S256_S1x256
abbrev opR4 : HloOp τ sig (Elt F) := StableHlo.reshape main_arg8 main_v4 rfl shapeCasts_S256_S1x256
abbrev opR5 : HloOp τ sig (Elt F) := StableHlo.reshape main_arg9 main_v5 rfl shapeCasts_S256_S1x256
/-- the copy of the first pipeline's result into the second's result buffer -/
abbrev opCp : HloOp τ sig (Elt F) := StableHlo.unary main_v8 main_v9 id

abbrev headOps : List (HloOp τ sig (Elt F)) := [opR0, opR1, opR2, opR3, opR4, opR5]

theorem headOps_sub : ∀ op ∈ (headOps (F := F)), op.bufs ⊆ Pipeline.ucRefs τ sig := by
  intro op hop
  simp only [List.mem_cons, List.not_mem_nil, or_false] at hop
  rcases hop with rfl | rfl | rfl | rfl | rfl | rfl <;> exact Pipeline.sub_ucRefs _ (StableHlo.reshape_bufs_sub ..)

theorem headOps_fresh : ∀ op ∈ (headOps (F := F)), op.fresh = ∅ := by
  intro op hop
  simp only [List.mem_cons, List.not_mem_nil, or_false] at hop
  rcases hop with rfl | rfl | rfl | rfl | rfl | rfl <;> rfl

theorem opCp_sub : (opCp (F := F)).bufs ⊆ Pipeline.ucRefs τ sig := Pipeline.sub_ucRefs _ (StableHlo.unary_bufs_sub ..)

variable [FloatOps F]

/-- @main after the reshapes: the two SparseCore calls, the first pipeline, the copy, the second pipeline. -/
def rest (d : Dev nD) : Prog (TpuEff nD τ sig (Elt F) (SparseCore.Sig (ΛP (F := F)) 2) .tc) PUnit := do
  (sc (F := F)).run d 0
  (sc (F := F)).run d 1
  Prog.lift (.customCall (SparseCore.inner (Pipeline.entry 0)) ())
  hlo rfl (opCp (F := F)) (fun _ => .ret ⟨⟩)
  Prog.lift (.customCall (SparseCore.inner (Pipeline.entry 1)) ())
  pure ⟨⟩

theorem main_eq (d : Dev nD) : main (F := F) d = (seq (headOps (F := F)) >>= fun _ => rest (F := F) d) := rfl

/-! ## The TensorCore's arrays, held whole -/

variable (m : (ℓ : Loc nD τ sig) → Buf (Elt F) ℓ)

/-- the launch valuation -/
def V0 (d : Dev nD) : Valuation τ sig (Elt F) := fun b => m (d, b)
/-- after the reshapes -/
def V1 (d : Dev nD) : Valuation τ sig (Elt F) := after (headOps (F := F)) (V0 m d)

omit [FloatOps F] in
theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

/-- The reshapes, from the arrays at the launch contents: the rest of @main runs with them at `V1`. -/
theorem head_run (d : Dev nD) (Q : PUnit → sProp 𝕄) :
    iprop(boundary (SparseCore.T d) ∗ (held (SparseCore.T d) (Pipeline.ucRefs τ sig) (V0 m d) : sProp 𝕄))
      ⊢ iprop(((boundary (SparseCore.T d) ∗ (held (SparseCore.T d) (Pipeline.ucRefs τ sig) (V1 m d) : sProp 𝕄))
                -∗ wp frame (wpE ((K (F := F)).defs (D (F := F))) 𝒱 (SparseCore.T d) none) Set.univ (rest (F := F) d) Q)
        -∗ wp frame (wpE ((K (F := F)).defs (D (F := F))) 𝒱 (SparseCore.T d) none) Set.univ (main (F := F) d) Q) := by
  rw [main_eq]
  exact wp_seq 𝒱 none Set.univ d (Pipeline.ucRefs τ sig) (fun _ => rest (F := F) d) (headOps (F := F)) headOps_sub headOps_fresh (V0 m d)

end Cert.KernelIdeal.MainSide

end
-- ==== Proof.LibHeld.lean ====
/-
  Buffers held whole, read against a machine state and regrouped.

  A set of a thread's buffers held whole at a valuation determines the machine's memory on every buffer of the
  set; and a held set splits at any subset, the two parts at valuations that may differ off their own part.
-/
import Idealize.ShloMosaic.Lib.StableHlo.Run
import Idealize.ShloMosaic.Rules.Auth

noncomputable section

namespace Cert.LibHeld

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- Every buffer of a held set reads, in the machine's memory, what the valuation says. -/
theorem held_agree (c : Thread nD τ) (V : Valuation τ sig Val) (st : Phys nD τ sig Val) :
    ∀ S : Finset (DevRef τ sig), iprop(SI st ∗ (held c S V : sProp 𝕄)) ⊢ (⌜∀ b ∈ S, st.mem.mem (c.1, b) = V b⌝ : sProp 𝕄) := by
  intro S
  induction S using Finset.induction_on with
  | empty =>
    iintro -; ipureintro; intro b hb; exact absurd hb (Finset.notMem_empty b)
  | insert a s ha ih =>
    rw [show (held c (insert a s) V : sProp 𝕄) = iprop(((c.1, a) ↦{fullShare} V a) ∗ held c s V) from by unfold held; rw [bigSep_insert ha]; rfl]
    iintro ⟨HSI, Ha, Hs⟩
    ihave H := (persistent_entails_right (SI_pointsTo_agree (st := st) (ℓ := (c.1, a)) (I := Finset.univ) (q := fullShare) (f := V a))) $$ [HSI Ha]
    · isplitl [HSI] <;> iassumption
    icases H with ⟨%h1, HSI, -⟩
    ihave H2 := ih $$ [HSI Hs]
    · isplitl [HSI] <;> iassumption
    icases H2 with %h2
    ipureintro
    intro b hb
    rcases Finset.mem_insert.mp hb with rfl | hb
    · exact funext fun i => h1 i (Finset.mem_univ i)
    · exact h2 b hb

/-- A held set splits at a subset; the part outside the subset may be read at any valuation that agrees there. -/
theorem held_split_at {c : Thread nD τ} {T S : Finset (DevRef τ sig)} (hT : T ⊆ S) (V V' : Valuation τ sig Val)
    (h : ∀ b ∈ S \ T, V' b = V b) :
    (held c S V' : sProp 𝕄) = iprop(held c T V' ∗ held c (S \ T) V) := by
  rw [held_sub_split c hT V', held_congr c h]

end Cert.LibHeld

end
-- ==== Proof.MainRun.lean ====
/-
  The launch element of the proof's ghost state and how the final memory is read.

  The launch element has three parts side by side: the handshakes' rounds at their launch state, the two
  TensorCore pipelines' staging cells' rounds at theirs — funded into each pipeline's cells' ghost state and
  duty tokens, which @main's proof holds until it enters that pipeline — and the counters' unit. The kernels'
  own protocol carries nothing across the calls. At the end the TensorCore holds its unscoped arrays whole at a
  last valuation, and the memory reads that valuation on every one of them.
-/
import proofs.«204006_g8589934699_cont_9to1c4b_872_29_alg».proof.Proof.MainHost
import proofs.«204006_g8589934699_cont_9to1c4b_872_29_alg».proof.Proof.LibHeld

noncomputable section

namespace Cert.KernelIdeal.MainSide

open Cert.KernelIdeal Cert.KernelIdeal.Gen Cert.KernelIdeal.Setup Cert.LibHeld

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- what @main's proof starts from beside the launch's deal: each pipeline's staging cells' ghost state and duty tokens -/
abbrev G (d : Dev nD) : sProp 𝕄 :=
  bigSep Finset.univ fun p : Fin 2 => iprop(Pipeline.cellsGhost cfgs (EP (F := F)) p d ∗ Pipeline.toksInit cfgs (EP (F := F)) p d)

variable (P : (K (F := F)).Pay (nD := nD) (Val := Elt F) (Name := ℕ) (U := UU))

theorem bigSep_emp' {I : Type} (s : Finset I) : (bigSep s fun _ => iprop(emp)) = (iprop(emp) : sProp 𝕄) := bigSep_emp_const s

theorem hu₀ (hx : ∀ q thr, P.x q thr = (iprop(emp) : sProp 𝕄)) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 2 => P.x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · simp only [bigSep_sep']
    isplitl [Hg] <;> iassumption
  · rw [show (bigSep Finset.univ fun thr : Thread nD τ => bigSep Finset.univ fun q : Fin 2 => P.x q thr) = (bigSep Finset.univ fun _ : Thread nD τ => (iprop(emp) : sProp 𝕄)) from
      bigSep_congr fun thr _ => by simp only [hx]; exact bigSep_emp' _, bigSep_emp']
    iempintro

/-! ## The final memory -/

variable (Vfin : Dev nD → Valuation τ sig (Elt F))

/-- what @main leaves: the TensorCore's unscoped arrays whole at the last valuation -/
abbrev FIN (d : Dev nD) : sProp 𝕄 := held (SparseCore.T d) (Pipeline.ucRefs τ sig) (Vfin d)

def fq (d : Dev nD) (s' : Phys nD τ sig (Elt F)) : Prop := ∀ b ∈ Pipeline.ucRefs τ sig, s'.mem.mem (d, b) = Vfin d b

theorem hfin (d : Dev nD) (s' : Phys nD τ sig (Elt F)) : iprop(FIN Vfin d ∗ SI s') ⊢ (⌜fq Vfin d s'⌝ : sProp 𝕄) := by
  iintro ⟨H, HSI⟩
  iapply (held_agree (SparseCore.T d) (Vfin d) s' (Pipeline.ucRefs τ sig))
  isplitl [HSI] <;> iassumption

end Cert.KernelIdeal.MainSide

end
-- ==== Proof.ScPay.lean ====
/-
  What the two row-gather calls hand their vector subcores, and what they bring back.

  Each call gathers 8192 rows of the code table and 8192 rows of the name table. Row R of a call's result is the table's
  row named by entry (h, R / 256, (R / 128) % 2, R % 128) of the index array laid out as [2, 32, 2, 128], h the call's half.
  The subcore at (core c, subcore i) owns rows 512 i + 256 c … + 256 of both results, as two blocks of 128 rows; the four
  inputs are only read, so every subcore holds a read share of each of them whole.
-/
import proofs.«204006_g8589934699_cont_9to1c4b_872_29_alg».proof.Proof.ScSetup
import Idealize.ShloMosaic.Lib.ValueIdx

noncomputable section

namespace Cert.KernelIdeal.ScSide

open Cert.KernelIdeal Cert.KernelIdeal.Gen Cert.KernelIdeal.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The gathered rows, as a pure term of a table and an index array -/

/-- Row R, column k of a call's result: the table at the row the index array names at (h, R / 256, (R / 128) % 2, R % 128)
    — read as a signed word and clamped into the table, which changes nothing for an index in range — and column k. -/
def gathered {N : Nat} (hN : 0 < N) (tab : (⟨2, ![N, 128]⟩ : Shape).Idx → Elt F .f32) (idx : S2x32x2x128.Idx → Elt F .i32) (h : Fin 2) :
    S8192x128.Idx → Elt F .f32 := fun x =>
  have hx : (x 0).val < 8192 := (x 0).isLt
  tab (ix2 ⟨min (idx (ix4 h (⟨(x 0).val / 256, by omega⟩ : Fin 32) (⟨(x 0).val / 128 % 2, by omega⟩ : Fin 2)
      (⟨(x 0).val % 128, by omega⟩ : Fin 128))).toInt.toNat (N - 1), by omega⟩ (⟨(x 1).val, (x 1).isLt⟩ : Fin 128))

/-- The same read at (R, k). -/
theorem gathered_apply {N : Nat} (hN : 0 < N) (tab : (⟨2, ![N, 128]⟩ : Shape).Idx → Elt F .f32) (idx : S2x32x2x128.Idx → Elt F .i32) (h : Fin 2)
    (R : Fin 8192) (k : Fin 128) :
    gathered hN tab idx h (ix2 R k)
      = tab (ix2 ⟨min (idx (ix4 h (⟨R.val / 256, by omega⟩ : Fin 32) (⟨R.val / 128 % 2, by omega⟩ : Fin 2)
          (⟨R.val % 128, by omega⟩ : Fin 128))).toInt.toNat (N - 1), by omega⟩ k) := rfl

/-- For an index in range the clamp is the word's own value. -/
theorem clamp_of_lt {N : Nat} (hN : N ≤ 2 ^ 31) (v : BitVec 32) (hv : v.toNat < N) : min v.toInt.toNat (N - 1) = v.toNat := by
  have : v.toInt = v.toNat := by rw [BitVec.toInt_eq_toNat_cond]; split <;> omega
  omega

/-! ## The arrays -/

abbrev v0Loc (d : Dev nD) : Loc nD τ sig := (SparseCore.T d).loc main_v0
abbrev v1Loc (d : Dev nD) : Loc nD τ sig := (SparseCore.T d).loc main_v1
abbrev ctLoc (d : Dev nD) : Loc nD τ sig := (SparseCore.T d).loc main_arg3
abbrev ntLoc (d : Dev nD) : Loc nD τ sig := (SparseCore.T d).loc main_arg4
abbrev oc0Loc (d : Dev nD) : Loc nD τ sig := (SparseCore.T d).loc main_v6_0
abbrev on0Loc (d : Dev nD) : Loc nD τ sig := (SparseCore.T d).loc main_v6_1
abbrev oc1Loc (d : Dev nD) : Loc nD τ sig := (SparseCore.T d).loc main_v7_0
abbrev on1Loc (d : Dev nD) : Loc nD τ sig := (SparseCore.T d).loc main_v7_1

/-! ## The blocks of a result: rows 512 i + 256 c + 128 r … + 128 -/

abbrev blkOff (c : Fin 2) (i : Fin 16) (r : Fin 2) : Fin 2 → Nat := ![512 * i.val + 256 * c.val + 128 * r.val, 0]

theorem blk_inb (c : Fin 2) (i : Fin 16) (r : Fin 2) : ∀ a, blkOff c i r a + S128x128.size a ≤ S8192x128.size a := by
  intro a
  match a with
  | 0 => show 512 * i.val + 256 * c.val + 128 * r.val + 128 ≤ 8192; omega
  | 1 => show 0 + 128 ≤ 128; omega

abbrev blk (c : Fin 2) (i : Fin 16) (r : Fin 2) : Rect S8192x128 := Rect.unit (s := S8192x128) (blkOff c i r) S128x128.size (blk_inb c i r)
abbrev blkSet (c : Fin 2) (i : Fin 16) (r : Fin 2) : Finset S8192x128.Idx := (blk c i r).set

/-! ## The read shares: the full share's token for core c, and of that the token for subcore i -/

abbrev qC (c : Fin 2) : PosShare TreeShare := Transfers.shareTok fullShare 2 c
abbrev qT (c : Fin 2) (i : Fin 16) : PosShare TreeShare := Transfers.shareTok (qC c) 16 i

/-! ## What the handshakes carry -/

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

/-- The four inputs, whole, at share q. -/
abbrev insAt (d : Dev nD) (q : PosShare TreeShare) : sProp 𝕄 :=
  iprop((v0Loc d ↦{q} v0 d) ∗ (v1Loc d ↦{q} v1 d) ∗ (ctLoc d ↦{q} ct d) ∗ (ntLoc d ↦{q} nt d))

/-- The results of call h: the code table's and the name table's gathered rows. -/
abbrev outC (d : Dev nD) (h : Fin 2) : S8192x128.Idx → Elt F .f32 := gathered (N := 4096) (by decide) (ct d) (v0 d) h
abbrev outN (d : Dev nD) (h : Fin 2) : S8192x128.Idx → Elt F .f32 := gathered (N := 16384) (by decide) (nt d) (v1 d) h

/-- A subcore's task at call 0: its shares of the inputs, its two blocks of each result at any contents; -/
abbrev tileGo0 (d : Dev nD) (c : Fin 2) (i : Fin 16) : sProp 𝕄 :=
  iprop(insAt ct nt v0 v1 d (qT c i)
    ∗ ((∃ f, oc0Loc d ↦[blkSet c i 0]{fullShare} f) ∗ (∃ f, oc0Loc d ↦[blkSet c i 1]{fullShare} f))
    ∗ ((∃ f, on0Loc d ↦[blkSet c i 0]{fullShare} f) ∗ (∃ f, on0Loc d ↦[blkSet c i 1]{fullShare} f)))
/-- and what it brings back: the blocks at the gathered rows. -/
abbrev tileTd0 (d : Dev nD) (c : Fin 2) (i : Fin 16) : sProp 𝕄 :=
  iprop(insAt ct nt v0 v1 d (qT c i)
    ∗ ((oc0Loc d ↦[blkSet c i 0]{fullShare} outC ct v0 d 0) ∗ (oc0Loc d ↦[blkSet c i 1]{fullShare} outC ct v0 d 0))
    ∗ ((on0Loc d ↦[blkSet c i 0]{fullShare} outN nt v1 d 0) ∗ (on0Loc d ↦[blkSet c i 1]{fullShare} outN nt v1 d 0)))
/-- The same at call 1. -/
abbrev tileGo1 (d : Dev nD) (c : Fin 2) (i : Fin 16) : sProp 𝕄 :=
  iprop(insAt ct nt v0 v1 d (qT c i)
    ∗ ((∃ f, oc1Loc d ↦[blkSet c i 0]{fullShare} f) ∗ (∃ f, oc1Loc d ↦[blkSet c i 1]{fullShare} f))
    ∗ ((∃ f, on1Loc d ↦[blkSet c i 0]{fullShare} f) ∗ (∃ f, on1Loc d ↦[blkSet c i 1]{fullShare} f)))
abbrev tileTd1 (d : Dev nD) (c : Fin 2) (i : Fin 16) : sProp 𝕄 :=
  iprop(insAt ct nt v0 v1 d (qT c i)
    ∗ ((oc1Loc d ↦[blkSet c i 0]{fullShare} outC ct v0 d 1) ∗ (oc1Loc d ↦[blkSet c i 1]{fullShare} outC ct v0 d 1))
    ∗ ((on1Loc d ↦[blkSet c i 0]{fullShare} outN nt v1 d 1) ∗ (on1Loc d ↦[blkSet c i 1]{fullShare} outN nt v1 d 1)))

/-- A SparseCore's share of a call: the remainder of its read share once its sixteen subcores have theirs, and their tasks. -/
abbrev coreSt0 (d : Dev nD) (c : Fin 2) : sProp 𝕄 :=
  iprop(insAt ct nt v0 v1 d (Transfers.shareDrop (qC c) 16) ∗ bigSep Finset.univ fun i : Fin 16 => tileGo0 ct nt v0 v1 d c i)
abbrev coreDn0 (d : Dev nD) (c : Fin 2) : sProp 𝕄 :=
  iprop(insAt ct nt v0 v1 d (Transfers.shareDrop (qC c) 16) ∗ bigSep Finset.univ fun i : Fin 16 => tileTd0 ct nt v0 v1 d c i)
abbrev coreSt1 (d : Dev nD) (c : Fin 2) : sProp 𝕄 :=
  iprop(insAt ct nt v0 v1 d (Transfers.shareDrop (qC c) 16) ∗ bigSep Finset.univ fun i : Fin 16 => tileGo1 ct nt v0 v1 d c i)
abbrev coreDn1 (d : Dev nD) (c : Fin 2) : sProp 𝕄 :=
  iprop(insAt ct nt v0 v1 d (Transfers.shareDrop (qC c) 16) ∗ bigSep Finset.univ fun i : Fin 16 => tileTd1 ct nt v0 v1 d c i)

/-- What the launch handshakes of the two calls carry. The subcores' kernels only make local copies and wait for them:
    no protocol of their own, nothing owed beyond the handshakes. -/
def P : (K (F := F)).Pay (nD := nD) (Val := Elt F) (Name := ℕ) (U := UU) where
  st := fun q d c => match q with
    | 0 => coreSt0 ct nt v0 v1 d (Fin.cast nCore_zero c)
    | 1 => coreSt1 ct nt v0 v1 d (Fin.cast nCore_one c)
  dn := fun q d c => match q with
    | 0 => coreDn0 ct nt v0 v1 d (Fin.cast nCore_zero c)
    | 1 => coreDn1 ct nt v0 v1 d (Fin.cast nCore_one c)
  go := fun q d c i => match q with
    | 0 => tileGo0 ct nt v0 v1 d (Fin.cast nCore_zero c) (Fin.cast nSub_zero i)
    | 1 => tileGo1 ct nt v0 v1 d (Fin.cast nCore_one c) (Fin.cast nSub_one i)
  td := fun q d c i => match q with
    | 0 => tileTd0 ct nt v0 v1 d (Fin.cast nCore_zero c) (Fin.cast nSub_zero i)
    | 1 => tileTd1 ct nt v0 v1 d (Fin.cast nCore_one c) (Fin.cast nSub_one i)
  x := fun _ _ => iprop(emp)

instance P_storable : (P (F := F) ct nt v0 v1).IsStorable where
  st q d c := match q with
    | 0 => (inferInstance : BI.Storable (upEmb : UEmb _ 𝕄) (coreSt0 ct nt v0 v1 d (Fin.cast nCore_zero c)))
    | 1 => (inferInstance : BI.Storable (upEmb : UEmb _ 𝕄) (coreSt1 ct nt v0 v1 d (Fin.cast nCore_one c)))
  dn q d c := match q with
    | 0 => (inferInstance : BI.Storable (upEmb : UEmb _ 𝕄) (coreDn0 ct nt v0 v1 d (Fin.cast nCore_zero c)))
    | 1 => (inferInstance : BI.Storable (upEmb : UEmb _ 𝕄) (coreDn1 ct nt v0 v1 d (Fin.cast nCore_one c)))
  go q d c i := match q with
    | 0 => (inferInstance : BI.Storable (upEmb : UEmb _ 𝕄) (tileGo0 ct nt v0 v1 d (Fin.cast nCore_zero c) (Fin.cast nSub_zero i)))
    | 1 => (inferInstance : BI.Storable (upEmb : UEmb _ 𝕄) (tileGo1 ct nt v0 v1 d (Fin.cast nCore_one c) (Fin.cast nSub_one i)))
  td q d c i := match q with
    | 0 => (inferInstance : BI.Storable (upEmb : UEmb _ 𝕄) (tileTd0 ct nt v0 v1 d (Fin.cast nCore_zero c) (Fin.cast nSub_zero i)))
    | 1 => (inferInstance : BI.Storable (upEmb : UEmb _ 𝕄) (tileTd1 ct nt v0 v1 d (Fin.cast nCore_one c) (Fin.cast nSub_one i)))

/-- Every index names a row of its table. -/
def InRange (v0 : (d : Dev nD) → Buf (Elt F) (v0Loc d)) (v1 : (d : Dev nD) → Buf (Elt F) (v1Loc d)) : Prop :=
  ∀ d : Dev nD, (∀ j : S2x32x2x128.Idx, (v0 d j).toNat < 4096) ∧ (∀ j : S2x32x2x128.Idx, (v1 d j).toNat < 16384)

theorem P_x (q : Fin 2) (thr : Thread nD τ) : (P (F := F) ct nt v0 v1).x q thr = iprop(emp) := rfl
theorem P_ox : (P (F := F) ct nt v0 v1).ox = fun _ _ => 0 := rfl

end Cert.KernelIdeal.ScSide

end
-- ==== Proof.MainCalls.lean ====
/-
  @main on the TensorCore, the two row-gather calls: from the unscoped arrays held whole at the valuation the
  reshapes left, each call is handed the four arrays it reads and the two it writes, and hands them back with the
  two results at the gathered rows; everything else is untouched.
-/
import proofs.«204006_g8589934699_cont_9to1c4b_872_29_alg».proof.Proof.MainRun
import proofs.«204006_g8589934699_cont_9to1c4b_872_29_alg».proof.Proof.ScPay

noncomputable section

namespace Cert.KernelIdeal.MainSide

open Cert.KernelIdeal Cert.KernelIdeal.Gen Cert.KernelIdeal.Setup Cert.LibHeld Cert.KernelIdeal.ScSide

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The arrays the calls touch -/

abbrev v0' : DevRef τ sig := Proc.devRef .tc (main_v0 : Ref sig .tc)
abbrev v1' : DevRef τ sig := Proc.devRef .tc (main_v1 : Ref sig .tc)
abbrev a3' : DevRef τ sig := Proc.devRef .tc (main_arg3 : Ref sig .tc)
abbrev a4' : DevRef τ sig := Proc.devRef .tc (main_arg4 : Ref sig .tc)
abbrev v60' : DevRef τ sig := Proc.devRef .tc (main_v6_0 : Ref sig .tc)
abbrev v61' : DevRef τ sig := Proc.devRef .tc (main_v6_1 : Ref sig .tc)
abbrev v70' : DevRef τ sig := Proc.devRef .tc (main_v7_0 : Ref sig .tc)
abbrev v71' : DevRef τ sig := Proc.devRef .tc (main_v7_1 : Ref sig .tc)

/-- what call 0 is handed: the four arrays it reads, the two it writes -/
abbrev T60 : Finset (DevRef τ sig) := {v0', v1', a3', a4', v60', v61'}
/-- and call 1 -/
abbrev T61 : Finset (DevRef τ sig) := {v0', v1', a3', a4', v70', v71'}

theorem hT60 : T60 ⊆ Pipeline.ucRefs τ sig := by decide
theorem hT61 : T61 ⊆ Pipeline.ucRefs τ sig := by decide

variable (m : (ℓ : Loc nD τ sig) → Buf (Elt F) ℓ)

/-- the tables at their launch contents, the index arrays as the reshapes left them -/
def ctF (d : Dev nD) : Buf (Elt F) (ctLoc d) := m (ctLoc d)
def ntF (d : Dev nD) : Buf (Elt F) (ntLoc d) := m (ntLoc d)
def i0F (d : Dev nD) : Buf (Elt F) (v0Loc d) := V1 m d v0'
def i1F (d : Dev nD) : Buf (Elt F) (v1Loc d) := V1 m d v1'

/-- the handshakes' payloads at those contents -/
abbrev PP : (K (F := F)).Pay (nD := nD) (Val := Elt F) (Name := ℕ) (U := UU) := P (ctF m) (ntF m) (i0F m) (i1F m)

theorem V1_a3 (d : Dev nD) : V1 m d a3' = ctF m d := by unfold V1 ctF V0; after_results
theorem V1_a4 (d : Dev nD) : V1 m d a4' = ntF m d := by unfold V1 ntF V0; after_results

/-- after call 0: its two results at the gathered rows of half 0 -/
def Wb (d : Dev nD) : Valuation τ sig (Elt F) :=
  Function.update (Function.update (V1 m d) v60' (outC (ctF m) (i0F m) d 0)) v61' (outN (ntF m) (i1F m) d 0)
/-- after call 1: half 1 -/
def Wc (d : Dev nD) : Valuation τ sig (Elt F) :=
  Function.update (Function.update (Wb m d) v70' (outC (ctF m) (i0F m) d 1)) v71' (outN (ntF m) (i1F m) d 1)

theorem held_T60 (d : Dev nD) (W : Valuation τ sig (Elt F)) :
    (held (SparseCore.T d) T60 W : sProp 𝕄)
      = iprop((v0Loc d ↦{fullShare} W v0') ∗ (v1Loc d ↦{fullShare} W v1') ∗ (ctLoc d ↦{fullShare} W a3') ∗ (ntLoc d ↦{fullShare} W a4')
          ∗ (oc0Loc d ↦{fullShare} W v60') ∗ (on0Loc d ↦{fullShare} W v61')) := by
  unfold held T60
  rw [SparseCore.bigSep_insert' (by decide), SparseCore.bigSep_insert' (by decide), SparseCore.bigSep_insert' (by decide),
    SparseCore.bigSep_insert' (by decide), SparseCore.bigSep_insert' (by decide), bigSep_singleton]

theorem held_T61 (d : Dev nD) (W : Valuation τ sig (Elt F)) :
    (held (SparseCore.T d) T61 W : sProp 𝕄)
      = iprop((v0Loc d ↦{fullShare} W v0') ∗ (v1Loc d ↦{fullShare} W v1') ∗ (ctLoc d ↦{fullShare} W a3') ∗ (ntLoc d ↦{fullShare} W a4')
          ∗ (oc1Loc d ↦{fullShare} W v70') ∗ (on1Loc d ↦{fullShare} W v71')) := by
  unfold held T61
  rw [SparseCore.bigSep_insert' (by decide), SparseCore.bigSep_insert' (by decide), SparseCore.bigSep_insert' (by decide),
    SparseCore.bigSep_insert' (by decide), SparseCore.bigSep_insert' (by decide), bigSep_singleton]

/-! ## The valuations at the calls' arrays -/

theorem Wb_v0 (d : Dev nD) : Wb m d v0' = i0F m d := by
  unfold Wb; rw [Function.update_of_ne (by decide), Function.update_of_ne (by decide)]; rfl
theorem Wb_v1 (d : Dev nD) : Wb m d v1' = i1F m d := by
  unfold Wb; rw [Function.update_of_ne (by decide), Function.update_of_ne (by decide)]; rfl
theorem Wb_a3 (d : Dev nD) : Wb m d a3' = ctF m d := by
  unfold Wb; rw [Function.update_of_ne (by decide), Function.update_of_ne (by decide)]; exact V1_a3 m d
theorem Wb_a4 (d : Dev nD) : Wb m d a4' = ntF m d := by
  unfold Wb; rw [Function.update_of_ne (by decide), Function.update_of_ne (by decide)]; exact V1_a4 m d
theorem Wb_v60 (d : Dev nD) : Wb m d v60' = outC (ctF m) (i0F m) d 0 := by
  unfold Wb; rw [Function.update_of_ne (by decide), Function.update_self]
theorem Wb_v61 (d : Dev nD) : Wb m d v61' = outN (ntF m) (i1F m) d 0 := by
  unfold Wb; rw [Function.update_self]
theorem Wb_rest (d : Dev nD) : ∀ b ∈ Pipeline.ucRefs τ sig \ T60, Wb m d b = V1 m d b := by
  intro b hb
  have hb' := (Finset.mem_sdiff.mp hb).2
  have h1 : b ≠ v61' := fun e => hb' (by rw [e]; decide)
  have h2 : b ≠ v60' := fun e => hb' (by rw [e]; decide)
  unfold Wb
  rw [Function.update_of_ne h1, Function.update_of_ne h2]

theorem Wc_v0 (d : Dev nD) : Wc m d v0' = i0F m d := by
  unfold Wc; rw [Function.update_of_ne (by decide), Function.update_of_ne (by decide)]; exact Wb_v0 m d
theorem Wc_v1 (d : Dev nD) : Wc m d v1' = i1F m d := by
  unfold Wc; rw [Function.update_of_ne (by decide), Function.update_of_ne (by decide)]; exact Wb_v1 m d
theorem Wc_a3 (d : Dev nD) : Wc m d a3' = ctF m d := by
  unfold Wc; rw [Function.update_of_ne (by decide), Function.update_of_ne (by decide)]; exact Wb_a3 m d
theorem Wc_a4 (d : Dev nD) : Wc m d a4' = ntF m d := by
  unfold Wc; rw [Function.update_of_ne (by decide), Function.update_of_ne (by decide)]; exact Wb_a4 m d
theorem Wc_v70 (d : Dev nD) : Wc m d v70' = outC (ctF m) (i0F m) d 1 := by
  unfold Wc; rw [Function.update_of_ne (by decide), Function.update_self]
theorem Wc_v71 (d : Dev nD) : Wc m d v71' = outN (ntF m) (i1F m) d 1 := by
  unfold Wc; rw [Function.update_self]
theorem Wc_rest (d : Dev nD) : ∀ b ∈ Pipeline.ucRefs τ sig \ T61, Wc m d b = Wb m d b := by
  intro b hb
  have hb' := (Finset.mem_sdiff.mp hb).2
  have h1 : b ≠ v71' := fun e => hb' (by rw [e]; decide)
  have h2 : b ≠ v70' := fun e => hb' (by rw [e]; decide)
  unfold Wc
  rw [Function.update_of_ne h1, Function.update_of_ne h2]

variable [FloatOps F]

/-! ## The program after the calls -/

/-- the first pipeline, the copy, the second pipeline -/
def rest2 (d : Dev nD) : Prog (TpuEff nD τ sig (Elt F) (SparseCore.Sig (ΛP (F := F)) 2) .tc) PUnit := do
  Prog.lift (.customCall (SparseCore.inner (Pipeline.entry 0)) ())
  hlo rfl (opCp (F := F)) (fun _ => .ret ⟨⟩)
  Prog.lift (.customCall (SparseCore.inner (Pipeline.entry 1)) ())
  pure ⟨⟩

theorem rest_eq (d : Dev nD) : rest (F := F) d = ((sc (F := F)).run d 0 >>= fun _ => (sc (F := F)).run d 1 >>= fun _ => rest2 (F := F) d) := rfl

/-! ## The calls -/

/-- what the proof of a call gives @main: from the call's six arrays to the same with the results gathered -/
def CallStmt0 : Prop :=
  ∀ (κ : GSem nD τ sig → ℕ) (d : Dev nD) (f0 : Buf (Elt F) (oc0Loc d)) (f1 : Buf (Elt F) (on0Loc d)) (Φ : PUnit → sProp 𝕄),
    iprop((K (F := F)).ctx EH (PP m) κ ∗ (K (F := F)).tcSt EH d 0 ∗ insAt (ctF m) (ntF m) (i0F m) (i1F m) d fullShare ∗ (oc0Loc d ↦{fullShare} f0) ∗ (on0Loc d ↦{fullShare} f1)
        ∗ (((K (F := F)).tcSt EH d 1 ∗ insAt (ctF m) (ntF m) (i0F m) (i1F m) d fullShare ∗ (oc0Loc d ↦{fullShare} outC (ctF m) (i0F m) d 0) ∗ (on0Loc d ↦{fullShare} outN (ntF m) (i1F m) d 0)) -∗ Φ ⟨⟩))
      ⊢ wp frame (wpE ((K (F := F)).defs (D (F := F))) 𝒱 (SparseCore.T d) none) Set.univ ((K (F := F)).run d 0) Φ

def CallStmt1 : Prop :=
  ∀ (κ : GSem nD τ sig → ℕ) (d : Dev nD) (f0 : Buf (Elt F) (oc1Loc d)) (f1 : Buf (Elt F) (on1Loc d)) (Φ : PUnit → sProp 𝕄),
    iprop((K (F := F)).ctx EH (PP m) κ ∗ (K (F := F)).tcSt EH d 1 ∗ insAt (ctF m) (ntF m) (i0F m) (i1F m) d fullShare ∗ (oc1Loc d ↦{fullShare} f0) ∗ (on1Loc d ↦{fullShare} f1)
        ∗ (((K (F := F)).tcSt EH d 2 ∗ insAt (ctF m) (ntF m) (i0F m) (i1F m) d fullShare ∗ (oc1Loc d ↦{fullShare} outC (ctF m) (i0F m) d 1) ∗ (on1Loc d ↦{fullShare} outN (ntF m) (i1F m) d 1)) -∗ Φ ⟨⟩))
      ⊢ wp frame (wpE ((K (F := F)).defs (D (F := F))) 𝒱 (SparseCore.T d) none) Set.univ ((K (F := F)).run d 1) Φ

/-- The two calls, from the arrays as the reshapes left them: the rest of @main runs with the four results gathered. -/
theorem calls_run (h0 : CallStmt0 m) (h1 : CallStmt1 m) (κ : GSem nD τ sig → ℕ) (d : Dev nD) (Q : PUnit → sProp 𝕄) :
    iprop((K (F := F)).ctx EH (PP m) κ ∗ (K (F := F)).tcSt EH d 0 ∗ (held (SparseCore.T d) (Pipeline.ucRefs τ sig) (V1 m d) : sProp 𝕄)
        ∗ (((K (F := F)).tcSt EH d 2 ∗ (held (SparseCore.T d) (Pipeline.ucRefs τ sig) (Wc m d) : sProp 𝕄))
            -∗ wp frame (wpE ((K (F := F)).defs (D (F := F))) 𝒱 (SparseCore.T d) none) Set.univ (rest2 (F := F) d) Q))
      ⊢ wp frame (wpE ((K (F := F)).defs (D (F := F))) 𝒱 (SparseCore.T d) none) Set.univ (rest (F := F) d) Q := by
  rw [rest_eq, wp_bind]
  iintro ⟨#Hctx, Hst, Hheld, Hk⟩
  -- call 0
  ihave H := (Entails.of_eq (held_split_at (c := SparseCore.T d) hT60 (V1 m d) (V1 m d) (fun _ _ => rfl))) $$ Hheld
  icases H with ⟨HT, Hrest⟩
  ihave H6 := (Entails.of_eq (held_T60 d (V1 m d))) $$ HT
  rw [V1_a3, V1_a4]
  icases H6 with ⟨H0, H1, Hc, Hn, Ho0, Ho1⟩
  iapply (h0 κ d (V1 m d v60') (V1 m d v61') _)
  isplitr; · iexact Hctx
  isplitl [Hst]; · iexact Hst
  isplitl [H0 H1 Hc Hn]
  · isplitl [H0]; · iexact H0
    isplitl [H1]; · iexact H1
    isplitl [Hc]; · iexact Hc
    iexact Hn
  isplitl [Ho0]; · iexact Ho0
  isplitl [Ho1]; · iexact Ho1
  iintro ⟨Hst, ⟨H0, H1, Hc, Hn⟩, Ho0, Ho1⟩
  ihave Hheld := (Entails.of_eq (held_split_at (c := SparseCore.T d) hT60 (V1 m d) (Wb m d) (Wb_rest m d)).symm) $$ [H0 H1 Hc Hn Ho0 Ho1 Hrest]
  · isplitr [Hrest]
    · iapply (Entails.of_eq (held_T60 d (Wb m d)).symm)
      rw [Wb_v0, Wb_v1, Wb_a3, Wb_a4, Wb_v60, Wb_v61]
      isplitl [H0]; · iexact H0
      isplitl [H1]; · iexact H1
      isplitl [Hc]; · iexact Hc
      isplitl [Hn]; · iexact Hn
      isplitl [Ho0]; · iexact Ho0
      iexact Ho1
    · iexact Hrest
  -- call 1
  rw [wp_bind]
  ihave H := (Entails.of_eq (held_split_at (c := SparseCore.T d) hT61 (Wb m d) (Wb m d) (fun _ _ => rfl))) $$ Hheld
  icases H with ⟨HT, Hrest⟩
  ihave H6 := (Entails.of_eq (held_T61 d (Wb m d))) $$ HT
  rw [Wb_v0, Wb_v1, Wb_a3, Wb_a4]
  icases H6 with ⟨H0, H1, Hc, Hn, Ho0, Ho1⟩
  iapply (h1 κ d (Wb m d v70') (Wb m d v71') _)
  isplitr; · iexact Hctx
  isplitl [Hst]; · iexact Hst
  isplitl [H0 H1 Hc Hn]
  · isplitl [H0]; · iexact H0
    isplitl [H1]; · iexact H1
    isplitl [Hc]; · iexact Hc
    iexact Hn
  isplitl [Ho0]; · iexact Ho0
  isplitl [Ho1]; · iexact Ho1
  iintro ⟨Hst, ⟨H0, H1, Hc, Hn⟩, Ho0, Ho1⟩
  iapply Hk
  isplitl [Hst]; · iexact Hst
  iapply (Entails.of_eq (held_split_at (c := SparseCore.T d) hT61 (Wb m d) (Wc m d) (Wc_rest m d)).symm)
  isplitr [Hrest]
  · iapply (Entails.of_eq (held_T61 d (Wc m d)).symm)
    rw [Wc_v0, Wc_v1, Wc_a3, Wc_a4, Wc_v70, Wc_v71]
    isplitl [H0]; · iexact H0
    isplitl [H1]; · iexact H1
    isplitl [Hc]; · iexact Hc
    isplitl [Hn]; · iexact Hn
    isplitl [Ho0]; · iexact Ho0
    iexact Ho1
  · iexact Hrest

end Cert.KernelIdeal.MainSide

end
-- ==== Proof.TcData.lean ====
/-
  The two TensorCore pipelines' proof data: what each window's staging buffer holds after the body at each grid
  point, as pure terms of the arrays' contents when the pipeline is entered, and the result arrays' final contents.

  Each pipeline runs four grid points; point t stages 2048 rows of the two gathered row arrays and of the index
  array, the five small arrays whole, and writes back 2048 rows of the result. The body's result block is one
  term of the staged blocks (the generated payloads), so the final array is that term block by block.
-/
import proofs.«204006_g8589934699_cont_9to1c4b_872_29_alg».proof.Proof.ScSetup
import Idealize.ShloMosaic.Lib.Pipeline.Value

noncomputable section

namespace Cert.KernelIdeal.TcSide

open Cert.KernelIdeal Cert.KernelIdeal.Gen Cert.KernelIdeal.Setup
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipelines have no prefetched table: their admissible tables are the trivial ones. -/
abbrev adm : (p : Fin 2) → (pcfgs (F := F) p).Adm := fun p => (cfgs p).toPCfg_adm

/-- Window `w`'s block at point `t` of the first pipeline, read off its array. -/
def iblk2 (d : Dev nD) (W : Valuation τ sig (Elt F)) (w : Fin cfg2.W) (t : Fin cfg2.N) : ((cfg2.win w).xblock (cfg2.grid.coords t)).Idx → Elt F (cfg2.win w).elt :=
  ((cfg2.win w).blk t).view.read (Elt F) (W (Pipeline.arrRef spec2 w))

def iblk3 (d : Dev nD) (W : Valuation τ sig (Elt F)) (w : Fin cfg3.W) (t : Fin cfg3.N) : ((cfg3.win w).xblock (cfg3.grid.coords t)).Idx → Elt F (cfg3.win w).elt :=
  ((cfg3.win w).blk t).view.read (Elt F) (W (Pipeline.arrRef spec3 w))

/-- What the first pipeline's body leaves in the result's staging buffer at point `t`. -/
def out2 (d : Dev nD) (W : Valuation τ sig (Elt F)) (t : Fin cfg2.N) : Vec F S2048x256 .f32 :=
  k2_pay1 (k2_pay2 (iblk2 d W 1 t) (iblk2 d W 2 t) (iblk2 d W 0 t) (iblk2 d W 4 t) (iblk2 d W 3 t) (iblk2 d W 5 t))
    (k2_pay3 (iblk2 d W 1 t) (iblk2 d W 2 t) (iblk2 d W 0 t) (iblk2 d W 4 t) (iblk2 d W 3 t) (iblk2 d W 5 t))
    (k2_pay4 (iblk2 d W 1 t) (iblk2 d W 2 t) (iblk2 d W 0 t) (iblk2 d W 4 t) (iblk2 d W 3 t) (iblk2 d W 5 t))
    (iblk2 d W 6 t) (iblk2 d W 7 t)

def out3 (d : Dev nD) (W : Valuation τ sig (Elt F)) (t : Fin cfg3.N) : Vec F S2048x256 .f32 :=
  k3_pay1 (k3_pay2 (iblk3 d W 1 t) (iblk3 d W 2 t) (iblk3 d W 0 t) (iblk3 d W 4 t) (iblk3 d W 3 t) (iblk3 d W 5 t))
    (k3_pay3 (iblk3 d W 1 t) (iblk3 d W 2 t) (iblk3 d W 0 t) (iblk3 d W 4 t) (iblk3 d W 3 t) (iblk3 d W 5 t))
    (k3_pay4 (iblk3 d W 1 t) (iblk3 d W 2 t) (iblk3 d W 0 t) (iblk3 d W 4 t) (iblk3 d W 3 t) (iblk3 d W 5 t))
    (iblk3 d W 6 t) (iblk3 d W 7 t)

/-- The recorded pairs the TensorCore may hold after the two SparseCore calls. -/
def recB (d : Dev nD) : Set (SemLoc sig × HIx 2) := {p | (K (F := F)).lev ((T d : Thread nD τ), p.1) p.2 ≤ 16}

/-- The first pipeline's proof data on device `d`, its arrays entered at `W`. -/
def dat2 (d : Dev nD) (W : Valuation τ sig (Elt F)) : Pipeline.Dat τ (Elt F) (HIx 2) ℕ UU ℕ cfg2 d where
  A w := W (Pipeline.arrRef spec2 w)
  after w t := match w with
    | ⟨0, _⟩ => iblk2 d W 0 t
    | ⟨1, _⟩ => iblk2 d W 1 t
    | ⟨2, _⟩ => iblk2 d W 2 t
    | ⟨3, _⟩ => iblk2 d W 3 t
    | ⟨4, _⟩ => iblk2 d W 4 t
    | ⟨5, _⟩ => iblk2 d W 5 t
    | ⟨6, _⟩ => iblk2 d W 6 t
    | ⟨7, _⟩ => iblk2 d W 7 t
    | ⟨8, _⟩ => out2 d W t
  Φ _ := Pipeline.scopedRest (Ix := HIx 2) (Name := ℕ) (U := UU) (Lvl := ℕ) (Val := Elt F) spec2 d
  q _ := fullShare
  owed _ := 0
  recorded _ := recB (F := F) d

def dat3 (d : Dev nD) (W : Valuation τ sig (Elt F)) : Pipeline.Dat τ (Elt F) (HIx 2) ℕ UU ℕ cfg3 d where
  A w := W (Pipeline.arrRef spec3 w)
  after w t := match w with
    | ⟨0, _⟩ => iblk3 d W 0 t
    | ⟨1, _⟩ => iblk3 d W 1 t
    | ⟨2, _⟩ => iblk3 d W 2 t
    | ⟨3, _⟩ => iblk3 d W 3 t
    | ⟨4, _⟩ => iblk3 d W 4 t
    | ⟨5, _⟩ => iblk3 d W 5 t
    | ⟨6, _⟩ => iblk3 d W 6 t
    | ⟨7, _⟩ => iblk3 d W 7 t
    | ⟨8, _⟩ => out3 d W t
  Φ _ := Pipeline.scopedRest (Ix := HIx 2) (Name := ℕ) (U := UU) (Lvl := ℕ) (Val := Elt F) spec3 d
  q _ := fullShare
  owed _ := 0
  recorded _ := recB (F := F) d

/-- The family of proof data: both pipelines entered at the valuation `W` (each reads only its own arrays). -/
def pdats (W : Valuation τ sig (Elt F)) : (p : Fin 2) → (d : Dev nD) → Pipeline.Dat τ (Elt F) (HIx 2) ℕ UU ℕ (Pipeline.pin (pcfgs (F := F)) adm p) d
  | ⟨0, _⟩ => fun d => dat2 d W
  | ⟨1, _⟩ => fun d => dat3 d W

/-- What the first pipeline leaves in its result array. -/
def res2 (d : Dev nD) (W : Valuation τ sig (Elt F)) : Buf (Elt F) ((d : Thread nD τ).loc main_v8) := (dat2 d W).arrAt 8 cfg2.N
/-- What the second pipeline leaves in its result array. -/
def res3 (d : Dev nD) (W : Valuation τ sig (Elt F)) : Buf (Elt F) ((d : Thread nD τ).loc main_v9) := (dat3 d W).arrAt 8 cfg3.N

/-- The valuation after the first pipeline: its result array rewritten. -/
def W2 (d : Dev nD) (W : Valuation τ sig (Elt F)) : Valuation τ sig (Elt F) := Function.update W (Proc.devRef .tc main_v8) (res2 d W)
/-- The valuation after the second pipeline: its result array rewritten. -/
def W3 (d : Dev nD) (W : Valuation τ sig (Elt F)) : Valuation τ sig (Elt F) := Function.update W (Proc.devRef .tc main_v9) (res3 d W)

/-- The pipeline's launch ghost state on device `d`: its staging cells' and its transfers' duty tokens. -/
abbrev ghost (p : Fin 2) (d : Dev nD) : sProp 𝕄 :=
  iprop(Pipeline.cellsGhost cfgs EP p d ∗ Pipeline.toksInit cfgs EP p d)

/-! ## The proof data projected -/

theorem A2_eq (d : Dev nD) (W : Valuation τ sig (Elt F)) (w : Fin cfg2.W) : (dat2 d W).A w = W (Pipeline.arrRef spec2 w) := by dsimp only [dat2]
theorem A3_eq (d : Dev nD) (W : Valuation τ sig (Elt F)) (w : Fin cfg3.W) : (dat3 d W).A w = W (Pipeline.arrRef spec3 w) := by dsimp only [dat3]

theorem after2_0 (d : Dev nD) (W : Valuation τ sig (Elt F)) (t : Fin cfg2.N) : (dat2 d W).after 0 t = iblk2 d W 0 t := by dsimp only [dat2]
theorem after2_1 (d : Dev nD) (W : Valuation τ sig (Elt F)) (t : Fin cfg2.N) : (dat2 d W).after 1 t = iblk2 d W 1 t := by dsimp only [dat2]
theorem after2_2 (d : Dev nD) (W : Valuation τ sig (Elt F)) (t : Fin cfg2.N) : (dat2 d W).after 2 t = iblk2 d W 2 t := by dsimp only [dat2]
theorem after2_3 (d : Dev nD) (W : Valuation τ sig (Elt F)) (t : Fin cfg2.N) : (dat2 d W).after 3 t = iblk2 d W 3 t := by dsimp only [dat2]
theorem after2_4 (d : Dev nD) (W : Valuation τ sig (Elt F)) (t : Fin cfg2.N) : (dat2 d W).after 4 t = iblk2 d W 4 t := by dsimp only [dat2]
theorem after2_5 (d : Dev nD) (W : Valuation τ sig (Elt F)) (t : Fin cfg2.N) : (dat2 d W).after 5 t = iblk2 d W 5 t := by dsimp only [dat2]
theorem after2_6 (d : Dev nD) (W : Valuation τ sig (Elt F)) (t : Fin cfg2.N) : (dat2 d W).after 6 t = iblk2 d W 6 t := by dsimp only [dat2]
theorem after2_7 (d : Dev nD) (W : Valuation τ sig (Elt F)) (t : Fin cfg2.N) : (dat2 d W).after 7 t = iblk2 d W 7 t := by dsimp only [dat2]
theorem after2_8 (d : Dev nD) (W : Valuation τ sig (Elt F)) (t : Fin cfg2.N) : (dat2 d W).after 8 t = out2 d W t := by dsimp only [dat2]

theorem after3_0 (d : Dev nD) (W : Valuation τ sig (Elt F)) (t : Fin cfg3.N) : (dat3 d W).after 0 t = iblk3 d W 0 t := by dsimp only [dat3]
theorem after3_1 (d : Dev nD) (W : Valuation τ sig (Elt F)) (t : Fin cfg3.N) : (dat3 d W).after 1 t = iblk3 d W 1 t := by dsimp only [dat3]
theorem after3_2 (d : Dev nD) (W : Valuation τ sig (Elt F)) (t : Fin cfg3.N) : (dat3 d W).after 2 t = iblk3 d W 2 t := by dsimp only [dat3]
theorem after3_3 (d : Dev nD) (W : Valuation τ sig (Elt F)) (t : Fin cfg3.N) : (dat3 d W).after 3 t = iblk3 d W 3 t := by dsimp only [dat3]
theorem after3_4 (d : Dev nD) (W : Valuation τ sig (Elt F)) (t : Fin cfg3.N) : (dat3 d W).after 4 t = iblk3 d W 4 t := by dsimp only [dat3]
theorem after3_5 (d : Dev nD) (W : Valuation τ sig (Elt F)) (t : Fin cfg3.N) : (dat3 d W).after 5 t = iblk3 d W 5 t := by dsimp only [dat3]
theorem after3_6 (d : Dev nD) (W : Valuation τ sig (Elt F)) (t : Fin cfg3.N) : (dat3 d W).after 6 t = iblk3 d W 6 t := by dsimp only [dat3]
theorem after3_7 (d : Dev nD) (W : Valuation τ sig (Elt F)) (t : Fin cfg3.N) : (dat3 d W).after 7 t = iblk3 d W 7 t := by dsimp only [dat3]
theorem after3_8 (d : Dev nD) (W : Valuation τ sig (Elt F)) (t : Fin cfg3.N) : (dat3 d W).after 8 t = out3 d W t := by dsimp only [dat3]

/-- An input window's staging buffer holds its block at every point, fetched there or not: an unfetched window's
    block index has not moved, and the body left the block in place. -/
theorem before2_0 (d : Dev nD) (W : Valuation τ sig (Elt F)) (t : Fin cfg2.N) (x) : (dat2 d W).before 0 t x = iblk2 d W 0 t :=
  ((dat2 d W).before_in_eq_fetched 0 rfl (fun _ => rfl) (fun _ _ _ => rfl) (fun t => by rw [after2_0]; unfold Pipeline.Dat.blockOf iblk2; rw [A2_eq]; try rfl) t x).trans
    (by unfold Pipeline.Dat.fetched Pipeline.Dat.blockOf iblk2; rw [A2_eq]; try rfl)
theorem before2_1 (d : Dev nD) (W : Valuation τ sig (Elt F)) (t : Fin cfg2.N) (x) : (dat2 d W).before 1 t x = iblk2 d W 1 t :=
  ((dat2 d W).before_in_eq_fetched 1 rfl (fun _ => rfl) (fun _ _ _ => rfl) (fun t => by rw [after2_1]; unfold Pipeline.Dat.blockOf iblk2; rw [A2_eq]; try rfl) t x).trans
    (by unfold Pipeline.Dat.fetched Pipeline.Dat.blockOf iblk2; rw [A2_eq]; try rfl)
theorem before2_2 (d : Dev nD) (W : Valuation τ sig (Elt F)) (t : Fin cfg2.N) (x) : (dat2 d W).before 2 t x = iblk2 d W 2 t :=
  ((dat2 d W).before_in_eq_fetched 2 rfl (fun _ => rfl) (fun _ _ _ => rfl) (fun t => by rw [after2_2]; unfold Pipeline.Dat.blockOf iblk2; rw [A2_eq]; try rfl) t x).trans
    (by unfold Pipeline.Dat.fetched Pipeline.Dat.blockOf iblk2; rw [A2_eq]; try rfl)
theorem before2_3 (d : Dev nD) (W : Valuation τ sig (Elt F)) (t : Fin cfg2.N) (x) : (dat2 d W).before 3 t x = iblk2 d W 3 t :=
  ((dat2 d W).before_in_eq_fetched 3 rfl (fun _ => rfl) (fun _ _ _ => rfl) (fun t => by rw [after2_3]; unfold Pipeline.Dat.blockOf iblk2; rw [A2_eq]; try rfl) t x).trans
    (by unfold Pipeline.Dat.fetched Pipeline.Dat.blockOf iblk2; rw [A2_eq]; try rfl)
theorem before2_4 (d : Dev nD) (W : Valuation τ sig (Elt F)) (t : Fin cfg2.N) (x) : (dat2 d W).before 4 t x = iblk2 d W 4 t :=
  ((dat2 d W).before_in_eq_fetched 4 rfl (fun _ => rfl) (fun _ _ _ => rfl) (fun t => by rw [after2_4]; unfold Pipeline.Dat.blockOf iblk2; rw [A2_eq]; try rfl) t x).trans
    (by unfold Pipeline.Dat.fetched Pipeline.Dat.blockOf iblk2; rw [A2_eq]; try rfl)
theorem before2_5 (d : Dev nD) (W : Valuation τ sig (Elt F)) (t : Fin cfg2.N) (x) : (dat2 d W).before 5 t x = iblk2 d W 5 t :=
  ((dat2 d W).before_in_eq_fetched 5 rfl (fun _ => rfl) (fun _ _ _ => rfl) (fun t => by rw [after2_5]; unfold Pipeline.Dat.blockOf iblk2; rw [A2_eq]; try rfl) t x).trans
    (by unfold Pipeline.Dat.fetched Pipeline.Dat.blockOf iblk2; rw [A2_eq]; try rfl)
theorem before2_6 (d : Dev nD) (W : Valuation τ sig (Elt F)) (t : Fin cfg2.N) (x) : (dat2 d W).before 6 t x = iblk2 d W 6 t :=
  ((dat2 d W).before_in_eq_fetched 6 rfl (fun _ => rfl) (fun _ _ _ => rfl) (fun t => by rw [after2_6]; unfold Pipeline.Dat.blockOf iblk2; rw [A2_eq]; try rfl) t x).trans
    (by unfold Pipeline.Dat.fetched Pipeline.Dat.blockOf iblk2; rw [A2_eq]; try rfl)
theorem before2_7 (d : Dev nD) (W : Valuation τ sig (Elt F)) (t : Fin cfg2.N) (x) : (dat2 d W).before 7 t x = iblk2 d W 7 t :=
  ((dat2 d W).before_in_eq_fetched 7 rfl (fun _ => rfl) (fun _ _ _ => rfl) (fun t => by rw [after2_7]; unfold Pipeline.Dat.blockOf iblk2; rw [A2_eq]; try rfl) t x).trans
    (by unfold Pipeline.Dat.fetched Pipeline.Dat.blockOf iblk2; rw [A2_eq]; try rfl)
theorem before3_0 (d : Dev nD) (W : Valuation τ sig (Elt F)) (t : Fin cfg3.N) (x) : (dat3 d W).before 0 t x = iblk3 d W 0 t :=
  ((dat3 d W).before_in_eq_fetched 0 rfl (fun _ => rfl) (fun _ _ _ => rfl) (fun t => by rw [after3_0]; unfold Pipeline.Dat.blockOf iblk3; rw [A3_eq]; try rfl) t x).trans
    (by unfold Pipeline.Dat.fetched Pipeline.Dat.blockOf iblk3; rw [A3_eq]; try rfl)
theorem before3_1 (d : Dev nD) (W : Valuation τ sig (Elt F)) (t : Fin cfg3.N) (x) : (dat3 d W).before 1 t x = iblk3 d W 1 t :=
  ((dat3 d W).before_in_eq_fetched 1 rfl (fun _ => rfl) (fun _ _ _ => rfl) (fun t => by rw [after3_1]; unfold Pipeline.Dat.blockOf iblk3; rw [A3_eq]; try rfl) t x).trans
    (by unfold Pipeline.Dat.fetched Pipeline.Dat.blockOf iblk3; rw [A3_eq]; try rfl)
theorem before3_2 (d : Dev nD) (W : Valuation τ sig (Elt F)) (t : Fin cfg3.N) (x) : (dat3 d W).before 2 t x = iblk3 d W 2 t :=
  ((dat3 d W).before_in_eq_fetched 2 rfl (fun _ => rfl) (fun _ _ _ => rfl) (fun t => by rw [after3_2]; unfold Pipeline.Dat.blockOf iblk3; rw [A3_eq]; try rfl) t x).trans
    (by unfold Pipeline.Dat.fetched Pipeline.Dat.blockOf iblk3; rw [A3_eq]; try rfl)
theorem before3_3 (d : Dev nD) (W : Valuation τ sig (Elt F)) (t : Fin cfg3.N) (x) : (dat3 d W).before 3 t x = iblk3 d W 3 t :=
  ((dat3 d W).before_in_eq_fetched 3 rfl (fun _ => rfl) (fun _ _ _ => rfl) (fun t => by rw [after3_3]; unfold Pipeline.Dat.blockOf iblk3; rw [A3_eq]; try rfl) t x).trans
    (by unfold Pipeline.Dat.fetched Pipeline.Dat.blockOf iblk3; rw [A3_eq]; try rfl)
theorem before3_4 (d : Dev nD) (W : Valuation τ sig (Elt F)) (t : Fin cfg3.N) (x) : (dat3 d W).before 4 t x = iblk3 d W 4 t :=
  ((dat3 d W).before_in_eq_fetched 4 rfl (fun _ => rfl) (fun _ _ _ => rfl) (fun t => by rw [after3_4]; unfold Pipeline.Dat.blockOf iblk3; rw [A3_eq]; try rfl) t x).trans
    (by unfold Pipeline.Dat.fetched Pipeline.Dat.blockOf iblk3; rw [A3_eq]; try rfl)
theorem before3_5 (d : Dev nD) (W : Valuation τ sig (Elt F)) (t : Fin cfg3.N) (x) : (dat3 d W).before 5 t x = iblk3 d W 5 t :=
  ((dat3 d W).before_in_eq_fetched 5 rfl (fun _ => rfl) (fun _ _ _ => rfl) (fun t => by rw [after3_5]; unfold Pipeline.Dat.blockOf iblk3; rw [A3_eq]; try rfl) t x).trans
    (by unfold Pipeline.Dat.fetched Pipeline.Dat.blockOf iblk3; rw [A3_eq]; try rfl)
theorem before3_6 (d : Dev nD) (W : Valuation τ sig (Elt F)) (t : Fin cfg3.N) (x) : (dat3 d W).before 6 t x = iblk3 d W 6 t :=
  ((dat3 d W).before_in_eq_fetched 6 rfl (fun _ => rfl) (fun _ _ _ => rfl) (fun t => by rw [after3_6]; unfold Pipeline.Dat.blockOf iblk3; rw [A3_eq]; try rfl) t x).trans
    (by unfold Pipeline.Dat.fetched Pipeline.Dat.blockOf iblk3; rw [A3_eq]; try rfl)
theorem before3_7 (d : Dev nD) (W : Valuation τ sig (Elt F)) (t : Fin cfg3.N) (x) : (dat3 d W).before 7 t x = iblk3 d W 7 t :=
  ((dat3 d W).before_in_eq_fetched 7 rfl (fun _ => rfl) (fun _ _ _ => rfl) (fun t => by rw [after3_7]; unfold Pipeline.Dat.blockOf iblk3; rw [A3_eq]; try rfl) t x).trans
    (by unfold Pipeline.Dat.fetched Pipeline.Dat.blockOf iblk3; rw [A3_eq]; try rfl)

end Cert.KernelIdeal.TcSide

end
-- ==== Proof.MainRegions.lean ====
/-
  @main on the TensorCore, after the calls: the first pipeline, the copy of its result into the second's result
  buffer, the second pipeline. Each pipeline takes the unscoped arrays whole and hands them back with its result
  array rewritten; the copy is one host operation over the arrays held whole.
-/
import proofs.«204006_g8589934699_cont_9to1c4b_872_29_alg».proof.Proof.MainCalls
import proofs.«204006_g8589934699_cont_9to1c4b_872_29_alg».proof.Proof.TcData

noncomputable section

namespace Cert.KernelIdeal.MainSide

open Cert.KernelIdeal Cert.KernelIdeal.Gen Cert.KernelIdeal.Setup Cert.LibHeld Cert.KernelIdeal.ScSide Cert.KernelIdeal.TcSide

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type} [FloatOps F]

local notation "𝕄" => MT nD τ sig (HIx 2) (Elt F) ℕ UU ℕ

variable (P : (K (F := F)).Pay (nD := nD) (Val := Elt F) (Name := ℕ) (U := UU))

/-- what the proof of a pipeline gives @main: from the unscoped arrays whole to the same with the result rewritten -/
def RegionStmt0 : Prop :=
  ∀ (κ : GSem nD τ sig → ℕ) (d : Dev nD) (W : Valuation τ sig (Elt F)) (Φ : PUnit → sProp 𝕄),
    iprop((K (F := F)).ctx EH P κ ∗ (K (F := F)).tcSt EH d 2 ∗ boundary (SparseCore.T d) ∗ unscopedBufs d (fun b => W b)
        ∗ ghost (F := F) 0 d
        ∗ (iprop((K (F := F)).tcSt EH d 2 ∗ boundary (SparseCore.T d) ∗ unscopedBufs d (fun b => W2 d W b)) -∗ Φ ⟨⟩))
      ⊢ wp frame (wpE ((K (F := F)).defs (D (F := F))) 𝒱 (SparseCore.T d) none) Set.univ (Prog.lift (.customCall (SparseCore.inner (Pipeline.entry 0)) ())) Φ

def RegionStmt1 : Prop :=
  ∀ (κ : GSem nD τ sig → ℕ) (d : Dev nD) (W : Valuation τ sig (Elt F)) (Φ : PUnit → sProp 𝕄),
    iprop((K (F := F)).ctx EH P κ ∗ (K (F := F)).tcSt EH d 2 ∗ boundary (SparseCore.T d) ∗ unscopedBufs d (fun b => W b)
        ∗ ghost (F := F) 1 d
        ∗ (iprop((K (F := F)).tcSt EH d 2 ∗ boundary (SparseCore.T d) ∗ unscopedBufs d (fun b => W3 d W b)) -∗ Φ ⟨⟩))
      ⊢ wp frame (wpE ((K (F := F)).defs (D (F := F))) 𝒱 (SparseCore.T d) none) Set.univ (Prog.lift (.customCall (SparseCore.inner (Pipeline.entry 1)) ())) Φ

/-- the valuation the program ends at, from the one the calls left -/
def Wf (d : Dev nD) (W : Valuation τ sig (Elt F)) : Valuation τ sig (Elt F) := W3 d ((opCp (F := F)).result (W2 d W))

set_option maxRecDepth 16384 in
/-- The pipelines and the copy between them. -/
theorem regions_run (hr0 : RegionStmt0 P) (hr1 : RegionStmt1 P) (κ : GSem nD τ sig → ℕ) (d : Dev nD) (W : Valuation τ sig (Elt F))
    (Q : PUnit → sProp 𝕄) :
    iprop((K (F := F)).ctx EH P κ ∗ (K (F := F)).tcSt EH d 2 ∗ boundary (SparseCore.T d)
        ∗ (held (SparseCore.T d) (Pipeline.ucRefs τ sig) W : sProp 𝕄) ∗ ghost (F := F) 0 d ∗ ghost (F := F) 1 d
        ∗ (iprop((K (F := F)).tcSt EH d 2 ∗ (held (SparseCore.T d) (Pipeline.ucRefs τ sig) (Wf d W) : sProp 𝕄)) -∗ Q ⟨⟩))
      ⊢ wp frame (wpE ((K (F := F)).defs (D (F := F))) 𝒱 (SparseCore.T d) none) Set.univ (rest2 (F := F) d) Q := by
  simp only [rest2, wp_bind, wp_pure]
  iintro ⟨#Hctx, Hst, Hb, Hheld, Hg0, Hg1, Hk⟩
  -- the first pipeline
  ihave Hu := (Entails.of_eq (Pipeline.unscopedBufs_held (Ix := HIx 2) (Name := ℕ) (U := UU) (Lvl := ℕ) d W).symm) $$ Hheld
  iapply (hr0 κ d W _)
  isplitr; · iexact Hctx
  isplitl [Hst]; · iexact Hst
  isplitl [Hb]; · iexact Hb
  isplitl [Hu]; · iexact Hu
  isplitl [Hg0]; · iexact Hg0
  iintro ⟨Hst, Hb, Hu⟩
  ihave Hheld := (Entails.of_eq (Pipeline.unscopedBufs_held (Ix := HIx 2) (Name := ℕ) (U := UU) (Lvl := ℕ) d (W2 d W))) $$ Hu
  -- the copy
  iapply (wp_hlo_within 𝒱 (SparseCore.T d) none Set.univ (op := opCp (F := F)) (S := Pipeline.ucRefs τ sig) opCp_sub (V := W2 d W)) $$ [Hb Hheld]
  · isplitl [Hb] <;> iassumption
  iintro ⟨Hb, Hheld⟩
  rw [wp_ret]; imodintro
  -- the second pipeline
  ihave Hu := (Entails.of_eq (Pipeline.unscopedBufs_held (Ix := HIx 2) (Name := ℕ) (U := UU) (Lvl := ℕ) d ((opCp (F := F)).result (W2 d W))).symm) $$ Hheld
  iapply (hr1 κ d ((opCp (F := F)).result (W2 d W)) _)
  isplitr; · iexact Hctx
  isplitl [Hst]; · iexact Hst
  isplitl [Hb]; · iexact Hb
  isplitl [Hu]; · iexact Hu
  isplitl [Hg1]; · iexact Hg1
  iintro ⟨Hst, Hb, Hu⟩
  ihave Hheld := (Entails.of_eq (Pipeline.unscopedBufs_held (Ix := HIx 2) (Name := ℕ) (U := UU) (Lvl := ℕ) d (W3 d ((opCp (F := F)).result (W2 d W))))) $$ Hu
  imodintro
  iapply Hk
  isplitl [Hst]; · iexact Hst
  iexact Hheld

end Cert.KernelIdeal.MainSide

end
-- ==== Proof.MainFinal.lean ====
/-
  @main on the TensorCore, whole, and the program's run.

  The reshapes, the two calls, the two pipelines with the copy between them: the TensorCore ends holding its
  unscoped arrays whole at the last valuation, in which the ten arguments are as launched — no operation, call
  or pipeline writes them — and the result array is what the second pipeline left.
-/
import proofs.«204006_g8589934699_cont_9to1c4b_872_29_alg».proof.Proof.MainRegions

noncomputable section

namespace Cert.KernelIdeal.MainSide

open Cert.KernelIdeal Cert.KernelIdeal.Gen Cert.KernelIdeal.Setup Cert.LibHeld Cert.KernelIdeal.ScSide Cert.KernelIdeal.TcSide

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after after_cons after_nil)

variable {F : FTy → Type} [FloatOps F]

local notation "𝕄" => MT nD τ sig (HIx 2) (Elt F) ℕ UU ℕ

variable (m : (ℓ : Loc nD τ sig) → Buf (Elt F) ℓ) (ρ : Dev nD → PrngReg)

abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v8' : DevRef τ sig := Proc.devRef .tc (main_v8 : Ref sig .tc)
abbrev v9' : DevRef τ sig := Proc.devRef .tc (main_v9 : Ref sig .tc)

/-- the valuation @main ends at -/
def Vfin (d : Dev nD) : Valuation τ sig (Elt F) := Wf d (Wc m d)

/-- the arrays some operation, call or pipeline writes -/
abbrev written : Finset (DevRef τ sig) := {v0', v1', v2', v3', v4', v5', v60', v61', v70', v71', v8', v9'}

/-- An array nothing writes is, at the end, as launched. -/
theorem Vfin_arg (d : Dev nD) (b : DevRef τ sig) (hb : b ∉ written) : Vfin m d b = m (d, b) := by
  have n0 : b ≠ v0' := fun e => hb (by rw [e]; decide)
  have n1 : b ≠ v1' := fun e => hb (by rw [e]; decide)
  have n2 : b ≠ v2' := fun e => hb (by rw [e]; decide)
  have n3 : b ≠ v3' := fun e => hb (by rw [e]; decide)
  have n4 : b ≠ v4' := fun e => hb (by rw [e]; decide)
  have n5 : b ≠ v5' := fun e => hb (by rw [e]; decide)
  have n60 : b ≠ v60' := fun e => hb (by rw [e]; decide)
  have n61 : b ≠ v61' := fun e => hb (by rw [e]; decide)
  have n70 : b ≠ v70' := fun e => hb (by rw [e]; decide)
  have n71 : b ≠ v71' := fun e => hb (by rw [e]; decide)
  have n8 : b ≠ v8' := fun e => hb (by rw [e]; decide)
  have n9 : b ≠ v9' := fun e => hb (by rw [e]; decide)
  unfold Vfin Wf W3 W2 Wc Wb V1 headOps
  rw [Function.update_of_ne n9,
    (opCp (F := F)).result_of_not_mem _ (show b ∉ ({v9'} : Finset (DevRef τ sig)) from fun h => n9 (Finset.mem_singleton.mp h)),
    Function.update_of_ne n8, Function.update_of_ne n71, Function.update_of_ne n70, Function.update_of_ne n61, Function.update_of_ne n60]
  simp only [after_cons, after_nil]
  rw [(opR5 (F := F)).result_of_not_mem _ (show b ∉ ({v5'} : Finset (DevRef τ sig)) from fun h => n5 (Finset.mem_singleton.mp h)),
    (opR4 (F := F)).result_of_not_mem _ (show b ∉ ({v4'} : Finset (DevRef τ sig)) from fun h => n4 (Finset.mem_singleton.mp h)),
    (opR3 (F := F)).result_of_not_mem _ (show b ∉ ({v3'} : Finset (DevRef τ sig)) from fun h => n3 (Finset.mem_singleton.mp h)),
    (opR2 (F := F)).result_of_not_mem _ (show b ∉ ({v2'} : Finset (DevRef τ sig)) from fun h => n2 (Finset.mem_singleton.mp h)),
    (opR1 (F := F)).result_of_not_mem _ (show b ∉ ({v1'} : Finset (DevRef τ sig)) from fun h => n1 (Finset.mem_singleton.mp h)),
    (opR0 (F := F)).result_of_not_mem _ (show b ∉ ({v0'} : Finset (DevRef τ sig)) from fun h => n0 (Finset.mem_singleton.mp h))]
  rfl

omit [FloatOps F] in
theorem G_split (d : Dev nD) : (G (F := F) d : sProp 𝕄) = iprop(ghost (F := F) 0 d ∗ ghost (F := F) 1 d) := by
  unfold G
  rw [show (Finset.univ : Finset (Fin 2)) = {0, 1} by decide, SparseCore.bigSep_insert' (by decide), bigSep_singleton]

/-- @main on device `d`'s TensorCore. -/
theorem hmain (h0 : CallStmt0 m) (h1 : CallStmt1 m) (hr0 : RegionStmt0 (PP m)) (hr1 : RegionStmt1 (PP m))
    (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 2 ∗ FIN (Vfin m) d) := by
  unfold SparseCore.Cfg.tcRes
  rw [unscoped_held]
  iintro ⟨#Hctx, Hst, ⟨Hb, Hheld, -, -⟩, HG⟩
  iapply (head_run m d _) $$ [Hb Hheld]
  · isplitl [Hb] <;> iassumption
  iintro ⟨Hb, Hheld⟩
  iapply (calls_run m h0 h1 κ d _)
  isplitr; · iexact Hctx
  isplitl [Hst]; · iexact Hst
  isplitl [Hheld]; · iexact Hheld
  iintro ⟨Hst, Hheld⟩
  ihave HG' := (Entails.of_eq (G_split (F := F) d)) $$ HG
  icases HG' with ⟨Hg0, Hg1⟩
  iapply (regions_run (PP m) hr0 hr1 κ d (Wc m d) _)
  isplitr; · iexact Hctx
  isplitl [Hst]; · iexact Hst
  isplitl [Hb]; · iexact Hb
  isplitl [Hheld]; · iexact Hheld
  isplitl [Hg0]; · iexact Hg0
  isplitl [Hg1]; · iexact Hg1
  iintro ⟨Hst, Hheld⟩
  isplitl [Hst]; · iexact Hst
  iexact Hheld

/-! ## The run -/

/-- What the run leaves: the result array at the last valuation's, the ten arguments as launched. -/
def QC : PUnit × MemSt nD τ sig (Elt F) → Prop := fun r => ∀ c : Dev nD,
      r.2.mem ((SparseCore.T c).loc main_v9) = Vfin m c v9'
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)

theorem hQ (s' : Phys nD τ sig (Elt F)) (h : ∀ d, fq (Vfin m) d s') : QC m (⟨⟩, s'.mem) := fun c =>
  ⟨h c v9' (by decide),
    (h c (Proc.devRef .tc (main_arg0 : Ref sig .tc)) (by decide)).trans (Vfin_arg m c _ (by decide)),
    (h c (Proc.devRef .tc (main_arg1 : Ref sig .tc)) (by decide)).trans (Vfin_arg m c _ (by decide)),
    (h c (Proc.devRef .tc (main_arg2 : Ref sig .tc)) (by decide)).trans (Vfin_arg m c _ (by decide)),
    (h c (Proc.devRef .tc (main_arg3 : Ref sig .tc)) (by decide)).trans (Vfin_arg m c _ (by decide)),
    (h c (Proc.devRef .tc (main_arg4 : Ref sig .tc)) (by decide)).trans (Vfin_arg m c _ (by decide)),
    (h c (Proc.devRef .tc (main_arg5 : Ref sig .tc)) (by decide)).trans (Vfin_arg m c _ (by decide)),
    (h c (Proc.devRef .tc (main_arg6 : Ref sig .tc)) (by decide)).trans (Vfin_arg m c _ (by decide)),
    (h c (Proc.devRef .tc (main_arg7 : Ref sig .tc)) (by decide)).trans (Vfin_arg m c _ (by decide)),
    (h c (Proc.devRef .tc (main_arg8 : Ref sig .tc)) (by decide)).trans (Vfin_arg m c _ (by decide)),
    (h c (Proc.devRef .tc (main_arg9 : Ref sig .tc)) (by decide)).trans (Vfin_arg m c _ (by decide))⟩

theorem run_main [∀ e, Nonempty (Elt F e)]
    (ht0 : (K (F := F)).TileObl (D (F := F)) 𝒱 (PP m) v₀ 0) (ht1 : (K (F := F)).TileObl (D (F := F)) 𝒱 (PP m) v₀ 1)
    (hv0 : (K (F := F)).VecSplit' (PP m) 0) (hv1 : (K (F := F)).VecSplit' (PP m) 1)
    (h0 : CallStmt0 m) (h1 : CallStmt1 m) (hr0 : RegionStmt0 (PP m)) (hr1 : RegionStmt1 (PP m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq | 1 => nomatch hq)
    (fun q _ => match q with | 0 => ht0 | 1 => ht1)
    (fun q _ => match q with | 0 => SparseCore.Cfg.VecSplit.of_plain hv0 | 1 => SparseCore.Cfg.VecSplit.of_plain hv1)
    m ρ main (G (F := F)) (FIN (Vfin m)) (u₀ (F := F)) (sep_elim_left.trans (hu₀ (PP m) (fun q thr => P_x _ _ _ _ q thr)))
    (hmain m ρ h0 h1 hr0 hr1) (fq (Vfin m)) (hfin (Vfin m)) (QC m) (hQ m)

end Cert.KernelIdeal.MainSide

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.PreRead.lean ====
/-
  The input domain read back from its printed test.

  The test is a conjunction of ten one-bit scalars: for each of the seven float arrays "every |a| < +∞", and for each
  of the three id arrays "every 0 ≤ id and id ≤ hi" (hi = 4095, 16383, 31), each reduced by "and" over all axes.  A
  conjunction that is 1 has every conjunct 1; a finiteness test that is 1 gives a real number at every entry (on the
  extended reals); a range test that is 1 gives the two signed comparisons at every entry, whatever the floats are.
-/
import Mathlib
import proofs.«204006_g8589934699_cont_9to1c4b_872_29_alg».proof.Proof.LibFiniteEntries
import proofs.«204006_g8589934699_cont_9to1c4b_872_29_alg».proof.Pre_input_domain

noncomputable section

namespace Cert.PreRead

open Idealize.ShloMosaic Idealize.ShloMosaic.ValueIdx Idealize.ShloMosaic.FiniteEntries Cert.Pre_input_domain

/-- An id that is not negative read signed is the id read unsigned. -/
theorem toInt_eq_toNat_of_nonneg (x : BitVec 32) (h0 : 0 ≤ x.toInt) : x.toInt = (x.toNat : ℤ) := by
  rcases Nat.lt_or_ge (2 * x.toNat) (2 ^ 32) with h | h
  · rw [BitVec.toInt_eq_toNat_cond, if_pos h]
  · rw [BitVec.toInt_eq_toNat_cond, if_neg (by omega)] at h0
    have := x.isLt
    omega

/-- One id array's test: if "all 0 ≤ a and a ≤ hi" came out 1, every id is between 0 and hi, read signed. -/
theorem ids_in_range (a : IVec S16384 32) (hi : BitVec 32) (hb : S_.BroadcastsInDim S16384 ![])
    (hr : S16384.ReducesTo [0] S_) (hu : 0 < S_.numel)
    (e : Host.reduce IntOp.andi
        (andi (cmpi .sge a (broadcastInDim S16384 ![] hb (constantI S_ 32 0#32)))
          (cmpi .sle a (broadcastInDim S16384 ![] hb (constantI S_ 32 hi))))
        (constantI S_ 1 1#1) hr hu ix0 = 1#1)
    (i : S16384.Idx) : 0 ≤ (a i).toInt ∧ (a i).toInt ≤ hi.toInt := by
  have h := Host.reduce_andi_all _ _ hr hu ix0 e i
  have h' : IntOp.andi (IntOp.cmpi .sge (a i) (broadcastInDim S16384 ![] hb (constantI S_ 32 0#32) i))
      (IntOp.cmpi .sle (a i) (broadcastInDim S16384 ![] hb (constantI S_ 32 hi) i)) = 1#1 := h
  rw [broadcastInDim_apply ![] hb _ i ix0 (fun ax => ax.elim0),
    broadcastInDim_apply ![] hb _ i ix0 (fun ax => ax.elim0)] at h'
  obtain ⟨h1, h2⟩ := IntOp.andi_eq_one.1 h'
  have h1' : (0#32 : BitVec 32).toInt ≤ (a i).toInt := IntOp.cmpi_sge.1 h1
  have h2' : (a i).toInt ≤ hi.toInt := IntOp.cmpi_sle.1 h2
  have z : (0#32 : BitVec 32).toInt = 0 := by decide
  exact ⟨by omega, h2'⟩

/-- The ids' ranges, read signed, from the printed test; the float instance plays no part. -/
theorem ranges_int_of_pre {F : FTy → Type} [FloatOps F] [Cert.Pre_input_domain.Facts] (a0 a1 a2 : IVec S16384 32)
    (a3 : FVec F S4096x128 .f32) (a4 : FVec F S16384x128 .f32) (a5 : FVec F S32x32 .f32) (a6 : FVec F S288x256 .f32)
    (a7 a8 a9 : FVec F S256 .f32)
    (h : Cert.Pre_input_domain.fn (F := F) a0 a1 a2 a3 a4 a5 a6 a7 a8 a9 = fun _ => 1#1) :
    (∀ i, 0 ≤ (a0 i).toInt ∧ (a0 i).toInt ≤ 4095) ∧ (∀ i, 0 ≤ (a1 i).toInt ∧ (a1 i).toInt ≤ 16383)
      ∧ (∀ i, 0 ≤ (a2 i).toInt ∧ (a2 i).toInt ≤ 31) := by
  have h0 := congrFun h ix0
  dsimp only [fn, fn_part1, fn_part2, fn_part3] at h0
  obtain ⟨h47, h53⟩ := and_split h0
  obtain ⟨h40, h46⟩ := and_split h47
  obtain ⟨_, h39⟩ := and_split h40
  have e0 : (4095#32 : BitVec 32).toInt = 4095 := by decide
  have e1 : (16383#32 : BitVec 32).toInt = 16383 := by decide
  have e2 : (31#32 : BitVec 32).toInt = 31 := by decide
  refine ⟨fun i => ?_, fun i => ?_, fun i => ?_⟩
  · have := ids_in_range a0 4095#32 Facts.bcast_S_S16384 Facts.reducesTo_S16384_S_d0 Facts.h_S_ h39 i
    rw [e0] at this; exact this
  · have := ids_in_range a1 16383#32 Facts.bcast_S_S16384 Facts.reducesTo_S16384_S_d0 Facts.h_S_ h46 i
    rw [e1] at this; exact this
  · have := ids_in_range a2 31#32 Facts.bcast_S_S16384 Facts.reducesTo_S16384_S_d0 Facts.h_S_ h53 i
    rw [e2] at this; exact this

/-- The same read unsigned: every id is below its table's number of rows. -/
theorem ranges_of_pre {F : FTy → Type} [FloatOps F] [Cert.Pre_input_domain.Facts] (a0 a1 a2 : IVec S16384 32)
    (a3 : FVec F S4096x128 .f32) (a4 : FVec F S16384x128 .f32) (a5 : FVec F S32x32 .f32) (a6 : FVec F S288x256 .f32)
    (a7 a8 a9 : FVec F S256 .f32)
    (h : Cert.Pre_input_domain.fn (F := F) a0 a1 a2 a3 a4 a5 a6 a7 a8 a9 = fun _ => 1#1) :
    (∀ j, (a0 j).toNat < 4096) ∧ (∀ j, (a1 j).toNat < 16384) ∧ (∀ j, (a2 j).toNat < 32) := by
  obtain ⟨r0, r1, r2⟩ := ranges_int_of_pre a0 a1 a2 a3 a4 a5 a6 a7 a8 a9 h
  refine ⟨fun j => ?_, fun j => ?_, fun j => ?_⟩
  · have := toInt_eq_toNat_of_nonneg (a0 j) (r0 j).1; have := (r0 j).2; omega
  · have := toInt_eq_toNat_of_nonneg (a1 j) (r1 j).1; have := (r1 j).2; omega
  · have := toInt_eq_toNat_of_nonneg (a2 j) (r2 j).1; have := (r2 j).2; omega

/-- What the input domain says of the ten arrays: real entries, ids in range. -/
structure Domain (a0 a1 a2 : IVec S16384 32) (a3 : FVec Ideal S4096x128 .f32) (a4 : FVec Ideal S16384x128 .f32)
    (a5 : FVec Ideal S32x32 .f32) (a6 : FVec Ideal S288x256 .f32) (a7 a8 a9 : FVec Ideal S256 .f32) : Prop where
  code_real : ∀ i, ∃ r : ℝ, a3 i = (r : EReal)
  name_real : ∀ i, ∃ r : ℝ, a4 i = (r : EReal)
  nature_real : ∀ i, ∃ r : ℝ, a5 i = (r : EReal)
  weight_real : ∀ i, ∃ r : ℝ, a6 i = (r : EReal)
  bias_real : ∀ i, ∃ r : ℝ, a7 i = (r : EReal)
  gamma_real : ∀ i, ∃ r : ℝ, a8 i = (r : EReal)
  beta_real : ∀ i, ∃ r : ℝ, a9 i = (r : EReal)
  code_ids : ∀ p : Fin 16384, 0 ≤ (a0 (ix1 p)).toInt ∧ (a0 (ix1 p)).toInt ≤ 4095
  name_ids : ∀ p : Fin 16384, 0 ≤ (a1 (ix1 p)).toInt ∧ (a1 (ix1 p)).toInt ≤ 16383
  nature_ids : ∀ p : Fin 16384, 0 ≤ (a2 (ix1 p)).toInt ∧ (a2 (ix1 p)).toInt ≤ 31

/-- The printed test all ones gives the domain. -/
theorem domain_of_pre [Cert.Pre_input_domain.Facts] (a0 a1 a2 : IVec S16384 32) (a3 : FVec Ideal S4096x128 .f32)
    (a4 : FVec Ideal S16384x128 .f32) (a5 : FVec Ideal S32x32 .f32) (a6 : FVec Ideal S288x256 .f32)
    (a7 a8 a9 : FVec Ideal S256 .f32)
    (h : Cert.Pre_input_domain.fn (F := Ideal) a0 a1 a2 a3 a4 a5 a6 a7 a8 a9 = fun _ => 1#1) :
    Domain a0 a1 a2 a3 a4 a5 a6 a7 a8 a9 := by
  obtain ⟨r0, r1, r2⟩ := ranges_int_of_pre a0 a1 a2 a3 a4 a5 a6 a7 a8 a9 h
  have h0 := congrFun h ix0
  dsimp only [fn, fn_part1, fn_part2, fn_part3] at h0
  obtain ⟨h47, _⟩ := and_split h0
  obtain ⟨h40, _⟩ := and_split h47
  obtain ⟨h33, _⟩ := and_split h40
  obtain ⟨h28, h32⟩ := and_split h33
  obtain ⟨h23, h27⟩ := and_split h28
  obtain ⟨h18, h22⟩ := and_split h23
  obtain ⟨h13, h17⟩ := and_split h18
  obtain ⟨h8, h12⟩ := and_split h13
  obtain ⟨h3, h7⟩ := and_split h8
  exact
    { code_real := entries_real a3 Facts.bcast_S_S4096x128 Facts.reducesTo_S4096x128_S_d0_1 Facts.h_S_ h3
      name_real := entries_real a4 Facts.bcast_S_S16384x128 Facts.reducesTo_S16384x128_S_d0_1 Facts.h_S_ h7
      nature_real := entries_real a5 Facts.bcast_S_S32x32 Facts.reducesTo_S32x32_S_d0_1 Facts.h_S_ h12
      weight_real := entries_real a6 Facts.bcast_S_S288x256 Facts.reducesTo_S288x256_S_d0_1 Facts.h_S_ h17
      bias_real := entries_real a7 Facts.bcast_S_S256 Facts.reducesTo_S256_S_d0 Facts.h_S_ h22
      gamma_real := entries_real a8 Facts.bcast_S_S256 Facts.reducesTo_S256_S_d0 Facts.h_S_ h27
      beta_real := entries_real a9 Facts.bcast_S_S256 Facts.reducesTo_S256_S_d0 Facts.h_S_ h32
      code_ids := fun p => r0 (ix1 p)
      name_ids := fun p => r1 (ix1 p)
      nature_ids := fun p => r2 (ix1 p) }

end Cert.PreRead

end
-- ==== Proof.MainPre.lean ====
/-
  The gathers' indices are in range: the index arrays the calls read are the reshapes of the two id vectors, so
  every entry of them is an entry of an id vector, which the precondition bounds by its table's extent.
-/
import proofs.«204006_g8589934699_cont_9to1c4b_872_29_alg».proof.Proof.MainCalls
import proofs.«204006_g8589934699_cont_9to1c4b_872_29_alg».proof.Proof.PreRead

noncomputable section

namespace Cert.KernelIdeal.MainSide

open Cert.KernelIdeal Cert.KernelIdeal.Gen Cert.KernelIdeal.Setup Cert.KernelIdeal.ScSide

open Idealize.ShloMosaic Idealize.ShloMosaic.TcCoe
open Idealize.ShloMosaic.SparseCore (S V T)
open Idealize.SL.Sem
open Idealize.ShloMosaic.StableHlo (after after_cons after_nil)

variable {F : FTy → Type} [FloatOps F]

variable (m : (ℓ : Loc nD τ sig) → Buf (Elt F) ℓ)

/-- an entry of the reshaped code ids is the code id at the same row-major position -/
theorem i0F_apply (d : Dev nD) (j : S2x32x2x128.Idx) :
    i0F m d j = m ((SparseCore.T d).loc main_arg0) (Shape.reshapeEquiv shapeCasts_S16384_S2x32x2x128 j) := by
  have h : i0F m d = shapeCast S2x32x2x128 (m ((SparseCore.T d).loc main_arg0)) shapeCasts_S16384_S2x32x2x128 := by
    unfold i0F V1 V0; after_results; rfl
  rw [h]; rfl

theorem i1F_apply (d : Dev nD) (j : S2x32x2x128.Idx) :
    i1F m d j = m ((SparseCore.T d).loc main_arg1) (Shape.reshapeEquiv shapeCasts_S16384_S2x32x2x128 j) := by
  have h : i1F m d = shapeCast S2x32x2x128 (m ((SparseCore.T d).loc main_arg1)) shapeCasts_S16384_S2x32x2x128 := by
    unfold i1F V1 V0; after_results; rfl
  rw [h]; rfl

/-- Under the precondition every index the calls read names a row of its table. -/
theorem inRange_of_pre [Cert.Pre_input_domain.Facts]
    (hpre : ∀ c : Dev nD, Cert.Pre_input_domain.fn (F := F) (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) = (fun _ => 1#1)) :
    ∀ d : Dev nD, (∀ j : S2x32x2x128.Idx, (i0F m d j).toNat < 4096) ∧ (∀ j : S2x32x2x128.Idx, (i1F m d j).toNat < 16384) := by
  intro d
  obtain ⟨h0, h1, -⟩ := Cert.PreRead.ranges_of_pre _ _ _ _ _ _ _ _ _ _ (hpre d)
  exact ⟨fun j => by rw [i0F_apply]; exact h0 _, fun j => by rw [i1F_apply]; exact h1 _⟩

end Cert.KernelIdeal.MainSide

end
-- ==== Proof.ScTile0.lean ====
/-
  The vector subcore's kernel of a row-gather call, run once at a symbolic subcore: it fetches its two rows of each index
  array, gathers the rows of the two tables they name into its scratch buffers, copies those out to its blocks of the two
  results, and ends with every semaphore at zero. The blocks end at the gathered rows, as pure terms of the tables and
  the index arrays.
-/
import proofs.«204006_g8589934699_cont_9to1c4b_872_29_alg».proof.Proof.ScPay

noncomputable section

namespace Cert.KernelIdeal.ScSide

open Cert.KernelIdeal Cert.KernelIdeal.Gen Cert.KernelIdeal.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

namespace Tile0

local notation "i0V" => (Memref.whole Cert.KernelIdeal.main_v0_scv : Memref Cert.KernelIdeal.sig Kind.scVector Space.hbm Cert.KernelIdeal.S2x32x2x128 EltTy.i32)
local notation "i1V" => (Memref.whole Cert.KernelIdeal.main_v1_scv : Memref Cert.KernelIdeal.sig Kind.scVector Space.hbm Cert.KernelIdeal.S2x32x2x128 EltTy.i32)
local notation "ctV" => (Memref.whole Cert.KernelIdeal.main_arg3_scv : Memref Cert.KernelIdeal.sig Kind.scVector Space.hbm Cert.KernelIdeal.S4096x128 EltTy.f32)
local notation "ntV" => (Memref.whole Cert.KernelIdeal.main_arg4_scv : Memref Cert.KernelIdeal.sig Kind.scVector Space.hbm Cert.KernelIdeal.S16384x128 EltTy.f32)
local notation "ocV" => (Memref.whole Cert.KernelIdeal.main_v6_0_scv : Memref Cert.KernelIdeal.sig Kind.scVector Space.hbm Cert.KernelIdeal.S8192x128 EltTy.f32)
local notation "onV" => (Memref.whole Cert.KernelIdeal.main_v6_1_scv : Memref Cert.KernelIdeal.sig Kind.scVector Space.hbm Cert.KernelIdeal.S8192x128 EltTy.f32)
local notation "s0V" => (Memref.whole Cert.KernelIdeal.cc0_scratch0 : Memref Cert.KernelIdeal.sig Kind.scVector Space.vmem Cert.KernelIdeal.S2x128 EltTy.i32)
local notation "s1V" => (Memref.whole Cert.KernelIdeal.cc0_scratch1 : Memref Cert.KernelIdeal.sig Kind.scVector Space.vmem Cert.KernelIdeal.S2x128 EltTy.i32)
local notation "s2V" => (Memref.whole Cert.KernelIdeal.cc0_scratch2 : Memref Cert.KernelIdeal.sig Kind.scVector Space.vmem Cert.KernelIdeal.S128x128 EltTy.f32)
local notation "s3V" => (Memref.whole Cert.KernelIdeal.cc0_scratch3 : Memref Cert.KernelIdeal.sig Kind.scVector Space.vmem Cert.KernelIdeal.S128x128 EltTy.f32)
local notation "s4V" => (Memref.whole Cert.KernelIdeal.cc0_scratch4 : Memref Cert.KernelIdeal.sig Kind.scVector Space.vmem Cert.KernelIdeal.S128x128 EltTy.f32)
local notation "s5V" => (Memref.whole Cert.KernelIdeal.cc0_scratch5 : Memref Cert.KernelIdeal.sig Kind.scVector Space.vmem Cert.KernelIdeal.S128x128 EltTy.f32)

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem cell_ne {thr : Thread nD τ} {a b : SemLoc sig} (h : a ≠ b) : ((thr, a) : GSem nD τ sig) ≠ (thr, b) :=
  fun e => h (Prod.ext_iff.mp e).2

set_option maxRecDepth 8192 in
/-- A vector subcore's own semaphores at zero: the ten its kernel uses, and the rest. -/
theorem ownSems0_V :
    (ownSems0 (V d (cV L) (jV L)) : sProp 𝕄)
      = iprop(semVal (((V d (cV L) (jV L)), SemLoc.dma cc0_scratch6.sem) : GSem nD τ sig) 0
          ∗ semVal (((V d (cV L) (jV L)), SemLoc.dma cc0_scratch7.sem) : GSem nD τ sig) 0
          ∗ semVal (((V d (cV L) (jV L)), SemLoc.dma cc0_scratch8.sem) : GSem nD τ sig) 0
          ∗ semVal (((V d (cV L) (jV L)), SemLoc.dma cc0_scratch9.sem) : GSem nD τ sig) 0
          ∗ semVal (((V d (cV L) (jV L)), SemLoc.dma cc0_scratch10.sem) : GSem nD τ sig) 0
          ∗ semVal (((V d (cV L) (jV L)), SemLoc.dma cc0_scratch11.sem) : GSem nD τ sig) 0
          ∗ semVal (((V d (cV L) (jV L)), SemLoc.dma cc0_scratch12.sem) : GSem nD τ sig) 0
          ∗ semVal (((V d (cV L) (jV L)), SemLoc.dma cc0_scratch13.sem) : GSem nD τ sig) 0
          ∗ semVal (((V d (cV L) (jV L)), SemLoc.dma cc0_scoped0.sem) : GSem nD τ sig) 0
          ∗ semVal (((V d (cV L) (jV L)), SemLoc.dma cc0_scoped1.sem) : GSem nD τ sig) 0
          ∗ bigSep (((((((((((ownCells (V d (cV L) (jV L))).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scratch13.sem) : GSem nD τ sig)).erase (((V d (cV L) (jV L)), SemLoc.dma cc0_scoped0.sem) : GSem nD τ sig)).erase (((V d (cV L) (jV L)), SemLoc.dma cc0_scoped1.sem) : GSem nD τ sig)) fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨cell_ne (by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨cell_ne (by decide), Finset.mem_erase.mpr ⟨cell_ne (by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch13.sem) : GSem nD τ sig))).mpr ⟨rfl, by show (SemLoc.dma cc0_scratch13.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩⟩⟩⟩⟩)]

set_option maxRecDepth 8192 in
/-- Its own buffers: the six scratch buffers of the kernel, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

variable [FloatOps F]

theorem unit_congr {s : Shape} {off off' sz : Fin s.rank → Nat} {inb : ∀ a, off a + sz a ≤ s.size a} {inb' : ∀ a, off' a + sz a ≤ s.size a}
    (h : off = off') : Rect.unit (s := s) off sz inb = Rect.unit (s := s) off' sz inb' := by subst h; rfl

/-- The blocks of the two results as the kernel slices them. -/
abbrev ocB0 (L : grid0.Coords) : Memref sig .scVector .hbm S128x128 .f32 := (ocV).slice (Rect.unit (s := S8192x128) (k0_off2 L 0#32) S128x128.size (k0_off2_inb L 0)) (fun _ => rfl)
abbrev ocB1 (L : grid0.Coords) : Memref sig .scVector .hbm S128x128 .f32 := (ocV).slice (Rect.unit (s := S8192x128) (k0_off2 L 128#32) S128x128.size (k0_off2_inb L 1)) (fun _ => rfl)
abbrev onB0 (L : grid0.Coords) : Memref sig .scVector .hbm S128x128 .f32 := (onV).slice (Rect.unit (s := S8192x128) (k0_off2 L 0#32) S128x128.size (k0_off2_inb L 0)) (fun _ => rfl)
abbrev onB1 (L : grid0.Coords) : Memref sig .scVector .hbm S128x128 .f32 := (onV).slice (Rect.unit (s := S8192x128) (k0_off2 L 128#32) S128x128.size (k0_off2_inb L 1)) (fun _ => rfl)

omit [FloatOps F] in
theorem rect0_eq : Rect.unit (s := S8192x128) (k0_off2 L 0#32) S128x128.size (k0_off2_inb L 0) = blk (cL L) (jL L) 0 :=
  unit_congr (k0_off2_eq L 0)
omit [FloatOps F] in
theorem rect1_eq : Rect.unit (s := S8192x128) (k0_off2 L 128#32) S128x128.size (k0_off2_inb L 1) = blk (cL L) (jL L) 1 :=
  unit_congr (k0_off2_eq L 1)

omit [FloatOps F] in
theorem set_ocB0 : (ocB0 L).view.set = blkSet (cL L) (jL L) 0 := by
  show ((ocV).view.slice (Rect.unit (s := S8192x128) (k0_off2 L 0#32) S128x128.size (k0_off2_inb L 0))).set = _
  rw [rect0_eq, View.set_slice]; exact Finset.map_refl
omit [FloatOps F] in
theorem set_ocB1 : (ocB1 L).view.set = blkSet (cL L) (jL L) 1 := by
  show ((ocV).view.slice (Rect.unit (s := S8192x128) (k0_off2 L 128#32) S128x128.size (k0_off2_inb L 1))).set = _
  rw [rect1_eq, View.set_slice]; exact Finset.map_refl
omit [FloatOps F] in
theorem set_onB0 : (onB0 L).view.set = blkSet (cL L) (jL L) 0 := by
  show ((onV).view.slice (Rect.unit (s := S8192x128) (k0_off2 L 0#32) S128x128.size (k0_off2_inb L 0))).set = _
  rw [rect0_eq, View.set_slice]; exact Finset.map_refl
omit [FloatOps F] in
theorem set_onB1 : (onB1 L).view.set = blkSet (cL L) (jL L) 1 := by
  show ((onV).view.slice (Rect.unit (s := S8192x128) (k0_off2 L 128#32) S128x128.size (k0_off2_inb L 1))).set = _
  rw [rect1_eq, View.set_slice]; exact Finset.map_refl

omit [FloatOps F] in
theorem pts_ocB0 (f : Buf (Elt F) (oc0Loc d)) :
    ((ocB0 L).view.loc (V d (cV L) (jV L)) ↦[(ocB0 L).view.set]{fullShare} f : sProp 𝕄) = oc0Loc d ↦[blkSet (cL L) (jL L) 0]{fullShare} f := by rw [set_ocB0]
omit [FloatOps F] in
theorem pts_ocB1 (f : Buf (Elt F) (oc0Loc d)) :
    ((ocB1 L).view.loc (V d (cV L) (jV L)) ↦[(ocB1 L).view.set]{fullShare} f : sProp 𝕄) = oc0Loc d ↦[blkSet (cL L) (jL L) 1]{fullShare} f := by rw [set_ocB1]
omit [FloatOps F] in
theorem pts_onB0 (f : Buf (Elt F) (on0Loc d)) :
    ((onB0 L).view.loc (V d (cV L) (jV L)) ↦[(onB0 L).view.set]{fullShare} f : sProp 𝕄) = on0Loc d ↦[blkSet (cL L) (jL L) 0]{fullShare} f := by rw [set_onB0]
omit [FloatOps F] in
theorem pts_onB1 (f : Buf (Elt F) (on0Loc d)) :
    ((onB1 L).view.loc (V d (cV L) (jV L)) ↦[(onB1 L).view.set]{fullShare} f : sProp 𝕄) = on0Loc d ↦[blkSet (cL L) (jL L) 1]{fullShare} f := by rw [set_onB1]

omit [FloatOps F] in
theorem pts_i0V (q : PosShare TreeShare) (f : Buf (Elt F) (v0Loc d)) : ((i0V).view.loc (V d (cV L) (jV L)) ↦{q} f : sProp 𝕄) = v0Loc d ↦{q} f := rfl
omit [FloatOps F] in
theorem pts_i1V (q : PosShare TreeShare) (f : Buf (Elt F) (v1Loc d)) : ((i1V).view.loc (V d (cV L) (jV L)) ↦{q} f : sProp 𝕄) = v1Loc d ↦{q} f := rfl
omit [FloatOps F] in
theorem pts_ctV (q : PosShare TreeShare) (f : Buf (Elt F) (ctLoc d)) : ((ctV).view.loc (V d (cV L) (jV L)) ↦{q} f : sProp 𝕄) = ctLoc d ↦{q} f := rfl
omit [FloatOps F] in
theorem pts_ntV (q : PosShare TreeShare) (f : Buf (Elt F) (ntLoc d)) : ((ntV).view.loc (V d (cV L) (jV L)) ↦{q} f : sProp 𝕄) = ntLoc d ↦{q} f := rfl

omit [FloatOps F] in
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4V (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s5V (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-- The subcore's [2,128] rows of the two index arrays, as the kernel slices them. -/
abbrev i0Row (L : grid0.Coords) : Memref sig .scVector .hbm S2x128 .i32 :=
  ((i0V).slice (Rect.unit (s := S2x32x2x128) (k0_off1 L) S1x1x2x128.size (k0_off1_inb L)) (fun _ => rfl)).squeeze S2x128 squeezes_S1x1x2x128_S2x128
abbrev i1Row (L : grid0.Coords) : Memref sig .scVector .hbm S2x128 .i32 :=
  ((i1V).slice (Rect.unit (s := S2x32x2x128) (k0_off1 L) S1x1x2x128.size (k0_off1_inb L)) (fun _ => rfl)).squeeze S2x128 squeezes_S1x1x2x128_S2x128

omit [FloatOps F] in
/-- The offsets a gather of the code table reads are in range: a row of the fetched index block holds words of the
    index array, whatever the scratch buffer held before the fetch. -/
theorem offs_inb0 (hr : InRange v0 v1) (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128) :
    ∀ x, (View.read (Elt F) (((s0V).slice (Rect.unit (s := S2x128) row S1x128.size hk) (fun _ => rfl)).squeeze S128 hq).view
        (View.write (Elt F) (s0V).view g0 pay Finset.univ) x).toNat < 4096 := by
  subst hpay; intro x
  rw [View.read_apply, cast_eq]
  have hw : View.write (Elt F) (s0V).view g0 ((i0Row L).view.read (Elt F) (v0 d)) Finset.univ = (i0Row L).view.read (Elt F) (v0 d) :=
    View.write_whole_univ cc0_scratch0 g0 _
  rw [hw, View.read_apply, cast_eq]
  exact (hr d).1 _

omit [FloatOps F] in
/-- The same for the name table's gathers. -/
theorem offs_inb1 (hr : InRange v0 v1) (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128) :
    ∀ x, (View.read (Elt F) (((s1V).slice (Rect.unit (s := S2x128) row S1x128.size hk) (fun _ => rfl)).squeeze S128 hq).view
        (View.write (Elt F) (s1V).view g0 pay Finset.univ) x).toNat < 16384 := by
  subst hpay; intro x
  rw [View.read_apply, cast_eq]
  have hw : View.write (Elt F) (s1V).view g0 ((i1Row L).view.read (Elt F) (v1 d)) Finset.univ = (i1Row L).view.read (Elt F) (v1 d) :=
    View.write_whole_univ cc0_scratch1 g0 _
  rw [hw, View.read_apply, cast_eq]
  exact (hr d).2 _

omit [FloatOps F] in
/-- Dropping a leading unit axis keeps the coordinate. -/
theorem sq_S128 (h : S128.numel = S1x128.numel) (z : S128.Idx) :
    Shape.reshapeEquiv h z = ix2 (0 : Fin 1) (⟨(z 0).val, (z 0).isLt⟩ : Fin 128) :=
  Shape.reshapeEquiv_eq_of_rowMajor h (by
    rw [Shape.rowMajor_val_two, Shape.rowMajor_val_one]
    show 0 * 128 + (z 0).val = (z 0).val
    omega)

omit [FloatOps F] in
/-- Dropping two leading unit axes keeps both coordinates. -/
theorem sq_S2x128 (h : S2x128.numel = S1x1x2x128.numel) (w : S2x128.Idx) :
    Shape.reshapeEquiv h w = ix4 (0 : Fin 1) (0 : Fin 1) (⟨(w 0).val, (w 0).isLt⟩ : Fin 2) (⟨(w 1).val, (w 1).isLt⟩ : Fin 128) :=
  Shape.reshapeEquiv_eq_of_rowMajor h (by
    rw [Shape.rowMajor_val_four, Shape.rowMajor_val_two]
    show ((0 * 1 + 0) * 2 + (w 0).val) * 128 + (w 1).val = (w 0).val * 128 + (w 1).val
    omega)

omit [FloatOps F] in
/-- Element w of a subcore's block of index array 0 is element (0, 2 i + c, w) of the array. -/
theorem i0Row_emb (w : S2x128.Idx) :
    (i0Row L).view.emb w = ix4 (0 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k0_off1 L) S1x1x2x128.size (k0_off1_inb L)).emb (Shape.reshapeEquiv _ w) = _
  rw [sq_S2x128]
  funext a; apply Fin.ext
  rw [Rect.emb_apply]
  simp only [Rect.off_unit, Rect.stride_unit, k0_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow0_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s0V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element w of a subcore's block of index array 1 is element (0, 2 i + c, w) of the array. -/
theorem i1Row_emb (w : S2x128.Idx) :
    (i1Row L).view.emb w = ix4 (0 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k0_off1 L) S1x1x2x128.size (k0_off1_inb L)).emb (Shape.reshapeEquiv _ w) = _
  rw [sq_S2x128]
  funext a; apply Fin.ext
  rw [Rect.emb_apply]
  simp only [Rect.off_unit, Rect.stride_unit, k0_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow1_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s1V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element z of list row ρ of the block fetched from index array 0 is element (0, 2 i + c, ρ, z) of the array. -/
theorem list_word0 (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s0V).slice (Rect.unit (s := S2x128) row S1x128.size hk) (fun _ => rfl)).squeeze S128 hq).view
        (View.write (Elt F) (s0V).view g0 pay Finset.univ) z
      = v0 d (ix4 (0 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s0V).view g0 ((i0Row L).view.read (Elt F) (v0 d)) Finset.univ = (i0Row L).view.read (Elt F) (v0 d) :=
    View.write_whole_univ cc0_scratch0 g0 _
  rw [hw, View.read_apply, cast_eq, sRow0_emb row hk hq ρ hrow, i0Row_emb]

omit [FloatOps F] in
/-- What a gather of the code table delivers, read at (y₀, y₁), when word z of its offset list is entry (0, 2 i + c, ρ, z) of
    the index array: the table's row that entry names, which is row 512 i + 256 c + 128 ρ + y₀ of the call's result. -/
theorem gath_val0 (hr : InRange v0 v1) (idx : S128.Idx → Elt F .i32) (ρ : Fin 2)
    (hidx : ∀ z, idx z = v0 d (ix4 (0 : Fin 2) (⟨2 * (jL L).val + (cL L).val, by have := (jL L).isLt; have := (cL L).isLt; omega⟩ : Fin 32) ρ (⟨(z 0).val, (z 0).isLt⟩ : Fin 128)))
    (hn : S128.numel = S128x128.size gathers_S4096x128_S128x128.axis')
    (hin : ∀ x, (idx x).toNat < S4096x128.size gathers_S4096x128_S128x128.axis) (y : S128x128.Idx) :
    SparseCore.gatherPayload gathers_S4096x128_S128x128
        (View.read (Elt F) ((ctV).slice (Rect.unit (s := S4096x128) ![0, 0] S4096x128.size inb_S4096x128_S4096x128_0_0) (fun _ => rfl)).view (ct d))
        (SparseCore.rows idx hn hin) y
      = outC ct v0 d 0 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show ct d _ = ct d _
  congr 1
  funext a; apply Fin.ext
  match a with
  | 0 =>
    show (0 + 1 * (Shape.Gathers.idx gathers_S4096x128_S128x128 (SparseCore.rows idx hn hin) y (0 : Fin 2)).val : Nat) = min _ _
    rw [show Shape.Gathers.idx gathers_S4096x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (0 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).1 (ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 4096) (by decide) _ hlt
    show 0 + 1 * _ = min _ (4096 - 1)
    rw [hcl]; omega
  | 1 =>
    show (0 + 1 * (Shape.Gathers.idx gathers_S4096x128_S128x128 (SparseCore.rows idx hn hin) y (1 : Fin 2)).val : Nat) = (y 1).val
    rw [Shape.Gathers.idx_of_ne gathers_S4096x128_S128x128 (SparseCore.rows idx hn hin) y (1 : Fin 2) (by decide)]
    show 0 + 1 * (y 1).val = (y 1).val
    omega

omit [FloatOps F] in
/-- Element z of list row ρ of the block fetched from index array 1 is element (0, 2 i + c, ρ, z) of the array. -/
theorem list_word1 (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s1V).slice (Rect.unit (s := S2x128) row S1x128.size hk) (fun _ => rfl)).squeeze S128 hq).view
        (View.write (Elt F) (s1V).view g0 pay Finset.univ) z
      = v1 d (ix4 (0 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s1V).view g0 ((i1Row L).view.read (Elt F) (v1 d)) Finset.univ = (i1Row L).view.read (Elt F) (v1 d) :=
    View.write_whole_univ cc0_scratch1 g0 _
  rw [hw, View.read_apply, cast_eq, sRow1_emb row hk hq ρ hrow, i1Row_emb]

omit [FloatOps F] in
/-- What a gather of the name table delivers, read at (y₀, y₁), when word z of its offset list is entry (0, 2 i + c, ρ, z) of
    the index array: the table's row that entry names, which is row 512 i + 256 c + 128 ρ + y₀ of the call's result. -/
theorem gath_val1 (hr : InRange v0 v1) (idx : S128.Idx → Elt F .i32) (ρ : Fin 2)
    (hidx : ∀ z, idx z = v1 d (ix4 (0 : Fin 2) (⟨2 * (jL L).val + (cL L).val, by have := (jL L).isLt; have := (cL L).isLt; omega⟩ : Fin 32) ρ (⟨(z 0).val, (z 0).isLt⟩ : Fin 128)))
    (hn : S128.numel = S128x128.size gathers_S16384x128_S128x128.axis')
    (hin : ∀ x, (idx x).toNat < S16384x128.size gathers_S16384x128_S128x128.axis) (y : S128x128.Idx) :
    SparseCore.gatherPayload gathers_S16384x128_S128x128
        (View.read (Elt F) ((ntV).slice (Rect.unit (s := S16384x128) ![0, 0] S16384x128.size inb_S16384x128_S16384x128_0_0) (fun _ => rfl)).view (nt d))
        (SparseCore.rows idx hn hin) y
      = outN nt v1 d 0 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show nt d _ = nt d _
  congr 1
  funext a; apply Fin.ext
  match a with
  | 0 =>
    show (0 + 1 * (Shape.Gathers.idx gathers_S16384x128_S128x128 (SparseCore.rows idx hn hin) y (0 : Fin 2)).val : Nat) = min _ _
    rw [show Shape.Gathers.idx gathers_S16384x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (0 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).2 (ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 16384) (by decide) _ hlt
    show 0 + 1 * _ = min _ (16384 - 1)
    rw [hcl]; omega
  | 1 =>
    show (0 + 1 * (Shape.Gathers.idx gathers_S16384x128_S128x128 (SparseCore.rows idx hn hin) y (1 : Fin 2)).val : Nat) = (y 1).val
    rw [Shape.Gathers.idx_of_ne gathers_S16384x128_S128x128 (SparseCore.rows idx hn hin) y (1 : Fin 2) (by decide)]
    show 0 + 1 * (y 1).val = (y 1).val
    omega

omit [FloatOps F] in
/-- Element y of block ρ of a result, as the kernel slices it, is element (512 i + 256 c + 128 ρ + y₀, y₁) of the result. -/
theorem oB_emb (ρ : Fin 2) (y : S128x128.Idx) :
    (Rect.unit (s := S8192x128) (k0_off2 L (BitVec.ofNat 32 (128 * ρ.val))) S128x128.size (k0_off2_inb L ρ)).emb y
      = ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128) := by
  funext a; apply Fin.ext
  rw [Rect.emb_apply]
  simp only [Rect.off_unit, Rect.stride_unit, k0_off2_eq]
  match a with
  | 0 => show 512 * (L 1).val + 256 * (L 0).val + 128 * ρ.val + 1 * (y 0).val = 512 * (L 1).val + 256 * (L 0).val + 128 * ρ.val + (y 0).val; omega
  | 1 => show 0 + 1 * (y 1).val = (y 1).val; omega

set_option maxHeartbeats 4000000 in
set_option maxRecDepth 16384 in
theorem tile_body (hF : (K (F := F)).Facts) (hr : InRange v0 v1) (O : CellTallies nD τ sig (HIx 2)) (W : Waits sig (HIx 2)) (hO : ∀ g, O g none = 0) :
    iprop(levAts (K (F := F)).L (K (F := F)).lev ∗ emp
        ∗ tileGo0 ct nt v0 v1 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc0_scratch6 cc0_scratch7 cc0_scratch8 cc0_scratch9 cc0_scratch10 cc0_scratch11 cc0_scratch12 cc0_scratch13 cc0_scoped0 cc0_scoped1)
          fun _ => iprop(tileTd0 ct nt v0 v1 d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨⟨Hv0, Hv1, Hct, Hnt⟩, ⟨⟨%fc0, Hoc0⟩, ⟨%fc1, Hoc1⟩⟩, ⟨⟨%fn0, Hon0⟩, ⟨%fn1, Hon1⟩⟩⟩, ⟨⟨%f0, Hs0⟩, ⟨%f1, Hs1⟩, ⟨%f2, Hs2⟩, ⟨%f3, Hs3⟩, ⟨%f4, Hs4⟩, ⟨%f5, Hs5⟩, Hbufs⟩, ⟨Hm6, Hm7, Hm8, Hm9, Hm10, Hm11, Hm12, Hm13, HmA, HmB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hv0' := (Entails.of_eq (pts_i0V (F := F) d L _ _).symm) $$ Hv0
  ihave Hv1' := (Entails.of_eq (pts_i1V (F := F) d L _ _).symm) $$ Hv1
  -- two gathers read each table at once: a half of the subcore's read share for each
  ihave Hct2 := (pointsTo_share (PosShare.mem_left_op_right (qT (cL L) (jL L)))).1 $$ Hct
  icases Hct2 with ⟨HctA, HctB⟩
  ihave Hnt2 := (pointsTo_share (PosShare.mem_left_op_right (qT (cL L) (jL L)))).1 $$ Hnt
  icases Hnt2 with ⟨HntA, HntB⟩
  ihave HctA' := (Entails.of_eq (pts_ctV (F := F) d L _ _).symm) $$ HctA
  ihave HctB' := (Entails.of_eq (pts_ctV (F := F) d L _ _).symm) $$ HctB
  ihave HntA' := (Entails.of_eq (pts_ntV (F := F) d L _ _).symm) $$ HntA
  ihave HntB' := (Entails.of_eq (pts_ntV (F := F) d L _ _).symm) $$ HntB
  ihave Hoc0' := (Entails.of_eq (pts_ocB0 (F := F) d L _).symm) $$ Hoc0
  ihave Hoc1' := (Entails.of_eq (pts_ocB1 (F := F) d L _).symm) $$ Hoc1
  ihave Hon0' := (Entails.of_eq (pts_onB0 (F := F) d L _).symm) $$ Hon0
  ihave Hon1' := (Entails.of_eq (pts_onB1 (F := F) d L _).symm) $$ Hon1
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hs4' := (Entails.of_eq (pts_s4V (F := F) d L _).symm) $$ Hs4
  ihave Hs5' := (Entails.of_eq (pts_s5V (F := F) d L _).symm) $$ Hs5
  -- the two index fetches and their waits
  sl_exec
  -- the offsets of the four gathers are in range, whatever the index scratch held before its fetch
  have hA0 := fun g => offs_inb0 (F := F) v0 v1 d L hr g (tile_body.sl.dma0 v0 d L) rfl ![0, 0] inb_S2x128_S1x128_0_0 squeezes_S1x128_S128
  have hA1 := fun g => offs_inb0 (F := F) v0 v1 d L hr g (tile_body.sl.dma0 v0 d L) rfl ![1, 0] inb_S2x128_S1x128_1_0 squeezes_S1x128_S128
  have hB0 := fun g => offs_inb1 (F := F) v0 v1 d L hr g (tile_body.sl.dma0_1 v1 d L) rfl ![0, 0] inb_S2x128_S1x128_0_0 squeezes_S1x128_S128
  have hB1 := fun g => offs_inb1 (F := F) v0 v1 d L hr g (tile_body.sl.dma0_1 v1 d L) rfl ![1, 0] inb_S2x128_S1x128_1_0 squeezes_S1x128_S128
  -- the gathers, their waits, the copies out and their waits
  sl_exec
  -- what the four blocks hold: the gathered rows
  have ec0 : ∀ x ∈ (ocB0 L).view.set, ((ocB0 L).view.writes (Elt F) fc0 [⟨Rect.whole S128x128, tile_body.sl.dma0_2 ct v0 d L f0 f2 hA0⟩]) x = outC ct v0 d 0 x := by
    intro x hx
    obtain ⟨y, -, rfl⟩ := Finset.mem_map.mp hx
    have h1 := congrFun (View.read_writes_whole (Val := Elt F) (ocB0 L).view fc0 (tile_body.sl.dma0_2 ct v0 d L f0 f2 hA0)) y
    rw [View.read_apply, cast_eq] at h1
    rw [h1]
    have h2 : tile_body.sl.dma0_2 ct v0 d L f0 f2 hA0 = tile_body.sl.gather0 ct v0 d L f0 hA0 :=
      View.read_writes_whole (Val := Elt F) (s2V).view f2 _
    rw [h2]
    exact (gath_val0 (F := F) ct v0 v1 d L hr _ 0 (fun z => list_word0 (F := F) v0 d L f0 (tile_body.sl.dma0 v0 d L) rfl ![0, 0] inb_S2x128_S1x128_0_0 squeezes_S1x128_S128 0 rfl z) _ (hA0 f0) y).trans
      (congrArg (outC ct v0 d 0) (oB_emb L 0 y).symm)
  have ec1 : ∀ x ∈ (ocB1 L).view.set, ((ocB1 L).view.writes (Elt F) fc1 [⟨Rect.whole S128x128, tile_body.sl.dma0_3 ct v0 d L f0 f3 hA1⟩]) x = outC ct v0 d 0 x := by
    intro x hx
    obtain ⟨y, -, rfl⟩ := Finset.mem_map.mp hx
    have h1 := congrFun (View.read_writes_whole (Val := Elt F) (ocB1 L).view fc1 (tile_body.sl.dma0_3 ct v0 d L f0 f3 hA1)) y
    rw [View.read_apply, cast_eq] at h1
    rw [h1]
    have h2 : tile_body.sl.dma0_3 ct v0 d L f0 f3 hA1 = tile_body.sl.gather1 ct v0 d L f0 hA1 :=
      View.read_writes_whole (Val := Elt F) (s3V).view f3 _
    rw [h2]
    exact (gath_val0 (F := F) ct v0 v1 d L hr _ 1 (fun z => list_word0 (F := F) v0 d L f0 (tile_body.sl.dma0 v0 d L) rfl ![1, 0] inb_S2x128_S1x128_1_0 squeezes_S1x128_S128 1 rfl z) _ (hA1 f0) y).trans
      (congrArg (outC ct v0 d 0) (oB_emb L 1 y).symm)
  have en0 : ∀ x ∈ (onB0 L).view.set, ((onB0 L).view.writes (Elt F) fn0 [⟨Rect.whole S128x128, tile_body.sl.dma0_4 nt v1 d L f1 f4 hB0⟩]) x = outN nt v1 d 0 x := by
    intro x hx
    obtain ⟨y, -, rfl⟩ := Finset.mem_map.mp hx
    have h1 := congrFun (View.read_writes_whole (Val := Elt F) (onB0 L).view fn0 (tile_body.sl.dma0_4 nt v1 d L f1 f4 hB0)) y
    rw [View.read_apply, cast_eq] at h1
    rw [h1]
    have h2 : tile_body.sl.dma0_4 nt v1 d L f1 f4 hB0 = tile_body.sl.gather2 nt v1 d L f1 hB0 :=
      View.read_writes_whole (Val := Elt F) (s4V).view f4 _
    rw [h2]
    exact (gath_val1 (F := F) nt v0 v1 d L hr _ 0 (fun z => list_word1 (F := F) v1 d L f1 (tile_body.sl.dma0_1 v1 d L) rfl ![0, 0] inb_S2x128_S1x128_0_0 squeezes_S1x128_S128 0 rfl z) _ (hB0 f1) y).trans
      (congrArg (outN nt v1 d 0) (oB_emb L 0 y).symm)
  have en1 : ∀ x ∈ (onB1 L).view.set, ((onB1 L).view.writes (Elt F) fn1 [⟨Rect.whole S128x128, tile_body.sl.dma0_5 nt v1 d L f1 f5 hB1⟩]) x = outN nt v1 d 0 x := by
    intro x hx
    obtain ⟨y, -, rfl⟩ := Finset.mem_map.mp hx
    have h1 := congrFun (View.read_writes_whole (Val := Elt F) (onB1 L).view fn1 (tile_body.sl.dma0_5 nt v1 d L f1 f5 hB1)) y
    rw [View.read_apply, cast_eq] at h1
    rw [h1]
    have h2 : tile_body.sl.dma0_5 nt v1 d L f1 f5 hB1 = tile_body.sl.gather3 nt v1 d L f1 hB1 :=
      View.read_writes_whole (Val := Elt F) (s5V).view f5 _
    rw [h2]
    exact (gath_val1 (F := F) nt v0 v1 d L hr _ 1 (fun z => list_word1 (F := F) v1 d L f1 (tile_body.sl.dma0_1 v1 d L) rfl ![1, 0] inb_S2x128_S1x128_1_0 squeezes_S1x128_S128 1 rfl z) _ (hB1 f1) y).trans
      (congrArg (outN nt v1 d 0) (oB_emb L 1 y).symm)
  ihave Hoc0 := (Entails.of_eq ((pointsTo_congr ec0).trans (pts_ocB0 (F := F) d L _))) $$ Hoc0'
  ihave Hoc1 := (Entails.of_eq ((pointsTo_congr ec1).trans (pts_ocB1 (F := F) d L _))) $$ Hoc1'
  ihave Hon0 := (Entails.of_eq ((pointsTo_congr en0).trans (pts_onB0 (F := F) d L _))) $$ Hon0'
  ihave Hon1 := (Entails.of_eq ((pointsTo_congr en1).trans (pts_onB1 (F := F) d L _))) $$ Hon1'
  ihave HctA := (Entails.of_eq (pts_ctV (F := F) d L _ _)) $$ HctA'
  ihave HctB := (Entails.of_eq (pts_ctV (F := F) d L _ _)) $$ HctB'
  ihave Hct := (pointsTo_share (PosShare.mem_left_op_right (qT (cL L) (jL L)))).2 $$ [HctA HctB]; · isplitl [HctA] <;> iassumption
  ihave HntA := (Entails.of_eq (pts_ntV (F := F) d L _ _)) $$ HntA'
  ihave HntB := (Entails.of_eq (pts_ntV (F := F) d L _ _)) $$ HntB'
  ihave Hnt := (pointsTo_share (PosShare.mem_left_op_right (qT (cL L) (jL L)))).2 $$ [HntA HntB]; · isplitl [HntA] <;> iassumption
  ihave Hv0 := (Entails.of_eq (pts_i0V (F := F) d L _ _)) $$ Hv0'
  ihave Hv1 := (Entails.of_eq (pts_i1V (F := F) d L _ _)) $$ Hv1'
  ihave Hs0 := (Entails.of_eq (pts_s0V (F := F) d L _)) $$ Hs0'
  ihave Hs1 := (Entails.of_eq (pts_s1V (F := F) d L _)) $$ Hs1'
  ihave Hs2 := (Entails.of_eq (pts_s2V (F := F) d L _)) $$ Hs2'
  ihave Hs3 := (Entails.of_eq (pts_s3V (F := F) d L _)) $$ Hs3'
  ihave Hs4 := (Entails.of_eq (pts_s4V (F := F) d L _)) $$ Hs4'
  ihave Hs5 := (Entails.of_eq (pts_s5V (F := F) d L _)) $$ Hs5'
  sl_step
  isplitl [Hv0 Hv1 Hct Hnt Hoc0 Hoc1 Hon0 Hon1]
  · isplitl [Hv0 Hv1 Hct Hnt]
    · isplitl [Hv0]; · iexact Hv0
      isplitl [Hv1]; · iexact Hv1
      isplitl [Hct] <;> iassumption
    isplitl [Hoc0 Hoc1]
    · isplitl [Hoc0] <;> iassumption
    · isplitl [Hon0] <;> iassumption
  isplitl [Hs0 Hs1 Hs2 Hs3 Hs4 Hs5 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hm6 Hm7 Hm8 Hm9 Hm10 Hm11 Hm12 Hm13 HmA HmB Hsems]
  · isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [HmA]; · iexact HmA
    isplitl [HmB]; · iexact HmB
    iexact Hsems
  iexists _; isplitr
  swap; · iexact HO
  ipureintro; intro p hp
  simp only [Finset.mem_insert] at hp
  rcases hp with h | h | h | h | h | h | h | h | h | h | h
  all_goals first | exact .inl h | exact .inr (h ▸ rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s) i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore at call 0. -/
theorem tileObl0 (hF : (K (F := F)).Facts) (hr : InRange v0 v1) : (K (F := F)).TileObl (D (F := F)) 𝒱 (P ct nt v0 v1) v₀ 0 := by
  intro d c i O W hO _ _
  simp only [show (P ct nt v0 v1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct nt v0 v1 d (coordsV ⟨_, hci.1⟩ ⟨_, hci.2⟩) hF hr O W hO).trans (wp_mono frame _ _ fun _ => obl_post)

end Tile0

export Tile0 (tileObl0)

end Cert.KernelIdeal.ScSide

end
-- ==== Proof.ScTile1.lean ====
/-
  The vector subcore's kernel of a row-gather call, run once at a symbolic subcore: it fetches its two rows of each index
  array, gathers the rows of the two tables they name into its scratch buffers, copies those out to its blocks of the two
  results, and ends with every semaphore at zero. The blocks end at the gathered rows, as pure terms of the tables and
  the index arrays.
-/
import proofs.«204006_g8589934699_cont_9to1c4b_872_29_alg».proof.Proof.ScPay

noncomputable section

namespace Cert.KernelIdeal.ScSide

open Cert.KernelIdeal Cert.KernelIdeal.Gen Cert.KernelIdeal.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

namespace Tile1

local notation "i0V" => (Memref.whole Cert.KernelIdeal.main_v0_scv : Memref Cert.KernelIdeal.sig Kind.scVector Space.hbm Cert.KernelIdeal.S2x32x2x128 EltTy.i32)
local notation "i1V" => (Memref.whole Cert.KernelIdeal.main_v1_scv : Memref Cert.KernelIdeal.sig Kind.scVector Space.hbm Cert.KernelIdeal.S2x32x2x128 EltTy.i32)
local notation "ctV" => (Memref.whole Cert.KernelIdeal.main_arg3_scv : Memref Cert.KernelIdeal.sig Kind.scVector Space.hbm Cert.KernelIdeal.S4096x128 EltTy.f32)
local notation "ntV" => (Memref.whole Cert.KernelIdeal.main_arg4_scv : Memref Cert.KernelIdeal.sig Kind.scVector Space.hbm Cert.KernelIdeal.S16384x128 EltTy.f32)
local notation "ocV" => (Memref.whole Cert.KernelIdeal.main_v7_0_scv : Memref Cert.KernelIdeal.sig Kind.scVector Space.hbm Cert.KernelIdeal.S8192x128 EltTy.f32)
local notation "onV" => (Memref.whole Cert.KernelIdeal.main_v7_1_scv : Memref Cert.KernelIdeal.sig Kind.scVector Space.hbm Cert.KernelIdeal.S8192x128 EltTy.f32)
local notation "s0V" => (Memref.whole Cert.KernelIdeal.cc1_scratch0 : Memref Cert.KernelIdeal.sig Kind.scVector Space.vmem Cert.KernelIdeal.S2x128 EltTy.i32)
local notation "s1V" => (Memref.whole Cert.KernelIdeal.cc1_scratch1 : Memref Cert.KernelIdeal.sig Kind.scVector Space.vmem Cert.KernelIdeal.S2x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S128x128 EltTy.f32)
local notation "s5V" => (Memref.whole Cert.KernelIdeal.cc1_scratch5 : Memref Cert.KernelIdeal.sig Kind.scVector Space.vmem Cert.KernelIdeal.S128x128 EltTy.f32)

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

theorem cell_ne {thr : Thread nD τ} {a b : SemLoc sig} (h : a ≠ b) : ((thr, a) : GSem nD τ sig) ≠ (thr, b) :=
  fun e => h (Prod.ext_iff.mp e).2

set_option maxRecDepth 8192 in
/-- A vector subcore's own semaphores at zero: the ten its kernel uses, and the rest. -/
theorem ownSems0_V :
    (ownSems0 (V d (cV L) (jV L)) : sProp 𝕄)
      = iprop(semVal (((V d (cV L) (jV L)), SemLoc.dma cc1_scratch6.sem) : GSem nD τ sig) 0
          ∗ semVal (((V d (cV L) (jV L)), SemLoc.dma cc1_scratch7.sem) : GSem nD τ sig) 0
          ∗ semVal (((V d (cV L) (jV L)), SemLoc.dma cc1_scratch8.sem) : GSem nD τ sig) 0
          ∗ semVal (((V d (cV L) (jV L)), SemLoc.dma cc1_scratch9.sem) : GSem nD τ sig) 0
          ∗ semVal (((V d (cV L) (jV L)), SemLoc.dma cc1_scratch10.sem) : GSem nD τ sig) 0
          ∗ semVal (((V d (cV L) (jV L)), SemLoc.dma cc1_scratch11.sem) : GSem nD τ sig) 0
          ∗ semVal (((V d (cV L) (jV L)), SemLoc.dma cc1_scratch12.sem) : GSem nD τ sig) 0
          ∗ semVal (((V d (cV L) (jV L)), SemLoc.dma cc1_scratch13.sem) : GSem nD τ sig) 0
          ∗ semVal (((V d (cV L) (jV L)), SemLoc.dma cc1_scoped0.sem) : GSem nD τ sig) 0
          ∗ semVal (((V d (cV L) (jV L)), SemLoc.dma cc1_scoped1.sem) : GSem nD τ sig) 0
          ∗ bigSep (((((((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scratch10.sem) : GSem nD τ sig)).erase (((V d (cV L) (jV L)), SemLoc.dma cc1_scratch11.sem) : GSem nD τ sig)).erase (((V d (cV L) (jV L)), SemLoc.dma cc1_scratch12.sem) : GSem nD τ sig)).erase (((V d (cV L) (jV L)), SemLoc.dma cc1_scratch13.sem) : GSem nD τ sig)).erase (((V d (cV L) (jV L)), SemLoc.dma cc1_scoped0.sem) : GSem nD τ sig)).erase (((V d (cV L) (jV L)), SemLoc.dma cc1_scoped1.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨cell_ne (by decide), (mem_ownCells (g := (((V d (cV L) (jV L)), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨cell_ne (by decide), Finset.mem_erase.mpr ⟨cell_ne (by decide), (mem_ownCells (g := (((V d (cV L) (jV L)), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (((V d (cV L) (jV L)), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch10.sem) : GSem nD τ sig))).mpr ⟨rfl, by show (SemLoc.dma cc1_scratch10.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch11.sem) : GSem nD τ sig))).mpr ⟨rfl, by show (SemLoc.dma cc1_scratch11.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch12.sem) : GSem nD τ sig))).mpr ⟨rfl, by show (SemLoc.dma cc1_scratch12.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch13.sem) : GSem nD τ sig))).mpr ⟨rfl, by show (SemLoc.dma cc1_scratch13.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩⟩⟩⟩⟩)]

set_option maxRecDepth 8192 in
/-- Its own buffers: the six scratch buffers of the kernel, at some contents, and the rest. -/
theorem ownBufs_V :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

variable [FloatOps F]

theorem unit_congr {s : Shape} {off off' sz : Fin s.rank → Nat} {inb : ∀ a, off a + sz a ≤ s.size a} {inb' : ∀ a, off' a + sz a ≤ s.size a}
    (h : off = off') : Rect.unit (s := s) off sz inb = Rect.unit (s := s) off' sz inb' := by subst h; rfl

/-- The blocks of the two results as the kernel slices them. -/
abbrev ocB0 (L : grid1.Coords) : Memref sig .scVector .hbm S128x128 .f32 := (ocV).slice (Rect.unit (s := S8192x128) (k1_off2 L 0#32) S128x128.size (k1_off2_inb L 0)) (fun _ => rfl)
abbrev ocB1 (L : grid1.Coords) : Memref sig .scVector .hbm S128x128 .f32 := (ocV).slice (Rect.unit (s := S8192x128) (k1_off2 L 128#32) S128x128.size (k1_off2_inb L 1)) (fun _ => rfl)
abbrev onB0 (L : grid1.Coords) : Memref sig .scVector .hbm S128x128 .f32 := (onV).slice (Rect.unit (s := S8192x128) (k1_off2 L 0#32) S128x128.size (k1_off2_inb L 0)) (fun _ => rfl)
abbrev onB1 (L : grid1.Coords) : Memref sig .scVector .hbm S128x128 .f32 := (onV).slice (Rect.unit (s := S8192x128) (k1_off2 L 128#32) S128x128.size (k1_off2_inb L 1)) (fun _ => rfl)

omit [FloatOps F] in
theorem rect0_eq : Rect.unit (s := S8192x128) (k1_off2 L 0#32) S128x128.size (k1_off2_inb L 0) = blk (cL L) (jL L) 0 :=
  unit_congr (k1_off2_eq L 0)
omit [FloatOps F] in
theorem rect1_eq : Rect.unit (s := S8192x128) (k1_off2 L 128#32) S128x128.size (k1_off2_inb L 1) = blk (cL L) (jL L) 1 :=
  unit_congr (k1_off2_eq L 1)

omit [FloatOps F] in
theorem set_ocB0 : (ocB0 L).view.set = blkSet (cL L) (jL L) 0 := by
  show ((ocV).view.slice (Rect.unit (s := S8192x128) (k1_off2 L 0#32) S128x128.size (k1_off2_inb L 0))).set = _
  rw [rect0_eq, View.set_slice]; exact Finset.map_refl
omit [FloatOps F] in
theorem set_ocB1 : (ocB1 L).view.set = blkSet (cL L) (jL L) 1 := by
  show ((ocV).view.slice (Rect.unit (s := S8192x128) (k1_off2 L 128#32) S128x128.size (k1_off2_inb L 1))).set = _
  rw [rect1_eq, View.set_slice]; exact Finset.map_refl
omit [FloatOps F] in
theorem set_onB0 : (onB0 L).view.set = blkSet (cL L) (jL L) 0 := by
  show ((onV).view.slice (Rect.unit (s := S8192x128) (k1_off2 L 0#32) S128x128.size (k1_off2_inb L 0))).set = _
  rw [rect0_eq, View.set_slice]; exact Finset.map_refl
omit [FloatOps F] in
theorem set_onB1 : (onB1 L).view.set = blkSet (cL L) (jL L) 1 := by
  show ((onV).view.slice (Rect.unit (s := S8192x128) (k1_off2 L 128#32) S128x128.size (k1_off2_inb L 1))).set = _
  rw [rect1_eq, View.set_slice]; exact Finset.map_refl

omit [FloatOps F] in
theorem pts_ocB0 (f : Buf (Elt F) (oc1Loc d)) :
    ((ocB0 L).view.loc (V d (cV L) (jV L)) ↦[(ocB0 L).view.set]{fullShare} f : sProp 𝕄) = oc1Loc d ↦[blkSet (cL L) (jL L) 0]{fullShare} f := by rw [set_ocB0]
omit [FloatOps F] in
theorem pts_ocB1 (f : Buf (Elt F) (oc1Loc d)) :
    ((ocB1 L).view.loc (V d (cV L) (jV L)) ↦[(ocB1 L).view.set]{fullShare} f : sProp 𝕄) = oc1Loc d ↦[blkSet (cL L) (jL L) 1]{fullShare} f := by rw [set_ocB1]
omit [FloatOps F] in
theorem pts_onB0 (f : Buf (Elt F) (on1Loc d)) :
    ((onB0 L).view.loc (V d (cV L) (jV L)) ↦[(onB0 L).view.set]{fullShare} f : sProp 𝕄) = on1Loc d ↦[blkSet (cL L) (jL L) 0]{fullShare} f := by rw [set_onB0]
omit [FloatOps F] in
theorem pts_onB1 (f : Buf (Elt F) (on1Loc d)) :
    ((onB1 L).view.loc (V d (cV L) (jV L)) ↦[(onB1 L).view.set]{fullShare} f : sProp 𝕄) = on1Loc d ↦[blkSet (cL L) (jL L) 1]{fullShare} f := by rw [set_onB1]

omit [FloatOps F] in
theorem pts_i0V (q : PosShare TreeShare) (f : Buf (Elt F) (v0Loc d)) : ((i0V).view.loc (V d (cV L) (jV L)) ↦{q} f : sProp 𝕄) = v0Loc d ↦{q} f := rfl
omit [FloatOps F] in
theorem pts_i1V (q : PosShare TreeShare) (f : Buf (Elt F) (v1Loc d)) : ((i1V).view.loc (V d (cV L) (jV L)) ↦{q} f : sProp 𝕄) = v1Loc d ↦{q} f := rfl
omit [FloatOps F] in
theorem pts_ctV (q : PosShare TreeShare) (f : Buf (Elt F) (ctLoc d)) : ((ctV).view.loc (V d (cV L) (jV L)) ↦{q} f : sProp 𝕄) = ctLoc d ↦{q} f := rfl
omit [FloatOps F] in
theorem pts_ntV (q : PosShare TreeShare) (f : Buf (Elt F) (ntLoc d)) : ((ntV).view.loc (V d (cV L) (jV L)) ↦{q} f : sProp 𝕄) = ntLoc d ↦{q} f := rfl

omit [FloatOps F] in
theorem pts_s0V (f : Buf (Elt F) ((V d (cV L) (jV L)).loc cc1_scratch0)) :
    ((s0V).view.loc (V d (cV L) (jV L)) ↦{fullShare} f : sProp 𝕄) = (V d (cV L) (jV L)).loc cc1_scratch0 ↦{fullShare} f := rfl
omit [FloatOps F] in
theorem pts_s1V (f : Buf (Elt F) ((V d (cV L) (jV L)).loc cc1_scratch1)) :
    ((s1V).view.loc (V d (cV L) (jV L)) ↦{fullShare} f : sProp 𝕄) = (V d (cV L) (jV L)).loc cc1_scratch1 ↦{fullShare} f := rfl
omit [FloatOps F] in
theorem pts_s2V (f : Buf (Elt F) ((V d (cV L) (jV L)).loc cc1_scratch2)) :
    ((s2V).view.loc (V d (cV L) (jV L)) ↦{fullShare} f : sProp 𝕄) = (V d (cV L) (jV L)).loc cc1_scratch2 ↦{fullShare} f := rfl
omit [FloatOps F] in
theorem pts_s3V (f : Buf (Elt F) ((V d (cV L) (jV L)).loc cc1_scratch3)) :
    ((s3V).view.loc (V d (cV L) (jV L)) ↦{fullShare} f : sProp 𝕄) = (V d (cV L) (jV L)).loc cc1_scratch3 ↦{fullShare} f := rfl
omit [FloatOps F] in
theorem pts_s4V (f : Buf (Elt F) ((V d (cV L) (jV L)).loc cc1_scratch4)) :
    ((s4V).view.loc (V d (cV L) (jV L)) ↦{fullShare} f : sProp 𝕄) = (V d (cV L) (jV L)).loc cc1_scratch4 ↦{fullShare} f := rfl
omit [FloatOps F] in
theorem pts_s5V (f : Buf (Elt F) ((V d (cV L) (jV L)).loc cc1_scratch5)) :
    ((s5V).view.loc (V d (cV L) (jV L)) ↦{fullShare} f : sProp 𝕄) = (V d (cV L) (jV L)).loc cc1_scratch5 ↦{fullShare} f := rfl

/-- The subcore's [2,128] rows of the two index arrays, as the kernel slices them. -/
abbrev i0Row (L : grid1.Coords) : Memref sig .scVector .hbm S2x128 .i32 :=
  ((i0V).slice (Rect.unit (s := S2x32x2x128) (k1_off1 L) S1x1x2x128.size (k1_off1_inb L)) (fun _ => rfl)).squeeze S2x128 squeezes_S1x1x2x128_S2x128
abbrev i1Row (L : grid1.Coords) : Memref sig .scVector .hbm S2x128 .i32 :=
  ((i1V).slice (Rect.unit (s := S2x32x2x128) (k1_off1 L) S1x1x2x128.size (k1_off1_inb L)) (fun _ => rfl)).squeeze S2x128 squeezes_S1x1x2x128_S2x128

omit [FloatOps F] in
/-- The offsets a gather of the code table reads are in range: a row of the fetched index block holds words of the
    index array, whatever the scratch buffer held before the fetch. -/
theorem offs_inb0 (hr : InRange v0 v1) (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128) :
    ∀ x, (View.read (Elt F) (((s0V).slice (Rect.unit (s := S2x128) row S1x128.size hk) (fun _ => rfl)).squeeze S128 hq).view
        (View.write (Elt F) (s0V).view g0 pay Finset.univ) x).toNat < 4096 := by
  subst hpay; intro x
  rw [View.read_apply, cast_eq]
  have hw : View.write (Elt F) (s0V).view g0 ((i0Row L).view.read (Elt F) (v0 d)) Finset.univ = (i0Row L).view.read (Elt F) (v0 d) :=
    View.write_whole_univ cc1_scratch0 g0 _
  rw [hw, View.read_apply, cast_eq]
  exact (hr d).1 _

omit [FloatOps F] in
/-- The same for the name table's gathers. -/
theorem offs_inb1 (hr : InRange v0 v1) (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128) :
    ∀ x, (View.read (Elt F) (((s1V).slice (Rect.unit (s := S2x128) row S1x128.size hk) (fun _ => rfl)).squeeze S128 hq).view
        (View.write (Elt F) (s1V).view g0 pay Finset.univ) x).toNat < 16384 := by
  subst hpay; intro x
  rw [View.read_apply, cast_eq]
  have hw : View.write (Elt F) (s1V).view g0 ((i1Row L).view.read (Elt F) (v1 d)) Finset.univ = (i1Row L).view.read (Elt F) (v1 d) :=
    View.write_whole_univ cc1_scratch1 g0 _
  rw [hw, View.read_apply, cast_eq]
  exact (hr d).2 _

omit [FloatOps F] in
/-- Dropping a leading unit axis keeps the coordinate. -/
theorem sq_S128 (h : S128.numel = S1x128.numel) (z : S128.Idx) :
    Shape.reshapeEquiv h z = ix2 (0 : Fin 1) (⟨(z 0).val, (z 0).isLt⟩ : Fin 128) :=
  Shape.reshapeEquiv_eq_of_rowMajor h (by
    rw [Shape.rowMajor_val_two, Shape.rowMajor_val_one]
    show 0 * 128 + (z 0).val = (z 0).val
    omega)

omit [FloatOps F] in
/-- Dropping two leading unit axes keeps both coordinates. -/
theorem sq_S2x128 (h : S2x128.numel = S1x1x2x128.numel) (w : S2x128.Idx) :
    Shape.reshapeEquiv h w = ix4 (0 : Fin 1) (0 : Fin 1) (⟨(w 0).val, (w 0).isLt⟩ : Fin 2) (⟨(w 1).val, (w 1).isLt⟩ : Fin 128) :=
  Shape.reshapeEquiv_eq_of_rowMajor h (by
    rw [Shape.rowMajor_val_four, Shape.rowMajor_val_two]
    show ((0 * 1 + 0) * 2 + (w 0).val) * 128 + (w 1).val = (w 0).val * 128 + (w 1).val
    omega)

omit [FloatOps F] in
/-- Element w of a subcore's block of index array 0 is element (1, 2 i + c, w) of the array. -/
theorem i0Row_emb (w : S2x128.Idx) :
    (i0Row L).view.emb w = ix4 (1 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k1_off1 L) S1x1x2x128.size (k1_off1_inb L)).emb (Shape.reshapeEquiv _ w) = _
  rw [sq_S2x128]
  funext a; apply Fin.ext
  rw [Rect.emb_apply]
  simp only [Rect.off_unit, Rect.stride_unit, k1_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow0_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s0V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element w of a subcore's block of index array 1 is element (1, 2 i + c, w) of the array. -/
theorem i1Row_emb (w : S2x128.Idx) :
    (i1Row L).view.emb w = ix4 (1 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k1_off1 L) S1x1x2x128.size (k1_off1_inb L)).emb (Shape.reshapeEquiv _ w) = _
  rw [sq_S2x128]
  funext a; apply Fin.ext
  rw [Rect.emb_apply]
  simp only [Rect.off_unit, Rect.stride_unit, k1_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow1_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s1V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element z of list row ρ of the block fetched from index array 0 is element (1, 2 i + c, ρ, z) of the array. -/
theorem list_word0 (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s0V).slice (Rect.unit (s := S2x128) row S1x128.size hk) (fun _ => rfl)).squeeze S128 hq).view
        (View.write (Elt F) (s0V).view g0 pay Finset.univ) z
      = v0 d (ix4 (1 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s0V).view g0 ((i0Row L).view.read (Elt F) (v0 d)) Finset.univ = (i0Row L).view.read (Elt F) (v0 d) :=
    View.write_whole_univ cc1_scratch0 g0 _
  rw [hw, View.read_apply, cast_eq, sRow0_emb row hk hq ρ hrow, i0Row_emb]

omit [FloatOps F] in
/-- What a gather of the code table delivers, read at (y₀, y₁), when word z of its offset list is entry (1, 2 i + c, ρ, z) of
    the index array: the table's row that entry names, which is row 512 i + 256 c + 128 ρ + y₀ of the call's result. -/
theorem gath_val0 (hr : InRange v0 v1) (idx : S128.Idx → Elt F .i32) (ρ : Fin 2)
    (hidx : ∀ z, idx z = v0 d (ix4 (1 : Fin 2) (⟨2 * (jL L).val + (cL L).val, by have := (jL L).isLt; have := (cL L).isLt; omega⟩ : Fin 32) ρ (⟨(z 0).val, (z 0).isLt⟩ : Fin 128)))
    (hn : S128.numel = S128x128.size gathers_S4096x128_S128x128.axis')
    (hin : ∀ x, (idx x).toNat < S4096x128.size gathers_S4096x128_S128x128.axis) (y : S128x128.Idx) :
    SparseCore.gatherPayload gathers_S4096x128_S128x128
        (View.read (Elt F) ((ctV).slice (Rect.unit (s := S4096x128) ![0, 0] S4096x128.size inb_S4096x128_S4096x128_0_0) (fun _ => rfl)).view (ct d))
        (SparseCore.rows idx hn hin) y
      = outC ct v0 d 1 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show ct d _ = ct d _
  congr 1
  funext a; apply Fin.ext
  match a with
  | 0 =>
    show (0 + 1 * (Shape.Gathers.idx gathers_S4096x128_S128x128 (SparseCore.rows idx hn hin) y (0 : Fin 2)).val : Nat) = min _ _
    rw [show Shape.Gathers.idx gathers_S4096x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (1 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).1 (ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 4096) (by decide) _ hlt
    show 0 + 1 * _ = min _ (4096 - 1)
    rw [hcl]; omega
  | 1 =>
    show (0 + 1 * (Shape.Gathers.idx gathers_S4096x128_S128x128 (SparseCore.rows idx hn hin) y (1 : Fin 2)).val : Nat) = (y 1).val
    rw [Shape.Gathers.idx_of_ne gathers_S4096x128_S128x128 (SparseCore.rows idx hn hin) y (1 : Fin 2) (by decide)]
    show 0 + 1 * (y 1).val = (y 1).val
    omega

omit [FloatOps F] in
/-- Element z of list row ρ of the block fetched from index array 1 is element (1, 2 i + c, ρ, z) of the array. -/
theorem list_word1 (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s1V).slice (Rect.unit (s := S2x128) row S1x128.size hk) (fun _ => rfl)).squeeze S128 hq).view
        (View.write (Elt F) (s1V).view g0 pay Finset.univ) z
      = v1 d (ix4 (1 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s1V).view g0 ((i1Row L).view.read (Elt F) (v1 d)) Finset.univ = (i1Row L).view.read (Elt F) (v1 d) :=
    View.write_whole_univ cc1_scratch1 g0 _
  rw [hw, View.read_apply, cast_eq, sRow1_emb row hk hq ρ hrow, i1Row_emb]

omit [FloatOps F] in
/-- What a gather of the name table delivers, read at (y₀, y₁), when word z of its offset list is entry (1, 2 i + c, ρ, z) of
    the index array: the table's row that entry names, which is row 512 i + 256 c + 128 ρ + y₀ of the call's result. -/
theorem gath_val1 (hr : InRange v0 v1) (idx : S128.Idx → Elt F .i32) (ρ : Fin 2)
    (hidx : ∀ z, idx z = v1 d (ix4 (1 : Fin 2) (⟨2 * (jL L).val + (cL L).val, by have := (jL L).isLt; have := (cL L).isLt; omega⟩ : Fin 32) ρ (⟨(z 0).val, (z 0).isLt⟩ : Fin 128)))
    (hn : S128.numel = S128x128.size gathers_S16384x128_S128x128.axis')
    (hin : ∀ x, (idx x).toNat < S16384x128.size gathers_S16384x128_S128x128.axis) (y : S128x128.Idx) :
    SparseCore.gatherPayload gathers_S16384x128_S128x128
        (View.read (Elt F) ((ntV).slice (Rect.unit (s := S16384x128) ![0, 0] S16384x128.size inb_S16384x128_S16384x128_0_0) (fun _ => rfl)).view (nt d))
        (SparseCore.rows idx hn hin) y
      = outN nt v1 d 1 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show nt d _ = nt d _
  congr 1
  funext a; apply Fin.ext
  match a with
  | 0 =>
    show (0 + 1 * (Shape.Gathers.idx gathers_S16384x128_S128x128 (SparseCore.rows idx hn hin) y (0 : Fin 2)).val : Nat) = min _ _
    rw [show Shape.Gathers.idx gathers_S16384x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (1 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).2 (ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 16384) (by decide) _ hlt
    show 0 + 1 * _ = min _ (16384 - 1)
    rw [hcl]; omega
  | 1 =>
    show (0 + 1 * (Shape.Gathers.idx gathers_S16384x128_S128x128 (SparseCore.rows idx hn hin) y (1 : Fin 2)).val : Nat) = (y 1).val
    rw [Shape.Gathers.idx_of_ne gathers_S16384x128_S128x128 (SparseCore.rows idx hn hin) y (1 : Fin 2) (by decide)]
    show 0 + 1 * (y 1).val = (y 1).val
    omega

omit [FloatOps F] in
/-- Element y of block ρ of a result, as the kernel slices it, is element (512 i + 256 c + 128 ρ + y₀, y₁) of the result. -/
theorem oB_emb (ρ : Fin 2) (y : S128x128.Idx) :
    (Rect.unit (s := S8192x128) (k1_off2 L (BitVec.ofNat 32 (128 * ρ.val))) S128x128.size (k1_off2_inb L ρ)).emb y
      = ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128) := by
  funext a; apply Fin.ext
  rw [Rect.emb_apply]
  simp only [Rect.off_unit, Rect.stride_unit, k1_off2_eq]
  match a with
  | 0 => show 512 * (L 1).val + 256 * (L 0).val + 128 * ρ.val + 1 * (y 0).val = 512 * (L 1).val + 256 * (L 0).val + 128 * ρ.val + (y 0).val; omega
  | 1 => show 0 + 1 * (y 1).val = (y 1).val; omega

set_option maxHeartbeats 4000000 in
set_option maxRecDepth 16384 in
theorem tile_body (hF : (K (F := F)).Facts) (hr : InRange v0 v1) (O : CellTallies nD τ sig (HIx 2)) (W : Waits sig (HIx 2)) (hO : ∀ g, O g none = 0) :
    iprop(levAts (K (F := F)).L (K (F := F)).lev ∗ emp
        ∗ tileGo1 ct nt v0 v1 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc1_scratch6 cc1_scratch7 cc1_scratch8 cc1_scratch9 cc1_scratch10 cc1_scratch11 cc1_scratch12 cc1_scratch13 cc1_scoped0 cc1_scoped1)
          fun _ => iprop(tileTd1 ct nt v0 v1 d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨⟨Hv0, Hv1, Hct, Hnt⟩, ⟨⟨%fc0, Hoc0⟩, ⟨%fc1, Hoc1⟩⟩, ⟨⟨%fn0, Hon0⟩, ⟨%fn1, Hon1⟩⟩⟩, ⟨⟨%f0, Hs0⟩, ⟨%f1, Hs1⟩, ⟨%f2, Hs2⟩, ⟨%f3, Hs3⟩, ⟨%f4, Hs4⟩, ⟨%f5, Hs5⟩, Hbufs⟩, ⟨Hm6, Hm7, Hm8, Hm9, Hm10, Hm11, Hm12, Hm13, HmA, HmB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hv0' := (Entails.of_eq (pts_i0V (F := F) d L _ _).symm) $$ Hv0
  ihave Hv1' := (Entails.of_eq (pts_i1V (F := F) d L _ _).symm) $$ Hv1
  -- two gathers read each table at once: a half of the subcore's read share for each
  ihave Hct2 := (pointsTo_share (PosShare.mem_left_op_right (qT (cL L) (jL L)))).1 $$ Hct
  icases Hct2 with ⟨HctA, HctB⟩
  ihave Hnt2 := (pointsTo_share (PosShare.mem_left_op_right (qT (cL L) (jL L)))).1 $$ Hnt
  icases Hnt2 with ⟨HntA, HntB⟩
  ihave HctA' := (Entails.of_eq (pts_ctV (F := F) d L _ _).symm) $$ HctA
  ihave HctB' := (Entails.of_eq (pts_ctV (F := F) d L _ _).symm) $$ HctB
  ihave HntA' := (Entails.of_eq (pts_ntV (F := F) d L _ _).symm) $$ HntA
  ihave HntB' := (Entails.of_eq (pts_ntV (F := F) d L _ _).symm) $$ HntB
  ihave Hoc0' := (Entails.of_eq (pts_ocB0 (F := F) d L _).symm) $$ Hoc0
  ihave Hoc1' := (Entails.of_eq (pts_ocB1 (F := F) d L _).symm) $$ Hoc1
  ihave Hon0' := (Entails.of_eq (pts_onB0 (F := F) d L _).symm) $$ Hon0
  ihave Hon1' := (Entails.of_eq (pts_onB1 (F := F) d L _).symm) $$ Hon1
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hs4' := (Entails.of_eq (pts_s4V (F := F) d L _).symm) $$ Hs4
  ihave Hs5' := (Entails.of_eq (pts_s5V (F := F) d L _).symm) $$ Hs5
  -- the two index fetches and their waits
  sl_exec
  -- the offsets of the four gathers are in range, whatever the index scratch held before its fetch
  have hA0 := fun g => offs_inb0 (F := F) v0 v1 d L hr g (tile_body.sl.dma0 v0 d L) rfl ![0, 0] inb_S2x128_S1x128_0_0 squeezes_S1x128_S128
  have hA1 := fun g => offs_inb0 (F := F) v0 v1 d L hr g (tile_body.sl.dma0 v0 d L) rfl ![1, 0] inb_S2x128_S1x128_1_0 squeezes_S1x128_S128
  have hB0 := fun g => offs_inb1 (F := F) v0 v1 d L hr g (tile_body.sl.dma0_1 v1 d L) rfl ![0, 0] inb_S2x128_S1x128_0_0 squeezes_S1x128_S128
  have hB1 := fun g => offs_inb1 (F := F) v0 v1 d L hr g (tile_body.sl.dma0_1 v1 d L) rfl ![1, 0] inb_S2x128_S1x128_1_0 squeezes_S1x128_S128
  -- the gathers, their waits, the copies out and their waits
  sl_exec
  -- what the four blocks hold: the gathered rows
  have ec0 : ∀ x ∈ (ocB0 L).view.set, ((ocB0 L).view.writes (Elt F) fc0 [⟨Rect.whole S128x128, tile_body.sl.dma0_2 ct v0 d L f0 f2 hA0⟩]) x = outC ct v0 d 1 x := by
    intro x hx
    obtain ⟨y, -, rfl⟩ := Finset.mem_map.mp hx
    have h1 := congrFun (View.read_writes_whole (Val := Elt F) (ocB0 L).view fc0 (tile_body.sl.dma0_2 ct v0 d L f0 f2 hA0)) y
    rw [View.read_apply, cast_eq] at h1
    rw [h1]
    have h2 : tile_body.sl.dma0_2 ct v0 d L f0 f2 hA0 = tile_body.sl.gather0 ct v0 d L f0 hA0 :=
      View.read_writes_whole (Val := Elt F) (s2V).view f2 _
    rw [h2]
    exact (gath_val0 (F := F) ct v0 v1 d L hr _ 0 (fun z => list_word0 (F := F) v0 d L f0 (tile_body.sl.dma0 v0 d L) rfl ![0, 0] inb_S2x128_S1x128_0_0 squeezes_S1x128_S128 0 rfl z) _ (hA0 f0) y).trans
      (congrArg (outC ct v0 d 1) (oB_emb L 0 y).symm)
  have ec1 : ∀ x ∈ (ocB1 L).view.set, ((ocB1 L).view.writes (Elt F) fc1 [⟨Rect.whole S128x128, tile_body.sl.dma0_3 ct v0 d L f0 f3 hA1⟩]) x = outC ct v0 d 1 x := by
    intro x hx
    obtain ⟨y, -, rfl⟩ := Finset.mem_map.mp hx
    have h1 := congrFun (View.read_writes_whole (Val := Elt F) (ocB1 L).view fc1 (tile_body.sl.dma0_3 ct v0 d L f0 f3 hA1)) y
    rw [View.read_apply, cast_eq] at h1
    rw [h1]
    have h2 : tile_body.sl.dma0_3 ct v0 d L f0 f3 hA1 = tile_body.sl.gather1 ct v0 d L f0 hA1 :=
      View.read_writes_whole (Val := Elt F) (s3V).view f3 _
    rw [h2]
    exact (gath_val0 (F := F) ct v0 v1 d L hr _ 1 (fun z => list_word0 (F := F) v0 d L f0 (tile_body.sl.dma0 v0 d L) rfl ![1, 0] inb_S2x128_S1x128_1_0 squeezes_S1x128_S128 1 rfl z) _ (hA1 f0) y).trans
      (congrArg (outC ct v0 d 1) (oB_emb L 1 y).symm)
  have en0 : ∀ x ∈ (onB0 L).view.set, ((onB0 L).view.writes (Elt F) fn0 [⟨Rect.whole S128x128, tile_body.sl.dma0_4 nt v1 d L f1 f4 hB0⟩]) x = outN nt v1 d 1 x := by
    intro x hx
    obtain ⟨y, -, rfl⟩ := Finset.mem_map.mp hx
    have h1 := congrFun (View.read_writes_whole (Val := Elt F) (onB0 L).view fn0 (tile_body.sl.dma0_4 nt v1 d L f1 f4 hB0)) y
    rw [View.read_apply, cast_eq] at h1
    rw [h1]
    have h2 : tile_body.sl.dma0_4 nt v1 d L f1 f4 hB0 = tile_body.sl.gather2 nt v1 d L f1 hB0 :=
      View.read_writes_whole (Val := Elt F) (s4V).view f4 _
    rw [h2]
    exact (gath_val1 (F := F) nt v0 v1 d L hr _ 0 (fun z => list_word1 (F := F) v1 d L f1 (tile_body.sl.dma0_1 v1 d L) rfl ![0, 0] inb_S2x128_S1x128_0_0 squeezes_S1x128_S128 0 rfl z) _ (hB0 f1) y).trans
      (congrArg (outN nt v1 d 1) (oB_emb L 0 y).symm)
  have en1 : ∀ x ∈ (onB1 L).view.set, ((onB1 L).view.writes (Elt F) fn1 [⟨Rect.whole S128x128, tile_body.sl.dma0_5 nt v1 d L f1 f5 hB1⟩]) x = outN nt v1 d 1 x := by
    intro x hx
    obtain ⟨y, -, rfl⟩ := Finset.mem_map.mp hx
    have h1 := congrFun (View.read_writes_whole (Val := Elt F) (onB1 L).view fn1 (tile_body.sl.dma0_5 nt v1 d L f1 f5 hB1)) y
    rw [View.read_apply, cast_eq] at h1
    rw [h1]
    have h2 : tile_body.sl.dma0_5 nt v1 d L f1 f5 hB1 = tile_body.sl.gather3 nt v1 d L f1 hB1 :=
      View.read_writes_whole (Val := Elt F) (s5V).view f5 _
    rw [h2]
    exact (gath_val1 (F := F) nt v0 v1 d L hr _ 1 (fun z => list_word1 (F := F) v1 d L f1 (tile_body.sl.dma0_1 v1 d L) rfl ![1, 0] inb_S2x128_S1x128_1_0 squeezes_S1x128_S128 1 rfl z) _ (hB1 f1) y).trans
      (congrArg (outN nt v1 d 1) (oB_emb L 1 y).symm)
  ihave Hoc0 := (Entails.of_eq ((pointsTo_congr ec0).trans (pts_ocB0 (F := F) d L _))) $$ Hoc0'
  ihave Hoc1 := (Entails.of_eq ((pointsTo_congr ec1).trans (pts_ocB1 (F := F) d L _))) $$ Hoc1'
  ihave Hon0 := (Entails.of_eq ((pointsTo_congr en0).trans (pts_onB0 (F := F) d L _))) $$ Hon0'
  ihave Hon1 := (Entails.of_eq ((pointsTo_congr en1).trans (pts_onB1 (F := F) d L _))) $$ Hon1'
  ihave HctA := (Entails.of_eq (pts_ctV (F := F) d L _ _)) $$ HctA'
  ihave HctB := (Entails.of_eq (pts_ctV (F := F) d L _ _)) $$ HctB'
  ihave Hct := (pointsTo_share (PosShare.mem_left_op_right (qT (cL L) (jL L)))).2 $$ [HctA HctB]; · isplitl [HctA] <;> iassumption
  ihave HntA := (Entails.of_eq (pts_ntV (F := F) d L _ _)) $$ HntA'
  ihave HntB := (Entails.of_eq (pts_ntV (F := F) d L _ _)) $$ HntB'
  ihave Hnt := (pointsTo_share (PosShare.mem_left_op_right (qT (cL L) (jL L)))).2 $$ [HntA HntB]; · isplitl [HntA] <;> iassumption
  ihave Hv0 := (Entails.of_eq (pts_i0V (F := F) d L _ _)) $$ Hv0'
  ihave Hv1 := (Entails.of_eq (pts_i1V (F := F) d L _ _)) $$ Hv1'
  ihave Hs0 := (Entails.of_eq (pts_s0V (F := F) d L _)) $$ Hs0'
  ihave Hs1 := (Entails.of_eq (pts_s1V (F := F) d L _)) $$ Hs1'
  ihave Hs2 := (Entails.of_eq (pts_s2V (F := F) d L _)) $$ Hs2'
  ihave Hs3 := (Entails.of_eq (pts_s3V (F := F) d L _)) $$ Hs3'
  ihave Hs4 := (Entails.of_eq (pts_s4V (F := F) d L _)) $$ Hs4'
  ihave Hs5 := (Entails.of_eq (pts_s5V (F := F) d L _)) $$ Hs5'
  sl_step
  isplitl [Hv0 Hv1 Hct Hnt Hoc0 Hoc1 Hon0 Hon1]
  · isplitl [Hv0 Hv1 Hct Hnt]
    · isplitl [Hv0]; · iexact Hv0
      isplitl [Hv1]; · iexact Hv1
      isplitl [Hct] <;> iassumption
    isplitl [Hoc0 Hoc1]
    · isplitl [Hoc0] <;> iassumption
    · isplitl [Hon0] <;> iassumption
  isplitl [Hs0 Hs1 Hs2 Hs3 Hs4 Hs5 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hm6 Hm7 Hm8 Hm9 Hm10 Hm11 Hm12 Hm13 HmA HmB Hsems]
  · isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [HmA]; · iexact HmA
    isplitl [HmB]; · iexact HmB
    iexact Hsems
  iexists _; isplitr
  swap; · iexact HO
  ipureintro; intro p hp
  simp only [Finset.mem_insert] at hp
  rcases hp with h | h | h | h | h | h | h | h | h | h | h
  all_goals first | exact .inl h | exact .inr (h ▸ rfl)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s) i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc1_scratch6 cc1_scratch7 cc1_scratch8 cc1_scratch9 cc1_scratch10 cc1_scratch11 cc1_scratch12 cc1_scratch13 cc1_scoped0 cc1_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore at call 1. -/
theorem tileObl1 (hF : (K (F := F)).Facts) (hr : InRange v0 v1) : (K (F := F)).TileObl (D (F := F)) 𝒱 (P ct nt v0 v1) v₀ 1 := by
  intro d c i O W hO _ _
  simp only [show (P ct nt v0 v1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct nt v0 v1 d (coordsV ⟨_, hci.1⟩ ⟨_, hci.2⟩) hF hr O W hO).trans (wp_mono frame _ _ fun _ => obl_post)

end Tile1

export Tile1 (tileObl1)

end Cert.KernelIdeal.ScSide

end
-- ==== Proof.ScSplit.lean ====
/-
  How a SparseCore's share of a call goes to its sixteen vector subcores and comes back: the share already lists the
  subcores' tasks, so the split only hands them out and collects what they return beside the remainder of the read share.
-/
import proofs.«204006_g8589934699_cont_9to1c4b_872_29_alg».proof.Proof.ScPay

noncomputable section

namespace Cert.KernelIdeal.ScSide

open Cert.KernelIdeal Cert.KernelIdeal.Gen Cert.KernelIdeal.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

theorem vecSplit0 : (K (F := F)).VecSplit' (P ct nt v0 v1) 0 := by
  intro d c
  show coreSt0 ct nt v0 v1 d (Fin.cast nCore_zero c) ⊢ |={Set.univ}=> iprop(
      (bigSep Finset.univ fun i : Fin ((K (F := F)).nSub 0) => tileGo0 ct nt v0 v1 d (Fin.cast nCore_zero c) (Fin.cast nSub_zero i))
      ∗ ((bigSep Finset.univ fun i : Fin ((K (F := F)).nSub 0) => tileTd0 ct nt v0 v1 d (Fin.cast nCore_zero c) (Fin.cast nSub_zero i))
          -∗ coreDn0 ct nt v0 v1 d (Fin.cast nCore_zero c)))
  rw [bigSep_tasks0 (F := F) (fun i => tileGo0 ct nt v0 v1 d (Fin.cast nCore_zero c) i),
    bigSep_tasks0 (F := F) (fun i => tileTd0 ct nt v0 v1 d (Fin.cast nCore_zero c) i)]
  iintro ⟨Hr, Hgo⟩; imodintro
  isplitl [Hgo]; · iexact Hgo
  iintro Htd
  isplitl [Hr]; · iexact Hr
  iexact Htd

theorem vecSplit1 : (K (F := F)).VecSplit' (P ct nt v0 v1) 1 := by
  intro d c
  show coreSt1 ct nt v0 v1 d (Fin.cast nCore_one c) ⊢ |={Set.univ}=> iprop(
      (bigSep Finset.univ fun i : Fin ((K (F := F)).nSub 1) => tileGo1 ct nt v0 v1 d (Fin.cast nCore_one c) (Fin.cast nSub_one i))
      ∗ ((bigSep Finset.univ fun i : Fin ((K (F := F)).nSub 1) => tileTd1 ct nt v0 v1 d (Fin.cast nCore_one c) (Fin.cast nSub_one i))
          -∗ coreDn1 ct nt v0 v1 d (Fin.cast nCore_one c)))
  rw [bigSep_tasks1 (F := F) (fun i => tileGo1 ct nt v0 v1 d (Fin.cast nCore_one c) i),
    bigSep_tasks1 (F := F) (fun i => tileTd1 ct nt v0 v1 d (Fin.cast nCore_one c) i)]
  iintro ⟨Hr, Hgo⟩; imodintro
  isplitl [Hgo]; · iexact Hgo
  iintro Htd
  isplitl [Hr]; · iexact Hr
  iexact Htd

end Cert.KernelIdeal.ScSide

end
-- ==== Proof.ScCall.lean ====
/-
  The two row-gather calls as @main's TensorCore runs them: the four inputs go out as read tokens, one per SparseCore
  and of each one per vector subcore; each result goes out as its 64 blocks of 128 rows and comes back whole at the
  gathered rows.
-/
import proofs.«204006_g8589934699_cont_9to1c4b_872_29_alg».proof.Proof.ScPay

noncomputable section

namespace Cert.KernelIdeal.ScSide

open Cert.KernelIdeal Cert.KernelIdeal.Gen Cert.KernelIdeal.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

/-! ## The 64 blocks of a result tile it -/

/-- Block (c, i, r): rows 512 i + 256 c + 128 r … + 128. -/
abbrev blkT (t : Fin 2 × Fin 16 × Fin 2) : Finset S8192x128.Idx := blkSet t.1 t.2.1 t.2.2

theorem blk_disjoint : ∀ t ∈ (Finset.univ : Finset (Fin 2 × Fin 16 × Fin 2)), ∀ t' ∈ (Finset.univ : Finset (Fin 2 × Fin 16 × Fin 2)), t ≠ t' →
    Disjoint (blkT t) (blkT t') := by
  rintro ⟨c, i, r⟩ - ⟨c', i', r'⟩ - h
  have hne : ¬(c.val = c'.val ∧ i.val = i'.val ∧ r.val = r'.val) := fun ⟨h1, h2, h3⟩ =>
    h (by rw [Fin.ext h1, Fin.ext h2, Fin.ext h3])
  refine Rect.unit_disjoint (0 : Fin 2) ?_
  show 512 * i.val + 256 * c.val + 128 * r.val + 128 ≤ 512 * i'.val + 256 * c'.val + 128 * r'.val
    ∨ 512 * i'.val + 256 * c'.val + 128 * r'.val + 128 ≤ 512 * i.val + 256 * c.val + 128 * r.val
  omega

theorem blk_cover : (Finset.univ : Finset (Fin 2 × Fin 16 × Fin 2)).biUnion blkT = Finset.univ := by
  ext x
  simp only [Finset.mem_biUnion, Finset.mem_univ, true_and, iff_true]
  have hx : (x 0).val < 8192 := (x 0).isLt
  have hy : (x 1).val < 128 := (x 1).isLt
  refine ⟨(⟨(x 0).val / 256 % 2, by omega⟩, ⟨(x 0).val / 512, by omega⟩, ⟨(x 0).val / 128 % 2, by omega⟩), Rect.mem_set_unit.mpr fun a => ?_⟩
  match a with
  | 0 =>
    show 512 * ((x 0).val / 512) + 256 * ((x 0).val / 256 % 2) + 128 * ((x 0).val / 128 % 2) ≤ (x 0).val
      ∧ (x 0).val < 512 * ((x 0).val / 512) + 256 * ((x 0).val / 256 % 2) + 128 * ((x 0).val / 128 % 2) + 128
    omega
  | 1 => exact ⟨Nat.zero_le _, by show (x 1).val < 0 + 128; omega⟩

/-- Result oc0 whole is its 64 blocks; -/
theorem oc0_blocksT (d : Dev nD) (f : Buf (Elt F) (oc0Loc d)) :
    (oc0Loc d ↦{fullShare} f : sProp 𝕄) = bigSep Finset.univ fun t : Fin 2 × Fin 16 × Fin 2 => oc0Loc d ↦[blkT t]{fullShare} f := by
  rw [← pointsTo_biUnion Finset.univ (ℓ := oc0Loc d) blkT blk_disjoint, blk_cover]; try rfl

/-- by SparseCore, subcore and half. -/
theorem oc0_blocks (d : Dev nD) (f : Buf (Elt F) (oc0Loc d)) :
    (oc0Loc d ↦{fullShare} f : sProp 𝕄)
      = bigSep Finset.univ fun c : Fin 2 => bigSep Finset.univ fun i : Fin 16 =>
          iprop((oc0Loc d ↦[blkSet c i 0]{fullShare} f) ∗ (oc0Loc d ↦[blkSet c i 1]{fullShare} f)) := by
  rw [oc0_blocksT, bigSep_univ_prod]
  refine bigSep_congr fun c _ => ?_
  rw [bigSep_univ_prod]
  refine bigSep_congr fun i _ => ?_
  exact bigSep_univ_two _

/-- Result on0 whole is its 64 blocks; -/
theorem on0_blocksT (d : Dev nD) (f : Buf (Elt F) (on0Loc d)) :
    (on0Loc d ↦{fullShare} f : sProp 𝕄) = bigSep Finset.univ fun t : Fin 2 × Fin 16 × Fin 2 => on0Loc d ↦[blkT t]{fullShare} f := by
  rw [← pointsTo_biUnion Finset.univ (ℓ := on0Loc d) blkT blk_disjoint, blk_cover]; try rfl

/-- by SparseCore, subcore and half. -/
theorem on0_blocks (d : Dev nD) (f : Buf (Elt F) (on0Loc d)) :
    (on0Loc d ↦{fullShare} f : sProp 𝕄)
      = bigSep Finset.univ fun c : Fin 2 => bigSep Finset.univ fun i : Fin 16 =>
          iprop((on0Loc d ↦[blkSet c i 0]{fullShare} f) ∗ (on0Loc d ↦[blkSet c i 1]{fullShare} f)) := by
  rw [on0_blocksT, bigSep_univ_prod]
  refine bigSep_congr fun c _ => ?_
  rw [bigSep_univ_prod]
  refine bigSep_congr fun i _ => ?_
  exact bigSep_univ_two _

/-- Result oc1 whole is its 64 blocks; -/
theorem oc1_blocksT (d : Dev nD) (f : Buf (Elt F) (oc1Loc d)) :
    (oc1Loc d ↦{fullShare} f : sProp 𝕄) = bigSep Finset.univ fun t : Fin 2 × Fin 16 × Fin 2 => oc1Loc d ↦[blkT t]{fullShare} f := by
  rw [← pointsTo_biUnion Finset.univ (ℓ := oc1Loc d) blkT blk_disjoint, blk_cover]; try rfl

/-- by SparseCore, subcore and half. -/
theorem oc1_blocks (d : Dev nD) (f : Buf (Elt F) (oc1Loc d)) :
    (oc1Loc d ↦{fullShare} f : sProp 𝕄)
      = bigSep Finset.univ fun c : Fin 2 => bigSep Finset.univ fun i : Fin 16 =>
          iprop((oc1Loc d ↦[blkSet c i 0]{fullShare} f) ∗ (oc1Loc d ↦[blkSet c i 1]{fullShare} f)) := by
  rw [oc1_blocksT, bigSep_univ_prod]
  refine bigSep_congr fun c _ => ?_
  rw [bigSep_univ_prod]
  refine bigSep_congr fun i _ => ?_
  exact bigSep_univ_two _

/-- Result on1 whole is its 64 blocks; -/
theorem on1_blocksT (d : Dev nD) (f : Buf (Elt F) (on1Loc d)) :
    (on1Loc d ↦{fullShare} f : sProp 𝕄) = bigSep Finset.univ fun t : Fin 2 × Fin 16 × Fin 2 => on1Loc d ↦[blkT t]{fullShare} f := by
  rw [← pointsTo_biUnion Finset.univ (ℓ := on1Loc d) blkT blk_disjoint, blk_cover]; try rfl

/-- by SparseCore, subcore and half. -/
theorem on1_blocks (d : Dev nD) (f : Buf (Elt F) (on1Loc d)) :
    (on1Loc d ↦{fullShare} f : sProp 𝕄)
      = bigSep Finset.univ fun c : Fin 2 => bigSep Finset.univ fun i : Fin 16 =>
          iprop((on1Loc d ↦[blkSet c i 0]{fullShare} f) ∗ (on1Loc d ↦[blkSet c i 1]{fullShare} f)) := by
  rw [on1_blocksT, bigSep_univ_prod]
  refine bigSep_congr fun c _ => ?_
  rw [bigSep_univ_prod]
  refine bigSep_congr fun i _ => ?_
  exact bigSep_univ_two _

/-! ## The inputs' read tokens -/

/-- The four inputs at a share are the remainder after n tokens and the n tokens. -/
theorem insAt_toks (d : Dev nD) (q : PosShare TreeShare) (n : ℕ) :
    insAt ct nt v0 v1 d q
      ⊣⊢ iprop(insAt ct nt v0 v1 d (Transfers.shareDrop q n) ∗ bigSep Finset.univ fun i : Fin n => insAt ct nt v0 v1 d (Transfers.shareTok q n i)) := by
  constructor
  · iintro ⟨H0, H1, H2, H3⟩
    ihave H0 := (Transfers.pointsTo_toks_split q n) $$ H0; icases H0 with ⟨H0d, H0t⟩
    ihave H1 := (Transfers.pointsTo_toks_split q n) $$ H1; icases H1 with ⟨H1d, H1t⟩
    ihave H2 := (Transfers.pointsTo_toks_split q n) $$ H2; icases H2 with ⟨H2d, H2t⟩
    ihave H3 := (Transfers.pointsTo_toks_split q n) $$ H3; icases H3 with ⟨H3d, H3t⟩
    isplitl [H0d H1d H2d H3d]
    · isplitl [H0d]; · iexact H0d
      isplitl [H1d]; · iexact H1d
      isplitl [H2d] <;> iassumption
    ihave H23 := (Transfers.bigSep_sep_in Finset.univ (fun i : Fin n => (ctLoc d ↦{Transfers.shareTok q n i} ct d : sProp 𝕄))
        (fun i : Fin n => (ntLoc d ↦{Transfers.shareTok q n i} nt d : sProp 𝕄))) $$ [H2t H3t]
    · isplitl [H2t] <;> iassumption
    ihave H123 := (Transfers.bigSep_sep_in Finset.univ (fun i : Fin n => (v1Loc d ↦{Transfers.shareTok q n i} v1 d : sProp 𝕄)) _) $$ [H1t H23]
    · isplitl [H1t] <;> iassumption
    iapply (Transfers.bigSep_sep_in Finset.univ (fun i : Fin n => (v0Loc d ↦{Transfers.shareTok q n i} v0 d : sProp 𝕄)) _)
    isplitl [H0t] <;> iassumption
  · iintro ⟨⟨H0d, H1d, H2d, H3d⟩, Ht⟩
    ihave Ht := (Transfers.bigSep_sep_out Finset.univ (fun i : Fin n => (v0Loc d ↦{Transfers.shareTok q n i} v0 d : sProp 𝕄)) _) $$ Ht
    icases Ht with ⟨H0t, Ht⟩
    ihave Ht := (Transfers.bigSep_sep_out Finset.univ (fun i : Fin n => (v1Loc d ↦{Transfers.shareTok q n i} v1 d : sProp 𝕄)) _) $$ Ht
    icases Ht with ⟨H1t, Ht⟩
    ihave Ht := (Transfers.bigSep_sep_out Finset.univ (fun i : Fin n => (ctLoc d ↦{Transfers.shareTok q n i} ct d : sProp 𝕄))
        (fun i : Fin n => (ntLoc d ↦{Transfers.shareTok q n i} nt d : sProp 𝕄))) $$ Ht
    icases Ht with ⟨H2t, H3t⟩
    isplitl [H0d H0t]; · iapply (Transfers.pointsTo_toks_join q n); isplitl [H0d] <;> iassumption
    isplitl [H1d H1t]; · iapply (Transfers.pointsTo_toks_join q n); isplitl [H1d] <;> iassumption
    isplitl [H2d H2t]; · iapply (Transfers.pointsTo_toks_join q n); isplitl [H2d] <;> iassumption
    iapply (Transfers.pointsTo_toks_join q n); isplitl [H3d] <;> iassumption

/-- The four inputs whole. -/
abbrev insFull (d : Dev nD) : sProp 𝕄 := insAt ct nt v0 v1 d fullShare

variable [FloatOps F]

theorem st0_eq (d : Dev nD) :
    (bigSep Finset.univ fun c : Fin ((K (F := F)).nCore 0) => (P ct nt v0 v1).st 0 d c)
      = iprop(coreSt0 ct nt v0 v1 d 0 ∗ coreSt0 ct nt v0 v1 d 1) :=
  (bigSep_congr (Φ := fun c : Fin ((K (F := F)).nCore 0) => (P ct nt v0 v1).st 0 d c)
    (Ψ := fun c : Fin 2 => coreSt0 ct nt v0 v1 d c) fun c _ => congrArg (coreSt0 ct nt v0 v1 d) (Fin.ext rfl)).trans (bigSep_univ_two _)
theorem dn0_eq (d : Dev nD) :
    (bigSep Finset.univ fun c : Fin ((K (F := F)).nCore 0) => (P ct nt v0 v1).dn 0 d c)
      = iprop(coreDn0 ct nt v0 v1 d 0 ∗ coreDn0 ct nt v0 v1 d 1) :=
  (bigSep_congr (Φ := fun c : Fin ((K (F := F)).nCore 0) => (P ct nt v0 v1).dn 0 d c)
    (Ψ := fun c : Fin 2 => coreDn0 ct nt v0 v1 d c) fun c _ => congrArg (coreDn0 ct nt v0 v1 d) (Fin.ext rfl)).trans (bigSep_univ_two _)

/-- A subcore's task at call 0, from its read token and its blocks at given contents. -/
theorem tile_in0 (d : Dev nD) (c : Fin 2) (f0 : Buf (Elt F) (oc0Loc d)) (f1 : Buf (Elt F) (on0Loc d)) (i : Fin 16) :
    iprop(insAt ct nt v0 v1 d (qT c i)
        ∗ ((oc0Loc d ↦[blkSet c i 0]{fullShare} f0) ∗ (oc0Loc d ↦[blkSet c i 1]{fullShare} f0))
        ∗ ((on0Loc d ↦[blkSet c i 0]{fullShare} f1) ∗ (on0Loc d ↦[blkSet c i 1]{fullShare} f1)))
      ⊢ tileGo0 ct nt v0 v1 d c i := by
  iintro ⟨Hi, ⟨Hc0, Hc1⟩, ⟨Hn0, Hn1⟩⟩
  isplitl [Hi]; · iexact Hi
  isplitl [Hc0 Hc1]
  · isplitl [Hc0]; · iexists _; iexact Hc0
    iexists _; iexact Hc1
  isplitl [Hn0]; · iexists _; iexact Hn0
  iexists _; iexact Hn1

/-- A SparseCore's share of call 0, from its read token and its blocks of the two results. -/
theorem core_in0 (d : Dev nD) (c : Fin 2) (f0 : Buf (Elt F) (oc0Loc d)) (f1 : Buf (Elt F) (on0Loc d)) :
    iprop(insAt ct nt v0 v1 d (qC c)
        ∗ (bigSep Finset.univ fun i : Fin 16 => iprop((oc0Loc d ↦[blkSet c i 0]{fullShare} f0) ∗ (oc0Loc d ↦[blkSet c i 1]{fullShare} f0)))
        ∗ (bigSep Finset.univ fun i : Fin 16 => iprop((on0Loc d ↦[blkSet c i 0]{fullShare} f1) ∗ (on0Loc d ↦[blkSet c i 1]{fullShare} f1))))
      ⊢ coreSt0 ct nt v0 v1 d c := by
  iintro ⟨Hi, Hc, Hn⟩
  ihave Hi := (insAt_toks ct nt v0 v1 d (qC c) 16).1 $$ Hi
  icases Hi with ⟨Hd, Ht⟩
  isplitl [Hd]; · iexact Hd
  ihave H := (Transfers.bigSep_sep_in Finset.univ
      (fun i : Fin 16 => iprop((oc0Loc d ↦[blkSet c i 0]{fullShare} f0) ∗ (oc0Loc d ↦[blkSet c i 1]{fullShare} f0)))
      (fun i : Fin 16 => iprop((on0Loc d ↦[blkSet c i 0]{fullShare} f1) ∗ (on0Loc d ↦[blkSet c i 1]{fullShare} f1)))) $$ [Hc Hn]
  · isplitl [Hc] <;> iassumption
  ihave H := (Transfers.bigSep_sep_in Finset.univ (fun i : Fin 16 => insAt ct nt v0 v1 d (qT c i)) _) $$ [Ht H]
  · isplitl [Ht] <;> iassumption
  iapply (Transfers.ent (bigSep_mono fun i _ => tile_in0 ct nt v0 v1 d c f0 f1 i)) $$ H

/-- and what it brings back: its read token and its blocks at the gathered rows. -/
theorem core_out0 (d : Dev nD) (c : Fin 2) :
    coreDn0 ct nt v0 v1 d c
      ⊢ iprop(insAt ct nt v0 v1 d (qC c)
        ∗ (bigSep Finset.univ fun i : Fin 16 => iprop((oc0Loc d ↦[blkSet c i 0]{fullShare} outC ct v0 d 0) ∗ (oc0Loc d ↦[blkSet c i 1]{fullShare} outC ct v0 d 0)))
        ∗ (bigSep Finset.univ fun i : Fin 16 => iprop((on0Loc d ↦[blkSet c i 0]{fullShare} outN nt v1 d 0) ∗ (on0Loc d ↦[blkSet c i 1]{fullShare} outN nt v1 d 0)))) := by
  iintro ⟨Hd, H⟩
  ihave H := (Transfers.bigSep_sep_out Finset.univ (fun i : Fin 16 => insAt ct nt v0 v1 d (qT c i)) _) $$ H
  icases H with ⟨Ht, H⟩
  ihave H := (Transfers.bigSep_sep_out Finset.univ
      (fun i : Fin 16 => iprop((oc0Loc d ↦[blkSet c i 0]{fullShare} outC ct v0 d 0) ∗ (oc0Loc d ↦[blkSet c i 1]{fullShare} outC ct v0 d 0)))
      (fun i : Fin 16 => iprop((on0Loc d ↦[blkSet c i 0]{fullShare} outN nt v1 d 0) ∗ (on0Loc d ↦[blkSet c i 1]{fullShare} outN nt v1 d 0)))) $$ H
  icases H with ⟨Hc, Hn⟩
  isplitl [Hd Ht]
  · iapply (insAt_toks ct nt v0 v1 d (qC c) 16).2; isplitl [Hd] <;> iassumption
  isplitl [Hc] <;> iassumption

/-- SparseCore call 0 on the TensorCore: from the four inputs and the two results whole, to the inputs unchanged and the
    results at the gathered rows. -/
theorem call0 (hr : InRange v0 v1) (κ : GSem nD τ sig → ℕ) (d : Dev nD) (f0 : Buf (Elt F) (oc0Loc d)) (f1 : Buf (Elt F) (on0Loc d)) (Φ : PUnit → sProp 𝕄) :
    iprop((K (F := F)).ctx EH (P ct nt v0 v1) κ ∗ (K (F := F)).tcSt EH d 0 ∗ insFull ct nt v0 v1 d
        ∗ (oc0Loc d ↦{fullShare} f0) ∗ (on0Loc d ↦{fullShare} f1)
        ∗ (((K (F := F)).tcSt EH d 1 ∗ insFull ct nt v0 v1 d
            ∗ (oc0Loc d ↦{fullShare} outC ct v0 d 0) ∗ (on0Loc d ↦{fullShare} outN nt v1 d 0)) -∗ Φ ⟨⟩))
      ⊢ wp frame (wpE ((K (F := F)).defs (D (F := F))) 𝒱 (SparseCore.T d) none) Set.univ ((K (F := F)).run d 0) Φ := by
  iintro ⟨#Hctx, Hst, Hins, Ho0, Ho1, Hk⟩
  ihave Hins := (insAt_toks ct nt v0 v1 d fullShare 2).1 $$ Hins
  icases Hins with ⟨Hrest, Hc⟩
  ihave Hc := (Entails.of_eq (bigSep_univ_two (fun c : Fin 2 => insAt ct nt v0 v1 d (qC c)))) $$ Hc
  icases Hc with ⟨Hc0, Hc1⟩
  ihave Ho0 := (Entails.of_eq ((oc0_blocks (F := F) d f0).trans (bigSep_univ_two _))) $$ Ho0
  icases Ho0 with ⟨Ho00, Ho01⟩
  ihave Ho1 := (Entails.of_eq ((on0_blocks (F := F) d f1).trans (bigSep_univ_two _))) $$ Ho1
  icases Ho1 with ⟨Ho10, Ho11⟩
  iapply ((K (F := F)).wp_run (D (F := F)) 𝒱 (EH := EH) (P := P ct nt v0 v1) κ d 0) $$ [Hst Hc0 Hc1 Ho00 Ho01 Ho10 Ho11 Hrest Hk]
  isplitr; · iexact Hctx
  isplitl [Hst]; · iexact Hst
  isplitl [Hc0 Hc1 Ho00 Ho01 Ho10 Ho11]
  · rw [st0_eq]
    isplitl [Hc0 Ho00 Ho10]
    · iapply (core_in0 ct nt v0 v1 d 0 f0 f1); isplitl [Hc0]; · iexact Hc0
      isplitl [Ho00] <;> iassumption
    · iapply (core_in0 ct nt v0 v1 d 1 f0 f1); isplitl [Hc1]; · iexact Hc1
      isplitl [Ho01] <;> iassumption
  iintro ⟨Hst, Hdn⟩
  ihave Hdn := (Entails.of_eq (dn0_eq ct nt v0 v1 d)) $$ Hdn
  icases Hdn with ⟨H0, H1⟩
  ihave H0 := (core_out0 ct nt v0 v1 d 0) $$ H0
  icases H0 with ⟨Hc0, Ho00, Ho10⟩
  ihave H1 := (core_out0 ct nt v0 v1 d 1) $$ H1
  icases H1 with ⟨Hc1, Ho01, Ho11⟩
  iapply Hk
  isplitl [Hst]; · iexact Hst
  isplitl [Hrest Hc0 Hc1]
  · iapply (insAt_toks ct nt v0 v1 d fullShare 2).2
    isplitl [Hrest]; · iexact Hrest
    iapply (Entails.of_eq (bigSep_univ_two (fun c : Fin 2 => insAt ct nt v0 v1 d (qC c))).symm)
    isplitl [Hc0] <;> iassumption
  isplitl [Ho00 Ho01]
  · iapply (Entails.of_eq ((oc0_blocks (F := F) d (outC ct v0 d 0)).trans (bigSep_univ_two _)).symm)
    isplitl [Ho00] <;> iassumption
  · iapply (Entails.of_eq ((on0_blocks (F := F) d (outN nt v1 d 0)).trans (bigSep_univ_two _)).symm)
    isplitl [Ho10] <;> iassumption

theorem st1_eq (d : Dev nD) :
    (bigSep Finset.univ fun c : Fin ((K (F := F)).nCore 1) => (P ct nt v0 v1).st 1 d c)
      = iprop(coreSt1 ct nt v0 v1 d 0 ∗ coreSt1 ct nt v0 v1 d 1) :=
  (bigSep_congr (Φ := fun c : Fin ((K (F := F)).nCore 1) => (P ct nt v0 v1).st 1 d c)
    (Ψ := fun c : Fin 2 => coreSt1 ct nt v0 v1 d c) fun c _ => congrArg (coreSt1 ct nt v0 v1 d) (Fin.ext rfl)).trans (bigSep_univ_two _)
theorem dn1_eq (d : Dev nD) :
    (bigSep Finset.univ fun c : Fin ((K (F := F)).nCore 1) => (P ct nt v0 v1).dn 1 d c)
      = iprop(coreDn1 ct nt v0 v1 d 0 ∗ coreDn1 ct nt v0 v1 d 1) :=
  (bigSep_congr (Φ := fun c : Fin ((K (F := F)).nCore 1) => (P ct nt v0 v1).dn 1 d c)
    (Ψ := fun c : Fin 2 => coreDn1 ct nt v0 v1 d c) fun c _ => congrArg (coreDn1 ct nt v0 v1 d) (Fin.ext rfl)).trans (bigSep_univ_two _)

/-- A subcore's task at call 1, from its read token and its blocks at given contents. -/
theorem tile_in1 (d : Dev nD) (c : Fin 2) (f0 : Buf (Elt F) (oc1Loc d)) (f1 : Buf (Elt F) (on1Loc d)) (i : Fin 16) :
    iprop(insAt ct nt v0 v1 d (qT c i)
        ∗ ((oc1Loc d ↦[blkSet c i 0]{fullShare} f0) ∗ (oc1Loc d ↦[blkSet c i 1]{fullShare} f0))
        ∗ ((on1Loc d ↦[blkSet c i 0]{fullShare} f1) ∗ (on1Loc d ↦[blkSet c i 1]{fullShare} f1)))
      ⊢ tileGo1 ct nt v0 v1 d c i := by
  iintro ⟨Hi, ⟨Hc0, Hc1⟩, ⟨Hn0, Hn1⟩⟩
  isplitl [Hi]; · iexact Hi
  isplitl [Hc0 Hc1]
  · isplitl [Hc0]; · iexists _; iexact Hc0
    iexists _; iexact Hc1
  isplitl [Hn0]; · iexists _; iexact Hn0
  iexists _; iexact Hn1

/-- A SparseCore's share of call 1, from its read token and its blocks of the two results. -/
theorem core_in1 (d : Dev nD) (c : Fin 2) (f0 : Buf (Elt F) (oc1Loc d)) (f1 : Buf (Elt F) (on1Loc d)) :
    iprop(insAt ct nt v0 v1 d (qC c)
        ∗ (bigSep Finset.univ fun i : Fin 16 => iprop((oc1Loc d ↦[blkSet c i 0]{fullShare} f0) ∗ (oc1Loc d ↦[blkSet c i 1]{fullShare} f0)))
        ∗ (bigSep Finset.univ fun i : Fin 16 => iprop((on1Loc d ↦[blkSet c i 0]{fullShare} f1) ∗ (on1Loc d ↦[blkSet c i 1]{fullShare} f1))))
      ⊢ coreSt1 ct nt v0 v1 d c := by
  iintro ⟨Hi, Hc, Hn⟩
  ihave Hi := (insAt_toks ct nt v0 v1 d (qC c) 16).1 $$ Hi
  icases Hi with ⟨Hd, Ht⟩
  isplitl [Hd]; · iexact Hd
  ihave H := (Transfers.bigSep_sep_in Finset.univ
      (fun i : Fin 16 => iprop((oc1Loc d ↦[blkSet c i 0]{fullShare} f0) ∗ (oc1Loc d ↦[blkSet c i 1]{fullShare} f0)))
      (fun i : Fin 16 => iprop((on1Loc d ↦[blkSet c i 0]{fullShare} f1) ∗ (on1Loc d ↦[blkSet c i 1]{fullShare} f1)))) $$ [Hc Hn]
  · isplitl [Hc] <;> iassumption
  ihave H := (Transfers.bigSep_sep_in Finset.univ (fun i : Fin 16 => insAt ct nt v0 v1 d (qT c i)) _) $$ [Ht H]
  · isplitl [Ht] <;> iassumption
  iapply (Transfers.ent (bigSep_mono fun i _ => tile_in1 ct nt v0 v1 d c f0 f1 i)) $$ H

/-- and what it brings back: its read token and its blocks at the gathered rows. -/
theorem core_out1 (d : Dev nD) (c : Fin 2) :
    coreDn1 ct nt v0 v1 d c
      ⊢ iprop(insAt ct nt v0 v1 d (qC c)
        ∗ (bigSep Finset.univ fun i : Fin 16 => iprop((oc1Loc d ↦[blkSet c i 0]{fullShare} outC ct v0 d 1) ∗ (oc1Loc d ↦[blkSet c i 1]{fullShare} outC ct v0 d 1)))
        ∗ (bigSep Finset.univ fun i : Fin 16 => iprop((on1Loc d ↦[blkSet c i 0]{fullShare} outN nt v1 d 1) ∗ (on1Loc d ↦[blkSet c i 1]{fullShare} outN nt v1 d 1)))) := by
  iintro ⟨Hd, H⟩
  ihave H := (Transfers.bigSep_sep_out Finset.univ (fun i : Fin 16 => insAt ct nt v0 v1 d (qT c i)) _) $$ H
  icases H with ⟨Ht, H⟩
  ihave H := (Transfers.bigSep_sep_out Finset.univ
      (fun i : Fin 16 => iprop((oc1Loc d ↦[blkSet c i 0]{fullShare} outC ct v0 d 1) ∗ (oc1Loc d ↦[blkSet c i 1]{fullShare} outC ct v0 d 1)))
      (fun i : Fin 16 => iprop((on1Loc d ↦[blkSet c i 0]{fullShare} outN nt v1 d 1) ∗ (on1Loc d ↦[blkSet c i 1]{fullShare} outN nt v1 d 1)))) $$ H
  icases H with ⟨Hc, Hn⟩
  isplitl [Hd Ht]
  · iapply (insAt_toks ct nt v0 v1 d (qC c) 16).2; isplitl [Hd] <;> iassumption
  isplitl [Hc] <;> iassumption

/-- SparseCore call 1 on the TensorCore: from the four inputs and the two results whole, to the inputs unchanged and the
    results at the gathered rows. -/
theorem call1 (hr : InRange v0 v1) (κ : GSem nD τ sig → ℕ) (d : Dev nD) (f0 : Buf (Elt F) (oc1Loc d)) (f1 : Buf (Elt F) (on1Loc d)) (Φ : PUnit → sProp 𝕄) :
    iprop((K (F := F)).ctx EH (P ct nt v0 v1) κ ∗ (K (F := F)).tcSt EH d 1 ∗ insFull ct nt v0 v1 d
        ∗ (oc1Loc d ↦{fullShare} f0) ∗ (on1Loc d ↦{fullShare} f1)
        ∗ (((K (F := F)).tcSt EH d 2 ∗ insFull ct nt v0 v1 d
            ∗ (oc1Loc d ↦{fullShare} outC ct v0 d 1) ∗ (on1Loc d ↦{fullShare} outN nt v1 d 1)) -∗ Φ ⟨⟩))
      ⊢ wp frame (wpE ((K (F := F)).defs (D (F := F))) 𝒱 (SparseCore.T d) none) Set.univ ((K (F := F)).run d 1) Φ := by
  iintro ⟨#Hctx, Hst, Hins, Ho0, Ho1, Hk⟩
  ihave Hins := (insAt_toks ct nt v0 v1 d fullShare 2).1 $$ Hins
  icases Hins with ⟨Hrest, Hc⟩
  ihave Hc := (Entails.of_eq (bigSep_univ_two (fun c : Fin 2 => insAt ct nt v0 v1 d (qC c)))) $$ Hc
  icases Hc with ⟨Hc0, Hc1⟩
  ihave Ho0 := (Entails.of_eq ((oc1_blocks (F := F) d f0).trans (bigSep_univ_two _))) $$ Ho0
  icases Ho0 with ⟨Ho00, Ho01⟩
  ihave Ho1 := (Entails.of_eq ((on1_blocks (F := F) d f1).trans (bigSep_univ_two _))) $$ Ho1
  icases Ho1 with ⟨Ho10, Ho11⟩
  iapply ((K (F := F)).wp_run (D (F := F)) 𝒱 (EH := EH) (P := P ct nt v0 v1) κ d 1) $$ [Hst Hc0 Hc1 Ho00 Ho01 Ho10 Ho11 Hrest Hk]
  isplitr; · iexact Hctx
  isplitl [Hst]; · iexact Hst
  isplitl [Hc0 Hc1 Ho00 Ho01 Ho10 Ho11]
  · rw [st1_eq]
    isplitl [Hc0 Ho00 Ho10]
    · iapply (core_in1 ct nt v0 v1 d 0 f0 f1); isplitl [Hc0]; · iexact Hc0
      isplitl [Ho00] <;> iassumption
    · iapply (core_in1 ct nt v0 v1 d 1 f0 f1); isplitl [Hc1]; · iexact Hc1
      isplitl [Ho01] <;> iassumption
  iintro ⟨Hst, Hdn⟩
  ihave Hdn := (Entails.of_eq (dn1_eq ct nt v0 v1 d)) $$ Hdn
  icases Hdn with ⟨H0, H1⟩
  ihave H0 := (core_out1 ct nt v0 v1 d 0) $$ H0
  icases H0 with ⟨Hc0, Ho00, Ho10⟩
  ihave H1 := (core_out1 ct nt v0 v1 d 1) $$ H1
  icases H1 with ⟨Hc1, Ho01, Ho11⟩
  iapply Hk
  isplitl [Hst]; · iexact Hst
  isplitl [Hrest Hc0 Hc1]
  · iapply (insAt_toks ct nt v0 v1 d fullShare 2).2
    isplitl [Hrest]; · iexact Hrest
    iapply (Entails.of_eq (bigSep_univ_two (fun c : Fin 2 => insAt ct nt v0 v1 d (qC c))).symm)
    isplitl [Hc0] <;> iassumption
  isplitl [Ho00 Ho01]
  · iapply (Entails.of_eq ((oc1_blocks (F := F) d (outC ct v0 d 1)).trans (bigSep_univ_two _)).symm)
    isplitl [Ho00] <;> iassumption
  · iapply (Entails.of_eq ((on1_blocks (F := F) d (outN nt v1 d 1)).trans (bigSep_univ_two _)).symm)
    isplitl [Ho10] <;> iassumption

end Cert.KernelIdeal.ScSide

end
-- ==== Proof.TcKernel.lean ====
/-
  The two TensorCore kernel bodies, each run once on whole staging buffers: eight loads, one covering store.
-/
import proofs.«204006_g8589934699_cont_9to1c4b_872_29_alg».proof.Proof.ScSetup
import Idealize.ShloMosaic.Lib.Pipeline.Value

noncomputable section

namespace Cert.KernelIdeal.TcSide

open Cert.KernelIdeal Cert.KernelIdeal.Gen Cert.KernelIdeal.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body of pipeline 0 on whole staging memrefs, the eight inputs' at read contents and the result's at anything,
    runs to the continuation holding the inputs' as they were and the result's at the payload of the inputs'. -/
theorem sound_kernel2 (c : Dev nD) (E : Set ℕ) (i : grid2.Coords) (arg1 : Memref sig .tc .vmem S1x1x2048 .i32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S32x32 .f32) (harg4 : arg4.IsWhole) (arg5 : Memref sig .tc .vmem S288x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .f32) (harg9 : arg9.IsWhole)
    (x0 : Vec F S1x1x2048 .i32) (x1 : Vec F S2048x128 .f32) (x2 : Vec F S2048x128 .f32) (x3 : Vec F S32x32 .f32) (x4 : Vec F S288x256 .f32) (x5 : Vec F S1x256 .f32) (x6 : Vec F S1x256 .f32) (x7 : Vec F S1x256 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ y, owns (c : Thread nD τ) arg9 fullShare y)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k2_pay1 (k2_pay2 x1 x2 x0 x4 x3 x5) (k2_pay3 x1 x2 x0 x4 x3 x5) (k2_pay4 x1 x2 x0 x4 x3 x5) x6 x7)) -∗ Kc ⟨⟩))
      ⊢ wp frame (wpE (defs₀ (F := F)) Variants.none c none) E (cc2__tc_body_first i arg1 harg1 arg2 harg2 arg3 harg3 arg4 harg4 arg5 harg5 arg6 harg6 arg7 harg7 arg8 harg8 arg9 harg9) Kc := by
  simp only [cc2__tc_body_first_eq_skeleton]; unfold cc2__tc_body_first_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%y8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero hz2 inb_S2048x256_S2048x256_0_0 y⟩), View.canon_unit_zero hz2]
  simp only [View.readAt_eq_ld, View.ld_unit_zero (S := S2048x128) hz2, View.ld_unit_zero (S := S1x1x2048) hz3, View.ld_unit_zero (S := S288x256) hz2,
    View.ld_unit_zero (S := S32x32) hz2, View.ld_unit_zero (S := S1x256) hz2]

set_option maxHeartbeats 1000000 in
/-- The body of pipeline 1 on whole staging memrefs, the eight inputs' at read contents and the result's at anything,
    runs to the continuation holding the inputs' as they were and the result's at the payload of the inputs'. -/
theorem sound_kernel3 (c : Dev nD) (E : Set ℕ) (i : grid3.Coords) (arg1 : Memref sig .tc .hbm S16384x256 .f32) (harg1 : arg1.IsWhole) (arg2 : Memref sig .tc .vmem S1x1x2048 .i32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S32x32 .f32) (harg5 : arg5.IsWhole) (arg6 : Memref sig .tc .vmem S288x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x256 .f32) (harg10 : arg10.IsWhole)
    (x0 : Vec F S1x1x2048 .i32) (x1 : Vec F S2048x128 .f32) (x2 : Vec F S2048x128 .f32) (x3 : Vec F S32x32 .f32) (x4 : Vec F S288x256 .f32) (x5 : Vec F S1x256 .f32) (x6 : Vec F S1x256 .f32) (x7 : Vec F S1x256 .f32) (Kc : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k3_pay1 (k3_pay2 x1 x2 x0 x4 x3 x5) (k3_pay3 x1 x2 x0 x4 x3 x5) (k3_pay4 x1 x2 x0 x4 x3 x5) x6 x7)) -∗ Kc ⟨⟩))
      ⊢ wp frame (wpE (defs₀ (F := F)) Variants.none c none) E (cc3__tc_body_second i arg1 harg1 arg2 harg2 arg3 harg3 arg4 harg4 arg5 harg5 arg6 harg6 arg7 harg7 arg8 harg8 arg9 harg9 arg10 harg10) Kc := by
  simp only [cc3__tc_body_second_eq_skeleton]; unfold cc3__tc_body_second_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%y8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero hz2 inb_S2048x256_S2048x256_0_0 y⟩), View.canon_unit_zero hz2]
  simp only [View.readAt_eq_ld, View.ld_unit_zero (S := S2048x128) hz2, View.ld_unit_zero (S := S1x1x2048) hz3, View.ld_unit_zero (S := S288x256) hz2,
    View.ld_unit_zero (S := S32x32) hz2, View.ld_unit_zero (S := S1x256) hz2]

end Cert.KernelIdeal.TcSide

end
-- ==== Proof.TcBody.lean ====
/-
  The body obligations of the two TensorCore pipelines: at every grid point the kernel body, called on the windows'
  current staging buffers, leaves each input's buffer at its block and the result's at the payload of the blocks.
-/
import proofs.«204006_g8589934699_cont_9to1c4b_872_29_alg».proof.Proof.TcData
import proofs.«204006_g8589934699_cont_9to1c4b_872_29_alg».proof.Proof.TcKernel

noncomputable section

namespace Cert.KernelIdeal.TcSide

open Cert.KernelIdeal Cert.KernelIdeal.Gen Cert.KernelIdeal.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Pipeline 0: the body obligation -/

/-- What the body is called with at point `t`: the invariant, the core's debts, each window's current staging buffer. -/
def bodyPre2 (c : Dev nD) (W : Valuation τ sig (Elt F)) (t : Fin cfg2.N) : sProp 𝕄 :=
  iprop((dat2 c W).Φ t.castSucc ∗ (dat2 c W).owesAt none t.castSucc
    ∗ (∃ x, owns (c : Thread nD τ) (st2_0 t) fullShare ((dat2 c W).before 0 t x))
    ∗ (∃ x, owns (c : Thread nD τ) (st2_1 t) fullShare ((dat2 c W).before 1 t x))
    ∗ (∃ x, owns (c : Thread nD τ) (st2_2 t) fullShare ((dat2 c W).before 2 t x))
    ∗ (∃ x, owns (c : Thread nD τ) (st2_3 t) fullShare ((dat2 c W).before 3 t x))
    ∗ (∃ x, owns (c : Thread nD τ) (st2_4 t) fullShare ((dat2 c W).before 4 t x))
    ∗ (∃ x, owns (c : Thread nD τ) (st2_5 t) fullShare ((dat2 c W).before 5 t x))
    ∗ (∃ x, owns (c : Thread nD τ) (st2_6 t) fullShare ((dat2 c W).before 6 t x))
    ∗ (∃ x, owns (c : Thread nD τ) (st2_7 t) fullShare ((dat2 c W).before 7 t x))
    ∗ (∃ x, owns (c : Thread nD τ) (st2_8 t) fullShare ((dat2 c W).before 8 t x)))

/-- and what it returns. -/
def bodyPost2 (c : Dev nD) (W : Valuation τ sig (Elt F)) (t : Fin cfg2.N) : sProp 𝕄 :=
  iprop((dat2 c W).Φ t.succ ∗ (dat2 c W).owesAt none t.succ
    ∗ owns (c : Thread nD τ) (st2_0 t) fullShare ((dat2 c W).after 0 t)
    ∗ owns (c : Thread nD τ) (st2_1 t) fullShare ((dat2 c W).after 1 t)
    ∗ owns (c : Thread nD τ) (st2_2 t) fullShare ((dat2 c W).after 2 t)
    ∗ owns (c : Thread nD τ) (st2_3 t) fullShare ((dat2 c W).after 3 t)
    ∗ owns (c : Thread nD τ) (st2_4 t) fullShare ((dat2 c W).after 4 t)
    ∗ owns (c : Thread nD τ) (st2_5 t) fullShare ((dat2 c W).after 5 t)
    ∗ owns (c : Thread nD τ) (st2_6 t) fullShare ((dat2 c W).after 6 t)
    ∗ owns (c : Thread nD τ) (st2_7 t) fullShare ((dat2 c W).after 7 t)
    ∗ owns (c : Thread nD τ) (st2_8 t) fullShare ((dat2 c W).after 8 t))

set_option maxHeartbeats 1000000 in
/-- The body at any point: the inputs' buffers hold their blocks, so the kernel's run applies; the invariant and the
    core's debts pass through unread. -/
theorem sound_body2 (c : Dev nD) (W : Valuation τ sig (Elt F)) (t : Fin cfg2.N) :
    bodyPre2 c W t ⊢ wp frame (wpE (defs₀ (F := F)) Variants.none c none) Set.univ (bodyAt2 t) (fun _ => bodyPost2 c W t) := by
  unfold bodyPre2 bodyPost2 bodyAt2
  simp only [before2_0, before2_1, before2_2, before2_3, before2_4, before2_5, before2_6, before2_7]
  rw [show (dat2 c W).Φ t.succ = (dat2 c W).Φ t.castSucc from rfl,
    show (dat2 c W).owesAt none t.succ = (dat2 c W).owesAt none t.castSucc from rfl,
    after2_0, after2_1, after2_2, after2_3, after2_4, after2_5, after2_6, after2_7, after2_8]
  unfold out2
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (sound_kernel2 c Set.univ (grid2.coords t) _ _ _ _ _ _ _ _ _ _ _ _ _ _ _ _ _ _ (iblk2 c W 0 t) (iblk2 c W 1 t) (iblk2 c W 2 t) (iblk2 c W 3 t) (iblk2 c W 4 t) (iblk2 c W 5 t) (iblk2 c W 6 t) (iblk2 c W 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) (W : Valuation τ sig (Elt F)) :
    Pipeline.BodyObligation (dat2 (F := F) c W) (defs₀ (F := F)) Variants.none (none : HIx 2) Set.univ := fun t => by
  rw [bigSep_W2, bigSep_W2]
  exact sound_body2 c W t

/-! ## Pipeline 1: the body obligation -/

/-- What the body is called with at point `t`: the invariant, the core's debts, each window's current staging buffer. -/
def bodyPre3 (c : Dev nD) (W : Valuation τ sig (Elt F)) (t : Fin cfg3.N) : sProp 𝕄 :=
  iprop((dat3 c W).Φ t.castSucc ∗ (dat3 c W).owesAt none t.castSucc
    ∗ (∃ x, owns (c : Thread nD τ) (st3_0 t) fullShare ((dat3 c W).before 0 t x))
    ∗ (∃ x, owns (c : Thread nD τ) (st3_1 t) fullShare ((dat3 c W).before 1 t x))
    ∗ (∃ x, owns (c : Thread nD τ) (st3_2 t) fullShare ((dat3 c W).before 2 t x))
    ∗ (∃ x, owns (c : Thread nD τ) (st3_3 t) fullShare ((dat3 c W).before 3 t x))
    ∗ (∃ x, owns (c : Thread nD τ) (st3_4 t) fullShare ((dat3 c W).before 4 t x))
    ∗ (∃ x, owns (c : Thread nD τ) (st3_5 t) fullShare ((dat3 c W).before 5 t x))
    ∗ (∃ x, owns (c : Thread nD τ) (st3_6 t) fullShare ((dat3 c W).before 6 t x))
    ∗ (∃ x, owns (c : Thread nD τ) (st3_7 t) fullShare ((dat3 c W).before 7 t x))
    ∗ (∃ x, owns (c : Thread nD τ) (st3_8 t) fullShare ((dat3 c W).before 8 t x)))

/-- and what it returns. -/
def bodyPost3 (c : Dev nD) (W : Valuation τ sig (Elt F)) (t : Fin cfg3.N) : sProp 𝕄 :=
  iprop((dat3 c W).Φ t.succ ∗ (dat3 c W).owesAt none t.succ
    ∗ owns (c : Thread nD τ) (st3_0 t) fullShare ((dat3 c W).after 0 t)
    ∗ owns (c : Thread nD τ) (st3_1 t) fullShare ((dat3 c W).after 1 t)
    ∗ owns (c : Thread nD τ) (st3_2 t) fullShare ((dat3 c W).after 2 t)
    ∗ owns (c : Thread nD τ) (st3_3 t) fullShare ((dat3 c W).after 3 t)
    ∗ owns (c : Thread nD τ) (st3_4 t) fullShare ((dat3 c W).after 4 t)
    ∗ owns (c : Thread nD τ) (st3_5 t) fullShare ((dat3 c W).after 5 t)
    ∗ owns (c : Thread nD τ) (st3_6 t) fullShare ((dat3 c W).after 6 t)
    ∗ owns (c : Thread nD τ) (st3_7 t) fullShare ((dat3 c W).after 7 t)
    ∗ owns (c : Thread nD τ) (st3_8 t) fullShare ((dat3 c W).after 8 t))

set_option maxHeartbeats 1000000 in
/-- The body at any point: the inputs' buffers hold their blocks, so the kernel's run applies; the invariant and the
    core's debts pass through unread. -/
theorem sound_body3 (c : Dev nD) (W : Valuation τ sig (Elt F)) (t : Fin cfg3.N) :
    bodyPre3 c W t ⊢ wp frame (wpE (defs₀ (F := F)) Variants.none c none) Set.univ (bodyAt3 t) (fun _ => bodyPost3 c W t) := by
  unfold bodyPre3 bodyPost3 bodyAt3
  simp only [before3_0, before3_1, before3_2, before3_3, before3_4, before3_5, before3_6, before3_7]
  rw [show (dat3 c W).Φ t.succ = (dat3 c W).Φ t.castSucc from rfl,
    show (dat3 c W).owesAt none t.succ = (dat3 c W).owesAt none t.castSucc from rfl,
    after3_0, after3_1, after3_2, after3_3, after3_4, after3_5, after3_6, after3_7, after3_8]
  unfold out3
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (sound_kernel3 c Set.univ (grid3.coords t) _ _ _ _ _ _ _ _ _ _ _ _ _ _ _ _ _ _ _ _ (iblk3 c W 0 t) (iblk3 c W 1 t) (iblk3 c W 2 t) (iblk3 c W 3 t) (iblk3 c W 4 t) (iblk3 c W 5 t) (iblk3 c W 6 t) (iblk3 c W 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) (W : Valuation τ sig (Elt F)) :
    Pipeline.BodyObligation (dat3 (F := F) c W) (defs₀ (F := F)) Variants.none (none : HIx 2) Set.univ := fun t => by
  rw [bigSep_W3, bigSep_W3]
  exact sound_body3 c W t

end Cert.KernelIdeal.TcSide

end
-- ==== Proof.TcRegion.lean ====
/-
  The two TensorCore pipelines inside the SparseCore program's @main, each as a kernel region of the pipeline
  library entered from the TensorCore's state after both SparseCore calls: the staging cells' invariants are
  allocated from the launch ghost state at the entry, the grid's four points run against the body obligation,
  and the region is left with every unscoped array at the valuation updated at the result array.
-/
import proofs.«204006_g8589934699_cont_9to1c4b_872_29_alg».proof.Proof.TcBody
import Idealize.ShloMosaic.Lib.Pipeline.RegionsLoop

noncomputable section

namespace Cert.KernelIdeal.TcSide

open Cert.KernelIdeal Cert.KernelIdeal.Gen Cert.KernelIdeal.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The TensorCore's thread state around a pipeline: every unscoped array at a valuation, and the core owing
    nothing, its recorded pairs at or below level 16 (the two SparseCore calls' handshakes). -/
def thrSt (d : Dev nD) (V : Valuation τ sig (Elt F)) : sProp 𝕄 :=
  iprop(unscopedBufs d (fun b => V b)
    ∗ ∃ W0, ⌜(K (F := F)).WBelow (SparseCore.T d) W0 16⌝ ∗ owes (SparseCore.T d) (0 : CellTallies nD τ sig (HIx 2)) W0)

/-- After both SparseCore calls the TensorCore owes nothing. -/
theorem tcSt_two {EH' : Emb (URounds (GSem nD τ sig) ℕ) 𝕄} (d : Dev nD) :
    (K (F := F)).tcSt EH' d 2 = iprop((∃ W0, ⌜(K (F := F)).WBelow (SparseCore.T d) W0 16⌝ ∗ owes (SparseCore.T d) (0 : CellTallies nD τ sig (HIx 2)) W0)
      ∗ atPos EH' ((K (F := F)).doneCell d) 2 ∅ 0 ∗ reached EH' ((K (F := F)).doneCell d) 2
      ∗ (bigSep Finset.univ fun c : Fin τ.nSC => reached EH' ((K (F := F)).startCell d c) ((K (F := F)).sRank c 2))
      ∗ bigSep (SparseCore.Cfg.callsFrom 2) fun q => bigSep Finset.univ fun c : Fin ((K (F := F)).nCore q) =>
          iprop(dutyTok EH' ((K (F := F)).startCell d ((K (F := F)).core q c)) ((K (F := F)).sRank ((K (F := F)).core q c) q.val) 0
            ∗ cred (tallyAt ((K (F := F)).doneCell d) (some q) 1))) := by
  unfold SparseCore.Cfg.tcSt
  rw [(K (F := F)).Otc_end d (le_refl 2)]

/-- A recorded set within the proof data's bound sits at or below level 16: the pipeline's own waits are at index
    `none`, level 0. -/
theorem below_of_bound2 (c : Dev nD) (W : Valuation τ sig (Elt F)) {W0 : Waits sig (HIx 2)} {t : Fin (cfg2.N + 1)}
    (h : (↑W0 : Set (SemLoc sig × HIx 2)) ⊆ (dat2 (F := F) c W).bound none t) : (K (F := F)).WBelow (SparseCore.T c) W0 16 := fun q hq => by
  rcases h (Finset.mem_coe.mpr hq) with h | ⟨w, s, rfl⟩
  · exact h
  · exact Nat.zero_le _

theorem below_of_bound3 (c : Dev nD) (W : Valuation τ sig (Elt F)) {W0 : Waits sig (HIx 2)} {t : Fin (cfg3.N + 1)}
    (h : (↑W0 : Set (SemLoc sig × HIx 2)) ⊆ (dat3 (F := F) c W).bound none t) : (K (F := F)).WBelow (SparseCore.T c) W0 16 := fun q hq => by
  rcases h (Finset.mem_coe.mpr hq) with h | ⟨w, s, rfl⟩
  · exact h
  · exact Nat.zero_le _

/-! ## Pipeline 0 as a kernel region -/

/-- The region's final arrays are the updated valuation's: an input array is never written back, the result array
    ends at the proof data's final contents. -/
theorem arrAt2_eq (c : Dev nD) (W : Valuation τ sig (Elt F)) (w : Fin (Pipeline.pin (pcfgs (F := F)) adm 0).W) :
    (pdats (F := F) W 0 c).arrAt w (Pipeline.pin (pcfgs (F := F)) adm 0).N = (fun b : Ref sig .tc => W2 c W b) (Pipeline.arrRef (Pipeline.pin (pcfgs (F := F)) adm 0).spec w) := by
  have hin : ∀ w' : Fin cfg2.W, (cfg2.win w').isOut = false → Proc.devRef (τ := τ) .tc (Pipeline.arrRef spec2 w') ≠ Proc.devRef .tc main_v8 →
      (dat2 (F := F) c W).arrAt w' cfg2.N = W2 c W (Proc.devRef .tc (Pipeline.arrRef spec2 w')) := fun w' hw hne => by
    rw [(dat2 c W).arrAt_in w' hw, A2_eq]; unfold W2; rw [Function.update_of_ne hne]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (show W2 c W (Proc.devRef .tc main_v8) = res2 c W from by unfold W2; rw [Function.update_self]).symm

/-- Off the region's arrays the updated valuation is the old one. -/
theorem rest2_eq (c : Dev nD) (W : Valuation τ sig (Elt F)) (b : Ref sig .tc)
    (hb : b ∉ Finset.univ.image (Pipeline.arrRef (Pipeline.pin (pcfgs (F := F)) adm 0).spec)) : (fun b : Ref sig .tc => W2 c W b) b = (fun b : Ref sig .tc => W b) b := by
  have hne : b ≠ main_v8 := fun e => hb (Finset.mem_image.mpr ⟨(8 : Fin 9), Finset.mem_univ _, e.symm ▸ rfl⟩)
  show W2 c W (Proc.devRef .tc b) = W (Proc.devRef .tc b)
  unfold W2; rw [Function.update_of_ne (fun e => hne (Proc.devRef_injective _ e))]

/-- THE REGION: every unscoped array enters at the valuation `W` and leaves at the updated one; the arrays no
    window stages bypass it; the core owes nothing throughout, and its recorded pairs stay at or below level 16. -/
def reg0 (W : Valuation τ sig (Elt F)) (lv : GSem nD τ sig → HIx 2 → ℕ) :
    Pipeline.RegionSeg (pcfgs (F := F)) adm (pdats W) (none : HIx 2) defs₀ 𝒱₀ (K (F := F)).L lv 0 where
  win := launch2.win.to₀
  block_pos := launch2.block_pos
  stage_whole := launch2.stage_whole
  K := PEmpty
  osem k := k.elim
  ho := Pipeline.OwnSemFacts.none _
  hbody c := (body_obligation2 c W).loose
  hwaits c := Pipeline.hwaits_of_owed_zero (pcfgs (F := F)) adm (pdats W) none (K (F := F)).L lv 0 (fun _ _ => rfl) c
  pre c := thrSt c W
  post c := thrSt c (W2 c W)
  X _ := iprop(emp)
  Y _ := iprop(emp)
  Z c := Pipeline.unscopedRest (Ix := HIx 2) (Name := ℕ) (U := UU) (Lvl := ℕ) spec2 c (fun b => W b)
  hentry c := by
    rw [Pipeline.ownSems0_none]
    have hsplit := Pipeline.arrays_of_unscopedBufs (p := (0 : Fin 2)) (pcfgs (F := F)) adm (pdats W) launch2.win launch2.arr_whole c
      ((pdats W 0 c).share_full fun _ => rfl) (fun b => W b) fun _ => rfl
    unfold thrSt
    iintro ⟨⟨Hub, %W0, %hW0, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W0; isplitr; · ipureintro; exact fun q hq => Or.inl (hW0 q (Finset.mem_coe.mp hq))
      iexact HO
    isplitr; · iempintro
    iexact Hr
  hin c := by
    show iprop(_ ∗ _ ∗ _) ⊢ Pipeline.scopedRest (Ix := HIx 2) (Name := ℕ) (U := UU) (Lvl := ℕ) (Val := Elt F) spec2 c
    iintro ⟨-, -, H⟩; iexact H
  hout c := by
    rw [Pipeline.ownSems0_none]
    show Pipeline.scopedRest (Ix := HIx 2) (Name := ℕ) (U := UU) (Lvl := ℕ) (Val := Elt F) spec2 c ⊢ _
    iintro H; isplitr; · iempintro
    isplitr; · iempintro
    iexact H
  hexit c := by
    have hback := Pipeline.unscopedBufs_of_arrays (p := (0 : Fin 2)) (pcfgs (F := F)) adm launch2.win launch2.arr_whole c (pdats W)
      ((pdats W 0 c).share_full fun _ => rfl) (fun b => W b) (fun b => W2 c W b)
      (fun w => (pdats W 0 c).arrAt w (Pipeline.pin (pcfgs (F := F)) adm 0).N) (arrAt2_eq c W) (rest2_eq c W)
    unfold thrSt
    iintro ⟨Ha, HO, -, Hr⟩
    imodintro
    isplitl [Ha Hr]
    · iapply hback; isplitl [Ha] <;> iassumption
    unfold Pipeline.Dat.owesAt Pipeline.owesWithin
    icases HO with ⟨%W0, %hW0, HO⟩
    iexists W0; isplitr; · ipureintro; exact below_of_bound2 c W hW0
    iexact HO

theorem reg0_pre (W : Valuation τ sig (Elt F)) (lv : GSem nD τ sig → HIx 2 → ℕ) (c : Dev nD) : (reg0 (F := F) W lv).pre c = thrSt c W := rfl
theorem reg0_post (W : Valuation τ sig (Elt F)) (lv : GSem nD τ sig → HIx 2 → ℕ) (c : Dev nD) : (reg0 (F := F) W lv).post c = thrSt c (W2 c W) := rfl

-- the region rule's implicit arguments are found by unifying its conclusion with ours, which takes unfolding plain
-- definitions in a metavariable's type
set_option backward.isDefEq.respectTransparency.types false in
/-- Pipeline 0 inside the SparseCore program's @main: from the handshake state after both SparseCore calls, the
    region boundary, every unscoped array at `W` and the pipeline's launch ghost state, the call runs to the same
    with the result array rewritten. -/
theorem region0 {lv : GSem nD τ sig → HIx 2 → ℕ}
    (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx EH P κ lv ∗ (K (F := F)).tcSt EH d 2 ∗ boundary (SparseCore.T d) ∗ unscopedBufs d (fun b => W b)
        ∗ ghost 0 d
        ∗ (iprop((K (F := F)).tcSt EH d 2 ∗ boundary (SparseCore.T d) ∗ unscopedBufs d (fun b => W2 d W b)) -∗ Φ ⟨⟩))
      ⊢ wp frame (wpE ((K (F := F)).defs D) 𝒱 (SparseCore.T d) none) Set.univ (Prog.lift (.customCall (SparseCore.inner (Pipeline.entry 0)) ())) Φ := by
  have hwp := (reg0 (F := F) W lv).wp (pcfgs (F := F)) adm (pdats W) (none : HIx 2) cellOf_inj EP defs₀ 𝒱₀ (K (F := F)).L lv d none
    (fun _ hu => by cases hu) (fun u => .ret u) Φ
  rw [reg0_pre, reg0_post] at hwp
  unfold thrSt at hwp
  have hlift := (K (F := F)).wp_liftProg (D (F := F)) 𝒱 (SparseCore.T d) Set.univ none
    (.op (.customCall (Pipeline.entry 0) ()) fun u => .ret u) Φ
  refine BIBase.Entails.trans ?_ hlift
  refine BIBase.Entails.trans ?_ hwp
  rw [tcSt_two]
  iintro ⟨#Hctx, ⟨⟨%W0, %hW0, HO⟩, Hrest⟩, Hbd, Hub, ⟨Hg, Ht⟩, Hk⟩
  isplitl [Hk Hrest]
  · iintro ⟨Hbd, Hpost⟩
    rw [wp_ret]; imodintro
    iapply Hk
    icases Hpost with ⟨Hub, %W1, %hW1, HO⟩
    isplitl [HO Hrest]
    · isplitl [HO]
      · iexists W1; isplitr; · ipureintro; exact hW1
        iexact HO
      iexact Hrest
    isplitl [Hbd]; · iexact Hbd
    iexact Hub
  isplitl [Hbd]; · iexact Hbd
  isplitl [Hub HO]
  · isplitl [Hub]; · iexact Hub
    iexists W0; isplitr; · ipureintro; exact hW0
    iexact HO
  isplitr; · iapply (K.ctx_levAts (EH := EH) (P := P) κ); iexact Hctx
  isplitl [Hg]; · iexact Hg
  iexact Ht

/-! ## Pipeline 1 as a kernel region -/

/-- The region's final arrays are the updated valuation's: an input array is never written back, the result array
    ends at the proof data's final contents. -/
theorem arrAt3_eq (c : Dev nD) (W : Valuation τ sig (Elt F)) (w : Fin (Pipeline.pin (pcfgs (F := F)) adm 1).W) :
    (pdats (F := F) W 1 c).arrAt w (Pipeline.pin (pcfgs (F := F)) adm 1).N = (fun b : Ref sig .tc => W3 c W b) (Pipeline.arrRef (Pipeline.pin (pcfgs (F := F)) adm 1).spec w) := by
  have hin : ∀ w' : Fin cfg3.W, (cfg3.win w').isOut = false → Proc.devRef (τ := τ) .tc (Pipeline.arrRef spec3 w') ≠ Proc.devRef .tc main_v9 →
      (dat3 (F := F) c W).arrAt w' cfg3.N = W3 c W (Proc.devRef .tc (Pipeline.arrRef spec3 w')) := fun w' hw hne => by
    rw [(dat3 c W).arrAt_in w' hw, A3_eq]; unfold W3; rw [Function.update_of_ne hne]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (show W3 c W (Proc.devRef .tc main_v9) = res3 c W from by unfold W3; rw [Function.update_self]).symm

/-- Off the region's arrays the updated valuation is the old one. -/
theorem rest3_eq (c : Dev nD) (W : Valuation τ sig (Elt F)) (b : Ref sig .tc)
    (hb : b ∉ Finset.univ.image (Pipeline.arrRef (Pipeline.pin (pcfgs (F := F)) adm 1).spec)) : (fun b : Ref sig .tc => W3 c W b) b = (fun b : Ref sig .tc => W b) b := by
  have hne : b ≠ main_v9 := fun e => hb (Finset.mem_image.mpr ⟨(8 : Fin 9), Finset.mem_univ _, e.symm ▸ rfl⟩)
  show W3 c W (Proc.devRef .tc b) = W (Proc.devRef .tc b)
  unfold W3; rw [Function.update_of_ne (fun e => hne (Proc.devRef_injective _ e))]

/-- THE REGION: every unscoped array enters at the valuation `W` and leaves at the updated one; the arrays no
    window stages bypass it; the core owes nothing throughout, and its recorded pairs stay at or below level 16. -/
def reg1 (W : Valuation τ sig (Elt F)) (lv : GSem nD τ sig → HIx 2 → ℕ) :
    Pipeline.RegionSeg (pcfgs (F := F)) adm (pdats W) (none : HIx 2) defs₀ 𝒱₀ (K (F := F)).L lv 1 where
  win := launch3.win.to₀
  block_pos := launch3.block_pos
  stage_whole := launch3.stage_whole
  K := PEmpty
  osem k := k.elim
  ho := Pipeline.OwnSemFacts.none _
  hbody c := (body_obligation3 c W).loose
  hwaits c := Pipeline.hwaits_of_owed_zero (pcfgs (F := F)) adm (pdats W) none (K (F := F)).L lv 1 (fun _ _ => rfl) c
  pre c := thrSt c W
  post c := thrSt c (W3 c W)
  X _ := iprop(emp)
  Y _ := iprop(emp)
  Z c := Pipeline.unscopedRest (Ix := HIx 2) (Name := ℕ) (U := UU) (Lvl := ℕ) spec3 c (fun b => W b)
  hentry c := by
    rw [Pipeline.ownSems0_none]
    have hsplit := Pipeline.arrays_of_unscopedBufs (p := (1 : Fin 2)) (pcfgs (F := F)) adm (pdats W) launch3.win launch3.arr_whole c
      ((pdats W 1 c).share_full fun _ => rfl) (fun b => W b) fun _ => rfl
    unfold thrSt
    iintro ⟨⟨Hub, %W0, %hW0, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W0; isplitr; · ipureintro; exact fun q hq => Or.inl (hW0 q (Finset.mem_coe.mp hq))
      iexact HO
    isplitr; · iempintro
    iexact Hr
  hin c := by
    show iprop(_ ∗ _ ∗ _) ⊢ Pipeline.scopedRest (Ix := HIx 2) (Name := ℕ) (U := UU) (Lvl := ℕ) (Val := Elt F) spec3 c
    iintro ⟨-, -, H⟩; iexact H
  hout c := by
    rw [Pipeline.ownSems0_none]
    show Pipeline.scopedRest (Ix := HIx 2) (Name := ℕ) (U := UU) (Lvl := ℕ) (Val := Elt F) spec3 c ⊢ _
    iintro H; isplitr; · iempintro
    isplitr; · iempintro
    iexact H
  hexit c := by
    have hback := Pipeline.unscopedBufs_of_arrays (p := (1 : Fin 2)) (pcfgs (F := F)) adm launch3.win launch3.arr_whole c (pdats W)
      ((pdats W 1 c).share_full fun _ => rfl) (fun b => W b) (fun b => W3 c W b)
      (fun w => (pdats W 1 c).arrAt w (Pipeline.pin (pcfgs (F := F)) adm 1).N) (arrAt3_eq c W) (rest3_eq c W)
    unfold thrSt
    iintro ⟨Ha, HO, -, Hr⟩
    imodintro
    isplitl [Ha Hr]
    · iapply hback; isplitl [Ha] <;> iassumption
    unfold Pipeline.Dat.owesAt Pipeline.owesWithin
    icases HO with ⟨%W0, %hW0, HO⟩
    iexists W0; isplitr; · ipureintro; exact below_of_bound3 c W hW0
    iexact HO

theorem reg1_pre (W : Valuation τ sig (Elt F)) (lv : GSem nD τ sig → HIx 2 → ℕ) (c : Dev nD) : (reg1 (F := F) W lv).pre c = thrSt c W := rfl
theorem reg1_post (W : Valuation τ sig (Elt F)) (lv : GSem nD τ sig → HIx 2 → ℕ) (c : Dev nD) : (reg1 (F := F) W lv).post c = thrSt c (W3 c W) := rfl

-- the region rule's implicit arguments are found by unifying its conclusion with ours, which takes unfolding plain
-- definitions in a metavariable's type
set_option backward.isDefEq.respectTransparency.types false in
/-- Pipeline 1 inside the SparseCore program's @main: from the handshake state after both SparseCore calls, the
    region boundary, every unscoped array at `W` and the pipeline's launch ghost state, the call runs to the same
    with the result array rewritten. -/
theorem region1 {lv : GSem nD τ sig → HIx 2 → ℕ}
    (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx EH P κ lv ∗ (K (F := F)).tcSt EH d 2 ∗ boundary (SparseCore.T d) ∗ unscopedBufs d (fun b => W b)
        ∗ ghost 1 d
        ∗ (iprop((K (F := F)).tcSt EH d 2 ∗ boundary (SparseCore.T d) ∗ unscopedBufs d (fun b => W3 d W b)) -∗ Φ ⟨⟩))
      ⊢ wp frame (wpE ((K (F := F)).defs D) 𝒱 (SparseCore.T d) none) Set.univ (Prog.lift (.customCall (SparseCore.inner (Pipeline.entry 1)) ())) Φ := by
  have hwp := (reg1 (F := F) W lv).wp (pcfgs (F := F)) adm (pdats W) (none : HIx 2) cellOf_inj EP defs₀ 𝒱₀ (K (F := F)).L lv d none
    (fun _ hu => by cases hu) (fun u => .ret u) Φ
  rw [reg1_pre, reg1_post] at hwp
  unfold thrSt at hwp
  have hlift := (K (F := F)).wp_liftProg (D (F := F)) 𝒱 (SparseCore.T d) Set.univ none
    (.op (.customCall (Pipeline.entry 1) ()) fun u => .ret u) Φ
  refine BIBase.Entails.trans ?_ hlift
  refine BIBase.Entails.trans ?_ hwp
  rw [tcSt_two]
  iintro ⟨#Hctx, ⟨⟨%W0, %hW0, HO⟩, Hrest⟩, Hbd, Hub, ⟨Hg, Ht⟩, Hk⟩
  isplitl [Hk Hrest]
  · iintro ⟨Hbd, Hpost⟩
    rw [wp_ret]; imodintro
    iapply Hk
    icases Hpost with ⟨Hub, %W1, %hW1, HO⟩
    isplitl [HO Hrest]
    · isplitl [HO]
      · iexists W1; isplitr; · ipureintro; exact hW1
        iexact HO
      iexact Hrest
    isplitl [Hbd]; · iexact Hbd
    iexact Hub
  isplitl [Hbd]; · iexact Hbd
  isplitl [Hub HO]
  · isplitl [Hub]; · iexact Hub
    iexists W0; isplitr; · ipureintro; exact hW0
    iexact HO
  isplitr; · iapply (K.ctx_levAts (EH := EH) (P := P) κ); iexact Hctx
  isplitl [Hg]; · iexact Hg
  iexact Ht

end Cert.KernelIdeal.TcSide

end
-- ==== Proof.KerParts.lean ====
/-
  The kernel program's run under the precondition, for any float instance: the launch theorem's hypotheses are the
  two row-gather kernels' obligations and operand splits, their calls and the two pipelines as @main meets them —
  the gathers' indices in range by the precondition.
-/
import proofs.«204006_g8589934699_cont_9to1c4b_872_29_alg».proof.Proof.MainFinal
import proofs.«204006_g8589934699_cont_9to1c4b_872_29_alg».proof.Proof.MainPre
import proofs.«204006_g8589934699_cont_9to1c4b_872_29_alg».proof.Proof.ScTile0
import proofs.«204006_g8589934699_cont_9to1c4b_872_29_alg».proof.Proof.ScTile1
import proofs.«204006_g8589934699_cont_9to1c4b_872_29_alg».proof.Proof.ScSplit
import proofs.«204006_g8589934699_cont_9to1c4b_872_29_alg».proof.Proof.ScCall
import proofs.«204006_g8589934699_cont_9to1c4b_872_29_alg».proof.Proof.TcRegion

noncomputable section

namespace Cert.KernelIdeal.MainSide

open Cert.KernelIdeal Cert.KernelIdeal.Gen Cert.KernelIdeal.Setup Cert.KernelIdeal.ScSide Cert.KernelIdeal.TcSide
open Idealize.ShloMosaic Idealize.ShloMosaic.TcCoe Idealize.SL.Sem

variable {F : FTy → Type} [FloatOps F] [∀ e, Nonempty (Elt F e)] [Cert.Pre_input_domain.Facts]

variable (m : (ℓ : Loc nD τ sig) → Buf (Elt F) ℓ) (ρ : Dev nD → PrngReg)

/-- Every weakly fair execution of the kernel program from a memory satisfying the precondition terminates, with
    the ten arguments as launched and the result array at the last valuation's. -/
theorem run_of_pre
    (hpre : ∀ c : Dev nD, Cert.Pre_input_domain.fn (F := F) (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) = (fun _ => 1#1)) :
    θ_run (Cert.KernelIdeal.defs (F := F)) (Cert.KernelIdeal.threads (F := F)) ⟨m, fun _ => 0, ρ⟩ (QC m) :=
  have hr : InRange (i0F m) (i1F m) := inRange_of_pre m hpre
  run_main m ρ
    (tileObl0 (ctF m) (ntF m) (i0F m) (i1F m) facts hr) (tileObl1 (ctF m) (ntF m) (i0F m) (i1F m) facts hr)
    (vecSplit0 (ctF m) (ntF m) (i0F m) (i1F m)) (vecSplit1 (ctF m) (ntF m) (i0F m) (i1F m))
    (fun κ d f0 f1 Φ => call0 (ctF m) (ntF m) (i0F m) (i1F m) hr κ d f0 f1 Φ)
    (fun κ d f0 f1 Φ => call1 (ctF m) (ntF m) (i0F m) (i1F m) hr κ d f0 f1 Φ)
    (fun κ d W Φ => region0 (PP m) κ d W Φ) (fun κ d W Φ => region1 (PP m) κ d W Φ)

end Cert.KernelIdeal.MainSide

end
-- ==== Proof.KerReads.lean ====
/-
  The pipelines' input blocks read off their arrays: at grid point t the two row blocks are rows 2048 t … + 2048 of
  the gathered arrays, the id block is one row of the id array laid out as [8, 1, 2048], and the five small arrays
  are staged whole.
-/
import proofs.«204006_g8589934699_cont_9to1c4b_872_29_alg».proof.Proof.MainRegions
import Idealize.ShloMosaic.Lib.ValueLayout

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable {F : FTy → Type} [FloatOps F]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev a9' : DevRef τ sig := Proc.devRef .tc (main_arg9 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v8' : DevRef τ sig := Proc.devRef .tc (main_v8 : Ref sig .tc)
abbrev v9' : DevRef τ sig := Proc.devRef .tc (main_v9 : Ref sig .tc)

/-! ## The first pipeline -/

/-- The index maps of the first pipeline's windows, decided over its four grid points. -/
theorem idx2 : ∀ t : Fin cfg2.N, win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = t.val ∧ win2_2.index t (1 : Fin 2) = 0
    ∧ win2_8.index t (0 : Fin 2) = t.val ∧ win2_8.index t (1 : Fin 2) = 0 ∧ t.val < 4
    ∧ (win2_3.index t (0 : Fin 2) = 0 ∧ win2_3.index t (1 : Fin 2) = 0 ∧ win2_4.index t (0 : Fin 2) = 0 ∧ win2_4.index t (1 : Fin 2) = 0
      ∧ win2_5.index t (0 : Fin 2) = 0 ∧ win2_5.index t (1 : Fin 2) = 0 ∧ win2_6.index t (0 : Fin 2) = 0 ∧ win2_6.index t (1 : Fin 2) = 0
      ∧ win2_7.index t (0 : Fin 2) = 0 ∧ win2_7.index t (1 : Fin 2) = 0) :=
  (by decide +kernel : ∀ t : Fin grid2.N, _)

theorem blk2_code (d : Dev nD) (W : Valuation τ sig (Elt F)) (t : Fin cfg2.N) (r : Fin 2048) (k : Fin 128) (R : Fin 8192)
    (hR : R.val = 2048 * t.val + r.val) :
    (iblk2 d W 1 t : Vec F S2048x128 .f32) (ix2 r k) = (W v60' : S8192x128.Idx → Elt F .f32) (ix2 R k) := by
  obtain ⟨-, -, -, h0, h1, -, -, -, -, -⟩ := idx2 t
  unfold iblk2
  rw [View.read_apply]
  show W v60' _ = W v60' _
  congr 1
  funext a
  apply Fin.ext
  match a with
  | ⟨0, _⟩ => show win2_1.index t (0 : Fin 2) * 2048 + 1 * r.val = R.val; rw [h0, hR]; omega
  | ⟨1, _⟩ => show win2_1.index t (1 : Fin 2) * 128 + 1 * k.val = k.val; rw [h1]; omega

theorem blk2_name (d : Dev nD) (W : Valuation τ sig (Elt F)) (t : Fin cfg2.N) (r : Fin 2048) (k : Fin 128) (R : Fin 8192)
    (hR : R.val = 2048 * t.val + r.val) :
    (iblk2 d W 2 t : Vec F S2048x128 .f32) (ix2 r k) = (W v61' : S8192x128.Idx → Elt F .f32) (ix2 R k) := by
  obtain ⟨-, -, -, -, -, h0, h1, -, -, -⟩ := idx2 t
  unfold iblk2
  rw [View.read_apply]
  show W v61' _ = W v61' _
  congr 1
  funext a
  apply Fin.ext
  match a with
  | ⟨0, _⟩ => show win2_2.index t (0 : Fin 2) * 2048 + 1 * r.val = R.val; rw [h0, hR]; omega
  | ⟨1, _⟩ => show win2_2.index t (1 : Fin 2) * 128 + 1 * k.val = k.val; rw [h1]; omega

theorem blk2_ids (d : Dev nD) (W : Valuation τ sig (Elt F)) (t : Fin cfg2.N) (r : Fin 2048) (s : Fin 8)
    (hs : s.val = t.val) :
    (iblk2 d W 0 t : Vec F S1x1x2048 .i32) (ix3 (0 : Fin 1) (0 : Fin 1) r) = (W v2' : S8x1x2048.Idx → Elt F .i32) (ix3 s (0 : Fin 1) r) := by
  obtain ⟨h0, h1, h2, -⟩ := idx2 t
  unfold iblk2
  rw [View.read_apply]
  show W v2' _ = W v2' _
  congr 1
  funext a
  apply Fin.ext
  match a with
  | ⟨0, _⟩ => show win2_0.index t (0 : Fin 3) * 1 + 1 * 0 = s.val; rw [h0, hs]; omega
  | ⟨1, _⟩ => show win2_0.index t (1 : Fin 3) * 1 + 1 * 0 = 0; rw [h1]
  | ⟨2, _⟩ => show win2_0.index t (2 : Fin 3) * 2048 + 1 * r.val = r.val; rw [h2]; omega

theorem blk2_nat (d : Dev nD) (W : Valuation τ sig (Elt F)) (t : Fin cfg2.N) :
    (iblk2 d W 3 t : Vec F S32x32 .f32) = (W a5' : S32x32.Idx → Elt F .f32) := by
  obtain ⟨-, -, -, -, -, -, -, -, -, -, h⟩ := idx2 t
  obtain ⟨h30, h31, h40, h41, h50, h51, h60, h61, h70, h71⟩ := h
  funext y
  unfold iblk2
  rw [View.read_apply]
  show W a5' _ = W a5' _
  congr 1
  funext a
  apply Fin.ext
  match a with
  | ⟨0, _⟩ => show win2_3.index t (0 : Fin 2) * 32 + 1 * (y 0).val = (y 0).val; rw [h30]; omega
  | ⟨1, _⟩ => show win2_3.index t (1 : Fin 2) * 32 + 1 * (y 1).val = (y 1).val; rw [h31]; omega

theorem blk2_w (d : Dev nD) (W : Valuation τ sig (Elt F)) (t : Fin cfg2.N) :
    (iblk2 d W 4 t : Vec F S288x256 .f32) = (W a6' : S288x256.Idx → Elt F .f32) := by
  obtain ⟨-, -, -, -, -, -, -, -, -, -, h⟩ := idx2 t
  obtain ⟨h30, h31, h40, h41, h50, h51, h60, h61, h70, h71⟩ := h
  funext y
  unfold iblk2
  rw [View.read_apply]
  show W a6' _ = W a6' _
  congr 1
  funext a
  apply Fin.ext
  match a with
  | ⟨0, _⟩ => show win2_4.index t (0 : Fin 2) * 288 + 1 * (y 0).val = (y 0).val; rw [h40]; omega
  | ⟨1, _⟩ => show win2_4.index t (1 : Fin 2) * 256 + 1 * (y 1).val = (y 1).val; rw [h41]; omega

theorem blk2_b (d : Dev nD) (W : Valuation τ sig (Elt F)) (t : Fin cfg2.N) :
    (iblk2 d W 5 t : Vec F S1x256 .f32) = (W v3' : S1x256.Idx → Elt F .f32) := by
  obtain ⟨-, -, -, -, -, -, -, -, -, -, h⟩ := idx2 t
  obtain ⟨h30, h31, h40, h41, h50, h51, h60, h61, h70, h71⟩ := h
  funext y
  unfold iblk2
  rw [View.read_apply]
  show W v3' _ = W v3' _
  congr 1
  funext a
  apply Fin.ext
  match a with
  | ⟨0, _⟩ => show win2_5.index t (0 : Fin 2) * 1 + 1 * (y 0).val = (y 0).val; rw [h50]; omega
  | ⟨1, _⟩ => show win2_5.index t (1 : Fin 2) * 256 + 1 * (y 1).val = (y 1).val; rw [h51]; omega

theorem blk2_g (d : Dev nD) (W : Valuation τ sig (Elt F)) (t : Fin cfg2.N) :
    (iblk2 d W 6 t : Vec F S1x256 .f32) = (W v4' : S1x256.Idx → Elt F .f32) := by
  obtain ⟨-, -, -, -, -, -, -, -, -, -, h⟩ := idx2 t
  obtain ⟨h30, h31, h40, h41, h50, h51, h60, h61, h70, h71⟩ := h
  funext y
  unfold iblk2
  rw [View.read_apply]
  show W v4' _ = W v4' _
  congr 1
  funext a
  apply Fin.ext
  match a with
  | ⟨0, _⟩ => show win2_6.index t (0 : Fin 2) * 1 + 1 * (y 0).val = (y 0).val; rw [h60]; omega
  | ⟨1, _⟩ => show win2_6.index t (1 : Fin 2) * 256 + 1 * (y 1).val = (y 1).val; rw [h61]; omega

theorem blk2_be (d : Dev nD) (W : Valuation τ sig (Elt F)) (t : Fin cfg2.N) :
    (iblk2 d W 7 t : Vec F S1x256 .f32) = (W v5' : S1x256.Idx → Elt F .f32) := by
  obtain ⟨-, -, -, -, -, -, -, -, -, -, h⟩ := idx2 t
  obtain ⟨h30, h31, h40, h41, h50, h51, h60, h61, h70, h71⟩ := h
  funext y
  unfold iblk2
  rw [View.read_apply]
  show W v5' _ = W v5' _
  congr 1
  funext a
  apply Fin.ext
  match a with
  | ⟨0, _⟩ => show win2_7.index t (0 : Fin 2) * 1 + 1 * (y 0).val = (y 0).val; rw [h70]; omega
  | ⟨1, _⟩ => show win2_7.index t (1 : Fin 2) * 256 + 1 * (y 1).val = (y 1).val; rw [h71]; omega

/-! ## The second pipeline -/

/-- The index maps of the second pipeline's windows, decided over its four grid points. -/
theorem idx3 : ∀ t : Fin cfg3.N, win3_0.index t (0 : Fin 3) = t.val + 4 ∧ win3_0.index t (1 : Fin 3) = 0 ∧ win3_0.index t (2 : Fin 3) = 0
    ∧ win3_1.index t (0 : Fin 2) = t.val ∧ win3_1.index t (1 : Fin 2) = 0
    ∧ win3_2.index t (0 : Fin 2) = t.val ∧ win3_2.index t (1 : Fin 2) = 0
    ∧ win3_8.index t (0 : Fin 2) = t.val + 4 ∧ win3_8.index t (1 : Fin 2) = 0 ∧ t.val < 4
    ∧ (win3_3.index t (0 : Fin 2) = 0 ∧ win3_3.index t (1 : Fin 2) = 0 ∧ win3_4.index t (0 : Fin 2) = 0 ∧ win3_4.index t (1 : Fin 2) = 0
      ∧ win3_5.index t (0 : Fin 2) = 0 ∧ win3_5.index t (1 : Fin 2) = 0 ∧ win3_6.index t (0 : Fin 2) = 0 ∧ win3_6.index t (1 : Fin 2) = 0
      ∧ win3_7.index t (0 : Fin 2) = 0 ∧ win3_7.index t (1 : Fin 2) = 0) :=
  (by decide +kernel : ∀ t : Fin grid3.N, _)

theorem blk3_code (d : Dev nD) (W : Valuation τ sig (Elt F)) (t : Fin cfg3.N) (r : Fin 2048) (k : Fin 128) (R : Fin 8192)
    (hR : R.val = 2048 * t.val + r.val) :
    (iblk3 d W 1 t : Vec F S2048x128 .f32) (ix2 r k) = (W v70' : S8192x128.Idx → Elt F .f32) (ix2 R k) := by
  obtain ⟨-, -, -, h0, h1, -, -, -, -, -⟩ := idx3 t
  unfold iblk3
  rw [View.read_apply]
  show W v70' _ = W v70' _
  congr 1
  funext a
  apply Fin.ext
  match a with
  | ⟨0, _⟩ => show win3_1.index t (0 : Fin 2) * 2048 + 1 * r.val = R.val; rw [h0, hR]; omega
  | ⟨1, _⟩ => show win3_1.index t (1 : Fin 2) * 128 + 1 * k.val = k.val; rw [h1]; omega

theorem blk3_name (d : Dev nD) (W : Valuation τ sig (Elt F)) (t : Fin cfg3.N) (r : Fin 2048) (k : Fin 128) (R : Fin 8192)
    (hR : R.val = 2048 * t.val + r.val) :
    (iblk3 d W 2 t : Vec F S2048x128 .f32) (ix2 r k) = (W v71' : S8192x128.Idx → Elt F .f32) (ix2 R k) := by
  obtain ⟨-, -, -, -, -, h0, h1, -, -, -⟩ := idx3 t
  unfold iblk3
  rw [View.read_apply]
  show W v71' _ = W v71' _
  congr 1
  funext a
  apply Fin.ext
  match a with
  | ⟨0, _⟩ => show win3_2.index t (0 : Fin 2) * 2048 + 1 * r.val = R.val; rw [h0, hR]; omega
  | ⟨1, _⟩ => show win3_2.index t (1 : Fin 2) * 128 + 1 * k.val = k.val; rw [h1]; omega

theorem blk3_ids (d : Dev nD) (W : Valuation τ sig (Elt F)) (t : Fin cfg3.N) (r : Fin 2048) (s : Fin 8)
    (hs : s.val = t.val + 4) :
    (iblk3 d W 0 t : Vec F S1x1x2048 .i32) (ix3 (0 : Fin 1) (0 : Fin 1) r) = (W v2' : S8x1x2048.Idx → Elt F .i32) (ix3 s (0 : Fin 1) r) := by
  obtain ⟨h0, h1, h2, -⟩ := idx3 t
  unfold iblk3
  rw [View.read_apply]
  show W v2' _ = W v2' _
  congr 1
  funext a
  apply Fin.ext
  match a with
  | ⟨0, _⟩ => show win3_0.index t (0 : Fin 3) * 1 + 1 * 0 = s.val; rw [h0, hs]; omega
  | ⟨1, _⟩ => show win3_0.index t (1 : Fin 3) * 1 + 1 * 0 = 0; rw [h1]
  | ⟨2, _⟩ => show win3_0.index t (2 : Fin 3) * 2048 + 1 * r.val = r.val; rw [h2]; omega

theorem blk3_nat (d : Dev nD) (W : Valuation τ sig (Elt F)) (t : Fin cfg3.N) :
    (iblk3 d W 3 t : Vec F S32x32 .f32) = (W a5' : S32x32.Idx → Elt F .f32) := by
  obtain ⟨-, -, -, -, -, -, -, -, -, -, h⟩ := idx3 t
  obtain ⟨h30, h31, h40, h41, h50, h51, h60, h61, h70, h71⟩ := h
  funext y
  unfold iblk3
  rw [View.read_apply]
  show W a5' _ = W a5' _
  congr 1
  funext a
  apply Fin.ext
  match a with
  | ⟨0, _⟩ => show win3_3.index t (0 : Fin 2) * 32 + 1 * (y 0).val = (y 0).val; rw [h30]; omega
  | ⟨1, _⟩ => show win3_3.index t (1 : Fin 2) * 32 + 1 * (y 1).val = (y 1).val; rw [h31]; omega

theorem blk3_w (d : Dev nD) (W : Valuation τ sig (Elt F)) (t : Fin cfg3.N) :
    (iblk3 d W 4 t : Vec F S288x256 .f32) = (W a6' : S288x256.Idx → Elt F .f32) := by
  obtain ⟨-, -, -, -, -, -, -, -, -, -, h⟩ := idx3 t
  obtain ⟨h30, h31, h40, h41, h50, h51, h60, h61, h70, h71⟩ := h
  funext y
  unfold iblk3
  rw [View.read_apply]
  show W a6' _ = W a6' _
  congr 1
  funext a
  apply Fin.ext
  match a with
  | ⟨0, _⟩ => show win3_4.index t (0 : Fin 2) * 288 + 1 * (y 0).val = (y 0).val; rw [h40]; omega
  | ⟨1, _⟩ => show win3_4.index t (1 : Fin 2) * 256 + 1 * (y 1).val = (y 1).val; rw [h41]; omega

theorem blk3_b (d : Dev nD) (W : Valuation τ sig (Elt F)) (t : Fin cfg3.N) :
    (iblk3 d W 5 t : Vec F S1x256 .f32) = (W v3' : S1x256.Idx → Elt F .f32) := by
  obtain ⟨-, -, -, -, -, -, -, -, -, -, h⟩ := idx3 t
  obtain ⟨h30, h31, h40, h41, h50, h51, h60, h61, h70, h71⟩ := h
  funext y
  unfold iblk3
  rw [View.read_apply]
  show W v3' _ = W v3' _
  congr 1
  funext a
  apply Fin.ext
  match a with
  | ⟨0, _⟩ => show win3_5.index t (0 : Fin 2) * 1 + 1 * (y 0).val = (y 0).val; rw [h50]; omega
  | ⟨1, _⟩ => show win3_5.index t (1 : Fin 2) * 256 + 1 * (y 1).val = (y 1).val; rw [h51]; omega

theorem blk3_g (d : Dev nD) (W : Valuation τ sig (Elt F)) (t : Fin cfg3.N) :
    (iblk3 d W 6 t : Vec F S1x256 .f32) = (W v4' : S1x256.Idx → Elt F .f32) := by
  obtain ⟨-, -, -, -, -, -, -, -, -, -, h⟩ := idx3 t
  obtain ⟨h30, h31, h40, h41, h50, h51, h60, h61, h70, h71⟩ := h
  funext y
  unfold iblk3
  rw [View.read_apply]
  show W v4' _ = W v4' _
  congr 1
  funext a
  apply Fin.ext
  match a with
  | ⟨0, _⟩ => show win3_6.index t (0 : Fin 2) * 1 + 1 * (y 0).val = (y 0).val; rw [h60]; omega
  | ⟨1, _⟩ => show win3_6.index t (1 : Fin 2) * 256 + 1 * (y 1).val = (y 1).val; rw [h61]; omega

theorem blk3_be (d : Dev nD) (W : Valuation τ sig (Elt F)) (t : Fin cfg3.N) :
    (iblk3 d W 7 t : Vec F S1x256 .f32) = (W v5' : S1x256.Idx → Elt F .f32) := by
  obtain ⟨-, -, -, -, -, -, -, -, -, -, h⟩ := idx3 t
  obtain ⟨h30, h31, h40, h41, h50, h51, h60, h61, h70, h71⟩ := h
  funext y
  unfold iblk3
  rw [View.read_apply]
  show W v5' _ = W v5' _
  congr 1
  funext a
  apply Fin.ext
  match a with
  | ⟨0, _⟩ => show win3_7.index t (0 : Fin 2) * 1 + 1 * (y 0).val = (y 0).val; rw [h70]; omega
  | ⟨1, _⟩ => show win3_7.index t (1 : Fin 2) * 256 + 1 * (y 1).val = (y 1).val; rw [h71]; omega

end Cert.KernelIdeal.KerBridge

end
-- ==== Proof.KerHost.lean ====
/-
  The arrays the reshapes wrote, read at an index: the id vectors laid out as [2, 32, 2, 128] and as [8, 1, 2048] are
  the vectors in row-major order, the three rows laid out as [1, 256] are the vectors; the two small tables are as
  launched.
-/
import proofs.«204006_g8589934699_cont_9to1c4b_872_29_alg».proof.Proof.KerReads

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Entry (h, a, b, c) of the id array laid out as [2, 32, 2, 128] is entry 8192 h + 256 a + 128 b + c of the vector. -/
theorem V1_v0_apply (d : Dev nD) (h : Fin 2) (a : Fin 32) (b : Fin 2) (c : Fin 128) (p : Fin 16384)
    (hp : p.val = 8192 * h.val + 256 * a.val + 128 * b.val + c.val) :
    (V1 m d v0' : S2x32x2x128.Idx → Elt F .i32) (ix4 h a b c) = (m (d, a0') : S16384.Idx → Elt F .i32) (ix1 p) := by
  unfold V1 V0
  after_results
  show shapeCast S2x32x2x128 (m (d, a0') : S16384.Idx → Elt F .i32) shapeCasts_S16384_S2x32x2x128 (ix4 h a b c) = _
  refine shapeCast_apply _ _ _ (ix1 p) ?_
  rw [Shape.rowMajor_val_four, Shape.rowMajor_val_one]
  show p.val = ((h.val * 32 + a.val) * 2 + b.val) * 128 + c.val
  omega

/-- Entry (h, a, b, c) of the id array laid out as [2, 32, 2, 128] is entry 8192 h + 256 a + 128 b + c of the vector. -/
theorem V1_v1_apply (d : Dev nD) (h : Fin 2) (a : Fin 32) (b : Fin 2) (c : Fin 128) (p : Fin 16384)
    (hp : p.val = 8192 * h.val + 256 * a.val + 128 * b.val + c.val) :
    (V1 m d v1' : S2x32x2x128.Idx → Elt F .i32) (ix4 h a b c) = (m (d, a1') : S16384.Idx → Elt F .i32) (ix1 p) := by
  unfold V1 V0
  after_results
  show shapeCast S2x32x2x128 (m (d, a1') : S16384.Idx → Elt F .i32) shapeCasts_S16384_S2x32x2x128 (ix4 h a b c) = _
  refine shapeCast_apply _ _ _ (ix1 p) ?_
  rw [Shape.rowMajor_val_four, Shape.rowMajor_val_one]
  show p.val = ((h.val * 32 + a.val) * 2 + b.val) * 128 + c.val
  omega

/-- Entry (s, 0, r) of the id array laid out as [8, 1, 2048] is entry 2048 s + r of the vector. -/
theorem V1_v2_apply (d : Dev nD) (s : Fin 8) (r : Fin 2048) (p : Fin 16384) (hp : p.val = 2048 * s.val + r.val) :
    (V1 m d v2' : S8x1x2048.Idx → Elt F .i32) (ix3 s (0 : Fin 1) r) = (m (d, a2') : S16384.Idx → Elt F .i32) (ix1 p) := by
  unfold V1 V0
  after_results
  show shapeCast S8x1x2048 (m (d, a2') : S16384.Idx → Elt F .i32) shapeCasts_S16384_S8x1x2048 (ix3 s (0 : Fin 1) r) = _
  refine shapeCast_apply _ _ _ (ix1 p) ?_
  rw [Shape.rowMajor_val_three, Shape.rowMajor_val_one]
  show p.val = (s.val * 1 + 0) * 2048 + r.val
  omega

/-- Entry (0, c) of the row laid out as [1, 256] is entry c of the vector. -/
theorem V1_v3_apply (d : Dev nD) (c : Fin 256) :
    (V1 m d v3' : S1x256.Idx → Elt F .f32) (ix2 (0 : Fin 1) c) = (m (d, a7') : S256.Idx → Elt F .f32) (ix1 c) := by
  unfold V1 V0
  after_results
  show shapeCast S1x256 (m (d, a7') : S256.Idx → Elt F .f32) shapeCasts_S256_S1x256 (ix2 (0 : Fin 1) c) = _
  refine shapeCast_apply _ _ _ (ix1 c) ?_
  rw [Shape.rowMajor_val_two, Shape.rowMajor_val_one]
  show c.val = 0 * 256 + c.val
  omega

/-- Entry (0, c) of the row laid out as [1, 256] is entry c of the vector. -/
theorem V1_v4_apply (d : Dev nD) (c : Fin 256) :
    (V1 m d v4' : S1x256.Idx → Elt F .f32) (ix2 (0 : Fin 1) c) = (m (d, a8') : S256.Idx → Elt F .f32) (ix1 c) := by
  unfold V1 V0
  after_results
  show shapeCast S1x256 (m (d, a8') : S256.Idx → Elt F .f32) shapeCasts_S256_S1x256 (ix2 (0 : Fin 1) c) = _
  refine shapeCast_apply _ _ _ (ix1 c) ?_
  rw [Shape.rowMajor_val_two, Shape.rowMajor_val_one]
  show c.val = 0 * 256 + c.val
  omega

/-- Entry (0, c) of the row laid out as [1, 256] is entry c of the vector. -/
theorem V1_v5_apply (d : Dev nD) (c : Fin 256) :
    (V1 m d v5' : S1x256.Idx → Elt F .f32) (ix2 (0 : Fin 1) c) = (m (d, a9') : S256.Idx → Elt F .f32) (ix1 c) := by
  unfold V1 V0
  after_results
  show shapeCast S1x256 (m (d, a9') : S256.Idx → Elt F .f32) shapeCasts_S256_S1x256 (ix2 (0 : Fin 1) c) = _
  refine shapeCast_apply _ _ _ (ix1 c) ?_
  rw [Shape.rowMajor_val_two, Shape.rowMajor_val_one]
  show c.val = 0 * 256 + c.val
  omega

theorem V1_a5 (d : Dev nD) : V1 m d a5' = m (d, a5') := by unfold V1 V0; after_results
theorem V1_a6 (d : Dev nD) : V1 m d a6' = m (d, a6') := by unfold V1 V0; after_results

end Cert.KernelIdeal.KerBridge

end
-- ==== Proof.LibBatchMoments.lean ====
/-
  A batch's second moment about its own mean, and a quotient by a square root, on the extended reals.

  For real numbers `x i` over a finite index type of `N` elements (`N ≠ 0`) and `μ = (∑ x) / N`,
      ∑ (x i − μ)² = ∑ x i² − μ · μ · N,
  the two ways of computing a batch's sum of squared deviations (directly, or from the sums of the values and of their
  squares).  On the extended reals the same holds for entries that are real, with the quotient by the real `N` read
  as the product with `1 / N`; finiteness is used (moving `μ` across the sum fails at infinities).  Then, for a real
  `v > 0` and ANY extended real `a`, `a · (1/√v)` is `a / √v`: the reciprocal square root against the quotient by
  the square root.  Beside them: a real sum's coercion is the sum of the coercions, the quotient of two reals is the
  real quotient, and a maximum of two reals is a real.
-/
import Mathlib
import Idealize.ShloMosaic.PureOps.Ideal
import Idealize.ShloMosaic.PureOps.Ideal.Laws

noncomputable section

namespace Idealize.ShloMosaic.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, on the extended reals, is the real quotient. -/
theorem div_real (a y : ℝ) (hy : y ≠ 0) : Ideal.div (a : EReal) (y : EReal) = ((a / y : ℝ) : EReal) := by
  rw [Ideal.div_coe hy, ← EReal.coe_mul, mul_one_div]

/-- Over the reals: the sum of squared deviations from the batch mean, from the two raw sums. -/
theorem sum_sq_dev {ι : Type*} [Fintype ι] (x : ι → ℝ) (n : ℝ) (hn : n ≠ 0) (hcard : (Fintype.card ι : ℝ) = n) :
    ∑ i, (x i - (∑ j, x j) / n) * (x i - (∑ j, x j) / n)
      = (∑ i, x i * x i) - (∑ j, x j) / n * ((∑ j, x j) / n) * n := by
  have h1 : ∀ i, (x i - (∑ j, x j) / n) * (x i - (∑ j, x j) / n)
      = x i * x i - 2 * ((∑ j, x j) / n) * x i + (∑ j, x j) / n * ((∑ j, x j) / n) := fun i => by ring
  simp only [h1]
  rw [Finset.sum_add_distrib, Finset.sum_sub_distrib, ← Finset.mul_sum, Finset.sum_const, Finset.card_univ,
    nsmul_eq_mul, hcard]
  field_simp
  ring

/-- The sum of squared deviations is not negative. -/
theorem sum_sq_dev_nonneg {ι : Type*} [Fintype ι] (x : ι → ℝ) (μ : ℝ) : 0 ≤ ∑ i, (x i - μ) * (x i - μ) :=
  Finset.sum_nonneg fun i _ => mul_self_nonneg _

/-- On the extended reals, for real entries: the directly computed sum of squared deviations from `(∑ x) / n` is a
    real `M ≥ 0`, and so is the one computed from the two raw sums — the same `M`. -/
theorem m2_batch {ι : Type*} [Fintype ι] (x : ι → ℝ) (n : ℝ) (hn : n ≠ 0) (hcard : (Fintype.card ι : ℝ) = n) :
    ∃ M : ℝ, 0 ≤ M
      ∧ (∑ i, ((x i : EReal) - Ideal.div (∑ j, (x j : EReal)) (n : EReal)) * ((x i : EReal) - Ideal.div (∑ j, (x j : EReal)) (n : EReal))) = (M : EReal)
      ∧ ((∑ i, (x i : EReal) * (x i : EReal))
          - Ideal.div (∑ j, (x j : EReal)) (n : EReal) * Ideal.div (∑ j, (x j : EReal)) (n : EReal) * (n : EReal)) = (M : EReal) := by
  refine ⟨∑ i, (x i - (∑ j, x j) / n) * (x i - (∑ j, x j) / n), sum_sq_dev_nonneg x _, ?_, ?_⟩
  · rw [← coe_sum, div_real _ _ hn, coe_sum]
    refine Finset.sum_congr rfl fun i _ => ?_
    rw [← EReal.coe_sub, ← EReal.coe_mul]
  · rw [sum_sq_dev x n hn hcard, ← coe_sum Finset.univ x, div_real _ _ hn]
    have : (∑ i, (x i : EReal) * (x i : EReal)) = ((∑ i, x i * x i : ℝ) : EReal) := by
      rw [coe_sum]; exact Finset.sum_congr rfl fun i _ => (EReal.coe_mul _ _).symm
    rw [this, ← EReal.coe_mul, ← EReal.coe_mul, ← EReal.coe_sub]

/-- The reciprocal square root of a positive real against the quotient by its square root: one value for every
    extended real numerator. -/
theorem mul_rsqrt_eq_div_sqrt (a : EReal) (v : ℝ) (hv : 0 < v) :
    a * Ideal.rsqrt (v : EReal) = Ideal.div a (Ideal.sqrt (v : EReal)) := by
  have hs : Real.sqrt v ≠ 0 := (Real.sqrt_pos.2 hv).ne'
  rw [Ideal.rsqrt_coe, if_neg (not_lt.2 hv.le), if_neg hv.ne', Ideal.sqrt_coe, if_neg (not_lt.2 hv.le),
    Ideal.div_coe hs, one_div]

end Idealize.ShloMosaic.BatchMoments

end
-- ==== Proof.LibHalves.lean ====
/-
  Two arrays laid side by side, and a block-diagonal matrix product, entry by entry.

  * A sum over `Fin N` with `N = n + n'` is the sum over the first `n` indices plus the sum over the last `n'`.
    If the second factor of every product vanishes on one of the two ranges, only the other range is left: on the
    extended reals `x · 0 = 0` for EVERY `x`, the infinities included, so nothing has to be finite.  This is what
    makes a product with a block-diagonal matrix the pair of the two small products.
  * A two-piece concatenation of `[a, b₁]` and `[a, b₂]` along the columns (or of `[a₁, b]` and `[a₂, b]` along the
    rows, or of two vectors) read at an index written by coordinates, and a slice of columns read the same way.
-/
import Idealize.ShloMosaic.Lib.ValueIdx
import Idealize.ShloMosaic.Lib.Pipeline.Value
import Idealize.ShloMosaic.PureOps.Ideal.Laws

noncomputable section

open scoped BigOperators

namespace Cert.Halves

open Idealize.ShloMosaic Idealize.ShloMosaic.ValueIdx

/-! ## Sums over two ranges -/

/-- A sum over `Fin N`, `N = n + n'`, split at `n`. -/
theorem sum_split {M : Type*} [AddCommMonoid M] {n n' N : ℕ} (h : n + n' = N) (f : Fin N → M) :
    ∑ k, f k = (∑ k : Fin n, f ⟨k.val, by omega⟩) + ∑ k : Fin n', f ⟨n + k.val, by omega⟩ := by
  subst h
  rw [Fin.sum_univ_add]
  rfl

/-- Products whose second factor vanishes past `n`: only the first `n` are left. -/
theorem sum_mul_low {n n' N : ℕ} (h : n + n' = N) (x w : Fin N → EReal) (hw : ∀ k : Fin N, n ≤ k.val → w k = 0) :
    ∑ k, x k * w k = ∑ k : Fin n, x ⟨k.val, by omega⟩ * w ⟨k.val, by omega⟩ := by
  rw [sum_split h]
  have : (∑ k : Fin n', x ⟨n + k.val, by omega⟩ * w ⟨n + k.val, by omega⟩) = 0 :=
    Finset.sum_eq_zero fun k _ => by rw [hw ⟨n + k.val, by omega⟩ (Nat.le_add_right _ _), mul_zero]
  rw [this, add_zero]

/-- Products whose second factor vanishes below `n`: only the last `n'` are left. -/
theorem sum_mul_high {n n' N : ℕ} (h : n + n' = N) (x w : Fin N → EReal) (hw : ∀ k : Fin N, k.val < n → w k = 0) :
    ∑ k, x k * w k = ∑ k : Fin n', x ⟨n + k.val, by omega⟩ * w ⟨n + k.val, by omega⟩ := by
  rw [sum_split h]
  have : (∑ k : Fin n, x ⟨k.val, by omega⟩ * w ⟨k.val, by omega⟩) = 0 :=
    Finset.sum_eq_zero fun k _ => by rw [hw ⟨k.val, by omega⟩ k.isLt, mul_zero]
  rw [this, zero_add]

/-! ## Two arrays side by side -/

variable {α : Type} {a a₁ a₂ b b₁ b₂ : ℕ}

/-- Columns: an entry in the first `b₁` columns is the first array's. -/
theorem concat_cols_left (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin 2)) (p : Fin a) (q : Fin b) (q₁ : Fin b₁)
    (hq : q₁.val = q.val) :
    concatenate ⟨2, ![a, b]⟩ (1 : Fin 2) [⟨⟨2, ![a, b₁]⟩, x₁⟩, ⟨⟨2, ![a, b₂]⟩, x₂⟩] h (ix2 p q) = x₁ (ix2 p q₁) :=
  concatenate_pair_apply_left (1 : Fin 2) x₁ x₂ h (ix2 p q) rfl (ix2 p q₁) (fun ax => by
    match ax with
    | ⟨0, _⟩ => rfl
    | ⟨1, _⟩ => exact hq)

/-- Columns: an entry past the first `b₁` columns is the second array's, `b₁` columns to the left. -/
theorem concat_cols_right (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin 2)) (p : Fin a) (q : Fin b) (q₂ : Fin b₂)
    (hq : q₂.val + b₁ = q.val) :
    concatenate ⟨2, ![a, b]⟩ (1 : Fin 2) [⟨⟨2, ![a, b₁]⟩, x₁⟩, ⟨⟨2, ![a, b₂]⟩, x₂⟩] h (ix2 p q) = x₂ (ix2 p q₂) :=
  concatenate_pair_apply_right (1 : Fin 2) x₁ x₂ h (ix2 p q) rfl rfl (ix2 p q₂) (fun ax hne => by
    match ax with
    | ⟨0, _⟩ => rfl
    | ⟨1, _⟩ => exact absurd rfl hne) (by exact hq)

/-- Rows: an entry in the first `a₁` rows is the first array's. -/
theorem concat_rows_left (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin 2)) (p : Fin a) (q : Fin b) (p₁ : Fin a₁)
    (hp : p₁.val = p.val) :
    concatenate ⟨2, ![a, b]⟩ (0 : Fin 2) [⟨⟨2, ![a₁, b]⟩, x₁⟩, ⟨⟨2, ![a₂, b]⟩, x₂⟩] h (ix2 p q) = x₁ (ix2 p₁ q) :=
  concatenate_pair_apply_left (0 : Fin 2) x₁ x₂ h (ix2 p q) rfl (ix2 p₁ q) (fun ax => by
    match ax with
    | ⟨0, _⟩ => exact hp
    | ⟨1, _⟩ => rfl)

/-- Rows: an entry past the first `a₁` rows is the second array's, `a₁` rows up. -/
theorem concat_rows_right (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin 2)) (p : Fin a) (q : Fin b) (p₂ : Fin a₂)
    (hp : p₂.val + a₁ = p.val) :
    concatenate ⟨2, ![a, b]⟩ (0 : Fin 2) [⟨⟨2, ![a₁, b]⟩, x₁⟩, ⟨⟨2, ![a₂, b]⟩, x₂⟩] h (ix2 p q) = x₂ (ix2 p₂ q) :=
  concatenate_pair_apply_right (0 : Fin 2) x₁ x₂ h (ix2 p q) rfl rfl (ix2 p₂ q) (fun ax hne => by
    match ax with
    | ⟨0, _⟩ => exact absurd rfl hne
    | ⟨1, _⟩ => rfl) (by exact hp)

/-- Two vectors end to end: an entry among the first `b₁` is the first vector's. -/
theorem concat_vec_left (x₁ : (⟨1, ![b₁]⟩ : Shape).Idx → α) (x₂ : (⟨1, ![b₂]⟩ : Shape).Idx → α)
    (h : Shape.Concatenates [⟨1, ![b₁]⟩, ⟨1, ![b₂]⟩] ⟨1, ![b]⟩ (0 : Fin 1)) (q : Fin b) (q₁ : Fin b₁) (hq : q₁.val = q.val) :
    concatenate ⟨1, ![b]⟩ (0 : Fin 1) [⟨⟨1, ![b₁]⟩, x₁⟩, ⟨⟨1, ![b₂]⟩, x₂⟩] h (ix1 q) = x₁ (ix1 q₁) :=
  concatenate_pair_apply_left (0 : Fin 1) x₁ x₂ h (ix1 q) rfl (ix1 q₁) (fun ax => by
    match ax with
    | ⟨0, _⟩ => exact hq)

/-- Two vectors end to end: an entry past the first `b₁` is the second vector's. -/
theorem concat_vec_right (x₁ : (⟨1, ![b₁]⟩ : Shape).Idx → α) (x₂ : (⟨1, ![b₂]⟩ : Shape).Idx → α)
    (h : Shape.Concatenates [⟨1, ![b₁]⟩, ⟨1, ![b₂]⟩] ⟨1, ![b]⟩ (0 : Fin 1)) (q : Fin b) (q₂ : Fin b₂) (hq : q₂.val + b₁ = q.val) :
    concatenate ⟨1, ![b]⟩ (0 : Fin 1) [⟨⟨1, ![b₁]⟩, x₁⟩, ⟨⟨1, ![b₂]⟩, x₂⟩] h (ix1 q) = x₂ (ix1 q₂) :=
  concatenate_pair_apply_right (0 : Fin 1) x₁ x₂ h (ix1 q) rfl rfl (ix1 q₂) (fun ax hne => by
    match ax with
    | ⟨0, _⟩ => exact absurd rfl hne) (by exact hq)

/-- A slice of columns `o … o + c − 1` of an `[a, b]` array read at `(p, q)`: the array at `(p, o + q)`. -/
theorem slice_cols_apply (o : ℕ) {c : ℕ} (x : (⟨2, ![a, b]⟩ : Shape).Idx → α)
    (h : (⟨2, ![a, b]⟩ : Shape).Slices ![0, o] ⟨2, ![a, c]⟩) (p : Fin a) (q : Fin c) (k : Fin b) (hk : k.val = o + q.val) :
    extractStridedSlice ⟨2, ![a, c]⟩ ![0, o] x h (ix2 p q) = x (ix2 p k) :=
  extractStridedSlice_apply _ _ _ _ _ (fun ax => by
    match ax with
    | ⟨0, _⟩ => exact (Nat.zero_add _).symm
    | ⟨1, _⟩ => exact hk)

/-- A one-row array broadcast over `a` rows (the accelerator's `vector.broadcast`), read at `(p, q)`. -/
theorem bcastTo_rows_apply (r : (⟨2, ![1, b]⟩ : Shape).Idx → α) (h : (⟨2, ![1, b]⟩ : Shape).Broadcasts ⟨2, ![a, b]⟩)
    (p : Fin a) (q : Fin b) : broadcastTo ⟨2, ![a, b]⟩ r h (ix2 p q) = r (ix2 (0 : Fin 1) q) :=
  broadcastTo_apply r h (ix2 p q) (ix2 (0 : Fin 1) q) (fun ax => by
    match ax with
    | ⟨0, _⟩ => rfl
    | ⟨1, _⟩ =>
      show q.val = if b = 1 then 0 else q.val
      split
      · have := q.isLt; omega
      · rfl)

end Cert.Halves

end
-- ==== Proof.Spec.lean ====
/-
  A fused embedding lookup, dense layer and layer normalisation, entry by entry on the extended reals.

  Row p of the batch picks one row of each of three tables by its three ids: cv = code_table[code_ids p] and
  nv = name_table[name_ids p] (128 entries each) and tv = nature_table[nature_ids p] (32 entries).  With the weight
  W : [288, 256] cut into its row blocks 0 … 127, 128 … 255 and 256 … 287,
      y(q) = ((∑ₖ cv(k) · W(k, q) + ∑ₖ nv(k) · W(128 + k, q)) + ∑ₖ tv(k) · W(256 + k, q)) + b(q),
      μ = (∑_q y(q)) / 256,      σ² = (∑_q (y(q) − μ)²) / 256,
      out(q) = (y(q) − μ) / √(σ² + ε) · γ(q) + β(q),
  the divisor 256 and ε kept as the binary32 words the programs carry.  Beside the definition: the laws that carry
  one spelling of this value to another.  A sum over 288 indices is the three block sums (no finiteness).  A product
  with a one-hot row picks one row of the other factor (0 · x = 0 for every extended real x, so no finiteness).  For
  real entries y, μ and σ² are real and σ² ≥ 0, so σ² + ε is a positive real, and there a product with the
  reciprocal square root is the quotient by the square root.
-/
import Mathlib
import Idealize.ShloMosaic.PureOps.Ideal
import Idealize.ShloMosaic.PureOps.Ideal.Laws
import Idealize.ShloMosaic.Lib.ValueIdx
import proofs.«204006_g8589934699_cont_9to1c4b_872_29_alg».proof.Proof.LibBatchMoments
import proofs.«204006_g8589934699_cont_9to1c4b_872_29_alg».proof.Proof.LibHalves

noncomputable section

open scoped BigOperators

namespace Cert.Spec

open Idealize.ShloMosaic Idealize.ShloMosaic.ValueIdx Idealize.ShloMosaic.BatchMoments

/-- Arrays of extended reals of shape [a, b], of shape [a], and 32-bit ids of shape [a]. -/
abbrev Mat (a b : ℕ) := (⟨2, ![a, b]⟩ : Shape).Idx → EReal
abbrev Vect (a : ℕ) := (⟨1, ![a]⟩ : Shape).Idx → EReal
abbrev Ids (a : ℕ) := (⟨1, ![a]⟩ : Shape).Idx → BitVec 32

/-! ## The table row an id selects -/

/-- The row of an N-row table an id selects: the id read signed, clamped into 0 … N − 1. -/
def rowOf (N : ℕ) (hN : 0 < N) (x : BitVec 32) : Fin N := ⟨min x.toInt.toNat (N - 1), by omega⟩

/-- For an id in range the clamp does nothing. -/
theorem rowOf_val {N : ℕ} (hN : 0 < N) (x : BitVec 32) (h0 : 0 ≤ x.toInt) (h1 : x.toInt ≤ (N : ℤ) - 1) :
    (rowOf N hN x).val = x.toInt.toNat := by
  show min x.toInt.toNat (N - 1) = x.toInt.toNat
  omega

/-- For an id in range the row is the id's unsigned reading too. -/
theorem rowOf_val_toNat {N : ℕ} (hN : 0 < N) (x : BitVec 32) (h0 : 0 ≤ x.toInt) (h1 : x.toInt ≤ (N : ℤ) - 1) :
    (rowOf N hN x).val = x.toNat := by
  rw [rowOf_val hN x h0 h1]
  have := BitVec.toInt_eq_toNat_of_msb (x := x)
  have hx : x.toInt = (x.toNat : ℤ) := by
    rcases Nat.lt_or_ge (2 * x.toNat) (2 ^ 32) with h | h
    · rw [BitVec.toInt_eq_toNat_cond, if_pos h]
    · rw [BitVec.toInt_eq_toNat_cond, if_neg (by omega)] at h0
      have := x.isLt
      omega
  omega

/-! ## The value -/

/-- The dense layer at column q, from the three selected rows: three block sums added left to right, then the bias. -/
def pre (cv nv : Fin 128 → EReal) (tv : Fin 32 → EReal) (W : Mat 288 256) (b : Fin 256 → EReal) (q : Fin 256) : EReal :=
  (((∑ k : Fin 128, cv k * W (ix2 (⟨k.val, by omega⟩ : Fin 288) q))
      + ∑ k : Fin 128, nv k * W (ix2 (⟨128 + k.val, by omega⟩ : Fin 288) q))
      + ∑ k : Fin 32, tv k * W (ix2 (⟨256 + k.val, by omega⟩ : Fin 288) q)) + b q

/-- A row's mean: its sum over the 256 columns divided by the word of 256.0. -/
def mean (y : Fin 256 → EReal) : EReal := Ideal.div (∑ q, y q) (Ideal.ofBits .f32 0x43800000#32)

/-- A row's variance: the sum of its squared deviations from the mean divided by the word of 256.0. -/
def var (y : Fin 256 → EReal) : EReal :=
  Ideal.div (∑ q, (y q - mean y) * (y q - mean y)) (Ideal.ofBits .f32 0x43800000#32)

/-- The normalised row at column q: centred, divided by the square root of variance + ε, scaled and shifted. -/
def norm (y g be : Fin 256 → EReal) (q : Fin 256) : EReal :=
  Ideal.div (y q - mean y) (Ideal.sqrt (var y + Ideal.ofBits .f32 0x3A83126F#32)) * g q + be q

/-- THE RESULT at (p, q), from the ten argument arrays. -/
def G (ci ni ti : Ids 16384) (ct : Mat 4096 128) (nt : Mat 16384 128) (nat : Mat 32 32) (W : Mat 288 256)
    (b g be : Vect 256) (p : Fin 16384) (q : Fin 256) : EReal :=
  norm (pre (fun k => ct (ix2 (rowOf 4096 (by decide) (ci (ix1 p))) k))
            (fun k => nt (ix2 (rowOf 16384 (by decide) (ni (ix1 p))) k))
            (fun k => nat (ix2 (rowOf 32 (by decide) (ti (ix1 p))) k)) W (fun q => b (ix1 q)))
    (fun q => g (ix1 q)) (fun q => be (ix1 q)) q

/-- The result as an array [16384, 256]. -/
def out (ci ni ti : Ids 16384) (ct : Mat 4096 128) (nt : Mat 16384 128) (nat : Mat 32 32) (W : Mat 288 256)
    (b g be : Vect 256) : Mat 16384 256 :=
  fun i => G ci ni ti ct nt nat W b g be ⟨(i 0).val, idx2_lt0 i⟩ ⟨(i 1).val, idx2_lt1 i⟩

theorem out_apply (ci ni ti : Ids 16384) (ct : Mat 4096 128) (nt : Mat 16384 128) (nat : Mat 32 32) (W : Mat 288 256)
    (b g be : Vect 256) (p : Fin 16384) (q : Fin 256) :
    out ci ni ti ct nt nat W b g be (ix2 p q) = G ci ni ti ct nt nat W b g be p q := rfl

/-! ## The two words -/

/-- The binary32 word 0x43800000 denotes 256. -/
theorem word_256 : Ideal.ofBits .f32 0x43800000#32 = ((256 : ℝ) : EReal) := by
  simp [Ideal.ofBits, Ideal.ieee]
  rw [← EReal.coe_mul]
  norm_num

/-- The binary32 word 0x3A83126F denotes a positive real. -/
theorem word_eps : ∃ e : ℝ, 0 < e ∧ Ideal.ofBits .f32 0x3A83126F#32 = (e : EReal) := by
  refine ⟨_, ?_, by simp [Ideal.ofBits, Ideal.ieee]; rfl⟩
  positivity

/-! ## Sums -/

/-- A sum over 288 indices cut at 128 and 256. -/
theorem sum_288 {M : Type*} [AddCommMonoid M] (f : Fin 288 → M) :
    ∑ k, f k = ((∑ j : Fin 128, f ⟨j.val, by omega⟩) + ∑ j : Fin 128, f ⟨128 + j.val, by omega⟩)
      + ∑ j : Fin 32, f ⟨256 + j.val, by omega⟩ := by
  rw [Cert.Halves.sum_split (show 128 + 160 = 288 from rfl) f,
    Cert.Halves.sum_split (show 128 + 32 = 160 from rfl) (fun k : Fin 160 => f ⟨128 + k.val, by omega⟩), ← add_assoc]
  refine congrArg₂ (· + ·) rfl (Finset.sum_congr rfl fun j _ => congrArg f (Fin.ext ?_))
  show 128 + (128 + j.val) = 256 + j.val
  omega

/-- A product with a one-hot row picks one row of the other factor; nothing has to be finite. -/
theorem onehot_sum {n : ℕ} (t : Fin n) (N : Fin n → EReal) :
    ∑ j : Fin n, (if j = t then (1 : EReal) else 0) * N j = N t := by
  rw [Finset.sum_eq_single t (fun j _ hj => by rw [if_neg hj, zero_mul]) (fun h => absurd (Finset.mem_univ t) h),
    if_pos rfl, one_mul]

/-! ## Real rows -/

/-- The dense layer of real rows, real weights and a real bias is real. -/
theorem pre_real (cv nv : Fin 128 → EReal) (tv : Fin 32 → EReal) (W : Mat 288 256) (b : Fin 256 → EReal)
    (hcv : ∀ k, ∃ r : ℝ, cv k = (r : EReal)) (hnv : ∀ k, ∃ r : ℝ, nv k = (r : EReal))
    (htv : ∀ k, ∃ r : ℝ, tv k = (r : EReal)) (hW : ∀ i, ∃ r : ℝ, W i = (r : EReal))
    (hb : ∀ q, ∃ r : ℝ, b q = (r : EReal)) (q : Fin 256) : ∃ r : ℝ, pre cv nv tv W b q = (r : EReal) := by
  choose c hc using hcv
  choose n hn using hnv
  choose t ht using htv
  choose w hw using hW
  choose bb hbb using hb
  refine ⟨(((∑ k : Fin 128, c k * w (ix2 (⟨k.val, by omega⟩ : Fin 288) q))
      + ∑ k : Fin 128, n k * w (ix2 (⟨128 + k.val, by omega⟩ : Fin 288) q))
      + ∑ k : Fin 32, t k * w (ix2 (⟨256 + k.val, by omega⟩ : Fin 288) q)) + bb q, ?_⟩
  unfold pre
  rw [EReal.coe_add, EReal.coe_add, EReal.coe_add, coe_sum, coe_sum, coe_sum]
  simp only [EReal.coe_mul, hc, hn, ht, hw, hbb]

/-- For a real row: the variance plus ε is a positive real. -/
theorem var_eps_pos (y : Fin 256 → EReal) (hy : ∀ q, ∃ r : ℝ, y q = (r : EReal)) :
    ∃ v : ℝ, 0 < v ∧ var y + Ideal.ofBits .f32 0x3A83126F#32 = (v : EReal) := by
  choose yr hyr using hy
  obtain ⟨e, he, hw⟩ := word_eps
  have h256 : (256 : ℝ) ≠ 0 := by norm_num
  have hm : mean y = (((∑ q, yr q) / 256 : ℝ) : EReal) := by
    unfold mean
    simp only [hyr]
    rw [← coe_sum, word_256, div_real _ _ h256]
  have hv : var y = (((∑ q, (yr q - (∑ q, yr q) / 256) * (yr q - (∑ q, yr q) / 256)) / 256 : ℝ) : EReal) := by
    unfold var
    rw [hm]
    simp only [hyr, ← EReal.coe_sub, ← EReal.coe_mul]
    rw [← coe_sum, word_256, div_real _ _ h256]
  refine ⟨(∑ q, (yr q - (∑ q, yr q) / 256) * (yr q - (∑ q, yr q) / 256)) / 256 + e, ?_, by rw [hv, hw, ← EReal.coe_add]⟩
  have h0 : 0 ≤ (∑ q, (yr q - (∑ q, yr q) / 256) * (yr q - (∑ q, yr q) / 256)) / 256 :=
    div_nonneg (Finset.sum_nonneg fun q _ => mul_self_nonneg _) (by norm_num)
  linarith

/-- For a real row, "times the reciprocal square root" is "divided by the square root". -/
theorem norm_rsqrt (y g be : Fin 256 → EReal) (hy : ∀ q, ∃ r : ℝ, y q = (r : EReal)) (q : Fin 256) :
    (y q - mean y) * Ideal.rsqrt (var y + Ideal.ofBits .f32 0x3A83126F#32) * g q + be q = norm y g be q := by
  obtain ⟨v, hv, e⟩ := var_eps_pos y hy
  unfold norm
  rw [e, mul_rsqrt_eq_div_sqrt _ v hv]

end Cert.Spec

end
-- ==== Proof.KerRows.lean ====
/-
  A row of a gathered array is the table row its batch row's id selects: call h's row R is batch row 8192 h + R.
-/
import proofs.«204006_g8589934699_cont_9to1c4b_872_29_alg».proof.Proof.KerHost
import proofs.«204006_g8589934699_cont_9to1c4b_872_29_alg».proof.Proof.Spec

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable {F : FTy → Type} [FloatOps F]
variable (m : (ℓ : Loc nD τ sig) → Buf (Elt F) ℓ)

theorem outC_row (d : Dev nD) (h : Fin 2) (R : Fin 8192) (k : Fin 128) (p : Fin 16384) (hp : p.val = 8192 * h.val + R.val) :
    outC (ctF m) (i0F m) d h (ix2 R k)
      = (m (d, a3') : S4096x128.Idx → Elt F .f32) (ix2 (Spec.rowOf 4096 (by decide) ((m (d, a0') : S16384.Idx → Elt F .i32) (ix1 p))) k) := by
  have hR := R.isLt
  have e := V1_v0_apply m d h (⟨R.val / 256, by omega⟩ : Fin 32) (⟨R.val / 128 % 2, by omega⟩ : Fin 2) (⟨R.val % 128, by omega⟩ : Fin 128) p
    (by show p.val = 8192 * h.val + 256 * (R.val / 256) + 128 * (R.val / 128 % 2) + R.val % 128; omega)
  exact (gathered_apply (by decide) (ctF m d) (i0F m d) h R k).trans
    (congrArg (fun x : Elt F .i32 => (m (d, a3') : S4096x128.Idx → Elt F .f32) (ix2 (Spec.rowOf 4096 (by decide) x) k)) e)

theorem outN_row (d : Dev nD) (h : Fin 2) (R : Fin 8192) (k : Fin 128) (p : Fin 16384) (hp : p.val = 8192 * h.val + R.val) :
    outN (ntF m) (i1F m) d h (ix2 R k)
      = (m (d, a4') : S16384x128.Idx → Elt F .f32) (ix2 (Spec.rowOf 16384 (by decide) ((m (d, a1') : S16384.Idx → Elt F .i32) (ix1 p))) k) := by
  have hR := R.isLt
  have e := V1_v1_apply m d h (⟨R.val / 256, by omega⟩ : Fin 32) (⟨R.val / 128 % 2, by omega⟩ : Fin 2) (⟨R.val % 128, by omega⟩ : Fin 128) p
    (by show p.val = 8192 * h.val + 256 * (R.val / 256) + 128 * (R.val / 128 % 2) + R.val % 128; omega)
  exact (gathered_apply (by decide) (ntF m d) (i1F m d) h R k).trans
    (congrArg (fun x : Elt F .i32 => (m (d, a4') : S16384x128.Idx → Elt F .f32) (ix2 (Spec.rowOf 16384 (by decide) x) k)) e)

end Cert.KernelIdeal.KerBridge

end
-- ==== Proof.KerVals.lean ====
/-
  What the arrays hold when each pipeline is entered: the four gathered arrays at the gathered rows, every other
  input as the reshapes left it; the second pipeline's result array starts as the copy of the first's.
-/
import proofs.«204006_g8589934699_cont_9to1c4b_872_29_alg».proof.Proof.KerReads

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## After the two calls -/

theorem Wc_v60 (d : Dev nD) : Wc m d v60' = outC (ctF m) (i0F m) d 0 := by
  unfold Wc; rw [Function.update_of_ne (by decide), Function.update_of_ne (by decide)]; exact Wb_v60 m d
theorem Wc_v61 (d : Dev nD) : Wc m d v61' = outN (ntF m) (i1F m) d 0 := by
  unfold Wc; rw [Function.update_of_ne (by decide), Function.update_of_ne (by decide)]; exact Wb_v61 m d
theorem Wc_v2 (d : Dev nD) : Wc m d v2' = V1 m d v2' := by
  unfold Wc Wb
  rw [Function.update_of_ne (by decide), Function.update_of_ne (by decide), Function.update_of_ne (by decide), Function.update_of_ne (by decide)]
theorem Wc_a5 (d : Dev nD) : Wc m d a5' = V1 m d a5' := by
  unfold Wc Wb
  rw [Function.update_of_ne (by decide), Function.update_of_ne (by decide), Function.update_of_ne (by decide), Function.update_of_ne (by decide)]
theorem Wc_a6 (d : Dev nD) : Wc m d a6' = V1 m d a6' := by
  unfold Wc Wb
  rw [Function.update_of_ne (by decide), Function.update_of_ne (by decide), Function.update_of_ne (by decide), Function.update_of_ne (by decide)]
theorem Wc_v3 (d : Dev nD) : Wc m d v3' = V1 m d v3' := by
  unfold Wc Wb
  rw [Function.update_of_ne (by decide), Function.update_of_ne (by decide), Function.update_of_ne (by decide), Function.update_of_ne (by decide)]
theorem Wc_v4 (d : Dev nD) : Wc m d v4' = V1 m d v4' := by
  unfold Wc Wb
  rw [Function.update_of_ne (by decide), Function.update_of_ne (by decide), Function.update_of_ne (by decide), Function.update_of_ne (by decide)]
theorem Wc_v5 (d : Dev nD) : Wc m d v5' = V1 m d v5' := by
  unfold Wc Wb
  rw [Function.update_of_ne (by decide), Function.update_of_ne (by decide), Function.update_of_ne (by decide), Function.update_of_ne (by decide)]

/-! ## When the second pipeline is entered -/

/-- The valuation the second pipeline is entered with: the first pipeline's result written, then copied. -/
def X (d : Dev nD) : Valuation τ sig (Elt F) := (opCp (F := F)).result (W2 d (Wc m d))

theorem Wf_v9 (d : Dev nD) : Wf d (Wc m d) v9' = res3 d (X m d) := by
  unfold Wf W3 X; rw [Function.update_self]

/-- The second pipeline's result array starts as the first pipeline's result. -/
theorem X_v9 (d : Dev nD) : X m d v9' = res2 d (Wc m d) := by
  unfold X opCp
  rw [StableHlo.unary_result]
  show W2 d (Wc m d) v8' = _
  unfold W2; rw [Function.update_self]

/-- Every other array is as the calls left it. -/
theorem X_of_ne (d : Dev nD) (b : Ref sig .tc) (h9 : b ≠ main_v9) (h8 : b ≠ main_v8) :
    X m d (Proc.devRef .tc b) = Wc m d (Proc.devRef .tc b) := by
  unfold X opCp
  rw [StableHlo.unary_result_ne _ _ _ _ _ _ h9]
  unfold W2
  rw [Function.update_of_ne (StableHlo.devRef_ne_of_ne h8)]

theorem X_v70 (d : Dev nD) : X m d v70' = outC (ctF m) (i0F m) d 1 := (X_of_ne m d main_v7_0 (by decide) (by decide)).trans (Wc_v70 m d)
theorem X_v71 (d : Dev nD) : X m d v71' = outN (ntF m) (i1F m) d 1 := (X_of_ne m d main_v7_1 (by decide) (by decide)).trans (Wc_v71 m d)
theorem X_v2 (d : Dev nD) : X m d v2' = V1 m d v2' := (X_of_ne m d main_v2 (by decide) (by decide)).trans (Wc_v2 m d)
theorem X_a5 (d : Dev nD) : X m d a5' = V1 m d a5' := (X_of_ne m d main_arg5 (by decide) (by decide)).trans (Wc_a5 m d)
theorem X_a6 (d : Dev nD) : X m d a6' = V1 m d a6' := (X_of_ne m d main_arg6 (by decide) (by decide)).trans (Wc_a6 m d)
theorem X_v3 (d : Dev nD) : X m d v3' = V1 m d v3' := (X_of_ne m d main_v3 (by decide) (by decide)).trans (Wc_v3 m d)
theorem X_v4 (d : Dev nD) : X m d v4' = V1 m d v4' := (X_of_ne m d main_v4 (by decide) (by decide)).trans (Wc_v4 m d)
theorem X_v5 (d : Dev nD) : X m d v5' = V1 m d v5' := (X_of_ne m d main_v5 (by decide) (by decide)).trans (Wc_v5 m d)

end Cert.KernelIdeal.KerBridge

end
-- ==== Proof.TcValue.lean ====
/-
  The result arrays of the two TensorCore pipelines, read: under each grid point's block what the body left there,
  everywhere else the contents the pipeline was entered with.
-/
import proofs.«204006_g8589934699_cont_9to1c4b_872_29_alg».proof.Proof.TcData

noncomputable section

namespace Cert.KernelIdeal.TcSide

open Cert.KernelIdeal Cert.KernelIdeal.Gen Cert.KernelIdeal.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The result window's block index moves with the grid point: no two points write one block. -/
theorem index2_inj : ∀ t t' : Fin cfg2.N, t ≠ t' → (cfg2.win 8).index t ≠ (cfg2.win 8).index t' :=
  (by decide +kernel : ∀ t t' : Fin grid2.N, t ≠ t' → win2_8.index t ≠ win2_8.index t')

/-- Block `t` of the pipeline's result is what the body left at point `t`: the four points' blocks are pairwise
    disjoint, so the array reads back, under each, what that point wrote. -/
theorem res2_blk (d : Dev nD) (W : Valuation τ sig (Elt F)) (t : Fin cfg2.N) :
    ((cfg2.win 8).blk t).view.read (Elt F) (res2 d W) = out2 d W t := by
  unfold res2
  refine ((dat2 d W).read_blk_arrAt_eq_flushed 8 (fun t t' _ _ h => (cfg2.win 8).disjoint_blk (index2_inj t t' h)) cfg2.N t t.isLt (flush2_8 t)).trans ?_
  exact after2_8 d W t

/-- An element of the result array that no point's block covers is as the pipeline found it. -/
theorem res2_rest (d : Dev nD) (W : Valuation τ sig (Elt F)) (i : ((d : Thread nD τ).loc main_v8).2.ty.Idx)
    (h : ∀ t : Fin cfg2.N, i ∉ ((cfg2.win 8).blk t).view.set) : res2 d W i = W main_v8 i := by
  unfold res2
  exact ((dat2 d W).arrAt_apply_of_forall_not_mem 8 cfg2.N i (fun t _ _ => h t)).trans (by rw [A2_eq])

/-- The result window's block index moves with the grid point: no two points write one block. -/
theorem index3_inj : ∀ t t' : Fin cfg3.N, t ≠ t' → (cfg3.win 8).index t ≠ (cfg3.win 8).index t' :=
  (by decide +kernel : ∀ t t' : Fin grid3.N, t ≠ t' → win3_8.index t ≠ win3_8.index t')

/-- Block `t` of the pipeline's result is what the body left at point `t`: the four points' blocks are pairwise
    disjoint, so the array reads back, under each, what that point wrote. -/
theorem res3_blk (d : Dev nD) (W : Valuation τ sig (Elt F)) (t : Fin cfg3.N) :
    ((cfg3.win 8).blk t).view.read (Elt F) (res3 d W) = out3 d W t := by
  unfold res3
  refine ((dat3 d W).read_blk_arrAt_eq_flushed 8 (fun t t' _ _ h => (cfg3.win 8).disjoint_blk (index3_inj t t' h)) cfg3.N t t.isLt (flush3_8 t)).trans ?_
  exact after3_8 d W t

/-- An element of the result array that no point's block covers is as the pipeline found it. -/
theorem res3_rest (d : Dev nD) (W : Valuation τ sig (Elt F)) (i : ((d : Thread nD τ).loc main_v9).2.ty.Idx)
    (h : ∀ t : Fin cfg3.N, i ∉ ((cfg3.win 8).blk t).view.set) : res3 d W i = W main_v9 i := by
  unfold res3
  exact ((dat3 d W).arrAt_apply_of_forall_not_mem 8 cfg3.N i (fun t _ _ => h t)).trans (by rw [A3_eq])

end Cert.KernelIdeal.TcSide

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«204006_g8589934699_cont_9to1c4b_872_29_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.LibVectorStages.lean ====
/-
  The vector spellings of the dense stages of a graph convolution network, on the extended reals, as whole arrays.

  A kernel body writes a matrix product as a product into an accumulator of zeros, a bias as a one-row array
  broadcast over the rows, a clamp as a maximum with a splat of the zero word, and a per-row scale as a one-column
  array broadcast over the columns.  Each is the corresponding stage of `Cert.Gcn` (the product `mm`, `biasRelu`,
  `addRow`) or the row-scaled quotient below, entry by entry; nothing here needs an entry to be finite.
-/
import Idealize.ShloMosaic.Lib.ValueIdx
import Idealize.ShloMosaic.Lib.Pipeline.Value
import Idealize.ShloMosaic.Lib.ValueLayout
import Idealize.ShloMosaic.PureOps.Ideal.Laws
import proofs.«204006_g8589934699_cont_9to1c4b_872_29_alg».proof.Proof.LibDenseStages

noncomputable section

open scoped BigOperators

namespace Cert.Gcn

open Idealize.ShloMosaic Idealize.ShloMosaic.ValueIdx Cert.LayerLaws

variable {a k b : ℕ} {φ₁ φ₂ : FTy}

/-! ## A record that contracts the inner axis -/

/-- The facts about a dimension record that make its product the sum over the inner coordinate. -/
structure Inner (D : DotDims ⟨2, ![a, k]⟩ ⟨2, ![k, b]⟩ ⟨2, ![a, b]⟩) : Prop where
  rank : D.contr.rank = 1
  size : D.contr.size ⟨0, by rw [rank]; exact Nat.zero_lt_one⟩ = k
  l0 : ∀ i q, (D.lhsIdx i q 0).val = (i 0).val
  l1 : ∀ i q, (D.lhsIdx i q 1).val = (q ⟨0, by rw [rank]; exact Nat.zero_lt_one⟩).val
  r0 : ∀ i q, (D.rhsIdx i q 0).val = (q ⟨0, by rw [rank]; exact Nat.zero_lt_one⟩).val
  r1 : ∀ i q, (D.rhsIdx i q 1).val = (i 1).val

/-- A product into a zero accumulator is the matrix product. -/
theorem matmul_zero_eq_mm {D : DotDims ⟨2, ![a, k]⟩ ⟨2, ![k, b]⟩ ⟨2, ![a, b]⟩} (hD : Inner D)
    (x : FVec Ideal ⟨2, ![a, k]⟩ φ₁) (w : FVec Ideal ⟨2, ![k, b]⟩ φ₂) :
    FloatOps.matmul D none x w (constant ⟨2, ![a, b]⟩ .f32 0x00000000#32) = mm x w := by
  funext i
  obtain ⟨p, q, rfl⟩ : ∃ (p : Fin a) (q : Fin b), i = ix2 p q := ⟨i 0, i 1, eq_ix2 i⟩
  exact matmul_zero_apply D hD.rank hD.size hD.l0 hD.l1 hD.r0 hD.r1 x w p q

/-- The host's product is the matrix product too. -/
theorem dotGeneral_eq_mm {D : DotDims ⟨2, ![a, k]⟩ ⟨2, ![k, b]⟩ ⟨2, ![a, b]⟩} (hD : Inner D) (sched : HostSchedule)
    (x : FVec Ideal ⟨2, ![a, k]⟩ φ₁) (w : FVec Ideal ⟨2, ![k, b]⟩ φ₂) :
    FloatOps.dotGeneral D none sched x w = mm x w := by
  funext i
  obtain ⟨p, q, rfl⟩ : ∃ (p : Fin a) (q : Fin b), i = ix2 p q := ⟨i 0, i 1, eq_ix2 i⟩
  exact dotGeneral_apply D sched hD.rank hD.size hD.l0 hD.l1 hD.r0 hD.r1 x w p q

/-! ## Rows and columns broadcast by `vector.broadcast` -/

/-- A one-row array broadcast over `a` rows, read at `(p, q)`. -/
theorem broadcastTo_rows_apply (r : Mat 1 b) (h : (⟨2, ![1, b]⟩ : Shape).Broadcasts ⟨2, ![a, b]⟩) (p : Fin a) (q : Fin b) :
    broadcastTo ⟨2, ![a, b]⟩ r h (ix2 p q) = r (ix2 (0 : Fin 1) q) := by
  refine broadcastTo_apply r h (ix2 p q) (ix2 (0 : Fin 1) q) fun ax => ?_
  match ax with
  | ⟨0, _⟩ => rfl
  | ⟨1, _⟩ =>
    show q.val = if b = 1 then 0 else q.val
    split
    · have := q.isLt; omega
    · rfl

/-- A one-column array broadcast over `b` columns, read at `(p, q)`. -/
theorem broadcastTo_cols_apply (c : Mat a 1) (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stages in their vector spelling -/

/-- "add the broadcast row, then the maximum with a splat of the zero word" is `biasRelu`. -/
theorem vector_biasRelu (x : Mat a b) (r : Mat 1 b) (h : (⟨2, ![1, b]⟩ : Shape).Broadcasts ⟨2, ![a, b]⟩) :
    maximumf (F := Ideal) (φ := .f32) (addf x (broadcastTo ⟨2, ![a, b]⟩ r h))
      (broadcast ⟨2, ![a, b]⟩ (Ideal.ofBits .f32 0x00000000#32)) = biasRelu x r := by
  funext i
  obtain ⟨p, q, rfl⟩ : ∃ (p : Fin a) (q : Fin b), i = ix2 p q := ⟨i 0, i 1, eq_ix2 i⟩
  rw [maximumf_apply, addf_apply, broadcast_apply, broadcastTo_rows_apply, biasRelu_apply, Ideal.ofBits_zero_f32]

/-- "add the broadcast row" is `addRow`. -/
theorem vector_addRow (x : Mat a b) (r : Mat 1 b) (h : (⟨2, ![1, b]⟩ : Shape).Broadcasts ⟨2, ![a, b]⟩) :
    addf (F := Ideal) (φ := .f32) x (broadcastTo ⟨2, ![a, b]⟩ r h) = addRow x r := by
  funext i
  obtain ⟨p, q, rfl⟩ : ∃ (p : Fin a) (q : Fin b), i = ix2 p q := ⟨i 0, i 1, eq_ix2 i⟩
  rw [addf_apply, broadcastTo_rows_apply, addRow_apply]

/-- Every row of `s` divided by that row's entry of a column clamped below at the word `lo`. -/
def rowQuot (lo : EReal) (s : Mat a b) (c : Mat a 1) : Mat a b :=
  fun i => Ideal.div (s i) (max (c (ix2 (⟨(i 0).val, idx2_lt0 i⟩ : Fin a) (0 : Fin 1))) lo)

theorem rowQuot_apply (lo : EReal) (s : Mat a b) (c : Mat a 1) (p : Fin a) (q : Fin b) :
    rowQuot lo s c (ix2 p q) = Ideal.div (s (ix2 p q)) (max (c (ix2 p (0 : Fin 1))) lo) := rfl

/-- "divide by the broadcast of the column's maximum with a splat" is `rowQuot`. -/
theorem vector_rowQuot (lo : EReal) (s : Mat a b) (c : Mat a 1) (h : (⟨2, ![a, 1]⟩ : Shape).Broadcasts ⟨2, ![a, b]⟩) :
    divf (F := Ideal) (φ := .f32) s (broadcastTo ⟨2, ![a, b]⟩ (maximumf (F := Ideal) (φ := .f32) c (broadcast ⟨2, ![a, 1]⟩ lo)) h)
      = rowQuot lo s c := by
  funext i
  obtain ⟨p, q, rfl⟩ : ∃ (p : Fin a) (q : Fin b), i = ix2 p q := ⟨i 0, i 1, eq_ix2 i⟩
  rw [divf_apply, broadcastTo_cols_apply, maximumf_apply, broadcast_apply, rowQuot_apply]

/-- The pooled head: every row of the sums divided by that graph's count clamped below at `lo`, a dense layer clamped at
    zero, a dense layer. -/
def pooledHead {g h j : ℕ} (lo : EReal) (s : Mat g h) (c : Mat g 1) (wl : Mat h j) (bl : Mat 1 j) (wo : Mat j 1) (bo : Mat 1 1) :
    Mat g 1 :=
  addRow (mm (biasRelu (mm (rowQuot lo s c) wl) bl) wo) bo

end Cert.Gcn

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.KerStages.lean ====
/-
  The vector operations of a row-blocked dense layer, read at an index.

  • rows o … o + M − 1 of an [N, b] array read at (j, q): the array at (o + j, q);
  • a [1, 1, a] array recast as [a] reads, at p, entry (0, 0, p);
  • "ids compared with a column iota, widened and converted" is a one-hot row: entry (r, j) is 1 when the id of
    row r is j and 0 otherwise, for an id in 0 … n − 1;
  • a product into zeros of [a, k] × rows o … o + k − 1 of an [N, b] array at (p, q): ∑ⱼ x(p, j) · w(o + j, q).
-/
import Mathlib
import Idealize.ShloMosaic.Lib.ValueIdx
import Idealize.ShloMosaic.Lib.Pipeline.Value
import Idealize.ShloMosaic.Lib.ValueLayout
import Idealize.ShloMosaic.PureOps.Ideal.Laws
import proofs.«204006_g8589934699_cont_9to1c4b_872_29_alg».proof.Proof.LibDenseStages
import proofs.«204006_g8589934699_cont_9to1c4b_872_29_alg».proof.Proof.LibVectorStages
import proofs.«204006_g8589934699_cont_9to1c4b_872_29_alg».proof.Proof.LibRowLayout

noncomputable section

open scoped BigOperators

namespace Cert.KerStages

open Idealize.ShloMosaic Idealize.ShloMosaic.ValueIdx Cert.LayerLaws Cert.Gcn

variable {α : Type}

/-- Rows o … o + M − 1 of an [N, b] array, read at (j, q): the array at (o + j, q). -/
theorem rows_slice_apply {N M b : ℕ} (o : ℕ) (w : (⟨2, ![N, b]⟩ : Shape).Idx → α)
    (hs : (⟨2, ![N, b]⟩ : Shape).Slices ![o, 0] ⟨2, ![M, b]⟩) (j : Fin M) (q : Fin b) (k : Fin N) (hk : k.val = o + j.val) :
    extractStridedSlice ⟨2, ![M, b]⟩ ![o, 0] w hs (ix2 j q) = w (ix2 k q) :=
  extractStridedSlice_apply _ _ _ _ _ (fun ax => by
    match ax with
    | ⟨0, _⟩ => exact hk
    | ⟨1, _⟩ => exact (Nat.zero_add _).symm)

/-- A [1, 1, a] array recast as [a] reads, at p, entry (0, 0, p). -/
theorem shapeCast_11a_a_apply {a : ℕ} (x : (⟨3, ![1, 1, a]⟩ : Shape).Idx → α)
    (h : (⟨3, ![1, 1, a]⟩ : Shape).ShapeCasts ⟨1, ![a]⟩) (p : Fin a) :
    shapeCast ⟨1, ![a]⟩ x h (ix1 p) = x (ix3 (0 : Fin 1) (0 : Fin 1) p) :=
  shapeCast_apply x h _ _ (by
    rw [Shape.rowMajor_val_three, Shape.rowMajor_val_one]
    show (0 * 1 + 0) * a + p.val = p.val
    omega)

/-- A product into zeros of an [a, k] array with rows o … o + k − 1 of an [N, b] array, at (p, q). -/
theorem matmul_rows_apply {a k b N : ℕ} {φ₁ φ₂ : FTy} (D : DotDims ⟨2, ![a, k]⟩ ⟨2, ![k, b]⟩ ⟨2, ![a, b]⟩) (hD : Inner D)
    (o : ℕ) (x : FVec Ideal ⟨2, ![a, k]⟩ φ₁) (w : FVec Ideal ⟨2, ![N, b]⟩ φ₂)
    (hs : (⟨2, ![N, b]⟩ : Shape).Slices ![o, 0] ⟨2, ![k, b]⟩) (hN : o + k ≤ N) (p : Fin a) (q : Fin b) :
    FloatOps.matmul D none x (extractStridedSlice ⟨2, ![k, b]⟩ ![o, 0] w hs) (constant ⟨2, ![a, b]⟩ .f32 0x00000000#32) (ix2 p q)
      = ∑ j : Fin k, x (ix2 p j) * w (ix2 (⟨o + j.val, by omega⟩ : Fin N) q) := by
  refine (matmul_zero_apply D hD.rank hD.size hD.l0 hD.l1 hD.r0 hD.r1 x _ p q).trans ?_
  exact Finset.sum_congr rfl fun j _ => by rw [rows_slice_apply o w hs j q ⟨o + j.val, by omega⟩ rfl]

/-- An id that is not negative read signed is the id read unsigned. -/
theorem toInt_eq_toNat_of_nonneg (x : BitVec 32) (h0 : 0 ≤ x.toInt) : x.toInt = (x.toNat : ℤ) := by
  rcases Nat.lt_or_ge (2 * x.toNat) (2 ^ 32) with h | h
  · rw [BitVec.toInt_eq_toNat_cond, if_pos h]
  · rw [BitVec.toInt_eq_toNat_cond, if_neg (by omega)] at h0
    have := x.isLt
    omega

/-- The one-hot entry: an id in 0 … n − 1 compared with a column number, widened and converted. -/
theorem onehot_entry {n : ℕ} (hn : n ≤ 2 ^ 31) (x : BitVec 32) (h0 : 0 ≤ x.toInt) (h1 : x.toInt ≤ (n : ℤ) - 1) (t j : Fin n)
    (ht : t.val = x.toInt.toNat) :
    FloatOps.sitofp (F := Ideal) .f32 ((IntOp.cmpi .eq x (BitVec.ofNat 32 j.val)).setWidth 32)
      = if j = t then (1 : EReal) else 0 := by
  have hx := toInt_eq_toNat_of_nonneg x h0
  have htn : t.val = x.toNat := by omega
  show (((((IntOp.cmpi .eq x (BitVec.ofNat 32 j.val)).setWidth 32).toInt : ℤ) : ℝ) : EReal) = _
  by_cases hj : j = t
  · subst hj
    have e : BitVec.ofNat 32 j.val = x := by
      apply BitVec.eq_of_toNat_eq
      rw [BitVec.toNat_ofNat, htn]
      exact Nat.mod_eq_of_lt x.isLt
    rw [e, if_pos rfl]
    have c : IntOp.cmpi .eq x x = 1#1 := by simp [IntOp.cmpi]
    rw [c]
    norm_num
  · rw [if_neg hj]
    have ne : x ≠ BitVec.ofNat 32 j.val := by
      intro e
      have := congrArg BitVec.toNat e
      rw [BitVec.toNat_ofNat] at this
      have hjl := j.isLt
      have : x.toNat = j.val := by rw [this]; exact Nat.mod_eq_of_lt (by omega)
      exact hj (Fin.ext (by omega))
    have c : IntOp.cmpi .eq x (BitVec.ofNat 32 j.val) = 0#1 := by
      show BitVec.ofBool (x == BitVec.ofNat 32 j.val) = 0#1
      rw [beq_eq_false_iff_ne.mpr ne]
      rfl
    rw [c]
    norm_num

end Cert.KerStages

end
-- ==== Proof.KerValue.lean ====
/-
  One block of 2048 rows of the dense layer and its layer normalisation, read entry by entry.

  The body's arithmetic on a block: the dense layer y (three products into zeros, added left to right, plus the
  bias row; the nature term goes through a one-hot row times the product of the nature table with its block of the
  weight), the row mean μ = (∑ y) / 256 kept as a column, the squared deviations, and the stored value
  (y − μ) · rsqrt((∑ (y − μ)²) / 256 + ε) · γ + β.  Read at (r, q) these are the specification's `pre`, `mean`,
  `var` and `norm` of row r: the one-hot product picks the nature row (no finiteness), and for real entries the
  reciprocal square root of the positive real σ² + ε is the quotient by its square root.
-/
import proofs.«204006_g8589934699_cont_9to1c4b_872_29_alg».proof.Proof.Spec
import proofs.«204006_g8589934699_cont_9to1c4b_872_29_alg».proof.Proof.KerStages
import proofs.«204006_g8589934699_cont_9to1c4b_872_29_alg».proof.Proof.Gen.KernelIdeal.Skeleton

noncomputable section

open scoped BigOperators

namespace Cert.KerValue

open Idealize.ShloMosaic Idealize.ShloMosaic.ValueIdx Cert.KernelIdeal Cert.KernelIdeal.Gen Cert.Gcn

/-- The second call's payloads are the first call's. -/
theorem k3_pay1_eq {F : FTy → Type} [FloatOps F] : @k3_pay1 F _ = @k2_pay1 F _ := rfl
theorem k3_pay2_eq {F : FTy → Type} [FloatOps F] : @k3_pay2 F _ = @k2_pay2 F _ := rfl
theorem k3_pay3_eq {F : FTy → Type} [FloatOps F] : @k3_pay3 F _ = @k2_pay3 F _ := rfl
theorem k3_pay4_eq {F : FTy → Type} [FloatOps F] : @k3_pay4 F _ = @k2_pay4 F _ := rfl

/-! ## The three products contract the inner axis -/

theorem inner_rows : Inner dot_S2048x128_S128x256_S2048x256_1_0_0_1_n_n :=
  ⟨rfl, rfl, fun _ _ => rfl, fun _ _ => rfl, fun _ _ => rfl, fun _ _ => rfl⟩

theorem inner_onehot : Inner dot_S2048x32_S32x256_S2048x256_1_0_0_1_n_n :=
  ⟨rfl, rfl, fun _ _ => rfl, fun _ _ => rfl, fun _ _ => rfl, fun _ _ => rfl⟩

theorem inner_table : Inner dot_S32x32_S32x256_S32x256_1_0_0_1_n_n :=
  ⟨rfl, rfl, fun _ _ => rfl, fun _ _ => rfl, fun _ _ => rfl, fun _ _ => rfl⟩

/-! ## The dense layer -/

/-- The dense layer of the block at (r, q). -/
theorem pay2_apply (v0 v3 : Vec Ideal S2048x128 .f32) (v6 : Vec Ideal S1x1x2048 .i32) (v8 : Vec Ideal S288x256 .f32)
    (v17 : Vec Ideal S32x32 .f32) (v29 : Vec Ideal S1x256 .f32) (r : Fin 2048) (q : Fin 256)
    (h6 : 0 ≤ (v6 (ix3 (0 : Fin 1) (0 : Fin 1) r)).toInt ∧ (v6 (ix3 (0 : Fin 1) (0 : Fin 1) r)).toInt ≤ 31) :
    k2_pay2 (F := Ideal) v0 v3 v6 v8 v17 v29 (ix2 r q)
      = Spec.pre (fun k => v0 (ix2 r k)) (fun k => v3 (ix2 r k))
          (fun k => v17 (ix2 (Spec.rowOf 32 (by decide) (v6 (ix3 (0 : Fin 1) (0 : Fin 1) r))) k)) v8
          (fun c => v29 (ix2 (0 : Fin 1) c)) q := by
  unfold Spec.pre
  show ((FloatOps.matmul _ none _ _ _ (ix2 r q) + FloatOps.matmul _ none _ _ _ (ix2 r q))
      + FloatOps.matmul _ none _ _ _ (ix2 r q)) + broadcastTo S2048x256 _ _ (ix2 r q) = _
  refine congrArg₂ (· + ·) (congrArg₂ (· + ·) (congrArg₂ (· + ·) ?_ ?_) ?_) ?_
  · refine (KerStages.matmul_rows_apply _ inner_rows 0 _ _ slices_S288x256_o0_0_S128x256 (by norm_num) r q).trans ?_
    refine Finset.sum_congr rfl fun k _ => ?_
    simp only [truncf_apply, shapeCast_self, Nat.zero_add]
  · refine (KerStages.matmul_rows_apply _ inner_rows 128 _ _ slices_S288x256_o128_0_S128x256 (by norm_num) r q).trans ?_
    refine Finset.sum_congr rfl fun k _ => ?_
    simp only [truncf_apply, shapeCast_self]
  · refine (matmul_zero_apply _ inner_onehot.rank inner_onehot.size inner_onehot.l0 inner_onehot.l1 inner_onehot.r0
      inner_onehot.r1 _ _ r q).trans ?_
    refine Eq.trans (Finset.sum_congr rfl fun j _ => congrArg₂ (· * ·)
      (?_ : _ = if j = Spec.rowOf 32 (by decide) (v6 (ix3 (0 : Fin 1) (0 : Fin 1) r)) then (1 : EReal) else 0)
      (?_ : _ = ∑ k : Fin 32, v17 (ix2 j k) * v8 (ix2 (⟨256 + k.val, by omega⟩ : Fin 288) q)))
      (Spec.onehot_sum (Spec.rowOf 32 (by decide) (v6 (ix3 (0 : Fin 1) (0 : Fin 1) r)))
        (fun j => ∑ k : Fin 32, v17 (ix2 j k) * v8 (ix2 (⟨256 + k.val, by omega⟩ : Fin 288) q)))
    · show FloatOps.sitofp (F := Ideal) .f32 ((IntOp.cmpi .eq
          (broadcastTo S2048x32 (shapeCast S2048x1 (shapeCast S2048 v6 shapeCasts_S1x1x2048_S2048) shapeCasts_S2048_S2048x1)
            broadcasts_S2048x1_S2048x32 (ix2 r j))
          (iota .tc S2048x32 32 [1] iota_S2048x32_d1_w32 (ix2 r j))).setWidth 32) = _
      rw [Cert.RowLayout.broadcastTo_a1_ab_apply, Cert.RowLayout.shapeCast_a_a1_apply, KerStages.shapeCast_11a_a_apply,
        iota_single_apply]
      exact KerStages.onehot_entry (by norm_num) _ h6.1 (by have := h6.2; omega) _ j
        (Spec.rowOf_val _ _ h6.1 (by have := h6.2; omega))
    · show FloatOps.matmul (F := Ideal) _ none _ _ _ (ix2 j q) = _
      refine (KerStages.matmul_rows_apply _ inner_table 256 _ _ slices_S288x256_o256_0_S32x256 (by norm_num) j q).trans ?_
      refine Finset.sum_congr rfl fun k _ => ?_
      simp only [truncf_apply]
  · rw [Cert.Gcn.broadcastTo_rows_apply, shapeCast_self]

/-! ## The mean, the squared deviations, the stored value -/

/-- The block's mean column at row r is the mean of the dense layer's row r. -/
theorem pay3_apply (v0 v3 : Vec Ideal S2048x128 .f32) (v6 : Vec Ideal S1x1x2048 .i32) (v8 : Vec Ideal S288x256 .f32)
    (v17 : Vec Ideal S32x32 .f32) (v29 : Vec Ideal S1x256 .f32) (r : Fin 2048) (u : Fin 1) :
    k2_pay3 (F := Ideal) v0 v3 v6 v8 v17 v29 (ix2 r u)
      = Spec.mean (fun c => k2_pay2 (F := Ideal) v0 v3 v6 v8 v17 v29 (ix2 r c)) := by
  unfold Spec.mean
  show Ideal.div (shapeCast S2048x1 (multiReduction .add [1] S2048 (k2_pay2 (F := Ideal) v0 v3 v6 v8 v17 v29) 0x00000000#32
      reduces_S2048x256_S2048 (.inl rfl) rfl) shapeCasts_S2048_S2048x1 (ix2 r u)) (Ideal.ofBits .f32 0x43800000#32) = _
  rw [Cert.RowLayout.shapeCast_a_a1_apply]
  exact congrArg (Ideal.div · _) (Cert.RowLayout.multiReduction_add_row _ _ _ _ _ r)

/-- The squared deviations at (r, q). -/
theorem pay4_apply (v0 v3 : Vec Ideal S2048x128 .f32) (v6 : Vec Ideal S1x1x2048 .i32) (v8 : Vec Ideal S288x256 .f32)
    (v17 : Vec Ideal S32x32 .f32) (v29 : Vec Ideal S1x256 .f32) (r : Fin 2048) (q : Fin 256) :
    k2_pay4 (F := Ideal) v0 v3 v6 v8 v17 v29 (ix2 r q)
      = (k2_pay2 (F := Ideal) v0 v3 v6 v8 v17 v29 (ix2 r q) - k2_pay3 (F := Ideal) v0 v3 v6 v8 v17 v29 (ix2 r (0 : Fin 1)))
        * (k2_pay2 (F := Ideal) v0 v3 v6 v8 v17 v29 (ix2 r q) - k2_pay3 (F := Ideal) v0 v3 v6 v8 v17 v29 (ix2 r (0 : Fin 1))) := by
  show (k2_pay2 (F := Ideal) v0 v3 v6 v8 v17 v29 (ix2 r q)
        - broadcastTo S2048x256 (k2_pay3 (F := Ideal) v0 v3 v6 v8 v17 v29) broadcasts_S2048x1_S2048x256 (ix2 r q))
      * (k2_pay2 (F := Ideal) v0 v3 v6 v8 v17 v29 (ix2 r q)
        - broadcastTo S2048x256 (k2_pay3 (F := Ideal) v0 v3 v6 v8 v17 v29) broadcasts_S2048x1_S2048x256 (ix2 r q)) = _
  rw [Cert.RowLayout.broadcastTo_a1_ab_apply]

/-- The stored value at (r, q), from the dense layer, the mean column and the squared deviations. -/
theorem pay1_apply (v32 : FVec Ideal S2048x256 .f32) (v36 : FVec Ideal S2048x1 .f32) (v39 : FVec Ideal S2048x256 .f32)
    (v51 v55 : Vec Ideal S1x256 .f32) (r : Fin 2048) (q : Fin 256) :
    k2_pay1 (F := Ideal) v32 v36 v39 v51 v55 (ix2 r q)
      = (v32 (ix2 r q) - v36 (ix2 r (0 : Fin 1)))
          * Ideal.rsqrt (Ideal.div (∑ c : Fin 256, v39 (ix2 r c)) (Ideal.ofBits .f32 0x43800000#32)
              + Ideal.ofBits .f32 0x3A83126F#32)
          * v51 (ix2 (0 : Fin 1) q) + v55 (ix2 (0 : Fin 1) q) := by
  show (v32 (ix2 r q) - broadcastTo S2048x256 v36 broadcasts_S2048x1_S2048x256 (ix2 r q))
        * broadcastTo S2048x256 (rsqrt (addf (divf (shapeCast S2048x1 (multiReduction .add [1] S2048 v39 0x00000000#32
            reduces_S2048x256_S2048 (.inl rfl) rfl) shapeCasts_S2048_S2048x1) (broadcast S2048x1 (Ideal.ofBits .f32 0x43800000#32)))
            (broadcast S2048x1 (Ideal.ofBits .f32 0x3A83126F#32)))) broadcasts_S2048x1_S2048x256 (ix2 r q)
        * broadcastTo S2048x256 (shapeCast S1x256 v51 shapeCasts_S1x256_S1x256) broadcasts_S1x256_S2048x256 (ix2 r q)
      + broadcastTo S2048x256 (shapeCast S1x256 v55 shapeCasts_S1x256_S1x256) broadcasts_S1x256_S2048x256 (ix2 r q) = _
  rw [Cert.RowLayout.broadcastTo_a1_ab_apply, Cert.RowLayout.broadcastTo_a1_ab_apply, shapeCast_self, shapeCast_self,
    Cert.Gcn.broadcastTo_rows_apply, Cert.Gcn.broadcastTo_rows_apply]
  show (v32 (ix2 r q) - v36 (ix2 r (0 : Fin 1)))
        * Ideal.rsqrt (Ideal.div (shapeCast S2048x1 (multiReduction .add [1] S2048 v39 0x00000000#32
            reduces_S2048x256_S2048 (.inl rfl) rfl) shapeCasts_S2048_S2048x1 (ix2 r (0 : Fin 1))) (Ideal.ofBits .f32 0x43800000#32)
            + Ideal.ofBits .f32 0x3A83126F#32)
        * v51 (ix2 (0 : Fin 1) q) + v55 (ix2 (0 : Fin 1) q) = _
  rw [Cert.RowLayout.shapeCast_a_a1_apply]
  exact congrArg (fun z => (v32 (ix2 r q) - v36 (ix2 r (0 : Fin 1)))
      * Ideal.rsqrt (Ideal.div z (Ideal.ofBits .f32 0x43800000#32) + Ideal.ofBits .f32 0x3A83126F#32)
      * v51 (ix2 (0 : Fin 1) q) + v55 (ix2 (0 : Fin 1) q)) (Cert.RowLayout.multiReduction_add_row _ _ _ _ _ r)

/-! ## The block -/

/-- THE STORED BLOCK at (r, q): the normalised dense layer of row r of the three row blocks. -/
theorem block_value (v0 v3 : Vec Ideal S2048x128 .f32) (v6 : Vec Ideal S1x1x2048 .i32) (v8 : Vec Ideal S288x256 .f32)
    (v17 : Vec Ideal S32x32 .f32) (v29 v51 v55 : Vec Ideal S1x256 .f32) (r : Fin 2048) (q : Fin 256)
    (h0 : ∀ k : Fin 128, ∃ x : ℝ, v0 (ix2 r k) = (x : EReal)) (h3 : ∀ k : Fin 128, ∃ x : ℝ, v3 (ix2 r k) = (x : EReal))
    (h8 : ∀ i, ∃ x : ℝ, v8 i = (x : EReal)) (h17 : ∀ i, ∃ x : ℝ, v17 i = (x : EReal))
    (h29 : ∀ c : Fin 256, ∃ x : ℝ, v29 (ix2 (0 : Fin 1) c) = (x : EReal))
    (h6 : 0 ≤ (v6 (ix3 (0 : Fin 1) (0 : Fin 1) r)).toInt ∧ (v6 (ix3 (0 : Fin 1) (0 : Fin 1) r)).toInt ≤ 31) :
    k2_pay1 (F := Ideal) (k2_pay2 v0 v3 v6 v8 v17 v29) (k2_pay3 v0 v3 v6 v8 v17 v29) (k2_pay4 v0 v3 v6 v8 v17 v29) v51 v55 (ix2 r q)
      = Spec.norm (Spec.pre (fun k => v0 (ix2 r k)) (fun k => v3 (ix2 r k))
            (fun k => v17 (ix2 (Spec.rowOf 32 (by decide) (v6 (ix3 (0 : Fin 1) (0 : Fin 1) r))) k)) v8
            (fun c => v29 (ix2 (0 : Fin 1) c)))
          (fun c => v51 (ix2 (0 : Fin 1) c)) (fun c => v55 (ix2 (0 : Fin 1) c)) q := by
  have hy : (fun c => k2_pay2 (F := Ideal) v0 v3 v6 v8 v17 v29 (ix2 r c))
      = Spec.pre (fun k => v0 (ix2 r k)) (fun k => v3 (ix2 r k))
          (fun k => v17 (ix2 (Spec.rowOf 32 (by decide) (v6 (ix3 (0 : Fin 1) (0 : Fin 1) r))) k)) v8
          (fun c => v29 (ix2 (0 : Fin 1) c)) := funext fun c => pay2_apply v0 v3 v6 v8 v17 v29 r c h6
  have hreal : ∀ c : Fin 256, ∃ x : ℝ, k2_pay2 (F := Ideal) v0 v3 v6 v8 v17 v29 (ix2 r c) = (x : EReal) := fun c => by
    rw [pay2_apply v0 v3 v6 v8 v17 v29 r c h6]
    exact Spec.pre_real _ _ _ _ _ h0 h3 (fun k => h17 _) h8 h29 c
  have key : k2_pay1 (F := Ideal) (k2_pay2 v0 v3 v6 v8 v17 v29) (k2_pay3 v0 v3 v6 v8 v17 v29) (k2_pay4 v0 v3 v6 v8 v17 v29) v51 v55 (ix2 r q)
      = (k2_pay2 (F := Ideal) v0 v3 v6 v8 v17 v29 (ix2 r q)
            - Spec.mean (fun c => k2_pay2 (F := Ideal) v0 v3 v6 v8 v17 v29 (ix2 r c)))
          * Ideal.rsqrt (Spec.var (fun c => k2_pay2 (F := Ideal) v0 v3 v6 v8 v17 v29 (ix2 r c)) + Ideal.ofBits .f32 0x3A83126F#32)
          * v51 (ix2 (0 : Fin 1) q) + v55 (ix2 (0 : Fin 1) q) := by
    rw [pay1_apply, pay3_apply]
    unfold Spec.var
    refine congrArg (fun z => (k2_pay2 (F := Ideal) v0 v3 v6 v8 v17 v29 (ix2 r q)
            - Spec.mean (fun c => k2_pay2 (F := Ideal) v0 v3 v6 v8 v17 v29 (ix2 r c)))
          * Ideal.rsqrt (Ideal.div z (Ideal.ofBits .f32 0x43800000#32) + Ideal.ofBits .f32 0x3A83126F#32)
          * v51 (ix2 (0 : Fin 1) q) + v55 (ix2 (0 : Fin 1) q)) (Finset.sum_congr rfl fun c _ => ?_)
    rw [pay4_apply, pay3_apply]
  exact key.trans ((Spec.norm_rsqrt (fun c => k2_pay2 (F := Ideal) v0 v3 v6 v8 v17 v29 (ix2 r c))
    (fun c => v51 (ix2 (0 : Fin 1) c)) (fun c => v55 (ix2 (0 : Fin 1) c)) hreal q).trans
    (congrArg (fun y => Spec.norm y (fun c => v51 (ix2 (0 : Fin 1) c)) (fun c => v55 (ix2 (0 : Fin 1) c)) q) hy))

/-- The same against the whole arrays: when row r of the block holds the table rows that batch row p selects. -/
theorem block_value_G (v0 v3 : Vec Ideal S2048x128 .f32) (v6 : Vec Ideal S1x1x2048 .i32) (v8 : Vec Ideal S288x256 .f32)
    (v17 : Vec Ideal S32x32 .f32) (v29 v51 v55 : Vec Ideal S1x256 .f32) (r : Fin 2048) (q : Fin 256)
    (ci ni ti : Spec.Ids 16384) (ct : Spec.Mat 4096 128) (nt : Spec.Mat 16384 128) (nat : Spec.Mat 32 32)
    (W : Spec.Mat 288 256) (b g be : Spec.Vect 256) (p : Fin 16384)
    (e0 : ∀ k : Fin 128, v0 (ix2 r k) = ct (ix2 (Spec.rowOf 4096 (by decide) (ci (ix1 p))) k))
    (e3 : ∀ k : Fin 128, v3 (ix2 r k) = nt (ix2 (Spec.rowOf 16384 (by decide) (ni (ix1 p))) k))
    (e6 : v6 (ix3 (0 : Fin 1) (0 : Fin 1) r) = ti (ix1 p)) (e8 : v8 = W) (e17 : v17 = nat)
    (e29 : ∀ c : Fin 256, v29 (ix2 (0 : Fin 1) c) = b (ix1 c)) (e51 : ∀ c : Fin 256, v51 (ix2 (0 : Fin 1) c) = g (ix1 c))
    (e55 : ∀ c : Fin 256, v55 (ix2 (0 : Fin 1) c) = be (ix1 c))
    (hct : ∀ i, ∃ x : ℝ, ct i = (x : EReal)) (hnt : ∀ i, ∃ x : ℝ, nt i = (x : EReal)) (hnat : ∀ i, ∃ x : ℝ, nat i = (x : EReal))
    (hW : ∀ i, ∃ x : ℝ, W i = (x : EReal)) (hb : ∀ i, ∃ x : ℝ, b i = (x : EReal))
    (hti : 0 ≤ (ti (ix1 p)).toInt ∧ (ti (ix1 p)).toInt ≤ 31) :
    k2_pay1 (F := Ideal) (k2_pay2 v0 v3 v6 v8 v17 v29) (k2_pay3 v0 v3 v6 v8 v17 v29) (k2_pay4 v0 v3 v6 v8 v17 v29) v51 v55 (ix2 r q)
      = Spec.G ci ni ti ct nt nat W b g be p q := by
  rw [block_value v0 v3 v6 v8 v17 v29 v51 v55 r q (fun k => by rw [e0 k]; exact hct _) (fun k => by rw [e3 k]; exact hnt _)
    (by rw [e8]; exact hW) (by rw [e17]; exact hnat) (fun c => by rw [e29 c]; exact hb _) (by rw [e6]; exact hti)]
  unfold Spec.G
  simp only [e0, e3, e6, e8, e17, e29, e51, e55]

end Cert.KerValue

end
-- ==== Proof.KerPipe2.lean ====
/-
  The first pipeline's result, entry by entry: batch row p below 8192 lies in the block of grid point
  p / 2048, whose inputs are that row's table rows, its nature id, and the small arrays whole.
-/
import proofs.«204006_g8589934699_cont_9to1c4b_872_29_alg».proof.Proof.KerRows
import proofs.«204006_g8589934699_cont_9to1c4b_872_29_alg».proof.Proof.KerVals
import proofs.«204006_g8589934699_cont_9to1c4b_872_29_alg».proof.Proof.TcValue
import proofs.«204006_g8589934699_cont_9to1c4b_872_29_alg».proof.Proof.KerValue
import proofs.«204006_g8589934699_cont_9to1c4b_872_29_alg».proof.Proof.PreRead

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable (m : (ℓ : Loc nD τ sig) → Buf (Elt Ideal) ℓ)

theorem pipe2_value (d : Dev nD) (hdom : Cert.PreRead.Domain (m (d, a0')) (m (d, a1')) (m (d, a2')) (m (d, a3')) (m (d, a4')) (m (d, a5')) (m (d, a6')) (m (d, a7')) (m (d, a8')) (m (d, a9')))
    (p : Fin 16384) (q : Fin 256) (hp : p.val < 8192) :
    (res2 d (Wc m d) : S16384x256.Idx → Elt Ideal .f32) (ix2 p q)
      = Cert.Spec.G (m (d, a0')) (m (d, a1')) (m (d, a2')) (m (d, a3')) (m (d, a4')) (m (d, a5')) (m (d, a6')) (m (d, a7')) (m (d, a8')) (m (d, a9')) p q := by
  have hpl := p.isLt
  have hN : cfg2.N = 4 := N_2
  -- the grid point whose block holds row p, the row inside the block, the row of the gathered arrays
  obtain ⟨t, ht⟩ : ∃ t : Fin cfg2.N, t.val = p.val / 2048 := ⟨⟨p.val / 2048, by rw [hN]; omega⟩, rfl⟩
  obtain ⟨r, hr⟩ : ∃ r : Fin 2048, r.val = p.val % 2048 := ⟨⟨p.val % 2048, by omega⟩, rfl⟩
  obtain ⟨R, hR⟩ : ∃ R : Fin 8192, R.val = p.val := ⟨⟨p.val, by omega⟩, rfl⟩
  obtain ⟨s, hs⟩ : ∃ s : Fin 8, s.val = t.val := ⟨⟨t.val, by omega⟩, rfl⟩
  obtain ⟨-, -, -, -, -, -, -, h80, h81, -⟩ := idx2 t
  -- the entry is the block's entry (r, q)
  have hemb : ((cfg2.win 8).blk t).view.emb (ix2 r q) = ix2 p q := by
    funext a
    apply Fin.ext
    match a with
    | ⟨0, _⟩ => show win2_8.index t (0 : Fin 2) * 2048 + 1 * r.val = p.val; rw [h80]; omega
    | ⟨1, _⟩ => show win2_8.index t (1 : Fin 2) * 256 + 1 * q.val = q.val; rw [h81]; omega
  have hblk := congrFun (res2_blk d (Wc m d) t) (ix2 r q)
  rw [View.read_apply, hemb] at hblk
  refine hblk.trans ?_
  unfold out2
  -- the block's inputs
  have e0 : ∀ k : Fin 128, (iblk2 d (Wc m d) 1 t : Vec Ideal S2048x128 .f32) (ix2 r k)
      = (m (d, a3') : S4096x128.Idx → Elt Ideal .f32) (ix2 (Cert.Spec.rowOf 4096 (by decide) ((m (d, a0') : S16384.Idx → Elt Ideal .i32) (ix1 p))) k) := fun k => by
    rw [blk2_code d (Wc m d) t r k R (by omega), Wc_v60]
    exact outC_row m d 0 R k p (by show p.val = 8192 * (0 : Fin 2).val + R.val; simp only [Fin.val_zero]; omega)
  have e3 : ∀ k : Fin 128, (iblk2 d (Wc m d) 2 t : Vec Ideal S2048x128 .f32) (ix2 r k)
      = (m (d, a4') : S16384x128.Idx → Elt Ideal .f32) (ix2 (Cert.Spec.rowOf 16384 (by decide) ((m (d, a1') : S16384.Idx → Elt Ideal .i32) (ix1 p))) k) := fun k => by
    rw [blk2_name d (Wc m d) t r k R (by omega), Wc_v61]
    exact outN_row m d 0 R k p (by show p.val = 8192 * (0 : Fin 2).val + R.val; simp only [Fin.val_zero]; omega)
  have e6 : (iblk2 d (Wc m d) 0 t : Vec Ideal S1x1x2048 .i32) (ix3 (0 : Fin 1) (0 : Fin 1) r)
      = (m (d, a2') : S16384.Idx → Elt Ideal .i32) (ix1 p) := by
    rw [blk2_ids d (Wc m d) t r s hs, Wc_v2]
    exact V1_v2_apply m d s r p (by omega)
  have e8 : (iblk2 d (Wc m d) 4 t : Vec Ideal S288x256 .f32) = m (d, a6') := by
    rw [blk2_w d (Wc m d) t, Wc_a6, V1_a6]
  have e17 : (iblk2 d (Wc m d) 3 t : Vec Ideal S32x32 .f32) = m (d, a5') := by
    rw [blk2_nat d (Wc m d) t, Wc_a5, V1_a5]
  have e29 : ∀ c : Fin 256, (iblk2 d (Wc m d) 5 t : Vec Ideal S1x256 .f32) (ix2 (0 : Fin 1) c) = (m (d, a7') : S256.Idx → Elt Ideal .f32) (ix1 c) := fun c => by
    rw [blk2_b d (Wc m d) t, Wc_v3]
    exact V1_v3_apply m d c
  have e51 : ∀ c : Fin 256, (iblk2 d (Wc m d) 6 t : Vec Ideal S1x256 .f32) (ix2 (0 : Fin 1) c) = (m (d, a8') : S256.Idx → Elt Ideal .f32) (ix1 c) := fun c => by
    rw [blk2_g d (Wc m d) t, Wc_v4]
    exact V1_v4_apply m d c
  have e55 : ∀ c : Fin 256, (iblk2 d (Wc m d) 7 t : Vec Ideal S1x256 .f32) (ix2 (0 : Fin 1) c) = (m (d, a9') : S256.Idx → Elt Ideal .f32) (ix1 c) := fun c => by
    rw [blk2_be d (Wc m d) t, Wc_v5]
    exact V1_v5_apply m d c
  exact Cert.KerValue.block_value_G (iblk2 d (Wc m d) 1 t) (iblk2 d (Wc m d) 2 t) (iblk2 d (Wc m d) 0 t) (iblk2 d (Wc m d) 4 t) (iblk2 d (Wc m d) 3 t) (iblk2 d (Wc m d) 5 t) (iblk2 d (Wc m d) 6 t) (iblk2 d (Wc m d) 7 t) r q
    (m (d, a0')) (m (d, a1')) (m (d, a2')) (m (d, a3')) (m (d, a4')) (m (d, a5')) (m (d, a6')) (m (d, a7')) (m (d, a8')) (m (d, a9')) p
    e0 e3 e6 e8 e17 e29 e51 e55 hdom.code_real hdom.name_real hdom.nature_real hdom.weight_real hdom.bias_real (hdom.nature_ids p)

end Cert.KernelIdeal.KerBridge

end
-- ==== Proof.KerPipe3.lean ====
/-
  The second pipeline's result, entry by entry: batch row p from 8192 on lies in the block of grid point
  (p − 8192) / 2048, whose inputs are that row's table rows, its nature id, and the small arrays whole.
-/
import proofs.«204006_g8589934699_cont_9to1c4b_872_29_alg».proof.Proof.KerRows
import proofs.«204006_g8589934699_cont_9to1c4b_872_29_alg».proof.Proof.KerVals
import proofs.«204006_g8589934699_cont_9to1c4b_872_29_alg».proof.Proof.TcValue
import proofs.«204006_g8589934699_cont_9to1c4b_872_29_alg».proof.Proof.KerValue
import proofs.«204006_g8589934699_cont_9to1c4b_872_29_alg».proof.Proof.PreRead

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable (m : (ℓ : Loc nD τ sig) → Buf (Elt Ideal) ℓ)

theorem pipe3_value (d : Dev nD) (hdom : Cert.PreRead.Domain (m (d, a0')) (m (d, a1')) (m (d, a2')) (m (d, a3')) (m (d, a4')) (m (d, a5')) (m (d, a6')) (m (d, a7')) (m (d, a8')) (m (d, a9')))
    (p : Fin 16384) (q : Fin 256) (hp : 8192 ≤ p.val) :
    (res3 d (X m d) : S16384x256.Idx → Elt Ideal .f32) (ix2 p q)
      = Cert.Spec.G (m (d, a0')) (m (d, a1')) (m (d, a2')) (m (d, a3')) (m (d, a4')) (m (d, a5')) (m (d, a6')) (m (d, a7')) (m (d, a8')) (m (d, a9')) p q := by
  have hpl := p.isLt
  have hN : cfg3.N = 4 := N_3
  -- the grid point whose block holds row p, the row inside the block, the row of the gathered arrays
  obtain ⟨t, ht⟩ : ∃ t : Fin cfg3.N, t.val = (p.val - 8192) / 2048 := ⟨⟨(p.val - 8192) / 2048, by rw [hN]; omega⟩, rfl⟩
  obtain ⟨r, hr⟩ : ∃ r : Fin 2048, r.val = p.val % 2048 := ⟨⟨p.val % 2048, by omega⟩, rfl⟩
  obtain ⟨R, hR⟩ : ∃ R : Fin 8192, R.val = p.val - 8192 := ⟨⟨p.val - 8192, by omega⟩, rfl⟩
  obtain ⟨s, hs⟩ : ∃ s : Fin 8, s.val = t.val + 4 := ⟨⟨t.val + 4, by omega⟩, rfl⟩
  obtain ⟨-, -, -, -, -, -, -, h80, h81, -⟩ := idx3 t
  -- the entry is the block's entry (r, q)
  have hemb : ((cfg3.win 8).blk t).view.emb (ix2 r q) = ix2 p q := by
    funext a
    apply Fin.ext
    match a with
    | ⟨0, _⟩ => show win3_8.index t (0 : Fin 2) * 2048 + 1 * r.val = p.val; rw [h80]; omega
    | ⟨1, _⟩ => show win3_8.index t (1 : Fin 2) * 256 + 1 * q.val = q.val; rw [h81]; omega
  have hblk := congrFun (res3_blk d (X m d) t) (ix2 r q)
  rw [View.read_apply, hemb] at hblk
  refine hblk.trans ?_
  unfold out3
  rw [Cert.KerValue.k3_pay1_eq, Cert.KerValue.k3_pay2_eq, Cert.KerValue.k3_pay3_eq, Cert.KerValue.k3_pay4_eq]
  -- the block's inputs
  have e0 : ∀ k : Fin 128, (iblk3 d (X m d) 1 t : Vec Ideal S2048x128 .f32) (ix2 r k)
      = (m (d, a3') : S4096x128.Idx → Elt Ideal .f32) (ix2 (Cert.Spec.rowOf 4096 (by decide) ((m (d, a0') : S16384.Idx → Elt Ideal .i32) (ix1 p))) k) := fun k => by
    rw [blk3_code d (X m d) t r k R (by omega), X_v70]
    exact outC_row m d 1 R k p (by show p.val = 8192 * (1 : Fin 2).val + R.val; simp only [Fin.val_one]; omega)
  have e3 : ∀ k : Fin 128, (iblk3 d (X m d) 2 t : Vec Ideal S2048x128 .f32) (ix2 r k)
      = (m (d, a4') : S16384x128.Idx → Elt Ideal .f32) (ix2 (Cert.Spec.rowOf 16384 (by decide) ((m (d, a1') : S16384.Idx → Elt Ideal .i32) (ix1 p))) k) := fun k => by
    rw [blk3_name d (X m d) t r k R (by omega), X_v71]
    exact outN_row m d 1 R k p (by show p.val = 8192 * (1 : Fin 2).val + R.val; simp only [Fin.val_one]; omega)
  have e6 : (iblk3 d (X m d) 0 t : Vec Ideal S1x1x2048 .i32) (ix3 (0 : Fin 1) (0 : Fin 1) r)
      = (m (d, a2') : S16384.Idx → Elt Ideal .i32) (ix1 p) := by
    rw [blk3_ids d (X m d) t r s hs, X_v2]
    exact V1_v2_apply m d s r p (by omega)
  have e8 : (iblk3 d (X m d) 4 t : Vec Ideal S288x256 .f32) = m (d, a6') := by
    rw [blk3_w d (X m d) t, X_a6, V1_a6]
  have e17 : (iblk3 d (X m d) 3 t : Vec Ideal S32x32 .f32) = m (d, a5') := by
    rw [blk3_nat d (X m d) t, X_a5, V1_a5]
  have e29 : ∀ c : Fin 256, (iblk3 d (X m d) 5 t : Vec Ideal S1x256 .f32) (ix2 (0 : Fin 1) c) = (m (d, a7') : S256.Idx → Elt Ideal .f32) (ix1 c) := fun c => by
    rw [blk3_b d (X m d) t, X_v3]
    exact V1_v3_apply m d c
  have e51 : ∀ c : Fin 256, (iblk3 d (X m d) 6 t : Vec Ideal S1x256 .f32) (ix2 (0 : Fin 1) c) = (m (d, a8') : S256.Idx → Elt Ideal .f32) (ix1 c) := fun c => by
    rw [blk3_g d (X m d) t, X_v4]
    exact V1_v4_apply m d c
  have e55 : ∀ c : Fin 256, (iblk3 d (X m d) 7 t : Vec Ideal S1x256 .f32) (ix2 (0 : Fin 1) c) = (m (d, a9') : S256.Idx → Elt Ideal .f32) (ix1 c) := fun c => by
    rw [blk3_be d (X m d) t, X_v5]
    exact V1_v5_apply m d c
  exact Cert.KerValue.block_value_G (iblk3 d (X m d) 1 t) (iblk3 d (X m d) 2 t) (iblk3 d (X m d) 0 t) (iblk3 d (X m d) 4 t) (iblk3 d (X m d) 3 t) (iblk3 d (X m d) 5 t) (iblk3 d (X m d) 6 t) (iblk3 d (X m d) 7 t) r q
    (m (d, a0')) (m (d, a1')) (m (d, a2')) (m (d, a3')) (m (d, a4')) (m (d, a5')) (m (d, a6')) (m (d, a7')) (m (d, a8')) (m (d, a9')) p
    e0 e3 e6 e8 e17 e29 e51 e55 hdom.code_real hdom.name_real hdom.nature_real hdom.weight_real hdom.bias_real (hdom.nature_ids p)

end Cert.KernelIdeal.KerBridge

end
-- ==== Proof.KerBridge.lean ====
/-
  The kernel's result array is the specification's value of the ten arguments: the first 8192 batch rows are the
  first pipeline's blocks (the second pipeline's blocks start at row 8192, so below it the array is the copy of the
  first pipeline's result), the rest the second pipeline's.
-/
import proofs.«204006_g8589934699_cont_9to1c4b_872_29_alg».proof.Proof.KerPipe2
import proofs.«204006_g8589934699_cont_9to1c4b_872_29_alg».proof.Proof.KerPipe3

noncomputable section

namespace Cert.KernelIdeal.KerBridge

open Cert.KernelIdeal Cert.KernelIdeal.Gen Cert.KernelIdeal.Setup Cert.KernelIdeal.TcSide Cert.KernelIdeal.MainSide Cert.KernelIdeal.ScSide
open Idealize.ShloMosaic Idealize.ShloMosaic.TcCoe Idealize.ShloMosaic.ValueIdx Idealize.SL.Sem

variable (m : (ℓ : Loc nD τ sig) → Buf (Elt Ideal) ℓ)

/-- An index of the result array is in grid point t's block of the second pipeline iff each coordinate is in the
    block's range on its axis. -/
theorem mem_blk3 (t : Fin cfg3.N) (i : S16384x256.Idx) :
    i ∈ ((cfg3.win 8).blk t).view.set ↔ ∀ a : Fin 2, win3_8.index t a * S2048x256.size a ≤ (i a).val ∧ (i a).val < win3_8.index t a * S2048x256.size a + S2048x256.size a := by
  show i ∈ ((View.whole main_v9).slice (win3_8.rect t)).set ↔ _
  rw [View.set_slice_whole, Rect.mem_set_unit]
  exact Iff.rfl

theorem kernel_value' (d : Dev nD) (hdom : Cert.PreRead.Domain (m (d, a0')) (m (d, a1')) (m (d, a2')) (m (d, a3')) (m (d, a4')) (m (d, a5')) (m (d, a6')) (m (d, a7')) (m (d, a8')) (m (d, a9'))) :
    (Wf d (Wc m d) v9' : S16384x256.Idx → Elt Ideal .f32) = Cert.Spec.out (m (d, a0')) (m (d, a1')) (m (d, a2')) (m (d, a3')) (m (d, a4')) (m (d, a5')) (m (d, a6')) (m (d, a7')) (m (d, a8')) (m (d, a9')) := by
  rw [Wf_v9]
  funext i
  obtain ⟨p, q, rfl⟩ : ∃ (p : Fin 16384) (q : Fin 256), i = ix2 p q := ⟨i 0, i 1, eq_ix2 i⟩
  rw [Cert.Spec.out_apply]
  by_cases hp : p.val < 8192
  · refine (res3_rest d (X m d) (ix2 p q) fun t hmem => ?_).trans ?_
    · rw [mem_blk3] at hmem
      obtain ⟨-, -, -, -, -, -, -, h80, -⟩ := idx3 t
      have h0 : win3_8.index t (0 : Fin 2) * 2048 ≤ p.val ∧ p.val < win3_8.index t (0 : Fin 2) * 2048 + 2048 := hmem 0
      rw [h80] at h0
      omega
    · show X m d v9' (ix2 p q) = _
      rw [X_v9]
      exact pipe2_value m d hdom p q hp
  · exact pipe3_value m d hdom p q (by omega)

end Cert.KernelIdeal.KerBridge

end
-- ==== Proof.KerBridgeFin.lean ====
/-
  The kernel's result array at the end of the run is the specification's value of the ten arguments as launched.
-/
import proofs.«204006_g8589934699_cont_9to1c4b_872_29_alg».proof.Proof.KerBridge
import proofs.«204006_g8589934699_cont_9to1c4b_872_29_alg».proof.Proof.MainFinal

noncomputable section

namespace Cert.KernelIdeal.KerBridge

open Cert.KernelIdeal Idealize.ShloMosaic Idealize.SL.Sem

theorem kernel_value (m : (ℓ : Loc nD τ sig) → Buf (Elt Ideal) ℓ) (c : Dev nD)
    (hdom : Cert.PreRead.Domain (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9))) :
    MainSide.Vfin m c MainSide.v9' = Cert.Spec.out (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) :=
  kernel_value' m c hdom

end Cert.KernelIdeal.KerBridge

end
-- ==== Proof.RefOps.lean ====
/-
  The reference function's operations as one straight line, and the same line cut into six consecutive parts.
-/
import proofs.«204006_g8589934699_cont_9to1c4b_872_29_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of the whole function in order, each look-up's and the variance's own operations in the
    place of the call. -/
abbrev ops : List (HloOp τ sig (Elt F)) :=
  [
    StableHlo.TRef.nullary main_call0.c (constantI S_ 32 0#32),
    StableHlo.TRef.unary main_call0.c main_call0.v0 (broadcastInDim S16384 ![] bcast_S_S16384),
    StableHlo.TRef.binary (.of main_arg0 : StableHlo.TRef sig ⟨S16384, .i32⟩) main_call0.v0 main_call0.v1 (cmpi .slt),
    StableHlo.TRef.nullary main_call0.c_0 (constantI S_ 32 4096#32),
    StableHlo.TRef.unary main_call0.c_0 main_call0.v2 (broadcastInDim S16384 ![] bcast_S_S16384),
    StableHlo.TRef.binary (.of main_arg0 : StableHlo.TRef sig ⟨S16384, .i32⟩) main_call0.v2 main_call0.v3 addi,
    StableHlo.TRef.ternary main_call0.v1 main_call0.v3 (.of main_arg0 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 4095#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg3 : StableHlo.TRef sig ⟨S4096x128, .f32⟩) main_call0.v5 main_call0.v13 (fun x i => Host.gather gather_S4096x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (.of main_arg1 : StableHlo.TRef sig ⟨S16384, .i32⟩) main_call1.v0 main_call1.v1 (cmpi .slt),
    StableHlo.TRef.nullary main_call1.c_0 (constantI S_ 32 16384#32),
    StableHlo.TRef.unary main_call1.c_0 main_call1.v2 (broadcastInDim S16384 ![] bcast_S_S16384),
    StableHlo.TRef.binary (.of main_arg1 : StableHlo.TRef sig ⟨S16384, .i32⟩) main_call1.v2 main_call1.v3 addi,
    StableHlo.TRef.ternary main_call1.v1 main_call1.v3 (.of main_arg1 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 16383#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg4 : StableHlo.TRef sig ⟨S16384x128, .f32⟩) main_call1.v5 main_call1.v13 (fun x i => Host.gather gather_S16384x128_S16384x1_S16384x128_1_0_n_n_0_1_1128 x i),
    StableHlo.TRef.unary main_call1.v12 main_call1.v14 (broadcastInDim S16384x128 ![0] bcast_S16384_S16384x128_0),
    StableHlo.TRef.nullary main_call1.cst (constant S_ .f32 0x7FC00000#32),
    StableHlo.TRef.unary main_call1.cst main_call1.v15 (broadcastInDim S16384x128 ![] bcast_S_S16384x128),
    StableHlo.TRef.ternary main_call1.v14 main_call1.v13 main_call1.v15 main_call1.v16 select,
    StableHlo.TRef.nullary main_call2.c (constantI S_ 32 0#32),
    StableHlo.TRef.unary main_call2.c main_call2.v0 (broadcastInDim S16384 ![] bcast_S_S16384),
    StableHlo.TRef.binary (.of main_arg2 : StableHlo.TRef sig ⟨S16384, .i32⟩) main_call2.v0 main_call2.v1 (cmpi .slt),
    StableHlo.TRef.nullary main_call2.c_0 (constantI S_ 32 32#32),
    StableHlo.TRef.unary main_call2.c_0 main_call2.v2 (broadcastInDim S16384 ![] bcast_S_S16384),
    StableHlo.TRef.binary (.of main_arg2 : StableHlo.TRef sig ⟨S16384, .i32⟩) main_call2.v2 main_call2.v3 addi,
    StableHlo.TRef.ternary main_call2.v1 main_call2.v3 (.of main_arg2 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 31#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg5 : StableHlo.TRef sig ⟨S32x32, .f32⟩) main_call2.v5 main_call2.v13 (fun x i => Host.gather gather_S32x32_S16384x1_S16384x32_1_0_n_n_0_1_132 x i),
    StableHlo.TRef.unary main_call2.v12 main_call2.v14 (broadcastInDim S16384x32 ![0] bcast_S16384_S16384x32_0),
    StableHlo.TRef.nullary main_call2.cst (constant S_ .f32 0x7FC00000#32),
    StableHlo.TRef.unary main_call2.cst main_call2.v15 (broadcastInDim S16384x32 ![] bcast_S_S16384x32),
    StableHlo.TRef.ternary main_call2.v14 main_call2.v13 main_call2.v15 main_call2.v16 select,
    StableHlo.nary ![main_v0, main_v1, main_v2] main_v3 (fun u => concatenate S16384x288 1 [⟨S16384x128, u 0⟩, ⟨S16384x128, u 1⟩, ⟨S16384x32, u 2⟩] concatenates_S16384x128_S16384x128_S16384x32_S16384x288_d1),
    StableHlo.binary main_v3 main_arg6 main_v4 ((fun l r => Host.dotGeneral dot_S16384x288_S288x256_S16384x256_1_0_0_1_n_n none l r) : (⟨S16384x288, .f32⟩ : BufTy).Contents (Elt F) → (⟨S288x256, .f32⟩ : BufTy).Contents (Elt F) → (⟨S16384x256, .f32⟩ : BufTy).Contents (Elt F)),
    StableHlo.unary main_arg7 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S16384x256 ![0, 1] bcast_S1x256_S16384x256_0_1 : (⟨S1x256, .f32⟩ : BufTy).Contents (Elt F) → (⟨S16384x256, .f32⟩ : BufTy).Contents (Elt F)),
    StableHlo.binary main_v4 main_v6 main_v7 (addf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v7 main_cst main_v8 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v8 main_v9 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x43800000#32),
    StableHlo.unary main_cst_0 main_v10 (broadcastInDim S16384x1 ![] bcast_S_S16384x1 : (⟨S_, .f32⟩ : BufTy).Contents (Elt F) → (⟨S16384x1, .f32⟩ : BufTy).Contents (Elt F)),
    StableHlo.binary main_v9 main_v10 main_v11 (Host.divf : (⟨S16384x1, .f32⟩ : BufTy).Contents (Elt F) → (⟨S16384x1, .f32⟩ : BufTy).Contents (Elt F) → (⟨S16384x1, .f32⟩ : BufTy).Contents (Elt F)),
    StableHlo.nullary main_c (constantI S_ 32 0#32),
    StableHlo.TRef.nullary main_call3.cst (constant S_ .f32 0x00000000#32),
    StableHlo.TRef.binary (.of main_v7 : StableHlo.TRef sig ⟨S16384x256, .f32⟩) main_call3.cst main_call3.v0 (fun x v => Host.reduceAdd x v reducesTo_S16384x256_S16384_d1 h_S_),
    StableHlo.TRef.unary main_call3.v0 main_call3.v1 (broadcastInDim S16384x1 ![0] bcast_S16384_S16384x1_0),
    StableHlo.TRef.nullary main_call3.cst_0 (constant S_ .f32 0x43800000#32),
    StableHlo.TRef.unary main_call3.cst_0 main_call3.v2 (broadcastInDim S16384x1 ![] bcast_S_S16384x1),
    StableHlo.TRef.binary main_call3.v1 main_call3.v2 main_call3.v3 Host.divf,
    StableHlo.TRef.unary main_call3.v3 main_call3.v4 (broadcastInDim S16384x256 ![0, 1] bcast_S16384x1_S16384x256_0_1),
    StableHlo.TRef.binary (.of main_v7 : StableHlo.TRef sig ⟨S16384x256, .f32⟩) main_call3.v4 main_call3.v5 subf,
    StableHlo.TRef.binary main_call3.v5 main_call3.v5 main_call3.v6 mulf,
    StableHlo.TRef.unary (.of main_c : StableHlo.TRef sig ⟨S_, .i32⟩) main_call3.v7 (sitofp .f32),
    StableHlo.TRef.nullary main_call3.cst_1 (constant S_ .f32 0x43800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16384x256_S16384_d1 h_S_),
    StableHlo.TRef.unary main_call3.v9 main_call3.v10 (broadcastInDim S16384x1 ![0] bcast_S16384_S16384x1_0),
    StableHlo.TRef.unary main_call3.v8 main_call3.v11 (broadcastInDim S16384x1 ![] bcast_S_S16384x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S16384x1 ![] bcast_S_S16384x1),
    StableHlo.TRef.ternary main_call3.v13 main_call3.v12 main_call3.call0.v1 main_call3.call0.v2 (fun p a b => select (broadcastInDim S16384x1 ![] bcast_S_S16384x1 p) a b),
    StableHlo.unary main_v11 main_v13 (broadcastInDim S16384x256 ![0, 1] bcast_S16384x1_S16384x256_0_1 : (⟨S16384x1, .f32⟩ : BufTy).Contents (Elt F) → (⟨S16384x256, .f32⟩ : BufTy).Contents (Elt F)),
    StableHlo.binary main_v7 main_v13 main_v14 (subf : (⟨S16384x256, .f32⟩ : BufTy).Contents (Elt F) → (⟨S16384x256, .f32⟩ : BufTy).Contents (Elt F) → (⟨S16384x256, .f32⟩ : BufTy).Contents (Elt F)),
    StableHlo.nullary main_cst_1 (constant S_ .f32 0x3A83126F#32),
    StableHlo.unary main_cst_1 main_v15 (broadcastInDim S16384x1 ![] bcast_S_S16384x1 : (⟨S_, .f32⟩ : BufTy).Contents (Elt F) → (⟨S16384x1, .f32⟩ : BufTy).Contents (Elt F)),
    StableHlo.binary main_v12 main_v15 main_v16 (addf : (⟨S16384x1, .f32⟩ : BufTy).Contents (Elt F) → (⟨S16384x1, .f32⟩ : BufTy).Contents (Elt F) → (⟨S16384x1, .f32⟩ : BufTy).Contents (Elt F)),
    StableHlo.unary main_v16 main_v17 (Host.sqrt : (⟨S16384x1, .f32⟩ : BufTy).Contents (Elt F) → (⟨S16384x1, .f32⟩ : BufTy).Contents (Elt F)),
    StableHlo.unary main_v17 main_v18 (broadcastInDim S16384x256 ![0, 1] bcast_S16384x1_S16384x256_0_1 : (⟨S16384x1, .f32⟩ : BufTy).Contents (Elt F) → (⟨S16384x256, .f32⟩ : BufTy).Contents (Elt F)),
    StableHlo.binary main_v14 main_v18 main_v19 (Host.divf : (⟨S16384x256, .f32⟩ : BufTy).Contents (Elt F) → (⟨S16384x256, .f32⟩ : BufTy).Contents (Elt F) → (⟨S16384x256, .f32⟩ : BufTy).Contents (Elt F)),
    StableHlo.unary main_arg8 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S16384x256 ![0, 1] bcast_S1x256_S16384x256_0_1 : (⟨S1x256, .f32⟩ : BufTy).Contents (Elt F) → (⟨S16384x256, .f32⟩ : BufTy).Contents (Elt F)),
    StableHlo.binary main_v19 main_v21 main_v22 (mulf : (⟨S16384x256, .f32⟩ : BufTy).Contents (Elt F) → (⟨S16384x256, .f32⟩ : BufTy).Contents (Elt F) → (⟨S16384x256, .f32⟩ : BufTy).Contents (Elt F)),
    StableHlo.unary main_arg9 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S16384x256 ![0, 1] bcast_S1x256_S16384x256_0_1 : (⟨S1x256, .f32⟩ : BufTy).Contents (Elt F) → (⟨S16384x256, .f32⟩ : BufTy).Contents (Elt F)),
    StableHlo.binary main_v22 main_v24 main_v25 (addf : (⟨S16384x256, .f32⟩ : BufTy).Contents (Elt F) → (⟨S16384x256, .f32⟩ : BufTy).Contents (Elt F) → (⟨S16384x256, .f32⟩ : BufTy).Contents (Elt F)) ]

/-- Part 0 of the line: the first look-up's operations. -/
def w0 : List (HloOp τ sig (Elt F)) :=
  [
    StableHlo.TRef.nullary main_call0.c (constantI S_ 32 0#32),
    StableHlo.TRef.unary main_call0.c main_call0.v0 (broadcastInDim S16384 ![] bcast_S_S16384),
    StableHlo.TRef.binary (.of main_arg0 : StableHlo.TRef sig ⟨S16384, .i32⟩) main_call0.v0 main_call0.v1 (cmpi .slt),
    StableHlo.TRef.nullary main_call0.c_0 (constantI S_ 32 4096#32),
    StableHlo.TRef.unary main_call0.c_0 main_call0.v2 (broadcastInDim S16384 ![] bcast_S_S16384),
    StableHlo.TRef.binary (.of main_arg0 : StableHlo.TRef sig ⟨S16384, .i32⟩) main_call0.v2 main_call0.v3 addi,
    StableHlo.TRef.ternary main_call0.v1 main_call0.v3 (.of main_arg0 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 4095#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg3 : StableHlo.TRef sig ⟨S4096x128, .f32⟩) main_call0.v5 main_call0.v13 (fun x i => Host.gather gather_S4096x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select ]

/-- Part 1 of the line: the second look-up's operations. -/
def w1 : List (HloOp τ sig (Elt F)) :=
  [
    StableHlo.TRef.nullary main_call1.c (constantI S_ 32 0#32),
    StableHlo.TRef.unary main_call1.c main_call1.v0 (broadcastInDim S16384 ![] bcast_S_S16384),
    StableHlo.TRef.binary (.of main_arg1 : StableHlo.TRef sig ⟨S16384, .i32⟩) main_call1.v0 main_call1.v1 (cmpi .slt),
    StableHlo.TRef.nullary main_call1.c_0 (constantI S_ 32 16384#32),
    StableHlo.TRef.unary main_call1.c_0 main_call1.v2 (broadcastInDim S16384 ![] bcast_S_S16384),
    StableHlo.TRef.binary (.of main_arg1 : StableHlo.TRef sig ⟨S16384, .i32⟩) main_call1.v2 main_call1.v3 addi,
    StableHlo.TRef.ternary main_call1.v1 main_call1.v3 (.of main_arg1 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 16383#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg4 : StableHlo.TRef sig ⟨S16384x128, .f32⟩) main_call1.v5 main_call1.v13 (fun x i => Host.gather gather_S16384x128_S16384x1_S16384x128_1_0_n_n_0_1_1128 x i),
    StableHlo.TRef.unary main_call1.v12 main_call1.v14 (broadcastInDim S16384x128 ![0] bcast_S16384_S16384x128_0),
    StableHlo.TRef.nullary main_call1.cst (constant S_ .f32 0x7FC00000#32),
    StableHlo.TRef.unary main_call1.cst main_call1.v15 (broadcastInDim S16384x128 ![] bcast_S_S16384x128),
    StableHlo.TRef.ternary main_call1.v14 main_call1.v13 main_call1.v15 main_call1.v16 select ]

/-- Part 2 of the line: the third look-up's operations. -/
def w2 : List (HloOp τ sig (Elt F)) :=
  [
    StableHlo.TRef.nullary main_call2.c (constantI S_ 32 0#32),
    StableHlo.TRef.unary main_call2.c main_call2.v0 (broadcastInDim S16384 ![] bcast_S_S16384),
    StableHlo.TRef.binary (.of main_arg2 : StableHlo.TRef sig ⟨S16384, .i32⟩) main_call2.v0 main_call2.v1 (cmpi .slt),
    StableHlo.TRef.nullary main_call2.c_0 (constantI S_ 32 32#32),
    StableHlo.TRef.unary main_call2.c_0 main_call2.v2 (broadcastInDim S16384 ![] bcast_S_S16384),
    StableHlo.TRef.binary (.of main_arg2 : StableHlo.TRef sig ⟨S16384, .i32⟩) main_call2.v2 main_call2.v3 addi,
    StableHlo.TRef.ternary main_call2.v1 main_call2.v3 (.of main_arg2 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 31#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg5 : StableHlo.TRef sig ⟨S32x32, .f32⟩) main_call2.v5 main_call2.v13 (fun x i => Host.gather gather_S32x32_S16384x1_S16384x32_1_0_n_n_0_1_132 x i),
    StableHlo.TRef.unary main_call2.v12 main_call2.v14 (broadcastInDim S16384x32 ![0] bcast_S16384_S16384x32_0),
    StableHlo.TRef.nullary main_call2.cst (constant S_ .f32 0x7FC00000#32),
    StableHlo.TRef.unary main_call2.cst main_call2.v15 (broadcastInDim S16384x32 ![] bcast_S_S16384x32),
    StableHlo.TRef.ternary main_call2.v14 main_call2.v13 main_call2.v15 main_call2.v16 select ]

/-- Part 3 of the line: the dense layer and the row mean. -/
def w3 : List (HloOp τ sig (Elt F)) :=
  [
    StableHlo.nary ![main_v0, main_v1, main_v2] main_v3 (fun u => concatenate S16384x288 1 [⟨S16384x128, u 0⟩, ⟨S16384x128, u 1⟩, ⟨S16384x32, u 2⟩] concatenates_S16384x128_S16384x128_S16384x32_S16384x288_d1),
    StableHlo.binary main_v3 main_arg6 main_v4 ((fun l r => Host.dotGeneral dot_S16384x288_S288x256_S16384x256_1_0_0_1_n_n none l r) : (⟨S16384x288, .f32⟩ : BufTy).Contents (Elt F) → (⟨S288x256, .f32⟩ : BufTy).Contents (Elt F) → (⟨S16384x256, .f32⟩ : BufTy).Contents (Elt F)),
    StableHlo.unary main_arg7 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S16384x256 ![0, 1] bcast_S1x256_S16384x256_0_1 : (⟨S1x256, .f32⟩ : BufTy).Contents (Elt F) → (⟨S16384x256, .f32⟩ : BufTy).Contents (Elt F)),
    StableHlo.binary main_v4 main_v6 main_v7 (addf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v7 main_cst main_v8 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v8 main_v9 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x43800000#32),
    StableHlo.unary main_cst_0 main_v10 (broadcastInDim S16384x1 ![] bcast_S_S16384x1 : (⟨S_, .f32⟩ : BufTy).Contents (Elt F) → (⟨S16384x1, .f32⟩ : BufTy).Contents (Elt F)),
    StableHlo.binary main_v9 main_v10 main_v11 (Host.divf : (⟨S16384x1, .f32⟩ : BufTy).Contents (Elt F) → (⟨S16384x1, .f32⟩ : BufTy).Contents (Elt F) → (⟨S16384x1, .f32⟩ : BufTy).Contents (Elt F)) ]

/-- Part 4 of the line: the row variance's operations (with the zero correction it is called with). -/
def w4 : List (HloOp τ sig (Elt F)) :=
  [
    StableHlo.nullary main_c (constantI S_ 32 0#32),
    StableHlo.TRef.nullary main_call3.cst (constant S_ .f32 0x00000000#32),
    StableHlo.TRef.binary (.of main_v7 : StableHlo.TRef sig ⟨S16384x256, .f32⟩) main_call3.cst main_call3.v0 (fun x v => Host.reduceAdd x v reducesTo_S16384x256_S16384_d1 h_S_),
    StableHlo.TRef.unary main_call3.v0 main_call3.v1 (broadcastInDim S16384x1 ![0] bcast_S16384_S16384x1_0),
    StableHlo.TRef.nullary main_call3.cst_0 (constant S_ .f32 0x43800000#32),
    StableHlo.TRef.unary main_call3.cst_0 main_call3.v2 (broadcastInDim S16384x1 ![] bcast_S_S16384x1),
    StableHlo.TRef.binary main_call3.v1 main_call3.v2 main_call3.v3 Host.divf,
    StableHlo.TRef.unary main_call3.v3 main_call3.v4 (broadcastInDim S16384x256 ![0, 1] bcast_S16384x1_S16384x256_0_1),
    StableHlo.TRef.binary (.of main_v7 : StableHlo.TRef sig ⟨S16384x256, .f32⟩) main_call3.v4 main_call3.v5 subf,
    StableHlo.TRef.binary main_call3.v5 main_call3.v5 main_call3.v6 mulf,
    StableHlo.TRef.unary (.of main_c : StableHlo.TRef sig ⟨S_, .i32⟩) main_call3.v7 (sitofp .f32),
    StableHlo.TRef.nullary main_call3.cst_1 (constant S_ .f32 0x43800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16384x256_S16384_d1 h_S_),
    StableHlo.TRef.unary main_call3.v9 main_call3.v10 (broadcastInDim S16384x1 ![0] bcast_S16384_S16384x1_0),
    StableHlo.TRef.unary main_call3.v8 main_call3.v11 (broadcastInDim S16384x1 ![] bcast_S_S16384x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S16384x1 ![] bcast_S_S16384x1),
    StableHlo.TRef.ternary main_call3.v13 main_call3.v12 main_call3.call0.v1 main_call3.call0.v2 (fun p a b => select (broadcastInDim S16384x1 ![] bcast_S_S16384x1 p) a b) ]

/-- Part 5 of the line: the normalisation. -/
def w5 : List (HloOp τ sig (Elt F)) :=
  [
    StableHlo.unary main_v11 main_v13 (broadcastInDim S16384x256 ![0, 1] bcast_S16384x1_S16384x256_0_1 : (⟨S16384x1, .f32⟩ : BufTy).Contents (Elt F) → (⟨S16384x256, .f32⟩ : BufTy).Contents (Elt F)),
    StableHlo.binary main_v7 main_v13 main_v14 (subf : (⟨S16384x256, .f32⟩ : BufTy).Contents (Elt F) → (⟨S16384x256, .f32⟩ : BufTy).Contents (Elt F) → (⟨S16384x256, .f32⟩ : BufTy).Contents (Elt F)),
    StableHlo.nullary main_cst_1 (constant S_ .f32 0x3A83126F#32),
    StableHlo.unary main_cst_1 main_v15 (broadcastInDim S16384x1 ![] bcast_S_S16384x1 : (⟨S_, .f32⟩ : BufTy).Contents (Elt F) → (⟨S16384x1, .f32⟩ : BufTy).Contents (Elt F)),
    StableHlo.binary main_v12 main_v15 main_v16 (addf : (⟨S16384x1, .f32⟩ : BufTy).Contents (Elt F) → (⟨S16384x1, .f32⟩ : BufTy).Contents (Elt F) → (⟨S16384x1, .f32⟩ : BufTy).Contents (Elt F)),
    StableHlo.unary main_v16 main_v17 (Host.sqrt : (⟨S16384x1, .f32⟩ : BufTy).Contents (Elt F) → (⟨S16384x1, .f32⟩ : BufTy).Contents (Elt F)),
    StableHlo.unary main_v17 main_v18 (broadcastInDim S16384x256 ![0, 1] bcast_S16384x1_S16384x256_0_1 : (⟨S16384x1, .f32⟩ : BufTy).Contents (Elt F) → (⟨S16384x256, .f32⟩ : BufTy).Contents (Elt F)),
    StableHlo.binary main_v14 main_v18 main_v19 (Host.divf : (⟨S16384x256, .f32⟩ : BufTy).Contents (Elt F) → (⟨S16384x256, .f32⟩ : BufTy).Contents (Elt F) → (⟨S16384x256, .f32⟩ : BufTy).Contents (Elt F)),
    StableHlo.unary main_arg8 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S16384x256 ![0, 1] bcast_S1x256_S16384x256_0_1 : (⟨S1x256, .f32⟩ : BufTy).Contents (Elt F) → (⟨S16384x256, .f32⟩ : BufTy).Contents (Elt F)),
    StableHlo.binary main_v19 main_v21 main_v22 (mulf : (⟨S16384x256, .f32⟩ : BufTy).Contents (Elt F) → (⟨S16384x256, .f32⟩ : BufTy).Contents (Elt F) → (⟨S16384x256, .f32⟩ : BufTy).Contents (Elt F)),
    StableHlo.unary main_arg9 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S16384x256 ![0, 1] bcast_S1x256_S16384x256_0_1 : (⟨S1x256, .f32⟩ : BufTy).Contents (Elt F) → (⟨S16384x256, .f32⟩ : BufTy).Contents (Elt F)),
    StableHlo.binary main_v22 main_v24 main_v25 (addf : (⟨S16384x256, .f32⟩ : BufTy).Contents (Elt F) → (⟨S16384x256, .f32⟩ : BufTy).Contents (Elt F) → (⟨S16384x256, .f32⟩ : BufTy).Contents (Elt F)) ]

/-- The line is its six parts one after the other. -/
theorem ops_split : (ops : List (HloOp τ sig (Elt F))) = w0 ++ (w1 ++ (w2 ++ (w3 ++ (w4 ++ w5)))) := rfl

/-- The contents after two lines run one after the other: the second line's from the first's. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end Cert.ReferenceIdeal.RefRun

end
-- ==== Proof.RefMain.lean ====
/-
  The reference function is its line of operations, and the line's run: every execution ends with each array at
  the line's contents computed from the contents at the start.
-/
import proofs.«204006_g8589934699_cont_9to1c4b_872_29_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 100000 in
set_option maxHeartbeats 1000000 in
/-- The function is that straight line: a called function's body is its operations, and sequencing is associative. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters, every weakly fair execution of the function terminates, and every final
    state has each array at the line's contents over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference function as a composition of named pure stages: the three row look-ups, the dense
  layer over the concatenated rows, the row mean and the row variance over the 256 columns, and the
  normalisation.  Definitions only.
-/
import proofs.«204006_g8589934699_cont_9to1c4b_872_29_alg».proof.ReferenceIdeal

noncomputable section

namespace Cert.ReferenceIdeal.RefStages

open Cert.ReferenceIdeal Idealize.ShloMosaic Idealize.SL.Sem
open Cert.ReferenceIdeal.Facts₀ Cert.ReferenceIdeal.Facts

variable {F : FTy → Type} [FloatOps F] [Facts]

/-- A look-up index as the look-up normalises it: a negative index has the table's length `n` added,
    any other index is kept. -/
def wrapIdx (n : BitVec 32) (idx : (⟨S16384, .i32⟩ : BufTy).Contents (Elt F)) : (⟨S16384, .i32⟩ : BufTy).Contents (Elt F) :=
  select (cmpi .slt idx (broadcastInDim S16384 ![] bcast_S_S16384 (constantI S_ 32 0#32)))
    (addi idx (broadcastInDim S16384 ![] bcast_S_S16384 (constantI S_ 32 n))) idx

/-- The normalised indices as a column, one index per row. -/
def idxCol (n : BitVec 32) (idx : (⟨S16384, .i32⟩ : BufTy).Contents (Elt F)) : (⟨S16384x1, .i32⟩ : BufTy).Contents (Elt F) :=
  broadcastInDim S16384x1 ![0] bcast_S16384_S16384x1_0 (wrapIdx n idx)

/-- Per row: does the index column's entry lie in `0 … hi` (both ends included)? -/
def inRange (hi : BitVec 32) (col : (⟨S16384x1, .i32⟩ : BufTy).Contents (Elt F)) : (⟨S16384, .i1⟩ : BufTy).Contents (Elt F) :=
  Host.reduce IntOp.andi
    (andi (cmpi .sge col (broadcastInDim S16384x1 ![] bcast_S_S16384x1 (constantI S_ 32 0#32)))
      (cmpi .sle col (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- The first look-up: row `idx r` of the 4096-row table for each of the 16384 rows; a row whose index is out of range is filled with the not-a-number constant. -/
def take0 (tab : (⟨S4096x128, .f32⟩ : BufTy).Contents (Elt F)) (idx : (⟨S16384, .i32⟩ : BufTy).Contents (Elt F)) : (⟨S16384x128, .f32⟩ : BufTy).Contents (Elt F) :=
  select (broadcastInDim S16384x128 ![0] bcast_S16384_S16384x128_0 (inRange 4095#32 (idxCol 4096#32 idx)))
    (Host.gather gather_S4096x128_S16384x1_S16384x128_1_0_n_n_0_1_1128 tab (idxCol 4096#32 idx))
    (broadcastInDim S16384x128 ![] bcast_S_S16384x128 (constant S_ .f32 0x7FC00000#32))

/-- The second look-up, in the 16384-row table. -/
def take1 (tab : (⟨S16384x128, .f32⟩ : BufTy).Contents (Elt F)) (idx : (⟨S16384, .i32⟩ : BufTy).Contents (Elt F)) : (⟨S16384x128, .f32⟩ : BufTy).Contents (Elt F) :=
  select (broadcastInDim S16384x128 ![0] bcast_S16384_S16384x128_0 (inRange 16383#32 (idxCol 16384#32 idx)))
    (Host.gather gather_S16384x128_S16384x1_S16384x128_1_0_n_n_0_1_1128 tab (idxCol 16384#32 idx))
    (broadcastInDim S16384x128 ![] bcast_S_S16384x128 (constant S_ .f32 0x7FC00000#32))

/-- The third look-up, in the 32-row table of 32 columns. -/
def take2 (tab : (⟨S32x32, .f32⟩ : BufTy).Contents (Elt F)) (idx : (⟨S16384, .i32⟩ : BufTy).Contents (Elt F)) : (⟨S16384x32, .f32⟩ : BufTy).Contents (Elt F) :=
  select (broadcastInDim S16384x32 ![0] bcast_S16384_S16384x32_0 (inRange 31#32 (idxCol 32#32 idx)))
    (Host.gather gather_S32x32_S16384x1_S16384x32_1_0_n_n_0_1_132 tab (idxCol 32#32 idx))
    (broadcastInDim S16384x32 ![] bcast_S_S16384x32 (constant S_ .f32 0x7FC00000#32))

/-- A vector of 256 entries repeated in each of the 16384 rows. -/
def rowBcast (g : (⟨S256, .f32⟩ : BufTy).Contents (Elt F)) : (⟨S16384x256, .f32⟩ : BufTy).Contents (Elt F) :=
  broadcastInDim S16384x256 ![0, 1] bcast_S1x256_S16384x256_0_1 (broadcastInDim S1x256 ![1] bcast_S256_S1x256_1 g)

/-- The dense layer: the three looked-up blocks side by side (288 columns) times the weight matrix, plus the bias. -/
def dense (x0 : (⟨S16384x128, .f32⟩ : BufTy).Contents (Elt F)) (x1 : (⟨S16384x128, .f32⟩ : BufTy).Contents (Elt F)) (x2 : (⟨S16384x32, .f32⟩ : BufTy).Contents (Elt F))
    (W : (⟨S288x256, .f32⟩ : BufTy).Contents (Elt F)) (b : (⟨S256, .f32⟩ : BufTy).Contents (Elt F)) : (⟨S16384x256, .f32⟩ : BufTy).Contents (Elt F) :=
  addf (Host.dotGeneral dot_S16384x288_S288x256_S16384x256_1_0_0_1_n_n none
      (concatenate S16384x288 1 [⟨S16384x128, x0⟩, ⟨S16384x128, x1⟩, ⟨S16384x32, x2⟩] concatenates_S16384x128_S16384x128_S16384x32_S16384x288_d1) W)
    (rowBcast b)

/-- The mean of each row over its 256 columns, as a column. -/
def rowMean (y : (⟨S16384x256, .f32⟩ : BufTy).Contents (Elt F)) : (⟨S16384x1, .f32⟩ : BufTy).Contents (Elt F) :=
  Host.divf (broadcastInDim S16384x1 ![0] bcast_S16384_S16384x1_0
      (Host.reduceAdd y (constant S_ .f32 0x00000000#32) reducesTo_S16384x256_S16384_d1 h_S_))
    (broadcastInDim S16384x1 ![] bcast_S_S16384x1 (constant S_ .f32 0x43800000#32))

/-- Each entry minus its row's mean. -/
def centered (y : (⟨S16384x256, .f32⟩ : BufTy).Contents (Elt F)) : (⟨S16384x256, .f32⟩ : BufTy).Contents (Elt F) :=
  subf y (broadcastInDim S16384x256 ![0, 1] bcast_S16384x1_S16384x256_0_1 (rowMean y))

/-- The variance's divisor: the number of columns minus the (zero) correction. -/
def varDenom : (⟨S_, .f32⟩ : BufTy).Contents (Elt F) :=
  subf (constant S_ .f32 0x43800000#32) (sitofp .f32 (constantI S_ 32 0#32))

/-- The variance of each row over its 256 columns, as a column: the sum of the squared deviations over
    the divisor where the divisor is positive, the not-a-number constant otherwise. -/
def rowVar (y : (⟨S16384x256, .f32⟩ : BufTy).Contents (Elt F)) : (⟨S16384x1, .f32⟩ : BufTy).Contents (Elt F) :=
  select (broadcastInDim S16384x1 ![] bcast_S_S16384x1 (cmpf .ogt (varDenom (F := F)) (constant S_ .f32 0x00000000#32)))
    (Host.divf (broadcastInDim S16384x1 ![0] bcast_S16384_S16384x1_0
        (Host.reduceAdd (mulf (centered y) (centered y)) (constant S_ .f32 0x00000000#32) reducesTo_S16384x256_S16384_d1 h_S_))
      (broadcastInDim S16384x1 ![] bcast_S_S16384x1 varDenom))
    (broadcastInDim S16384x1 ![] bcast_S_S16384x1 (id (constant S_ .f32 0x7FC00000#32)))

/-- The normalisation: each centred entry over the square root of its row's variance plus the small constant,
    times the scale, plus the shift. -/
def norm (y : (⟨S16384x256, .f32⟩ : BufTy).Contents (Elt F)) (gamma : (⟨S256, .f32⟩ : BufTy).Contents (Elt F)) (beta : (⟨S256, .f32⟩ : BufTy).Contents (Elt F)) : (⟨S16384x256, .f32⟩ : BufTy).Contents (Elt F) :=
  addf (mulf (Host.divf (centered y)
      (broadcastInDim S16384x256 ![0, 1] bcast_S16384x1_S16384x256_0_1
        (Host.sqrt (addf (rowVar y) (broadcastInDim S16384x1 ![] bcast_S_S16384x1 (constant S_ .f32 0x3A83126F#32))))))
      (rowBcast gamma)) (rowBcast beta)

/-- The reference's result as a term of its ten arguments, in @main's order: the three index vectors, the three
    tables, the weights, the bias, the scale and the shift. -/
def out (a0 : (⟨S16384, .i32⟩ : BufTy).Contents (Elt F)) (a1 : (⟨S16384, .i32⟩ : BufTy).Contents (Elt F)) (a2 : (⟨S16384, .i32⟩ : BufTy).Contents (Elt F))
    (a3 : (⟨S4096x128, .f32⟩ : BufTy).Contents (Elt F)) (a4 : (⟨S16384x128, .f32⟩ : BufTy).Contents (Elt F)) (a5 : (⟨S32x32, .f32⟩ : BufTy).Contents (Elt F))
    (a6 : (⟨S288x256, .f32⟩ : BufTy).Contents (Elt F)) (a7 : (⟨S256, .f32⟩ : BufTy).Contents (Elt F)) (a8 : (⟨S256, .f32⟩ : BufTy).Contents (Elt F)) (a9 : (⟨S256, .f32⟩ : BufTy).Contents (Elt F)) :
    (⟨S16384x256, .f32⟩ : BufTy).Contents (Elt F) :=
  norm (dense (take0 a3 a0) (take1 a4 a1) (take2 a5 a2) a6 a7) a8 a9

end Cert.ReferenceIdeal.RefStages

end
-- ==== Proof.LibTypedRefCasts.lean ====
/-
  A typed buffer reference carries the tensor type of the value it holds; contents are moved to the buffer's own type
  and back along that equation.  Moving there and back changes nothing.
-/
import Idealize.ShloMosaic.Lib.StableHlo

noncomputable section

namespace Cert.ReferenceIdeal.Results

open Idealize.ShloMosaic Idealize.ShloMosaic.StableHlo

/-- Contents moved to a typed reference's buffer type and back are unchanged. -/
theorem ofBuf_toBuf {Val : EltTy → Type} {sg : RefSig} {T : BufTy} (x : TRef sg T) (v : T.Contents Val) :
    x.ofBuf (x.toBuf v) = v := by
  obtain ⟨r, rfl, _, _⟩ := x
  rfl

end Cert.ReferenceIdeal.Results

end
-- ==== Proof.RefVals.lean ====
/-
  The reference function's line of operations part by part: each part's result is a named stage of the contents
  before it, and the part changes no array outside itself.
-/
import proofs.«204006_g8589934699_cont_9to1c4b_872_29_alg».proof.Proof.RefOps
import proofs.«204006_g8589934699_cont_9to1c4b_872_29_alg».proof.Proof.RefStages
import proofs.«204006_g8589934699_cont_9to1c4b_872_29_alg».proof.Proof.LibTypedRefCasts

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The normalisation over a given row mean and row variance. -/
def normOf (y : (⟨S16384x256, .f32⟩ : BufTy).Contents (Elt F)) (mean : (⟨S16384x1, .f32⟩ : BufTy).Contents (Elt F)) (var : (⟨S16384x1, .f32⟩ : BufTy).Contents (Elt F))
    (gamma : (⟨S256, .f32⟩ : BufTy).Contents (Elt F)) (beta : (⟨S256, .f32⟩ : BufTy).Contents (Elt F)) : (⟨S16384x256, .f32⟩ : BufTy).Contents (Elt F) :=
  addf (mulf (Host.divf (subf y (broadcastInDim S16384x256 ![0, 1] bcast_S16384x1_S16384x256_0_1 mean))
      (broadcastInDim S16384x256 ![0, 1] bcast_S16384x1_S16384x256_0_1
        (Host.sqrt (addf var (broadcastInDim S16384x1 ![] bcast_S_S16384x1 (constant S_ .f32 0x3A83126F#32))))))
      (RefStages.rowBcast gamma)) (RefStages.rowBcast beta)

/-- Over an array's own row mean and row variance it is the normalisation of that array. -/
theorem normOf_self (y : (⟨S16384x256, .f32⟩ : BufTy).Contents (Elt F)) (gamma : (⟨S256, .f32⟩ : BufTy).Contents (Elt F)) (beta : (⟨S256, .f32⟩ : BufTy).Contents (Elt F)) :
    normOf y (RefStages.rowMean y) (RefStages.rowVar y) gamma beta = RefStages.norm y gamma beta := rfl

/-! ## Each part's result -/

attribute [local irreducible] Host.reduce Host.gather Host.reduceAdd concatenate broadcastInDim in
set_option maxRecDepth 8192 in
theorem w0_v0 (V : Valuation τ sig (Elt F)) :
    after w0 V (main_v0 : DevRef τ sig) = RefStages.take0 (V (main_arg3 : DevRef τ sig)) (V (main_arg0 : DevRef τ sig)) := by
  unfold w0
  after_results_simp
  simp only [Results.ofBuf_toBuf]
  rfl

attribute [local irreducible] Host.reduce Host.gather Host.reduceAdd concatenate broadcastInDim in
set_option maxRecDepth 8192 in
theorem w1_v1 (V : Valuation τ sig (Elt F)) :
    after w1 V (main_v1 : DevRef τ sig) = RefStages.take1 (V (main_arg4 : DevRef τ sig)) (V (main_arg1 : DevRef τ sig)) := by
  unfold w1
  after_results_simp
  simp only [Results.ofBuf_toBuf]
  rfl

attribute [local irreducible] Host.reduce Host.gather Host.reduceAdd concatenate broadcastInDim in
set_option maxRecDepth 8192 in
theorem w2_v2 (V : Valuation τ sig (Elt F)) :
    after w2 V (main_v2 : DevRef τ sig) = RefStages.take2 (V (main_arg5 : DevRef τ sig)) (V (main_arg2 : DevRef τ sig)) := by
  unfold w2
  after_results_simp
  simp only [Results.ofBuf_toBuf]
  rfl

attribute [local irreducible] Host.reduce Host.gather Host.reduceAdd concatenate broadcastInDim in
set_option maxRecDepth 8192 in
theorem w3_v7 (V : Valuation τ sig (Elt F)) :
    after w3 V (main_v7 : DevRef τ sig) = RefStages.dense (V (main_v0 : DevRef τ sig)) (V (main_v1 : DevRef τ sig)) (V (main_v2 : DevRef τ sig)) (V (main_arg6 : DevRef τ sig)) (V (main_arg7 : DevRef τ sig)) := by
  unfold w3
  after_results_simp
  rfl

attribute [local irreducible] Host.reduce Host.gather Host.reduceAdd concatenate broadcastInDim in
set_option maxRecDepth 8192 in
theorem w3_v11 (V : Valuation τ sig (Elt F)) :
    after w3 V (main_v11 : DevRef τ sig) = RefStages.rowMean (RefStages.dense (V (main_v0 : DevRef τ sig)) (V (main_v1 : DevRef τ sig)) (V (main_v2 : DevRef τ sig)) (V (main_arg6 : DevRef τ sig)) (V (main_arg7 : DevRef τ sig))) := by
  unfold w3
  after_results_simp
  rfl

attribute [local irreducible] Host.reduce Host.gather Host.reduceAdd concatenate broadcastInDim in
set_option maxRecDepth 8192 in
theorem w4_v12 (V : Valuation τ sig (Elt F)) :
    after w4 V (main_v12 : DevRef τ sig) = RefStages.rowVar (V (main_v7 : DevRef τ sig)) := by
  unfold w4
  after_results_simp
  simp only [Results.ofBuf_toBuf]
  rfl

attribute [local irreducible] Host.reduce Host.gather Host.reduceAdd concatenate broadcastInDim in
set_option maxRecDepth 8192 in
theorem w5_v25 (V : Valuation τ sig (Elt F)) :
    after w5 V (main_v25 : DevRef τ sig) = normOf (V (main_v7 : DevRef τ sig)) (V (main_v11 : DevRef τ sig)) (V (main_v12 : DevRef τ sig)) (V (main_arg8 : DevRef τ sig)) (V (main_arg9 : DevRef τ sig)) := by
  unfold w5
  after_results_simp
  rfl

/-! ## What each part leaves alone -/

theorem w0_arg0 (V : Valuation τ sig (Elt F)) : after w0 V (main_arg0 : DevRef τ sig) = V (main_arg0 : DevRef τ sig) := by
  unfold w0; after_results_simp
theorem w0_arg1 (V : Valuation τ sig (Elt F)) : after w0 V (main_arg1 : DevRef τ sig) = V (main_arg1 : DevRef τ sig) := by
  unfold w0; after_results_simp
theorem w0_arg2 (V : Valuation τ sig (Elt F)) : after w0 V (main_arg2 : DevRef τ sig) = V (main_arg2 : DevRef τ sig) := by
  unfold w0; after_results_simp
theorem w0_arg3 (V : Valuation τ sig (Elt F)) : after w0 V (main_arg3 : DevRef τ sig) = V (main_arg3 : DevRef τ sig) := by
  unfold w0; after_results_simp
theorem w0_arg4 (V : Valuation τ sig (Elt F)) : after w0 V (main_arg4 : DevRef τ sig) = V (main_arg4 : DevRef τ sig) := by
  unfold w0; after_results_simp
theorem w0_arg5 (V : Valuation τ sig (Elt F)) : after w0 V (main_arg5 : DevRef τ sig) = V (main_arg5 : DevRef τ sig) := by
  unfold w0; after_results_simp
theorem w0_arg6 (V : Valuation τ sig (Elt F)) : after w0 V (main_arg6 : DevRef τ sig) = V (main_arg6 : DevRef τ sig) := by
  unfold w0; after_results_simp
theorem w0_arg7 (V : Valuation τ sig (Elt F)) : after w0 V (main_arg7 : DevRef τ sig) = V (main_arg7 : DevRef τ sig) := by
  unfold w0; after_results_simp
theorem w0_arg8 (V : Valuation τ sig (Elt F)) : after w0 V (main_arg8 : DevRef τ sig) = V (main_arg8 : DevRef τ sig) := by
  unfold w0; after_results_simp
theorem w0_arg9 (V : Valuation τ sig (Elt F)) : after w0 V (main_arg9 : DevRef τ sig) = V (main_arg9 : DevRef τ sig) := by
  unfold w0; after_results_simp

theorem w1_arg0 (V : Valuation τ sig (Elt F)) : after w1 V (main_arg0 : DevRef τ sig) = V (main_arg0 : DevRef τ sig) := by
  unfold w1; after_results_simp
theorem w1_arg1 (V : Valuation τ sig (Elt F)) : after w1 V (main_arg1 : DevRef τ sig) = V (main_arg1 : DevRef τ sig) := by
  unfold w1; after_results_simp
theorem w1_arg2 (V : Valuation τ sig (Elt F)) : after w1 V (main_arg2 : DevRef τ sig) = V (main_arg2 : DevRef τ sig) := by
  unfold w1; after_results_simp
theorem w1_arg3 (V : Valuation τ sig (Elt F)) : after w1 V (main_arg3 : DevRef τ sig) = V (main_arg3 : DevRef τ sig) := by
  unfold w1; after_results_simp
theorem w1_arg4 (V : Valuation τ sig (Elt F)) : after w1 V (main_arg4 : DevRef τ sig) = V (main_arg4 : DevRef τ sig) := by
  unfold w1; after_results_simp
theorem w1_arg5 (V : Valuation τ sig (Elt F)) : after w1 V (main_arg5 : DevRef τ sig) = V (main_arg5 : DevRef τ sig) := by
  unfold w1; after_results_simp
theorem w1_arg6 (V : Valuation τ sig (Elt F)) : after w1 V (main_arg6 : DevRef τ sig) = V (main_arg6 : DevRef τ sig) := by
  unfold w1; after_results_simp
theorem w1_arg7 (V : Valuation τ sig (Elt F)) : after w1 V (main_arg7 : DevRef τ sig) = V (main_arg7 : DevRef τ sig) := by
  unfold w1; after_results_simp
theorem w1_arg8 (V : Valuation τ sig (Elt F)) : after w1 V (main_arg8 : DevRef τ sig) = V (main_arg8 : DevRef τ sig) := by
  unfold w1; after_results_simp
theorem w1_arg9 (V : Valuation τ sig (Elt F)) : after w1 V (main_arg9 : DevRef τ sig) = V (main_arg9 : DevRef τ sig) := by
  unfold w1; after_results_simp
theorem w1_v0 (V : Valuation τ sig (Elt F)) : after w1 V (main_v0 : DevRef τ sig) = V (main_v0 : DevRef τ sig) := by
  unfold w1; after_results_simp

theorem w2_arg0 (V : Valuation τ sig (Elt F)) : after w2 V (main_arg0 : DevRef τ sig) = V (main_arg0 : DevRef τ sig) := by
  unfold w2; after_results_simp
theorem w2_arg1 (V : Valuation τ sig (Elt F)) : after w2 V (main_arg1 : DevRef τ sig) = V (main_arg1 : DevRef τ sig) := by
  unfold w2; after_results_simp
theorem w2_arg2 (V : Valuation τ sig (Elt F)) : after w2 V (main_arg2 : DevRef τ sig) = V (main_arg2 : DevRef τ sig) := by
  unfold w2; after_results_simp
theorem w2_arg3 (V : Valuation τ sig (Elt F)) : after w2 V (main_arg3 : DevRef τ sig) = V (main_arg3 : DevRef τ sig) := by
  unfold w2; after_results_simp
theorem w2_arg4 (V : Valuation τ sig (Elt F)) : after w2 V (main_arg4 : DevRef τ sig) = V (main_arg4 : DevRef τ sig) := by
  unfold w2; after_results_simp
theorem w2_arg5 (V : Valuation τ sig (Elt F)) : after w2 V (main_arg5 : DevRef τ sig) = V (main_arg5 : DevRef τ sig) := by
  unfold w2; after_results_simp
theorem w2_arg6 (V : Valuation τ sig (Elt F)) : after w2 V (main_arg6 : DevRef τ sig) = V (main_arg6 : DevRef τ sig) := by
  unfold w2; after_results_simp
theorem w2_arg7 (V : Valuation τ sig (Elt F)) : after w2 V (main_arg7 : DevRef τ sig) = V (main_arg7 : DevRef τ sig) := by
  unfold w2; after_results_simp
theorem w2_arg8 (V : Valuation τ sig (Elt F)) : after w2 V (main_arg8 : DevRef τ sig) = V (main_arg8 : DevRef τ sig) := by
  unfold w2; after_results_simp
theorem w2_arg9 (V : Valuation τ sig (Elt F)) : after w2 V (main_arg9 : DevRef τ sig) = V (main_arg9 : DevRef τ sig) := by
  unfold w2; after_results_simp
theorem w2_v0 (V : Valuation τ sig (Elt F)) : after w2 V (main_v0 : DevRef τ sig) = V (main_v0 : DevRef τ sig) := by
  unfold w2; after_results_simp
theorem w2_v1 (V : Valuation τ sig (Elt F)) : after w2 V (main_v1 : DevRef τ sig) = V (main_v1 : DevRef τ sig) := by
  unfold w2; after_results_simp

theorem w3_arg0 (V : Valuation τ sig (Elt F)) : after w3 V (main_arg0 : DevRef τ sig) = V (main_arg0 : DevRef τ sig) := by
  unfold w3; after_results_simp
theorem w3_arg1 (V : Valuation τ sig (Elt F)) : after w3 V (main_arg1 : DevRef τ sig) = V (main_arg1 : DevRef τ sig) := by
  unfold w3; after_results_simp
theorem w3_arg2 (V : Valuation τ sig (Elt F)) : after w3 V (main_arg2 : DevRef τ sig) = V (main_arg2 : DevRef τ sig) := by
  unfold w3; after_results_simp
theorem w3_arg3 (V : Valuation τ sig (Elt F)) : after w3 V (main_arg3 : DevRef τ sig) = V (main_arg3 : DevRef τ sig) := by
  unfold w3; after_results_simp
theorem w3_arg4 (V : Valuation τ sig (Elt F)) : after w3 V (main_arg4 : DevRef τ sig) = V (main_arg4 : DevRef τ sig) := by
  unfold w3; after_results_simp
theorem w3_arg5 (V : Valuation τ sig (Elt F)) : after w3 V (main_arg5 : DevRef τ sig) = V (main_arg5 : DevRef τ sig) := by
  unfold w3; after_results_simp
theorem w3_arg6 (V : Valuation τ sig (Elt F)) : after w3 V (main_arg6 : DevRef τ sig) = V (main_arg6 : DevRef τ sig) := by
  unfold w3; after_results_simp
theorem w3_arg7 (V : Valuation τ sig (Elt F)) : after w3 V (main_arg7 : DevRef τ sig) = V (main_arg7 : DevRef τ sig) := by
  unfold w3; after_results_simp
theorem w3_arg8 (V : Valuation τ sig (Elt F)) : after w3 V (main_arg8 : DevRef τ sig) = V (main_arg8 : DevRef τ sig) := by
  unfold w3; after_results_simp
theorem w3_arg9 (V : Valuation τ sig (Elt F)) : after w3 V (main_arg9 : DevRef τ sig) = V (main_arg9 : DevRef τ sig) := by
  unfold w3; after_results_simp

theorem w4_arg0 (V : Valuation τ sig (Elt F)) : after w4 V (main_arg0 : DevRef τ sig) = V (main_arg0 : DevRef τ sig) := by
  unfold w4; after_results_simp
theorem w4_arg1 (V : Valuation τ sig (Elt F)) : after w4 V (main_arg1 : DevRef τ sig) = V (main_arg1 : DevRef τ sig) := by
  unfold w4; after_results_simp
theorem w4_arg2 (V : Valuation τ sig (Elt F)) : after w4 V (main_arg2 : DevRef τ sig) = V (main_arg2 : DevRef τ sig) := by
  unfold w4; after_results_simp
theorem w4_arg3 (V : Valuation τ sig (Elt F)) : after w4 V (main_arg3 : DevRef τ sig) = V (main_arg3 : DevRef τ sig) := by
  unfold w4; after_results_simp
theorem w4_arg4 (V : Valuation τ sig (Elt F)) : after w4 V (main_arg4 : DevRef τ sig) = V (main_arg4 : DevRef τ sig) := by
  unfold w4; after_results_simp
theorem w4_arg5 (V : Valuation τ sig (Elt F)) : after w4 V (main_arg5 : DevRef τ sig) = V (main_arg5 : DevRef τ sig) := by
  unfold w4; after_results_simp
theorem w4_arg6 (V : Valuation τ sig (Elt F)) : after w4 V (main_arg6 : DevRef τ sig) = V (main_arg6 : DevRef τ sig) := by
  unfold w4; after_results_simp
theorem w4_arg7 (V : Valuation τ sig (Elt F)) : after w4 V (main_arg7 : DevRef τ sig) = V (main_arg7 : DevRef τ sig) := by
  unfold w4; after_results_simp
theorem w4_arg8 (V : Valuation τ sig (Elt F)) : after w4 V (main_arg8 : DevRef τ sig) = V (main_arg8 : DevRef τ sig) := by
  unfold w4; after_results_simp
theorem w4_arg9 (V : Valuation τ sig (Elt F)) : after w4 V (main_arg9 : DevRef τ sig) = V (main_arg9 : DevRef τ sig) := by
  unfold w4; after_results_simp
theorem w4_v7 (V : Valuation τ sig (Elt F)) : after w4 V (main_v7 : DevRef τ sig) = V (main_v7 : DevRef τ sig) := by
  unfold w4; after_results_simp
theorem w4_v11 (V : Valuation τ sig (Elt F)) : after w4 V (main_v11 : DevRef τ sig) = V (main_v11 : DevRef τ sig) := by
  unfold w4; after_results_simp

theorem w5_arg0 (V : Valuation τ sig (Elt F)) : after w5 V (main_arg0 : DevRef τ sig) = V (main_arg0 : DevRef τ sig) := by
  unfold w5; after_results_simp
theorem w5_arg1 (V : Valuation τ sig (Elt F)) : after w5 V (main_arg1 : DevRef τ sig) = V (main_arg1 : DevRef τ sig) := by
  unfold w5; after_results_simp
theorem w5_arg2 (V : Valuation τ sig (Elt F)) : after w5 V (main_arg2 : DevRef τ sig) = V (main_arg2 : DevRef τ sig) := by
  unfold w5; after_results_simp
theorem w5_arg3 (V : Valuation τ sig (Elt F)) : after w5 V (main_arg3 : DevRef τ sig) = V (main_arg3 : DevRef τ sig) := by
  unfold w5; after_results_simp
theorem w5_arg4 (V : Valuation τ sig (Elt F)) : after w5 V (main_arg4 : DevRef τ sig) = V (main_arg4 : DevRef τ sig) := by
  unfold w5; after_results_simp
theorem w5_arg5 (V : Valuation τ sig (Elt F)) : after w5 V (main_arg5 : DevRef τ sig) = V (main_arg5 : DevRef τ sig) := by
  unfold w5; after_results_simp
theorem w5_arg6 (V : Valuation τ sig (Elt F)) : after w5 V (main_arg6 : DevRef τ sig) = V (main_arg6 : DevRef τ sig) := by
  unfold w5; after_results_simp
theorem w5_arg7 (V : Valuation τ sig (Elt F)) : after w5 V (main_arg7 : DevRef τ sig) = V (main_arg7 : DevRef τ sig) := by
  unfold w5; after_results_simp
theorem w5_arg8 (V : Valuation τ sig (Elt F)) : after w5 V (main_arg8 : DevRef τ sig) = V (main_arg8 : DevRef τ sig) := by
  unfold w5; after_results_simp
theorem w5_arg9 (V : Valuation τ sig (Elt F)) : after w5 V (main_arg9 : DevRef τ sig) = V (main_arg9 : DevRef τ sig) := by
  unfold w5; after_results_simp

end Cert.ReferenceIdeal.RefRun

end
-- ==== Proof.RefWhole.lean ====
/-
  The reference function's whole line of operations: the result array ends at the composition of the named stages
  over the arguments' contents at the start, and each argument ends as it started.
-/
import proofs.«204006_g8589934699_cont_9to1c4b_872_29_alg».proof.Proof.RefVals

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The result array after the whole line is the stages' composition over the arguments' contents at the start. -/
theorem out_eq (V : Valuation τ sig (Elt F)) :
    after ops V (main_v25 : DevRef τ sig) = RefStages.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_split, after_app, after_app, after_app, after_app, after_app]
  rw [w5_v25, w4_v7, w4_v11, w4_v12, w4_arg8, w4_arg9]
  rw [w3_v7, w3_v11, w3_arg8, w3_arg9]
  rw [w2_v0, w2_v1, w2_v2, w2_arg6, w2_arg7, w2_arg8, w2_arg9]
  rw [w1_v0, w1_v1, w1_arg2, w1_arg5, w1_arg6, w1_arg7, w1_arg8, w1_arg9]
  rw [w0_v0, w0_arg1, w0_arg2, w0_arg4, w0_arg5, w0_arg6, w0_arg7, w0_arg8, w0_arg9]
  rfl

theorem arg0_eq (V : Valuation τ sig (Elt F)) : after ops V (main_arg0 : DevRef τ sig) = V (main_arg0 : DevRef τ sig) := by
  rw [ops_split, after_app, after_app, after_app, after_app, after_app, w5_arg0, w4_arg0, w3_arg0, w2_arg0, w1_arg0, w0_arg0]

theorem arg1_eq (V : Valuation τ sig (Elt F)) : after ops V (main_arg1 : DevRef τ sig) = V (main_arg1 : DevRef τ sig) := by
  rw [ops_split, after_app, after_app, after_app, after_app, after_app, w5_arg1, w4_arg1, w3_arg1, w2_arg1, w1_arg1, w0_arg1]

theorem arg2_eq (V : Valuation τ sig (Elt F)) : after ops V (main_arg2 : DevRef τ sig) = V (main_arg2 : DevRef τ sig) := by
  rw [ops_split, after_app, after_app, after_app, after_app, after_app, w5_arg2, w4_arg2, w3_arg2, w2_arg2, w1_arg2, w0_arg2]

theorem arg3_eq (V : Valuation τ sig (Elt F)) : after ops V (main_arg3 : DevRef τ sig) = V (main_arg3 : DevRef τ sig) := by
  rw [ops_split, after_app, after_app, after_app, after_app, after_app, w5_arg3, w4_arg3, w3_arg3, w2_arg3, w1_arg3, w0_arg3]

theorem arg4_eq (V : Valuation τ sig (Elt F)) : after ops V (main_arg4 : DevRef τ sig) = V (main_arg4 : DevRef τ sig) := by
  rw [ops_split, after_app, after_app, after_app, after_app, after_app, w5_arg4, w4_arg4, w3_arg4, w2_arg4, w1_arg4, w0_arg4]

theorem arg5_eq (V : Valuation τ sig (Elt F)) : after ops V (main_arg5 : DevRef τ sig) = V (main_arg5 : DevRef τ sig) := by
  rw [ops_split, after_app, after_app, after_app, after_app, after_app, w5_arg5, w4_arg5, w3_arg5, w2_arg5, w1_arg5, w0_arg5]

theorem arg6_eq (V : Valuation τ sig (Elt F)) : after ops V (main_arg6 : DevRef τ sig) = V (main_arg6 : DevRef τ sig) := by
  rw [ops_split, after_app, after_app, after_app, after_app, after_app, w5_arg6, w4_arg6, w3_arg6, w2_arg6, w1_arg6, w0_arg6]

theorem arg7_eq (V : Valuation τ sig (Elt F)) : after ops V (main_arg7 : DevRef τ sig) = V (main_arg7 : DevRef τ sig) := by
  rw [ops_split, after_app, after_app, after_app, after_app, after_app, w5_arg7, w4_arg7, w3_arg7, w2_arg7, w1_arg7, w0_arg7]

theorem arg8_eq (V : Valuation τ sig (Elt F)) : after ops V (main_arg8 : DevRef τ sig) = V (main_arg8 : DevRef τ sig) := by
  rw [ops_split, after_app, after_app, after_app, after_app, after_app, w5_arg8, w4_arg8, w3_arg8, w2_arg8, w1_arg8, w0_arg8]

theorem arg9_eq (V : Valuation τ sig (Elt F)) : after ops V (main_arg9 : DevRef τ sig) = V (main_arg9 : DevRef τ sig) := by
  rw [ops_split, after_app, after_app, after_app, after_app, after_app, w5_arg9, w4_arg9, w3_arg9, w2_arg9, w1_arg9, w0_arg9]

end Cert.ReferenceIdeal.RefRun

end
-- ==== Proof.RefRun.lean ====
/-
  The reference function's run: every execution ends with the result array at the composition of the named stages
  applied to the arguments' contents at the start, and the arguments unchanged; with the value dropped, its frame.
-/
import proofs.«204006_g8589934699_cont_9to1c4b_872_29_alg».proof.Proof.RefMain
import proofs.«204006_g8589934699_cont_9to1c4b_872_29_alg».proof.Proof.RefWhole
import proofs.«204006_g8589934699_cont_9to1c4b_872_29_alg».proof.Defs

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]

/-- On every device, from any memory with zero counters: every weakly fair execution of the function terminates with
    the result array at the stages' composition over the arguments and the arguments unchanged. -/
theorem run (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev nD,
        r.2.mem ((c.tc : Thread nD τ).loc main_v25) = RefStages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (Cert.ReferenceIdeal.defs (F := Ideal)) _ _).mono (fun _ h c =>
      ⟨(h c main_v25).trans (out_eq _),
        (h c main_arg0).trans (arg0_eq _),
        (h c main_arg1).trans (arg1_eq _),
        (h c main_arg2).trans (arg2_eq _),
        (h c main_arg3).trans (arg3_eq _),
        (h c main_arg4).trans (arg4_eq _),
        (h c main_arg5).trans (arg5_eq _),
        (h c main_arg6).trans (arg6_eq _),
        (h c main_arg7).trans (arg7_eq _),
        (h c main_arg8).trans (arg8_eq _),
        (h c main_arg9).trans (arg9_eq _)⟩)
    (run_main m g)

/-- The function runs to its end from any memory and leaves its arguments as they were. -/
theorem frame_ri [Cert.Pre_input_domain.Facts] : Cert.frame_ReferenceIdeal :=
  fun m ρ _ => (θ_run _ _ _).mono (fun _ h c => (h c).2) (run m ρ)

end Cert.ReferenceIdeal.RefRun

end
-- ==== Proof.LibRowGather.lean ====
/-
  A row gather read at an index.

  `jnp.take(x, idx, axis=0)` of a table x : [N, D] at indices laid out as a column idx : [R, 1] lowers to a gather with
  offset axis 1, collapsed axis 0, start-index map [0], the index vector on axis 1 and slices of one row.  Result
  element (r, c) is the table at row idx[r, 0] — read signed and clamped into 0 … N − 1 — and column c.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a row gather: operand [N, D], start indices [R, 1], result [R, D]. -/
abbrev rowsDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index the row of result row r is read at: (r, 0). -/
theorem siIdx_row {N D R : Nat}
    (wf : GatherDims.WF ⟨2, ![N, D]⟩ ⟨2, ![R, 1]⟩ ⟨2, ![R, D]⟩ [1] [0] [] [0] [] 1 ![1, D]) (r : Fin R) (c : Fin D) :
    (rowsDims N D R wf).siIdx (ix2 r c) ⟨List.idxOf (0 : Fin 2) (rowsDims N D R wf).startIndexMap,
      List.idxOf_lt_length_iff.2 (List.mem_singleton.mpr rfl)⟩ = ix2 r (0 : Fin 1) := by
  funext b; refine Fin.ext ?_
  match b with
  | ⟨0, _⟩ => rfl
  | ⟨1, _⟩ => rfl

/-- THE ROW GATHER READ AT (r, c): the table at row idx[r, 0], read signed and clamped into 0 … N − 1, column c. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowsDims N D R wf) x idx (ix2 r c)
      = x (ix2 ⟨min (idx (ix2 r (0 : Fin 1))).toInt.toNat (N - 1), by omega⟩ c) := by
  unfold Host.gather
  congr 1
  funext a
  refine Fin.ext ?_
  show (rowsDims N D R wf).start (ix2 r c) idx a + (rowsDims N D R wf).batchCoord (ix2 r c) a
    + (rowsDims N D R wf).offCoord (ix2 r c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    split
    · exact congrArg (fun z => min (idx z).toInt.toNat (N - 1)) (siIdx_row wf r c)
    · next hna => exact absurd (List.mem_singleton.mpr rfl) hna
  | ⟨1, _⟩ =>
    unfold GatherDims.start
    split
    · next ha => exact absurd (congrArg Fin.val (List.mem_singleton.mp ha)) Nat.one_ne_zero
    · rw [Nat.zero_add]
      unfold GatherDims.offCoord
      split
      · rfl
      · next hn =>
        exact absurd ((GatherDims.mem_sKept _ _).mpr
          ⟨fun h => absurd (congrArg Fin.val (List.mem_singleton.mp h)) Nat.one_ne_zero, List.not_mem_nil⟩) hn

end Idealize.ShloMosaic.RowGather

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«204006_g8589934699_cont_9to1c4b_872_29_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.LibHostRows.lean ====
/-
  Two host operations read at an index, on the extended reals.

  • A rank-0 array broadcast to any shape reads, at every index, its one entry.
  • The host's float sum of an [a, b] array over axis 1, read at row p, is the initial value plus the sum over the row.
  • The entry-by-entry operations (maximum, difference, the host's exponential and logarithm) read at an index.
-/
import Idealize.ShloMosaic.Lib.Pipeline.Value
import Idealize.ShloMosaic.Lib.ValueIdx
import Idealize.ShloMosaic.PureOps.Ideal.Laws
import proofs.«204006_g8589934699_cont_9to1c4b_872_29_alg».proof.Proof.LibRowLayout

noncomputable section

open scoped BigOperators

namespace Cert.HostRows

open Idealize.ShloMosaic Idealize.ShloMosaic.ValueIdx

/-- The one index of a rank-0 array. -/
def unit0 : (⟨0, ![]⟩ : Shape).Idx := fun a => a.elim0

/-- A rank-0 array broadcast to shape `t` reads its one entry at every index. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x unit0 :=
  broadcastInDim_apply ![] h x j unit0 fun a => a.elim0

/-- The host's float sum of an [a, b] array over axis 1, at row p: the initial value plus the sum over the row. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ j : Fin b, x (ix2 p j) := by
  refine (Ideal.hostReduceAdd_single h' h x init (ix1 p)).trans ?_
  exact congrArg (init + ·) (Finset.sum_congr rfl fun k _ => congrArg x (Cert.RowLayout.lift_row h p k))

/-! ## Entry-by-entry operations at an index -/

variable {s : Shape}

theorem maximumf_at (a b : FVec Ideal s .f32) (i : s.Idx) : maximumf a b i = max (a i) (b i) := rfl
theorem subf_at (a b : FVec Ideal s .f32) (i : s.Idx) : subf a b i = a i - b i := rfl
theorem hostExp_at (a : FVec Ideal s .f32) (i : s.Idx) : Host.exp a i = Ideal.exp (a i) := rfl
theorem hostLog_at (a : FVec Ideal s .f32) (i : s.Idx) : Host.log a i = Ideal.log (a i) := rfl

end Cert.HostRows

end
-- ==== Proof.RefRead.lean ====
/-
  The reference's stages read at an index.

  • A look-up (jnp.take) normalises its index (a negative one has the table's length added), tests it against
    0 … N − 1, gathers the table's row at the clamped index and fills rows that failed the test: for indices in
    0 … N − 1 nothing is added, the test is 1 and the clamp does nothing, so entry (p, k) is the table at
    (index p, k).
  • The dense layer multiplies the three looked-up blocks set side by side (288 columns) with the whole weight and adds
    the bias: a sum over 288 indices is its three block sums, so entry (p, q) is the specification's `pre`.
  • The mean is (0 + ∑ y) / 256; the variance divides the sum of squared deviations by 256 − 0, chosen because
    256 − 0 > 0; the result is centred / √(variance + ε) · γ + β.  No step here needs an entry to be finite.
-/
import Mathlib
import proofs.«204006_g8589934699_cont_9to1c4b_872_29_alg».proof.Proof.Spec
import proofs.«204006_g8589934699_cont_9to1c4b_872_29_alg».proof.Proof.RefStages
import proofs.«204006_g8589934699_cont_9to1c4b_872_29_alg».proof.Proof.LibRowGather
import proofs.«204006_g8589934699_cont_9to1c4b_872_29_alg».proof.Proof.LibLayerHost
import proofs.«204006_g8589934699_cont_9to1c4b_872_29_alg».proof.Proof.LibHostRows
import proofs.«204006_g8589934699_cont_9to1c4b_872_29_alg».proof.Proof.LibDenseStages
import proofs.«204006_g8589934699_cont_9to1c4b_872_29_alg».proof.Proof.LibVectorStages
import Idealize.ShloMosaic.Lib.ReduceAll

noncomputable section

open scoped BigOperators

namespace Cert.RefRead

open Idealize.ShloMosaic Idealize.ShloMosaic.ValueIdx Cert.ReferenceIdeal Cert.ReferenceIdeal.RefStages
open Cert.LayerLaws Cert.HostRows

variable {α : Type}

/-! ## Reductions by "and" that come out 1 -/

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- A reduce by "and" from 1 over an operand that is 1 everywhere is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-! ## A vector broadcast along the rows -/

/-- A vector [a] broadcast to [a, b] along axis 0 reads, at (p, k), entry p. -/
theorem bcast_vec_cols_apply {a b : ℕ} (c : (⟨1, ![a]⟩ : Shape).Idx → α)
    (h : (⟨1, ![a]⟩ : Shape).BroadcastsInDim ⟨2, ![a, b]⟩ (![0] : Fin 1 → Fin 2)) (p : Fin a) (k : Fin b) :
    broadcastInDim ⟨2, ![a, b]⟩ ![0] h c (ix2 p k) = c (ix1 p) := by
  refine broadcastInDim_apply ![0] h c (ix2 p k) (ix1 p) fun ax => ?_
  match ax with
  | ⟨0, _⟩ =>
    show p.val = if a = 1 then 0 else p.val
    split
    · have := p.isLt; omega
    · rfl

/-! ## The look-ups -/

/-- An index that is not negative is kept. -/
theorem wrapIdx_apply [Facts] (n : BitVec 32) (idx : IVec S16384 32) (p : Fin 16384) (h0 : 0 ≤ (idx (ix1 p)).toInt) :
    wrapIdx (F := Ideal) n idx (ix1 p) = idx (ix1 p) := by
  unfold wrapIdx
  rw [select_apply]
  have c : cmpi .slt idx (broadcastInDim S16384 ![] Facts₀.bcast_S_S16384 (constantI S_ 32 0#32)) (ix1 p) = 0#1 := by
    apply eq_zero_of_ne_one
    intro h1
    have h2 : (idx (ix1 p)).toInt < (0#32 : BitVec 32).toInt := IntOp.cmpi_slt.1 h1
    have z : (0#32 : BitVec 32).toInt = 0 := by decide
    omega
  rw [c, select_zero]

/-- The index column at row p is the index of row p. -/
theorem idxCol_apply [Facts] (n : BitVec 32) (idx : IVec S16384 32) (p : Fin 16384) (u : Fin 1)
    (h0 : 0 ≤ (idx (ix1 p)).toInt) : idxCol (F := Ideal) n idx (ix2 p u) = idx (ix1 p) := by
  unfold idxCol
  rw [bcast_col_apply, wrapIdx_apply n idx p h0]

/-- For indices all in 0 … hi the range test is 1 at every row. -/
theorem inRange_apply [Facts] (n hi : BitVec 32) (idx : IVec S16384 32)
    (hall : ∀ p : Fin 16384, 0 ≤ (idx (ix1 p)).toInt ∧ (idx (ix1 p)).toInt ≤ hi.toInt) (p : Fin 16384) :
    inRange (F := Ideal) hi (idxCol (F := Ideal) n idx) (ix1 p) = 1#1 := by
  unfold inRange
  refine reduce_andi_one _ _ _ _ _ rfl fun i => ?_
  obtain ⟨p', u, rfl⟩ : ∃ (p' : Fin 16384) (u : Fin 1), i = ix2 p' u := ⟨i 0, i 1, eq_ix2 i⟩
  show IntOp.andi (IntOp.cmpi .sge (idxCol (F := Ideal) n idx (ix2 p' u)) 0#32)
      (IntOp.cmpi .sle (idxCol (F := Ideal) n idx (ix2 p' u)) hi) = 1#1
  rw [idxCol_apply n idx p' u (hall p').1]
  have z : (0#32 : BitVec 32).toInt = 0 := by decide
  exact IntOp.andi_eq_one.2 ⟨IntOp.cmpi_sge.2 (by have := (hall p').1; omega), IntOp.cmpi_sle.2 (hall p').2⟩

/-- A look-up's three steps at (p, k), for a row whose index passed the range test: the table's row. -/
theorem take_pattern {N D : ℕ} (hN : 0 < N)
    (wf : GatherDims.WF ⟨2, ![N, D]⟩ ⟨2, ![16384, 1]⟩ ⟨2, ![16384, D]⟩ [1] [0] [] [0] [] 1 ![1, D])
    (tab : (⟨2, ![N, D]⟩ : Shape).Idx → EReal) (col : IVec ⟨2, ![16384, 1]⟩ 32) (ok : IVec ⟨1, ![16384]⟩ 1)
    (fill : (⟨2, ![16384, D]⟩ : Shape).Idx → EReal)
    (hb : (⟨1, ![16384]⟩ : Shape).BroadcastsInDim ⟨2, ![16384, D]⟩ (![0] : Fin 1 → Fin 2))
    (p : Fin 16384) (k : Fin D) (x : BitVec 32) (hcol : col (ix2 p (0 : Fin 1)) = x) (hok : ok (ix1 p) = 1#1) :
    select (broadcastInDim ⟨2, ![16384, D]⟩ ![0] hb ok)
        (Host.gather (Idealize.ShloMosaic.RowGather.rowsDims N D 16384 wf) tab col) fill (ix2 p k)
      = tab (ix2 (Spec.rowOf N hN x) k) := by
  subst hcol
  rw [select_apply, bcast_vec_cols_apply, hok, select_one,
    Idealize.ShloMosaic.RowGather.gather_rows_apply hN wf tab col p k]
  rfl

theorem take0_apply [Facts] (tab : FVec Ideal S4096x128 .f32) (idx : IVec S16384 32)
    (hall : ∀ p : Fin 16384, 0 ≤ (idx (ix1 p)).toInt ∧ (idx (ix1 p)).toInt ≤ 4095) (p : Fin 16384) (k : Fin 128) :
    take0 (F := Ideal) tab idx (ix2 p k) = tab (ix2 (Spec.rowOf 4096 (by decide) (idx (ix1 p))) k) := by
  unfold take0
  exact take_pattern (by decide) Facts₀.gather_S4096x128_S16384x1_S16384x128_1_0_n_n_0_1_1128_wf tab _ _ _ _ p k _
    (idxCol_apply 4096#32 idx p 0 (hall p).1)
    (inRange_apply 4096#32 4095#32 idx (fun p' => ⟨(hall p').1, by have := (hall p').2; have e : (4095#32 : BitVec 32).toInt = 4095 := (by decide); omega⟩) p)

theorem take1_apply [Facts] (tab : FVec Ideal S16384x128 .f32) (idx : IVec S16384 32)
    (hall : ∀ p : Fin 16384, 0 ≤ (idx (ix1 p)).toInt ∧ (idx (ix1 p)).toInt ≤ 16383) (p : Fin 16384) (k : Fin 128) :
    take1 (F := Ideal) tab idx (ix2 p k) = tab (ix2 (Spec.rowOf 16384 (by decide) (idx (ix1 p))) k) := by
  unfold take1
  exact take_pattern (by decide) Facts₀.gather_S16384x128_S16384x1_S16384x128_1_0_n_n_0_1_1128_wf tab _ _ _ _ p k _
    (idxCol_apply 16384#32 idx p 0 (hall p).1)
    (inRange_apply 16384#32 16383#32 idx (fun p' => ⟨(hall p').1, by have := (hall p').2; have e : (16383#32 : BitVec 32).toInt = 16383 := (by decide); omega⟩) p)

theorem take2_apply [Facts] (tab : FVec Ideal S32x32 .f32) (idx : IVec S16384 32)
    (hall : ∀ p : Fin 16384, 0 ≤ (idx (ix1 p)).toInt ∧ (idx (ix1 p)).toInt ≤ 31) (p : Fin 16384) (k : Fin 32) :
    take2 (F := Ideal) tab idx (ix2 p k) = tab (ix2 (Spec.rowOf 32 (by decide) (idx (ix1 p))) k) := by
  unfold take2
  exact take_pattern (by decide) Facts₀.gather_S32x32_S16384x1_S16384x32_1_0_n_n_0_1_132_wf tab _ _ _ _ p k _
    (idxCol_apply 32#32 idx p 0 (hall p).1)
    (inRange_apply 32#32 31#32 idx (fun p' => ⟨(hall p').1, by have := (hall p').2; have e : (31#32 : BitVec 32).toInt = 31 := (by decide); omega⟩) p)

/-! ## Three arrays side by side, read at a column -/

section Concat
variable {n : ℕ} (x0 x1 : (⟨2, ![n, 128]⟩ : Shape).Idx → α) (x2 : (⟨2, ![n, 32]⟩ : Shape).Idx → α)
  (h : Shape.Concatenates [⟨2, ![n, 128]⟩, ⟨2, ![n, 128]⟩, ⟨2, ![n, 32]⟩] ⟨2, ![n, 288]⟩ (1 : Fin 2))

/-- Columns 0 … 127 are the first array's. -/
theorem cat_left (p : Fin n) (j : Fin 128) (q : Fin 288) (hq : q.val = j.val) :
    concatenate ⟨2, ![n, 288]⟩ (1 : Fin 2) [⟨⟨2, ![n, 128]⟩, x0⟩, ⟨⟨2, ![n, 128]⟩, x1⟩, ⟨⟨2, ![n, 32]⟩, x2⟩] h (ix2 p q)
      = x0 (ix2 p j) :=
  concatenate_apply_piece (t := ⟨2, ![n, 288]⟩) (1 : Fin 2) [⟨⟨2, ![n, 128]⟩, x0⟩, ⟨⟨2, ![n, 128]⟩, x1⟩, ⟨⟨2, ![n, 32]⟩, x2⟩]
    (by simp only [List.map_cons, List.map_nil]; exact h) (ix2 p q) 0 (Nat.zero_lt_succ _) ⟨2, ![n, 128]⟩ x0 rfl rfl 0 rfl (ix2 p j)
    (fun b hb => by
      match b with
      | ⟨0, _⟩ => rfl
      | ⟨1, _⟩ => exact absurd rfl hb)
    (by show 0 + j.val = q.val; omega)

/-- Columns 128 … 255 are the second array's. -/
theorem cat_mid (p : Fin n) (j : Fin 128) (q : Fin 288) (hq : q.val = 128 + j.val) :
    concatenate ⟨2, ![n, 288]⟩ (1 : Fin 2) [⟨⟨2, ![n, 128]⟩, x0⟩, ⟨⟨2, ![n, 128]⟩, x1⟩, ⟨⟨2, ![n, 32]⟩, x2⟩] h (ix2 p q)
      = x1 (ix2 p j) :=
  concatenate_apply_piece (t := ⟨2, ![n, 288]⟩) (1 : Fin 2) [⟨⟨2, ![n, 128]⟩, x0⟩, ⟨⟨2, ![n, 128]⟩, x1⟩, ⟨⟨2, ![n, 32]⟩, x2⟩]
    (by simp only [List.map_cons, List.map_nil]; exact h) (ix2 p q) 1 (Nat.succ_lt_succ (Nat.zero_lt_succ _)) ⟨2, ![n, 128]⟩ x1 rfl rfl 128 rfl (ix2 p j)
    (fun b hb => by
      match b with
      | ⟨0, _⟩ => rfl
      | ⟨1, _⟩ => exact absurd rfl hb)
    (by show 128 + j.val = q.val; omega)

/-- Columns 256 … 287 are the third array's. -/
theorem cat_right (p : Fin n) (j : Fin 32) (q : Fin 288) (hq : q.val = 256 + j.val) :
    concatenate ⟨2, ![n, 288]⟩ (1 : Fin 2) [⟨⟨2, ![n, 128]⟩, x0⟩, ⟨⟨2, ![n, 128]⟩, x1⟩, ⟨⟨2, ![n, 32]⟩, x2⟩] h (ix2 p q)
      = x2 (ix2 p j) :=
  concatenate_apply_piece (t := ⟨2, ![n, 288]⟩) (1 : Fin 2) [⟨⟨2, ![n, 128]⟩, x0⟩, ⟨⟨2, ![n, 128]⟩, x1⟩, ⟨⟨2, ![n, 32]⟩, x2⟩]
    (by simp only [List.map_cons, List.map_nil]; exact h) (ix2 p q) 2 (Nat.succ_lt_succ (Nat.succ_lt_succ (Nat.zero_lt_succ _))) ⟨2, ![n, 32]⟩ x2 rfl rfl 256 rfl (ix2 p j)
    (fun b hb => by
      match b with
      | ⟨0, _⟩ => rfl
      | ⟨1, _⟩ => exact absurd rfl hb)
    (by show 256 + j.val = q.val; omega)

end Concat

/-! ## The dense layer -/

/-- A vector of 256 entries repeated in every row, read at (p, q). -/
theorem rowBcast_apply [Facts] (g : FVec Ideal S256 .f32) (p : Fin 16384) (q : Fin 256) :
    rowBcast (F := Ideal) g (ix2 p q) = g (ix1 q) := by
  unfold rowBcast
  rw [bcast_rows_apply, bcast_row_apply]

/-- The dense layer at (p, q): the specification's, of row p of the three looked-up blocks. -/
theorem dense_apply [Facts] (x0 x1 : FVec Ideal S16384x128 .f32) (x2 : FVec Ideal S16384x32 .f32)
    (W : FVec Ideal S288x256 .f32) (b : FVec Ideal S256 .f32) (p : Fin 16384) (q : Fin 256) :
    dense (F := Ideal) x0 x1 x2 W b (ix2 p q)
      = Spec.pre (fun k => x0 (ix2 p k)) (fun k => x1 (ix2 p k)) (fun k => x2 (ix2 p k)) W (fun c => b (ix1 c)) q := by
  unfold dense Spec.pre
  rw [addf_apply, rowBcast_apply]
  refine congrArg (· + b (ix1 q)) ?_
  refine (Cert.Gcn.dotGeneral_apply dot_S16384x288_S288x256_S16384x256_1_0_0_1_n_n .single rfl rfl (fun _ _ => rfl)
    (fun _ _ => rfl) (fun _ _ => rfl) (fun _ _ => rfl) _ W p q).trans ?_
  rw [Spec.sum_288]
  refine congrArg₂ (· + ·) (congrArg₂ (· + ·) ?_ ?_) ?_
  · exact Finset.sum_congr rfl fun j _ => by rw [cat_left x0 x1 x2 _ p j ⟨j.val, by omega⟩ rfl]
  · exact Finset.sum_congr rfl fun j _ => by rw [cat_mid x0 x1 x2 _ p j ⟨128 + j.val, by omega⟩ rfl]
  · exact Finset.sum_congr rfl fun j _ => by rw [cat_right x0 x1 x2 _ p j ⟨256 + j.val, by omega⟩ rfl]

/-! ## Mean, variance, normalisation -/

/-- The host's quotient, square root and float sum at an index, on the extended reals. -/
theorem hostDivf_at {s : Shape} (a b : FVec Ideal s .f32) (i : s.Idx) : Host.divf a b i = Ideal.div (a i) (b i) := rfl
theorem hostSqrt_at {s : Shape} (a : FVec Ideal s .f32) (i : s.Idx) : Host.sqrt a i = Ideal.sqrt (a i) := rfl
theorem hostReduceAdd_eq {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

/-- The mean column at row p. -/
theorem rowMean_apply [Facts] (y : FVec Ideal S16384x256 .f32) (p : Fin 16384) (u : Fin 1) :
    rowMean (F := Ideal) y (ix2 p u) = Spec.mean (fun c => y (ix2 p c)) := by
  unfold rowMean Spec.mean
  show Ideal.div (broadcastInDim S16384x1 ![0] Facts₀.bcast_S16384_S16384x1_0
        (Host.reduceAdd y (constant S_ .f32 0x00000000#32) Facts₀.reducesTo_S16384x256_S16384_d1 Facts₀.h_S_) (ix2 p u))
      (broadcastInDim S16384x1 ![] Facts₀.bcast_S_S16384x1 (constant (F := Ideal) S_ .f32 0x43800000#32) (ix2 p u)) = _
  rw [bcast_col_apply, bcast_scalar_apply]
  show Ideal.div (Ideal.hostReduceAdd Facts₀.reducesTo_S16384x256_S16384_d1 y (Ideal.ofBits .f32 0x00000000#32) (ix1 p))
      (Ideal.ofBits .f32 0x43800000#32) = _
  rw [hostReduceAdd_row y _ Facts₀.reducesTo_S16384x256_S16384_d1 (by decide) p, Ideal.ofBits_zero_f32, zero_add]

/-- A centred entry. -/
theorem centered_apply [Facts] (y : FVec Ideal S16384x256 .f32) (p : Fin 16384) (q : Fin 256) :
    centered (F := Ideal) y (ix2 p q) = y (ix2 p q) - Spec.mean (fun c => y (ix2 p c)) := by
  unfold centered
  rw [subf_apply, bcast_cols_apply, rowMean_apply]

/-- The variance's divisor is the word of 256.0: the correction is zero. -/
theorem varDenom_apply [Facts] : varDenom (F := Ideal) unit0 = Ideal.ofBits .f32 0x43800000#32 := by
  show Ideal.ofBits .f32 0x43800000#32 - (((0#32 : BitVec 32).toInt : ℝ) : EReal) = _
  have z : (0#32 : BitVec 32).toInt = 0 := by decide
  rw [z]
  simp

/-- The variance column at row p. -/
theorem rowVar_apply [Facts] (y : FVec Ideal S16384x256 .f32) (p : Fin 16384) (u : Fin 1) :
    rowVar (F := Ideal) y (ix2 p u) = Spec.var (fun c => y (ix2 p c)) := by
  unfold rowVar Spec.var
  rw [select_apply, bcast_scalar_apply]
  have hc : cmpf .ogt (varDenom (F := Ideal)) (constant (F := Ideal) S_ .f32 0x00000000#32) unit0 = 1#1 := by
    show Ideal.cmp .ogt (varDenom (F := Ideal) unit0) (Ideal.ofBits .f32 0x00000000#32) = 1#1
    rw [varDenom_apply, Spec.word_256, Ideal.ofBits_zero_f32]
    unfold Ideal.cmp
    simp
  rw [hc, select_one, hostDivf_at, bcast_col_apply, bcast_scalar_apply, varDenom_apply, hostReduceAdd_eq, constant_apply,
    hostReduceAdd_row _ _ Facts₀.reducesTo_S16384x256_S16384_d1 (by decide) p, Ideal.ofBits_zero_f32, zero_add]
  refine congrArg (Ideal.div · _) (Finset.sum_congr rfl fun c _ => ?_)
  rw [mulf_apply, centered_apply]

/-- The normalised array at (p, q). -/
theorem norm_apply [Facts] (y : FVec Ideal S16384x256 .f32) (g be : FVec Ideal S256 .f32) (p : Fin 16384) (q : Fin 256) :
    RefStages.norm (F := Ideal) y g be (ix2 p q)
      = Spec.norm (fun c => y (ix2 p c)) (fun c => g (ix1 c)) (fun c => be (ix1 c)) q := by
  unfold RefStages.norm Spec.norm
  rw [addf_apply, mulf_apply, rowBcast_apply, rowBcast_apply]
  show Ideal.div (centered (F := Ideal) y (ix2 p q))
      (broadcastInDim S16384x256 ![0, 1] Facts₀.bcast_S16384x1_S16384x256_0_1
        (Host.sqrt (addf (rowVar (F := Ideal) y)
          (broadcastInDim S16384x1 ![] Facts₀.bcast_S_S16384x1 (constant (F := Ideal) S_ .f32 0x3A83126F#32)))) (ix2 p q))
      * g (ix1 q) + be (ix1 q) = _
  rw [bcast_cols_apply]
  show Ideal.div (centered (F := Ideal) y (ix2 p q))
      (Ideal.sqrt (rowVar (F := Ideal) y (ix2 p (0 : Fin 1))
        + broadcastInDim S16384x1 ![] Facts₀.bcast_S_S16384x1 (constant (F := Ideal) S_ .f32 0x3A83126F#32) (ix2 p (0 : Fin 1))))
      * g (ix1 q) + be (ix1 q) = _
  rw [bcast_scalar_apply, rowVar_apply, centered_apply]
  rfl

end Cert.RefRead

end
-- ==== Proof.RefValue.lean ====
/-
  The reference's stages are the specification: for arrays in the input domain the reference's result at (p, q) is
  the specification's value at (p, q).
-/
import proofs.«204006_g8589934699_cont_9to1c4b_872_29_alg».proof.Proof.Spec
import proofs.«204006_g8589934699_cont_9to1c4b_872_29_alg».proof.Proof.PreRead
import proofs.«204006_g8589934699_cont_9to1c4b_872_29_alg».proof.Proof.RefStages
import proofs.«204006_g8589934699_cont_9to1c4b_872_29_alg».proof.Proof.RefRead

noncomputable section

open scoped BigOperators

namespace Cert.RefValue

open Idealize.ShloMosaic Idealize.ShloMosaic.ValueIdx Cert.ReferenceIdeal Cert.ReferenceIdeal.RefStages

/-- THE REFERENCE'S RESULT at (p, q) is the specification's, for arrays in the input domain. -/
theorem out_apply [Cert.ReferenceIdeal.Facts] (a0 a1 a2 : IVec S16384 32) (a3 : FVec Ideal S4096x128 .f32)
    (a4 : FVec Ideal S16384x128 .f32) (a5 : FVec Ideal S32x32 .f32) (a6 : FVec Ideal S288x256 .f32)
    (a7 a8 a9 : FVec Ideal S256 .f32) (hdom : Cert.PreRead.Domain a0 a1 a2 a3 a4 a5 a6 a7 a8 a9)
    (p : Fin 16384) (q : Fin 256) :
    RefStages.out (F := Ideal) a0 a1 a2 a3 a4 a5 a6 a7 a8 a9 (ix2 p q) = Spec.G a0 a1 a2 a3 a4 a5 a6 a7 a8 a9 p q := by
  unfold RefStages.out Spec.G
  rw [Cert.RefRead.norm_apply]
  refine congrArg (fun y => Spec.norm y (fun c => a8 (ix1 c)) (fun c => a9 (ix1 c)) q) (funext fun c => ?_)
  rw [Cert.RefRead.dense_apply]
  simp only [Cert.RefRead.take0_apply a3 a0 hdom.code_ids, Cert.RefRead.take1_apply a4 a1 hdom.name_ids,
    Cert.RefRead.take2_apply a5 a2 hdom.nature_ids]

/-- As arrays. -/
theorem out_eq [Cert.ReferenceIdeal.Facts] (a0 a1 a2 : IVec S16384 32) (a3 : FVec Ideal S4096x128 .f32)
    (a4 : FVec Ideal S16384x128 .f32) (a5 : FVec Ideal S32x32 .f32) (a6 : FVec Ideal S288x256 .f32)
    (a7 a8 a9 : FVec Ideal S256 .f32) (hdom : Cert.PreRead.Domain a0 a1 a2 a3 a4 a5 a6 a7 a8 a9) :
    RefStages.out (F := Ideal) a0 a1 a2 a3 a4 a5 a6 a7 a8 a9 = Spec.out a0 a1 a2 a3 a4 a5 a6 a7 a8 a9 := by
  funext i
  obtain ⟨p, q, rfl⟩ : ∃ (p : Fin 16384) (q : Fin 256), i = ix2 p q := ⟨i 0, i 1, eq_ix2 i⟩
  exact out_apply a0 a1 a2 a3 a4 a5 a6 a7 a8 a9 hdom p q

end Cert.RefValue

end
-- ==== Proof.KerClaims.lean ====
/-
  The claims about the idealized kernel: its frame, and its equivalence to the idealized reference.

  The kernel program's run ends with the ten arguments as launched and the result array at a pure term of them;
  the frame forgets the term. Under the precondition that term and the reference's result are both the layer's
  specification — gathered code, name and nature rows against the weight blocks, a bias row, and the rows'
  normalisation — of the same arguments, on the extended reals.
-/
import proofs.«204006_g8589934699_cont_9to1c4b_872_29_alg».proof.Defs
import proofs.«204006_g8589934699_cont_9to1c4b_872_29_alg».proof.Proof.KerParts
import proofs.«204006_g8589934699_cont_9to1c4b_872_29_alg».proof.Proof.KerBridgeFin
import proofs.«204006_g8589934699_cont_9to1c4b_872_29_alg».proof.Proof.RefRun
import proofs.«204006_g8589934699_cont_9to1c4b_872_29_alg».proof.Proof.RefValue

noncomputable section

namespace Cert.Proof.KerClaims

open Cert.KernelIdeal Cert.KernelIdeal.Gen Cert.KernelIdeal.Setup Cert.KernelIdeal.MainSide
open Idealize.ShloMosaic Idealize.ShloMosaic.TcCoe Idealize.SL.Sem

variable [Cert.KernelIdeal.Facts] [Cert.ReferenceIdeal.Facts] [Cert.Pre_input_domain.Facts]

theorem frame_pi : Cert.frame_KernelIdeal :=
  fun m ρ hpre => (θ_run (Cert.KernelIdeal.defs (F := Ideal)) _ _).mono (fun _ h c => (h c).2) (run_of_pre (F := Ideal) m ρ hpre)

theorem algebraic : Cert.algebraic_KernelIdeal_ReferenceIdeal := by
  intro m ρ m' ρ' hpre hagree
  refine ⟨fun c => Vfin m c v9', (θ_run (Cert.KernelIdeal.defs (F := Ideal)) _ _).mono (fun _ h c => h c) (run_of_pre (F := Ideal) m ρ hpre), ?_⟩
  refine (θ_run (Cert.ReferenceIdeal.defs (F := Ideal)) _ _).mono (fun _ h c => ⟨(h c).1.trans ?_, (h c).2⟩)
    (Cert.ReferenceIdeal.RefRun.run m' ρ')
  have hdom := Cert.PreRead.domain_of_pre _ _ _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.RefValue.out_eq _ _ _ _ _ _ _ _ _ _ hdom).trans (Cert.KernelIdeal.KerBridge.kernel_value m c hdom).symm

end Cert.Proof.KerClaims

end
-- ==== Proof.Bits.ScSetup.lean ====
/-
  The kernel program as the SparseCore launch theorem sees it, and the resource algebra of its proof.

  The program is @main on the TensorCore — six reshapes, two SparseCore calls (each a row gather on
  2 × 16 vector subcores), and two TensorCore pipelines of four grid points each — beside the sequencers'
  and vector subcores' fixed programs. Three ghost components stand side by side: the launch handshakes'
  rounds (levels in ℕ), the TensorCore pipelines' staging cells' rounds (duties unnamed), and the counters
  of the vector subcores' own local copies, which need no schedule.
-/
import proofs.«204006_g8589934699_cont_9to1c4b_872_29_alg».proof.Kernel
import proofs.«204006_g8589934699_cont_9to1c4b_872_29_alg».proof.Proof.Gen.Kernel
import proofs.«204006_g8589934699_cont_9to1c4b_872_29_alg».proof.Proof.Gen.Kernel.Skeleton
import proofs.«204006_g8589934699_cont_9to1c4b_872_29_alg».proof.Proof.Gen.Kernel.Launch
import proofs.«204006_g8589934699_cont_9to1c4b_872_29_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the TensorCore pipelines' staging cells' rounds -/
abbrev UP : Type := URounds (GSem nD τ sig) Unit
/-- the three components side by side; the counters last, where the local copies' rules find them -/
abbrev UU : Type := UH × (UP × Counters)

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by unfold EP; infer_instance

example : CountersIn UU := inferInstance

end Cert.Kernel.Setup

end
-- ==== Proof.Bits.MainHost.lean ====
/-
  @main on the TensorCore, its host part: the six reshapes that open the program run as one straight line
  over the TensorCore's unscoped arrays held whole; what follows them is the rest of the program.
-/
import proofs.«204006_g8589934699_cont_9to1c4b_872_29_alg».proof.Proof.Bits.ScSetup
import Idealize.ShloMosaic.Lib.Pipeline.Frame

noncomputable section

namespace Cert.Kernel.MainSide

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The host operations -/

/-- the six reshapes: the three index vectors into the shapes the kernels slice, the three rows into [1, 256] -/
abbrev opR0 : HloOp τ sig (Elt F) := StableHlo.reshape main_arg0 main_v0 rfl shapeCasts_S16384_S2x32x2x128
abbrev opR1 : HloOp τ sig (Elt F) := StableHlo.reshape main_arg1 main_v1 rfl shapeCasts_S16384_S2x32x2x128
abbrev opR2 : HloOp τ sig (Elt F) := StableHlo.reshape main_arg2 main_v2 rfl shapeCasts_S16384_S8x1x2048
abbrev opR3 : HloOp τ sig (Elt F) := StableHlo.reshape main_arg7 main_v3 rfl shapeCasts_S256_S1x256
abbrev opR4 : HloOp τ sig (Elt F) := StableHlo.reshape main_arg8 main_v4 rfl shapeCasts_S256_S1x256
abbrev opR5 : HloOp τ sig (Elt F) := StableHlo.reshape main_arg9 main_v5 rfl shapeCasts_S256_S1x256
/-- the copy of the first pipeline's result into the second's result buffer -/
abbrev opCp : HloOp τ sig (Elt F) := StableHlo.unary main_v8 main_v9 id

abbrev headOps : List (HloOp τ sig (Elt F)) := [opR0, opR1, opR2, opR3, opR4, opR5]

theorem headOps_sub : ∀ op ∈ (headOps (F := F)), op.bufs ⊆ Pipeline.ucRefs τ sig := by
  intro op hop
  simp only [List.mem_cons, List.not_mem_nil, or_false] at hop
  rcases hop with rfl | rfl | rfl | rfl | rfl | rfl <;> exact Pipeline.sub_ucRefs _ (StableHlo.reshape_bufs_sub ..)

theorem headOps_fresh : ∀ op ∈ (headOps (F := F)), op.fresh = ∅ := by
  intro op hop
  simp only [List.mem_cons, List.not_mem_nil, or_false] at hop
  rcases hop with rfl | rfl | rfl | rfl | rfl | rfl <;> rfl

theorem opCp_sub : (opCp (F := F)).bufs ⊆ Pipeline.ucRefs τ sig := Pipeline.sub_ucRefs _ (StableHlo.unary_bufs_sub ..)

variable [FloatOps F]

/-- @main after the reshapes: the two SparseCore calls, the first pipeline, the copy, the second pipeline. -/
def rest (d : Dev nD) : Prog (TpuEff nD τ sig (Elt F) (SparseCore.Sig (ΛP (F := F)) 2) .tc) PUnit := do
  (sc (F := F)).run d 0
  (sc (F := F)).run d 1
  Prog.lift (.customCall (SparseCore.inner (Pipeline.entry 0)) ())
  hlo rfl (opCp (F := F)) (fun _ => .ret ⟨⟩)
  Prog.lift (.customCall (SparseCore.inner (Pipeline.entry 1)) ())
  pure ⟨⟩

theorem main_eq (d : Dev nD) : main (F := F) d = (seq (headOps (F := F)) >>= fun _ => rest (F := F) d) := rfl

/-! ## The TensorCore's arrays, held whole -/

variable (m : (ℓ : Loc nD τ sig) → Buf (Elt F) ℓ)

/-- the launch valuation -/
def V0 (d : Dev nD) : Valuation τ sig (Elt F) := fun b => m (d, b)
/-- after the reshapes -/
def V1 (d : Dev nD) : Valuation τ sig (Elt F) := after (headOps (F := F)) (V0 m d)

omit [FloatOps F] in
theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

/-- The reshapes, from the arrays at the launch contents: the rest of @main runs with them at `V1`. -/
theorem head_run (d : Dev nD) (Q : PUnit → sProp 𝕄) :
    iprop(boundary (SparseCore.T d) ∗ (held (SparseCore.T d) (Pipeline.ucRefs τ sig) (V0 m d) : sProp 𝕄))
      ⊢ iprop(((boundary (SparseCore.T d) ∗ (held (SparseCore.T d) (Pipeline.ucRefs τ sig) (V1 m d) : sProp 𝕄))
                -∗ wp frame (wpE ((K (F := F)).defs (D (F := F))) 𝒱 (SparseCore.T d) none) Set.univ (rest (F := F) d) Q)
        -∗ wp frame (wpE ((K (F := F)).defs (D (F := F))) 𝒱 (SparseCore.T d) none) Set.univ (main (F := F) d) Q) := by
  rw [main_eq]
  exact wp_seq 𝒱 none Set.univ d (Pipeline.ucRefs τ sig) (fun _ => rest (F := F) d) (headOps (F := F)) headOps_sub headOps_fresh (V0 m d)

end Cert.Kernel.MainSide

end
-- ==== Proof.Bits.MainRun.lean ====
/-
  The launch element of the proof's ghost state and how the final memory is read.

  The launch element has three parts side by side: the handshakes' rounds at their launch state, the two
  TensorCore pipelines' staging cells' rounds at theirs — funded into each pipeline's cells' ghost state and
  duty tokens, which @main's proof holds until it enters that pipeline — and the counters' unit. The kernels'
  own protocol carries nothing across the calls. At the end the TensorCore holds its unscoped arrays whole at a
  last valuation, and the memory reads that valuation on every one of them.
-/
import proofs.«204006_g8589934699_cont_9to1c4b_872_29_alg».proof.Proof.Bits.MainHost
import proofs.«204006_g8589934699_cont_9to1c4b_872_29_alg».proof.Proof.LibHeld

noncomputable section

namespace Cert.Kernel.MainSide

open Cert.Kernel Cert.Kernel.Gen Cert.Kernel.Setup Cert.LibHeld

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- what @main's proof starts from beside the launch's deal: each pipeline's staging cells' ghost state and duty tokens -/
abbrev G (d : Dev nD) : sProp 𝕄 :=
  bigSep Finset.univ fun p : Fin 2 => iprop(Pipeline.cellsGhost cfgs (EP (F := F)) p d ∗ Pipeline.toksInit cfgs (EP (F := F)) p d)

variable (P : (K (F := F)).Pay (nD := nD) (Val := Elt F) (Name := ℕ) (U := UU))

theorem bigSep_emp' {I : Type} (s : Finset I) : (bigSep s fun _ => iprop(emp)) = (iprop(emp) : sProp 𝕄) := bigSep_emp_const s

theorem hu₀ (hx : ∀ q thr, P.x q thr = (iprop(emp) : sProp 𝕄)) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 2 => P.x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · simp only [bigSep_sep']
    isplitl [Hg] <;> iassumption
  · rw [show (bigSep Finset.univ fun thr : Thread nD τ => bigSep Finset.univ fun q : Fin 2 => P.x q thr) = (bigSep Finset.univ fun _ : Thread nD τ => (iprop(emp) : sProp 𝕄)) from
      bigSep_congr fun thr _ => by simp only [hx]; exact bigSep_emp' _, bigSep_emp']
    iempintro

/-! ## The final memory -/

variable (Vfin : Dev nD → Valuation τ sig (Elt F))

/-- what @main leaves: the TensorCore's unscoped arrays whole at the last valuation -/
abbrev FIN (d : Dev nD) : sProp 𝕄 := held (SparseCore.T d) (Pipeline.ucRefs τ sig) (Vfin d)

def fq (d : Dev nD) (s' : Phys nD τ sig (Elt F)) : Prop := ∀ b ∈ Pipeline.ucRefs τ sig, s'.mem.mem (d, b) = Vfin d b

theorem hfin (d : Dev nD) (s' : Phys nD τ sig (Elt F)) : iprop(FIN Vfin d ∗ SI s') ⊢ (⌜fq Vfin d s'⌝ : sProp 𝕄) := by
  iintro ⟨H, HSI⟩
  iapply (held_agree (SparseCore.T d) (Vfin d) s' (Pipeline.ucRefs τ sig))
  isplitl [HSI] <;> iassumption

end Cert.Kernel.MainSide

end
-- ==== Proof.Bits.ScPay.lean ====
/-
  What the two row-gather calls hand their vector subcores, and what they bring back.

  Each call gathers 8192 rows of the code table and 8192 rows of the name table. Row R of a call's result is the table's
  row named by entry (h, R / 256, (R / 128) % 2, R % 128) of the index array laid out as [2, 32, 2, 128], h the call's half.
  The subcore at (core c, subcore i) owns rows 512 i + 256 c … + 256 of both results, as two blocks of 128 rows; the four
  inputs are only read, so every subcore holds a read share of each of them whole.
-/
import proofs.«204006_g8589934699_cont_9to1c4b_872_29_alg».proof.Proof.Bits.ScSetup
import Idealize.ShloMosaic.Lib.ValueIdx

noncomputable section

namespace Cert.Kernel.ScSide

open Cert.Kernel Cert.Kernel.Gen Cert.Kernel.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The gathered rows, as a pure term of a table and an index array -/

/-- Row R, column k of a call's result: the table at the row the index array names at (h, R / 256, (R / 128) % 2, R % 128)
    — read as a signed word and clamped into the table, which changes nothing for an index in range — and column k. -/
def gathered {N : Nat} (hN : 0 < N) (tab : (⟨2, ![N, 128]⟩ : Shape).Idx → Elt F .f32) (idx : S2x32x2x128.Idx → Elt F .i32) (h : Fin 2) :
    S8192x128.Idx → Elt F .f32 := fun x =>
  have hx : (x 0).val < 8192 := (x 0).isLt
  tab (ix2 ⟨min (idx (ix4 h (⟨(x 0).val / 256, by omega⟩ : Fin 32) (⟨(x 0).val / 128 % 2, by omega⟩ : Fin 2)
      (⟨(x 0).val % 128, by omega⟩ : Fin 128))).toInt.toNat (N - 1), by omega⟩ (⟨(x 1).val, (x 1).isLt⟩ : Fin 128))

/-- The same read at (R, k). -/
theorem gathered_apply {N : Nat} (hN : 0 < N) (tab : (⟨2, ![N, 128]⟩ : Shape).Idx → Elt F .f32) (idx : S2x32x2x128.Idx → Elt F .i32) (h : Fin 2)
    (R : Fin 8192) (k : Fin 128) :
    gathered hN tab idx h (ix2 R k)
      = tab (ix2 ⟨min (idx (ix4 h (⟨R.val / 256, by omega⟩ : Fin 32) (⟨R.val / 128 % 2, by omega⟩ : Fin 2)
          (⟨R.val % 128, by omega⟩ : Fin 128))).toInt.toNat (N - 1), by omega⟩ k) := rfl

/-- For an index in range the clamp is the word's own value. -/
theorem clamp_of_lt {N : Nat} (hN : N ≤ 2 ^ 31) (v : BitVec 32) (hv : v.toNat < N) : min v.toInt.toNat (N - 1) = v.toNat := by
  have : v.toInt = v.toNat := by rw [BitVec.toInt_eq_toNat_cond]; split <;> omega
  omega

/-! ## The arrays -/

abbrev v0Loc (d : Dev nD) : Loc nD τ sig := (SparseCore.T d).loc main_v0
abbrev v1Loc (d : Dev nD) : Loc nD τ sig := (SparseCore.T d).loc main_v1
abbrev ctLoc (d : Dev nD) : Loc nD τ sig := (SparseCore.T d).loc main_arg3
abbrev ntLoc (d : Dev nD) : Loc nD τ sig := (SparseCore.T d).loc main_arg4
abbrev oc0Loc (d : Dev nD) : Loc nD τ sig := (SparseCore.T d).loc main_v6_0
abbrev on0Loc (d : Dev nD) : Loc nD τ sig := (SparseCore.T d).loc main_v6_1
abbrev oc1Loc (d : Dev nD) : Loc nD τ sig := (SparseCore.T d).loc main_v7_0
abbrev on1Loc (d : Dev nD) : Loc nD τ sig := (SparseCore.T d).loc main_v7_1

/-! ## The blocks of a result: rows 512 i + 256 c + 128 r … + 128 -/

abbrev blkOff (c : Fin 2) (i : Fin 16) (r : Fin 2) : Fin 2 → Nat := ![512 * i.val + 256 * c.val + 128 * r.val, 0]

theorem blk_inb (c : Fin 2) (i : Fin 16) (r : Fin 2) : ∀ a, blkOff c i r a + S128x128.size a ≤ S8192x128.size a := by
  intro a
  match a with
  | 0 => show 512 * i.val + 256 * c.val + 128 * r.val + 128 ≤ 8192; omega
  | 1 => show 0 + 128 ≤ 128; omega

abbrev blk (c : Fin 2) (i : Fin 16) (r : Fin 2) : Rect S8192x128 := Rect.unit (s := S8192x128) (blkOff c i r) S128x128.size (blk_inb c i r)
abbrev blkSet (c : Fin 2) (i : Fin 16) (r : Fin 2) : Finset S8192x128.Idx := (blk c i r).set

/-! ## The read shares: the full share's token for core c, and of that the token for subcore i -/

abbrev qC (c : Fin 2) : PosShare TreeShare := Transfers.shareTok fullShare 2 c
abbrev qT (c : Fin 2) (i : Fin 16) : PosShare TreeShare := Transfers.shareTok (qC c) 16 i

/-! ## What the handshakes carry -/

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

/-- The four inputs, whole, at share q. -/
abbrev insAt (d : Dev nD) (q : PosShare TreeShare) : sProp 𝕄 :=
  iprop((v0Loc d ↦{q} v0 d) ∗ (v1Loc d ↦{q} v1 d) ∗ (ctLoc d ↦{q} ct d) ∗ (ntLoc d ↦{q} nt d))

/-- The results of call h: the code table's and the name table's gathered rows. -/
abbrev outC (d : Dev nD) (h : Fin 2) : S8192x128.Idx → Elt F .f32 := gathered (N := 4096) (by decide) (ct d) (v0 d) h
abbrev outN (d : Dev nD) (h : Fin 2) : S8192x128.Idx → Elt F .f32 := gathered (N := 16384) (by decide) (nt d) (v1 d) h

/-- A subcore's task at call 0: its shares of the inputs, its two blocks of each result at any contents; -/
abbrev tileGo0 (d : Dev nD) (c : Fin 2) (i : Fin 16) : sProp 𝕄 :=
  iprop(insAt ct nt v0 v1 d (qT c i)
    ∗ ((∃ f, oc0Loc d ↦[blkSet c i 0]{fullShare} f) ∗ (∃ f, oc0Loc d ↦[blkSet c i 1]{fullShare} f))
    ∗ ((∃ f, on0Loc d ↦[blkSet c i 0]{fullShare} f) ∗ (∃ f, on0Loc d ↦[blkSet c i 1]{fullShare} f)))
/-- and what it brings back: the blocks at the gathered rows. -/
abbrev tileTd0 (d : Dev nD) (c : Fin 2) (i : Fin 16) : sProp 𝕄 :=
  iprop(insAt ct nt v0 v1 d (qT c i)
    ∗ ((oc0Loc d ↦[blkSet c i 0]{fullShare} outC ct v0 d 0) ∗ (oc0Loc d ↦[blkSet c i 1]{fullShare} outC ct v0 d 0))
    ∗ ((on0Loc d ↦[blkSet c i 0]{fullShare} outN nt v1 d 0) ∗ (on0Loc d ↦[blkSet c i 1]{fullShare} outN nt v1 d 0)))
/-- The same at call 1. -/
abbrev tileGo1 (d : Dev nD) (c : Fin 2) (i : Fin 16) : sProp 𝕄 :=
  iprop(insAt ct nt v0 v1 d (qT c i)
    ∗ ((∃ f, oc1Loc d ↦[blkSet c i 0]{fullShare} f) ∗ (∃ f, oc1Loc d ↦[blkSet c i 1]{fullShare} f))
    ∗ ((∃ f, on1Loc d ↦[blkSet c i 0]{fullShare} f) ∗ (∃ f, on1Loc d ↦[blkSet c i 1]{fullShare} f)))
abbrev tileTd1 (d : Dev nD) (c : Fin 2) (i : Fin 16) : sProp 𝕄 :=
  iprop(insAt ct nt v0 v1 d (qT c i)
    ∗ ((oc1Loc d ↦[blkSet c i 0]{fullShare} outC ct v0 d 1) ∗ (oc1Loc d ↦[blkSet c i 1]{fullShare} outC ct v0 d 1))
    ∗ ((on1Loc d ↦[blkSet c i 0]{fullShare} outN nt v1 d 1) ∗ (on1Loc d ↦[blkSet c i 1]{fullShare} outN nt v1 d 1)))

/-- A SparseCore's share of a call: the remainder of its read share once its sixteen subcores have theirs, and their tasks. -/
abbrev coreSt0 (d : Dev nD) (c : Fin 2) : sProp 𝕄 :=
  iprop(insAt ct nt v0 v1 d (Transfers.shareDrop (qC c) 16) ∗ bigSep Finset.univ fun i : Fin 16 => tileGo0 ct nt v0 v1 d c i)
abbrev coreDn0 (d : Dev nD) (c : Fin 2) : sProp 𝕄 :=
  iprop(insAt ct nt v0 v1 d (Transfers.shareDrop (qC c) 16) ∗ bigSep Finset.univ fun i : Fin 16 => tileTd0 ct nt v0 v1 d c i)
abbrev coreSt1 (d : Dev nD) (c : Fin 2) : sProp 𝕄 :=
  iprop(insAt ct nt v0 v1 d (Transfers.shareDrop (qC c) 16) ∗ bigSep Finset.univ fun i : Fin 16 => tileGo1 ct nt v0 v1 d c i)
abbrev coreDn1 (d : Dev nD) (c : Fin 2) : sProp 𝕄 :=
  iprop(insAt ct nt v0 v1 d (Transfers.shareDrop (qC c) 16) ∗ bigSep Finset.univ fun i : Fin 16 => tileTd1 ct nt v0 v1 d c i)

/-- What the launch handshakes of the two calls carry. The subcores' kernels only make local copies and wait for them:
    no protocol of their own, nothing owed beyond the handshakes. -/
def P : (K (F := F)).Pay (nD := nD) (Val := Elt F) (Name := ℕ) (U := UU) where
  st := fun q d c => match q with
    | 0 => coreSt0 ct nt v0 v1 d (Fin.cast nCore_zero c)
    | 1 => coreSt1 ct nt v0 v1 d (Fin.cast nCore_one c)
  dn := fun q d c => match q with
    | 0 => coreDn0 ct nt v0 v1 d (Fin.cast nCore_zero c)
    | 1 => coreDn1 ct nt v0 v1 d (Fin.cast nCore_one c)
  go := fun q d c i => match q with
    | 0 => tileGo0 ct nt v0 v1 d (Fin.cast nCore_zero c) (Fin.cast nSub_zero i)
    | 1 => tileGo1 ct nt v0 v1 d (Fin.cast nCore_one c) (Fin.cast nSub_one i)
  td := fun q d c i => match q with
    | 0 => tileTd0 ct nt v0 v1 d (Fin.cast nCore_zero c) (Fin.cast nSub_zero i)
    | 1 => tileTd1 ct nt v0 v1 d (Fin.cast nCore_one c) (Fin.cast nSub_one i)
  x := fun _ _ => iprop(emp)

instance P_storable : (P (F := F) ct nt v0 v1).IsStorable where
  st q d c := match q with
    | 0 => (inferInstance : BI.Storable (upEmb : UEmb _ 𝕄) (coreSt0 ct nt v0 v1 d (Fin.cast nCore_zero c)))
    | 1 => (inferInstance : BI.Storable (upEmb : UEmb _ 𝕄) (coreSt1 ct nt v0 v1 d (Fin.cast nCore_one c)))
  dn q d c := match q with
    | 0 => (inferInstance : BI.Storable (upEmb : UEmb _ 𝕄) (coreDn0 ct nt v0 v1 d (Fin.cast nCore_zero c)))
    | 1 => (inferInstance : BI.Storable (upEmb : UEmb _ 𝕄) (coreDn1 ct nt v0 v1 d (Fin.cast nCore_one c)))
  go q d c i := match q with
    | 0 => (inferInstance : BI.Storable (upEmb : UEmb _ 𝕄) (tileGo0 ct nt v0 v1 d (Fin.cast nCore_zero c) (Fin.cast nSub_zero i)))
    | 1 => (inferInstance : BI.Storable (upEmb : UEmb _ 𝕄) (tileGo1 ct nt v0 v1 d (Fin.cast nCore_one c) (Fin.cast nSub_one i)))
  td q d c i := match q with
    | 0 => (inferInstance : BI.Storable (upEmb : UEmb _ 𝕄) (tileTd0 ct nt v0 v1 d (Fin.cast nCore_zero c) (Fin.cast nSub_zero i)))
    | 1 => (inferInstance : BI.Storable (upEmb : UEmb _ 𝕄) (tileTd1 ct nt v0 v1 d (Fin.cast nCore_one c) (Fin.cast nSub_one i)))

/-- Every index names a row of its table. -/
def InRange (v0 : (d : Dev nD) → Buf (Elt F) (v0Loc d)) (v1 : (d : Dev nD) → Buf (Elt F) (v1Loc d)) : Prop :=
  ∀ d : Dev nD, (∀ j : S2x32x2x128.Idx, (v0 d j).toNat < 4096) ∧ (∀ j : S2x32x2x128.Idx, (v1 d j).toNat < 16384)

theorem P_x (q : Fin 2) (thr : Thread nD τ) : (P (F := F) ct nt v0 v1).x q thr = iprop(emp) := rfl
theorem P_ox : (P (F := F) ct nt v0 v1).ox = fun _ _ => 0 := rfl

end Cert.Kernel.ScSide

end
-- ==== Proof.Bits.MainCalls.lean ====
/-
  @main on the TensorCore, the two row-gather calls: from the unscoped arrays held whole at the valuation the
  reshapes left, each call is handed the four arrays it reads and the two it writes, and hands them back with the
  two results at the gathered rows; everything else is untouched.
-/
import proofs.«204006_g8589934699_cont_9to1c4b_872_29_alg».proof.Proof.Bits.MainRun
import proofs.«204006_g8589934699_cont_9to1c4b_872_29_alg».proof.Proof.Bits.ScPay

noncomputable section

namespace Cert.Kernel.MainSide

open Cert.Kernel Cert.Kernel.Gen Cert.Kernel.Setup Cert.LibHeld Cert.Kernel.ScSide

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type}

local notation "𝕄" => MT nD τ sig (HIx 2) (Elt F) ℕ UU ℕ

/-! ## The arrays the calls touch -/

abbrev v0' : DevRef τ sig := Proc.devRef .tc (main_v0 : Ref sig .tc)
abbrev v1' : DevRef τ sig := Proc.devRef .tc (main_v1 : Ref sig .tc)
abbrev a3' : DevRef τ sig := Proc.devRef .tc (main_arg3 : Ref sig .tc)
abbrev a4' : DevRef τ sig := Proc.devRef .tc (main_arg4 : Ref sig .tc)
abbrev v60' : DevRef τ sig := Proc.devRef .tc (main_v6_0 : Ref sig .tc)
abbrev v61' : DevRef τ sig := Proc.devRef .tc (main_v6_1 : Ref sig .tc)
abbrev v70' : DevRef τ sig := Proc.devRef .tc (main_v7_0 : Ref sig .tc)
abbrev v71' : DevRef τ sig := Proc.devRef .tc (main_v7_1 : Ref sig .tc)

/-- what call 0 is handed: the four arrays it reads, the two it writes -/
abbrev T60 : Finset (DevRef τ sig) := {v0', v1', a3', a4', v60', v61'}
/-- and call 1 -/
abbrev T61 : Finset (DevRef τ sig) := {v0', v1', a3', a4', v70', v71'}

theorem hT60 : T60 ⊆ Pipeline.ucRefs τ sig := by decide
theorem hT61 : T61 ⊆ Pipeline.ucRefs τ sig := by decide

variable (m : (ℓ : Loc nD τ sig) → Buf (Elt F) ℓ)

/-- the tables at their launch contents, the index arrays as the reshapes left them -/
def ctF (d : Dev nD) : Buf (Elt F) (ctLoc d) := m (ctLoc d)
def ntF (d : Dev nD) : Buf (Elt F) (ntLoc d) := m (ntLoc d)
def i0F (d : Dev nD) : Buf (Elt F) (v0Loc d) := V1 m d v0'
def i1F (d : Dev nD) : Buf (Elt F) (v1Loc d) := V1 m d v1'

/-- the handshakes' payloads at those contents -/
abbrev PP : (K (F := F)).Pay (nD := nD) (Val := Elt F) (Name := ℕ) (U := UU) := P (ctF m) (ntF m) (i0F m) (i1F m)

theorem V1_a3 (d : Dev nD) : V1 m d a3' = ctF m d := by unfold V1 ctF V0; after_results
theorem V1_a4 (d : Dev nD) : V1 m d a4' = ntF m d := by unfold V1 ntF V0; after_results

/-- after call 0: its two results at the gathered rows of half 0 -/
def Wb (d : Dev nD) : Valuation τ sig (Elt F) :=
  Function.update (Function.update (V1 m d) v60' (outC (ctF m) (i0F m) d 0)) v61' (outN (ntF m) (i1F m) d 0)
/-- after call 1: half 1 -/
def Wc (d : Dev nD) : Valuation τ sig (Elt F) :=
  Function.update (Function.update (Wb m d) v70' (outC (ctF m) (i0F m) d 1)) v71' (outN (ntF m) (i1F m) d 1)

theorem held_T60 (d : Dev nD) (W : Valuation τ sig (Elt F)) :
    (held (SparseCore.T d) T60 W : sProp 𝕄)
      = iprop((v0Loc d ↦{fullShare} W v0') ∗ (v1Loc d ↦{fullShare} W v1') ∗ (ctLoc d ↦{fullShare} W a3') ∗ (ntLoc d ↦{fullShare} W a4')
          ∗ (oc0Loc d ↦{fullShare} W v60') ∗ (on0Loc d ↦{fullShare} W v61')) := by
  unfold held T60
  rw [SparseCore.bigSep_insert' (by decide), SparseCore.bigSep_insert' (by decide), SparseCore.bigSep_insert' (by decide),
    SparseCore.bigSep_insert' (by decide), SparseCore.bigSep_insert' (by decide), bigSep_singleton]

theorem held_T61 (d : Dev nD) (W : Valuation τ sig (Elt F)) :
    (held (SparseCore.T d) T61 W : sProp 𝕄)
      = iprop((v0Loc d ↦{fullShare} W v0') ∗ (v1Loc d ↦{fullShare} W v1') ∗ (ctLoc d ↦{fullShare} W a3') ∗ (ntLoc d ↦{fullShare} W a4')
          ∗ (oc1Loc d ↦{fullShare} W v70') ∗ (on1Loc d ↦{fullShare} W v71')) := by
  unfold held T61
  rw [SparseCore.bigSep_insert' (by decide), SparseCore.bigSep_insert' (by decide), SparseCore.bigSep_insert' (by decide),
    SparseCore.bigSep_insert' (by decide), SparseCore.bigSep_insert' (by decide), bigSep_singleton]

/-! ## The valuations at the calls' arrays -/

theorem Wb_v0 (d : Dev nD) : Wb m d v0' = i0F m d := by
  unfold Wb; rw [Function.update_of_ne (by decide), Function.update_of_ne (by decide)]; rfl
theorem Wb_v1 (d : Dev nD) : Wb m d v1' = i1F m d := by
  unfold Wb; rw [Function.update_of_ne (by decide), Function.update_of_ne (by decide)]; rfl
theorem Wb_a3 (d : Dev nD) : Wb m d a3' = ctF m d := by
  unfold Wb; rw [Function.update_of_ne (by decide), Function.update_of_ne (by decide)]; exact V1_a3 m d
theorem Wb_a4 (d : Dev nD) : Wb m d a4' = ntF m d := by
  unfold Wb; rw [Function.update_of_ne (by decide), Function.update_of_ne (by decide)]; exact V1_a4 m d
theorem Wb_v60 (d : Dev nD) : Wb m d v60' = outC (ctF m) (i0F m) d 0 := by
  unfold Wb; rw [Function.update_of_ne (by decide), Function.update_self]
theorem Wb_v61 (d : Dev nD) : Wb m d v61' = outN (ntF m) (i1F m) d 0 := by
  unfold Wb; rw [Function.update_self]
theorem Wb_rest (d : Dev nD) : ∀ b ∈ Pipeline.ucRefs τ sig \ T60, Wb m d b = V1 m d b := by
  intro b hb
  have hb' := (Finset.mem_sdiff.mp hb).2
  have h1 : b ≠ v61' := fun e => hb' (by rw [e]; decide)
  have h2 : b ≠ v60' := fun e => hb' (by rw [e]; decide)
  unfold Wb
  rw [Function.update_of_ne h1, Function.update_of_ne h2]

theorem Wc_v0 (d : Dev nD) : Wc m d v0' = i0F m d := by
  unfold Wc; rw [Function.update_of_ne (by decide), Function.update_of_ne (by decide)]; exact Wb_v0 m d
theorem Wc_v1 (d : Dev nD) : Wc m d v1' = i1F m d := by
  unfold Wc; rw [Function.update_of_ne (by decide), Function.update_of_ne (by decide)]; exact Wb_v1 m d
theorem Wc_a3 (d : Dev nD) : Wc m d a3' = ctF m d := by
  unfold Wc; rw [Function.update_of_ne (by decide), Function.update_of_ne (by decide)]; exact Wb_a3 m d
theorem Wc_a4 (d : Dev nD) : Wc m d a4' = ntF m d := by
  unfold Wc; rw [Function.update_of_ne (by decide), Function.update_of_ne (by decide)]; exact Wb_a4 m d
theorem Wc_v70 (d : Dev nD) : Wc m d v70' = outC (ctF m) (i0F m) d 1 := by
  unfold Wc; rw [Function.update_of_ne (by decide), Function.update_self]
theorem Wc_v71 (d : Dev nD) : Wc m d v71' = outN (ntF m) (i1F m) d 1 := by
  unfold Wc; rw [Function.update_self]
theorem Wc_rest (d : Dev nD) : ∀ b ∈ Pipeline.ucRefs τ sig \ T61, Wc m d b = Wb m d b := by
  intro b hb
  have hb' := (Finset.mem_sdiff.mp hb).2
  have h1 : b ≠ v71' := fun e => hb' (by rw [e]; decide)
  have h2 : b ≠ v70' := fun e => hb' (by rw [e]; decide)
  unfold Wc
  rw [Function.update_of_ne h1, Function.update_of_ne h2]

variable [FloatOps F]

/-! ## The program after the calls -/

/-- the first pipeline, the copy, the second pipeline -/
def rest2 (d : Dev nD) : Prog (TpuEff nD τ sig (Elt F) (SparseCore.Sig (ΛP (F := F)) 2) .tc) PUnit := do
  Prog.lift (.customCall (SparseCore.inner (Pipeline.entry 0)) ())
  hlo rfl (opCp (F := F)) (fun _ => .ret ⟨⟩)
  Prog.lift (.customCall (SparseCore.inner (Pipeline.entry 1)) ())
  pure ⟨⟩

theorem rest_eq (d : Dev nD) : rest (F := F) d = ((sc (F := F)).run d 0 >>= fun _ => (sc (F := F)).run d 1 >>= fun _ => rest2 (F := F) d) := rfl

/-! ## The calls -/

/-- what the proof of a call gives @main: from the call's six arrays to the same with the results gathered -/
def CallStmt0 : Prop :=
  ∀ (κ : GSem nD τ sig → ℕ) (d : Dev nD) (f0 : Buf (Elt F) (oc0Loc d)) (f1 : Buf (Elt F) (on0Loc d)) (Φ : PUnit → sProp 𝕄),
    iprop((K (F := F)).ctx EH (PP m) κ ∗ (K (F := F)).tcSt EH d 0 ∗ insAt (ctF m) (ntF m) (i0F m) (i1F m) d fullShare ∗ (oc0Loc d ↦{fullShare} f0) ∗ (on0Loc d ↦{fullShare} f1)
        ∗ (((K (F := F)).tcSt EH d 1 ∗ insAt (ctF m) (ntF m) (i0F m) (i1F m) d fullShare ∗ (oc0Loc d ↦{fullShare} outC (ctF m) (i0F m) d 0) ∗ (on0Loc d ↦{fullShare} outN (ntF m) (i1F m) d 0)) -∗ Φ ⟨⟩))
      ⊢ wp frame (wpE ((K (F := F)).defs (D (F := F))) 𝒱 (SparseCore.T d) none) Set.univ ((K (F := F)).run d 0) Φ

def CallStmt1 : Prop :=
  ∀ (κ : GSem nD τ sig → ℕ) (d : Dev nD) (f0 : Buf (Elt F) (oc1Loc d)) (f1 : Buf (Elt F) (on1Loc d)) (Φ : PUnit → sProp 𝕄),
    iprop((K (F := F)).ctx EH (PP m) κ ∗ (K (F := F)).tcSt EH d 1 ∗ insAt (ctF m) (ntF m) (i0F m) (i1F m) d fullShare ∗ (oc1Loc d ↦{fullShare} f0) ∗ (on1Loc d ↦{fullShare} f1)
        ∗ (((K (F := F)).tcSt EH d 2 ∗ insAt (ctF m) (ntF m) (i0F m) (i1F m) d fullShare ∗ (oc1Loc d ↦{fullShare} outC (ctF m) (i0F m) d 1) ∗ (on1Loc d ↦{fullShare} outN (ntF m) (i1F m) d 1)) -∗ Φ ⟨⟩))
      ⊢ wp frame (wpE ((K (F := F)).defs (D (F := F))) 𝒱 (SparseCore.T d) none) Set.univ ((K (F := F)).run d 1) Φ

/-- The two calls, from the arrays as the reshapes left them: the rest of @main runs with the four results gathered. -/
theorem calls_run (h0 : CallStmt0 m) (h1 : CallStmt1 m) (κ : GSem nD τ sig → ℕ) (d : Dev nD) (Q : PUnit → sProp 𝕄) :
    iprop((K (F := F)).ctx EH (PP m) κ ∗ (K (F := F)).tcSt EH d 0 ∗ (held (SparseCore.T d) (Pipeline.ucRefs τ sig) (V1 m d) : sProp 𝕄)
        ∗ (((K (F := F)).tcSt EH d 2 ∗ (held (SparseCore.T d) (Pipeline.ucRefs τ sig) (Wc m d) : sProp 𝕄))
            -∗ wp frame (wpE ((K (F := F)).defs (D (F := F))) 𝒱 (SparseCore.T d) none) Set.univ (rest2 (F := F) d) Q))
      ⊢ wp frame (wpE ((K (F := F)).defs (D (F := F))) 𝒱 (SparseCore.T d) none) Set.univ (rest (F := F) d) Q := by
  rw [rest_eq, wp_bind]
  iintro ⟨#Hctx, Hst, Hheld, Hk⟩
  -- call 0
  ihave H := (Entails.of_eq (held_split_at (c := SparseCore.T d) hT60 (V1 m d) (V1 m d) (fun _ _ => rfl))) $$ Hheld
  icases H with ⟨HT, Hrest⟩
  ihave H6 := (Entails.of_eq (held_T60 d (V1 m d))) $$ HT
  rw [V1_a3, V1_a4]
  icases H6 with ⟨H0, H1, Hc, Hn, Ho0, Ho1⟩
  iapply (h0 κ d (V1 m d v60') (V1 m d v61') _)
  isplitr; · iexact Hctx
  isplitl [Hst]; · iexact Hst
  isplitl [H0 H1 Hc Hn]
  · isplitl [H0]; · iexact H0
    isplitl [H1]; · iexact H1
    isplitl [Hc]; · iexact Hc
    iexact Hn
  isplitl [Ho0]; · iexact Ho0
  isplitl [Ho1]; · iexact Ho1
  iintro ⟨Hst, ⟨H0, H1, Hc, Hn⟩, Ho0, Ho1⟩
  ihave Hheld := (Entails.of_eq (held_split_at (c := SparseCore.T d) hT60 (V1 m d) (Wb m d) (Wb_rest m d)).symm) $$ [H0 H1 Hc Hn Ho0 Ho1 Hrest]
  · isplitr [Hrest]
    · iapply (Entails.of_eq (held_T60 d (Wb m d)).symm)
      rw [Wb_v0, Wb_v1, Wb_a3, Wb_a4, Wb_v60, Wb_v61]
      isplitl [H0]; · iexact H0
      isplitl [H1]; · iexact H1
      isplitl [Hc]; · iexact Hc
      isplitl [Hn]; · iexact Hn
      isplitl [Ho0]; · iexact Ho0
      iexact Ho1
    · iexact Hrest
  -- call 1
  rw [wp_bind]
  ihave H := (Entails.of_eq (held_split_at (c := SparseCore.T d) hT61 (Wb m d) (Wb m d) (fun _ _ => rfl))) $$ Hheld
  icases H with ⟨HT, Hrest⟩
  ihave H6 := (Entails.of_eq (held_T61 d (Wb m d))) $$ HT
  rw [Wb_v0, Wb_v1, Wb_a3, Wb_a4]
  icases H6 with ⟨H0, H1, Hc, Hn, Ho0, Ho1⟩
  iapply (h1 κ d (Wb m d v70') (Wb m d v71') _)
  isplitr; · iexact Hctx
  isplitl [Hst]; · iexact Hst
  isplitl [H0 H1 Hc Hn]
  · isplitl [H0]; · iexact H0
    isplitl [H1]; · iexact H1
    isplitl [Hc]; · iexact Hc
    iexact Hn
  isplitl [Ho0]; · iexact Ho0
  isplitl [Ho1]; · iexact Ho1
  iintro ⟨Hst, ⟨H0, H1, Hc, Hn⟩, Ho0, Ho1⟩
  iapply Hk
  isplitl [Hst]; · iexact Hst
  iapply (Entails.of_eq (held_split_at (c := SparseCore.T d) hT61 (Wb m d) (Wc m d) (Wc_rest m d)).symm)
  isplitr [Hrest]
  · iapply (Entails.of_eq (held_T61 d (Wc m d)).symm)
    rw [Wc_v0, Wc_v1, Wc_a3, Wc_a4, Wc_v70, Wc_v71]
    isplitl [H0]; · iexact H0
    isplitl [H1]; · iexact H1
    isplitl [Hc]; · iexact Hc
    isplitl [Hn]; · iexact Hn
    isplitl [Ho0]; · iexact Ho0
    iexact Ho1
  · iexact Hrest

end Cert.Kernel.MainSide

end
-- ==== Proof.Bits.TcData.lean ====
/-
  The two TensorCore pipelines' proof data: what each window's staging buffer holds after the body at each grid
  point, as pure terms of the arrays' contents when the pipeline is entered, and the result arrays' final contents.

  Each pipeline runs four grid points; point t stages 2048 rows of the two gathered row arrays and of the index
  array, the five small arrays whole, and writes back 2048 rows of the result. The body's result block is one
  term of the staged blocks (the generated payloads), so the final array is that term block by block.
-/
import proofs.«204006_g8589934699_cont_9to1c4b_872_29_alg».proof.Proof.Bits.ScSetup
import Idealize.ShloMosaic.Lib.Pipeline.Value

noncomputable section

namespace Cert.Kernel.TcSide

open Cert.Kernel Cert.Kernel.Gen Cert.Kernel.Setup
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipelines have no prefetched table: their admissible tables are the trivial ones. -/
abbrev adm : (p : Fin 2) → (pcfgs (F := F) p).Adm := fun p => (cfgs p).toPCfg_adm

/-- Window `w`'s block at point `t` of the first pipeline, read off its array. -/
def iblk2 (d : Dev nD) (W : Valuation τ sig (Elt F)) (w : Fin cfg2.W) (t : Fin cfg2.N) : ((cfg2.win w).xblock (cfg2.grid.coords t)).Idx → Elt F (cfg2.win w).elt :=
  ((cfg2.win w).blk t).view.read (Elt F) (W (Pipeline.arrRef spec2 w))

def iblk3 (d : Dev nD) (W : Valuation τ sig (Elt F)) (w : Fin cfg3.W) (t : Fin cfg3.N) : ((cfg3.win w).xblock (cfg3.grid.coords t)).Idx → Elt F (cfg3.win w).elt :=
  ((cfg3.win w).blk t).view.read (Elt F) (W (Pipeline.arrRef spec3 w))

/-- What the first pipeline's body leaves in the result's staging buffer at point `t`. -/
def out2 (d : Dev nD) (W : Valuation τ sig (Elt F)) (t : Fin cfg2.N) : Vec F S2048x256 .f32 :=
  k2_pay1 (k2_pay2 (iblk2 d W 1 t) (iblk2 d W 2 t) (iblk2 d W 0 t) (iblk2 d W 4 t) (iblk2 d W 3 t) (iblk2 d W 5 t))
    (k2_pay3 (iblk2 d W 1 t) (iblk2 d W 2 t) (iblk2 d W 0 t) (iblk2 d W 4 t) (iblk2 d W 3 t) (iblk2 d W 5 t))
    (k2_pay4 (iblk2 d W 1 t) (iblk2 d W 2 t) (iblk2 d W 0 t) (iblk2 d W 4 t) (iblk2 d W 3 t) (iblk2 d W 5 t))
    (iblk2 d W 6 t) (iblk2 d W 7 t)

def out3 (d : Dev nD) (W : Valuation τ sig (Elt F)) (t : Fin cfg3.N) : Vec F S2048x256 .f32 :=
  k3_pay1 (k3_pay2 (iblk3 d W 1 t) (iblk3 d W 2 t) (iblk3 d W 0 t) (iblk3 d W 4 t) (iblk3 d W 3 t) (iblk3 d W 5 t))
    (k3_pay3 (iblk3 d W 1 t) (iblk3 d W 2 t) (iblk3 d W 0 t) (iblk3 d W 4 t) (iblk3 d W 3 t) (iblk3 d W 5 t))
    (k3_pay4 (iblk3 d W 1 t) (iblk3 d W 2 t) (iblk3 d W 0 t) (iblk3 d W 4 t) (iblk3 d W 3 t) (iblk3 d W 5 t))
    (iblk3 d W 6 t) (iblk3 d W 7 t)

/-- The recorded pairs the TensorCore may hold after the two SparseCore calls. -/
def recB (d : Dev nD) : Set (SemLoc sig × HIx 2) := {p | (K (F := F)).lev ((T d : Thread nD τ), p.1) p.2 ≤ 16}

/-- The first pipeline's proof data on device `d`, its arrays entered at `W`. -/
def dat2 (d : Dev nD) (W : Valuation τ sig (Elt F)) : Pipeline.Dat τ (Elt F) (HIx 2) ℕ UU ℕ cfg2 d where
  A w := W (Pipeline.arrRef spec2 w)
  after w t := match w with
    | ⟨0, _⟩ => iblk2 d W 0 t
    | ⟨1, _⟩ => iblk2 d W 1 t
    | ⟨2, _⟩ => iblk2 d W 2 t
    | ⟨3, _⟩ => iblk2 d W 3 t
    | ⟨4, _⟩ => iblk2 d W 4 t
    | ⟨5, _⟩ => iblk2 d W 5 t
    | ⟨6, _⟩ => iblk2 d W 6 t
    | ⟨7, _⟩ => iblk2 d W 7 t
    | ⟨8, _⟩ => out2 d W t
  Φ _ := Pipeline.scopedRest (Ix := HIx 2) (Name := ℕ) (U := UU) (Lvl := ℕ) (Val := Elt F) spec2 d
  q _ := fullShare
  owed _ := 0
  recorded _ := recB (F := F) d

def dat3 (d : Dev nD) (W : Valuation τ sig (Elt F)) : Pipeline.Dat τ (Elt F) (HIx 2) ℕ UU ℕ cfg3 d where
  A w := W (Pipeline.arrRef spec3 w)
  after w t := match w with
    | ⟨0, _⟩ => iblk3 d W 0 t
    | ⟨1, _⟩ => iblk3 d W 1 t
    | ⟨2, _⟩ => iblk3 d W 2 t
    | ⟨3, _⟩ => iblk3 d W 3 t
    | ⟨4, _⟩ => iblk3 d W 4 t
    | ⟨5, _⟩ => iblk3 d W 5 t
    | ⟨6, _⟩ => iblk3 d W 6 t
    | ⟨7, _⟩ => iblk3 d W 7 t
    | ⟨8, _⟩ => out3 d W t
  Φ _ := Pipeline.scopedRest (Ix := HIx 2) (Name := ℕ) (U := UU) (Lvl := ℕ) (Val := Elt F) spec3 d
  q _ := fullShare
  owed _ := 0
  recorded _ := recB (F := F) d

/-- The family of proof data: both pipelines entered at the valuation `W` (each reads only its own arrays). -/
def pdats (W : Valuation τ sig (Elt F)) : (p : Fin 2) → (d : Dev nD) → Pipeline.Dat τ (Elt F) (HIx 2) ℕ UU ℕ (Pipeline.pin (pcfgs (F := F)) adm p) d
  | ⟨0, _⟩ => fun d => dat2 d W
  | ⟨1, _⟩ => fun d => dat3 d W

/-- What the first pipeline leaves in its result array. -/
def res2 (d : Dev nD) (W : Valuation τ sig (Elt F)) : Buf (Elt F) ((d : Thread nD τ).loc main_v8) := (dat2 d W).arrAt 8 cfg2.N
/-- What the second pipeline leaves in its result array. -/
def res3 (d : Dev nD) (W : Valuation τ sig (Elt F)) : Buf (Elt F) ((d : Thread nD τ).loc main_v9) := (dat3 d W).arrAt 8 cfg3.N

/-- The valuation after the first pipeline: its result array rewritten. -/
def W2 (d : Dev nD) (W : Valuation τ sig (Elt F)) : Valuation τ sig (Elt F) := Function.update W (Proc.devRef .tc main_v8) (res2 d W)
/-- The valuation after the second pipeline: its result array rewritten. -/
def W3 (d : Dev nD) (W : Valuation τ sig (Elt F)) : Valuation τ sig (Elt F) := Function.update W (Proc.devRef .tc main_v9) (res3 d W)

/-- The pipeline's launch ghost state on device `d`: its staging cells' and its transfers' duty tokens. -/
abbrev ghost (p : Fin 2) (d : Dev nD) : sProp 𝕄 :=
  iprop(Pipeline.cellsGhost cfgs EP p d ∗ Pipeline.toksInit cfgs EP p d)

/-! ## The proof data projected -/

theorem A2_eq (d : Dev nD) (W : Valuation τ sig (Elt F)) (w : Fin cfg2.W) : (dat2 d W).A w = W (Pipeline.arrRef spec2 w) := by dsimp only [dat2]
theorem A3_eq (d : Dev nD) (W : Valuation τ sig (Elt F)) (w : Fin cfg3.W) : (dat3 d W).A w = W (Pipeline.arrRef spec3 w) := by dsimp only [dat3]

theorem after2_0 (d : Dev nD) (W : Valuation τ sig (Elt F)) (t : Fin cfg2.N) : (dat2 d W).after 0 t = iblk2 d W 0 t := by dsimp only [dat2]
theorem after2_1 (d : Dev nD) (W : Valuation τ sig (Elt F)) (t : Fin cfg2.N) : (dat2 d W).after 1 t = iblk2 d W 1 t := by dsimp only [dat2]
theorem after2_2 (d : Dev nD) (W : Valuation τ sig (Elt F)) (t : Fin cfg2.N) : (dat2 d W).after 2 t = iblk2 d W 2 t := by dsimp only [dat2]
theorem after2_3 (d : Dev nD) (W : Valuation τ sig (Elt F)) (t : Fin cfg2.N) : (dat2 d W).after 3 t = iblk2 d W 3 t := by dsimp only [dat2]
theorem after2_4 (d : Dev nD) (W : Valuation τ sig (Elt F)) (t : Fin cfg2.N) : (dat2 d W).after 4 t = iblk2 d W 4 t := by dsimp only [dat2]
theorem after2_5 (d : Dev nD) (W : Valuation τ sig (Elt F)) (t : Fin cfg2.N) : (dat2 d W).after 5 t = iblk2 d W 5 t := by dsimp only [dat2]
theorem after2_6 (d : Dev nD) (W : Valuation τ sig (Elt F)) (t : Fin cfg2.N) : (dat2 d W).after 6 t = iblk2 d W 6 t := by dsimp only [dat2]
theorem after2_7 (d : Dev nD) (W : Valuation τ sig (Elt F)) (t : Fin cfg2.N) : (dat2 d W).after 7 t = iblk2 d W 7 t := by dsimp only [dat2]
theorem after2_8 (d : Dev nD) (W : Valuation τ sig (Elt F)) (t : Fin cfg2.N) : (dat2 d W).after 8 t = out2 d W t := by dsimp only [dat2]

theorem after3_0 (d : Dev nD) (W : Valuation τ sig (Elt F)) (t : Fin cfg3.N) : (dat3 d W).after 0 t = iblk3 d W 0 t := by dsimp only [dat3]
theorem after3_1 (d : Dev nD) (W : Valuation τ sig (Elt F)) (t : Fin cfg3.N) : (dat3 d W).after 1 t = iblk3 d W 1 t := by dsimp only [dat3]
theorem after3_2 (d : Dev nD) (W : Valuation τ sig (Elt F)) (t : Fin cfg3.N) : (dat3 d W).after 2 t = iblk3 d W 2 t := by dsimp only [dat3]
theorem after3_3 (d : Dev nD) (W : Valuation τ sig (Elt F)) (t : Fin cfg3.N) : (dat3 d W).after 3 t = iblk3 d W 3 t := by dsimp only [dat3]
theorem after3_4 (d : Dev nD) (W : Valuation τ sig (Elt F)) (t : Fin cfg3.N) : (dat3 d W).after 4 t = iblk3 d W 4 t := by dsimp only [dat3]
theorem after3_5 (d : Dev nD) (W : Valuation τ sig (Elt F)) (t : Fin cfg3.N) : (dat3 d W).after 5 t = iblk3 d W 5 t := by dsimp only [dat3]
theorem after3_6 (d : Dev nD) (W : Valuation τ sig (Elt F)) (t : Fin cfg3.N) : (dat3 d W).after 6 t = iblk3 d W 6 t := by dsimp only [dat3]
theorem after3_7 (d : Dev nD) (W : Valuation τ sig (Elt F)) (t : Fin cfg3.N) : (dat3 d W).after 7 t = iblk3 d W 7 t := by dsimp only [dat3]
theorem after3_8 (d : Dev nD) (W : Valuation τ sig (Elt F)) (t : Fin cfg3.N) : (dat3 d W).after 8 t = out3 d W t := by dsimp only [dat3]

/-- An input window's staging buffer holds its block at every point, fetched there or not: an unfetched window's
    block index has not moved, and the body left the block in place. -/
theorem before2_0 (d : Dev nD) (W : Valuation τ sig (Elt F)) (t : Fin cfg2.N) (x) : (dat2 d W).before 0 t x = iblk2 d W 0 t :=
  ((dat2 d W).before_in_eq_fetched 0 rfl (fun _ => rfl) (fun _ _ _ => rfl) (fun t => by rw [after2_0]; unfold Pipeline.Dat.blockOf iblk2; rw [A2_eq]; try rfl) t x).trans
    (by unfold Pipeline.Dat.fetched Pipeline.Dat.blockOf iblk2; rw [A2_eq]; try rfl)
theorem before2_1 (d : Dev nD) (W : Valuation τ sig (Elt F)) (t : Fin cfg2.N) (x) : (dat2 d W).before 1 t x = iblk2 d W 1 t :=
  ((dat2 d W).before_in_eq_fetched 1 rfl (fun _ => rfl) (fun _ _ _ => rfl) (fun t => by rw [after2_1]; unfold Pipeline.Dat.blockOf iblk2; rw [A2_eq]; try rfl) t x).trans
    (by unfold Pipeline.Dat.fetched Pipeline.Dat.blockOf iblk2; rw [A2_eq]; try rfl)
theorem before2_2 (d : Dev nD) (W : Valuation τ sig (Elt F)) (t : Fin cfg2.N) (x) : (dat2 d W).before 2 t x = iblk2 d W 2 t :=
  ((dat2 d W).before_in_eq_fetched 2 rfl (fun _ => rfl) (fun _ _ _ => rfl) (fun t => by rw [after2_2]; unfold Pipeline.Dat.blockOf iblk2; rw [A2_eq]; try rfl) t x).trans
    (by unfold Pipeline.Dat.fetched Pipeline.Dat.blockOf iblk2; rw [A2_eq]; try rfl)
theorem before2_3 (d : Dev nD) (W : Valuation τ sig (Elt F)) (t : Fin cfg2.N) (x) : (dat2 d W).before 3 t x = iblk2 d W 3 t :=
  ((dat2 d W).before_in_eq_fetched 3 rfl (fun _ => rfl) (fun _ _ _ => rfl) (fun t => by rw [after2_3]; unfold Pipeline.Dat.blockOf iblk2; rw [A2_eq]; try rfl) t x).trans
    (by unfold Pipeline.Dat.fetched Pipeline.Dat.blockOf iblk2; rw [A2_eq]; try rfl)
theorem before2_4 (d : Dev nD) (W : Valuation τ sig (Elt F)) (t : Fin cfg2.N) (x) : (dat2 d W).before 4 t x = iblk2 d W 4 t :=
  ((dat2 d W).before_in_eq_fetched 4 rfl (fun _ => rfl) (fun _ _ _ => rfl) (fun t => by rw [after2_4]; unfold Pipeline.Dat.blockOf iblk2; rw [A2_eq]; try rfl) t x).trans
    (by unfold Pipeline.Dat.fetched Pipeline.Dat.blockOf iblk2; rw [A2_eq]; try rfl)
theorem before2_5 (d : Dev nD) (W : Valuation τ sig (Elt F)) (t : Fin cfg2.N) (x) : (dat2 d W).before 5 t x = iblk2 d W 5 t :=
  ((dat2 d W).before_in_eq_fetched 5 rfl (fun _ => rfl) (fun _ _ _ => rfl) (fun t => by rw [after2_5]; unfold Pipeline.Dat.blockOf iblk2; rw [A2_eq]; try rfl) t x).trans
    (by unfold Pipeline.Dat.fetched Pipeline.Dat.blockOf iblk2; rw [A2_eq]; try rfl)
theorem before2_6 (d : Dev nD) (W : Valuation τ sig (Elt F)) (t : Fin cfg2.N) (x) : (dat2 d W).before 6 t x = iblk2 d W 6 t :=
  ((dat2 d W).before_in_eq_fetched 6 rfl (fun _ => rfl) (fun _ _ _ => rfl) (fun t => by rw [after2_6]; unfold Pipeline.Dat.blockOf iblk2; rw [A2_eq]; try rfl) t x).trans
    (by unfold Pipeline.Dat.fetched Pipeline.Dat.blockOf iblk2; rw [A2_eq]; try rfl)
theorem before2_7 (d : Dev nD) (W : Valuation τ sig (Elt F)) (t : Fin cfg2.N) (x) : (dat2 d W).before 7 t x = iblk2 d W 7 t :=
  ((dat2 d W).before_in_eq_fetched 7 rfl (fun _ => rfl) (fun _ _ _ => rfl) (fun t => by rw [after2_7]; unfold Pipeline.Dat.blockOf iblk2; rw [A2_eq]; try rfl) t x).trans
    (by unfold Pipeline.Dat.fetched Pipeline.Dat.blockOf iblk2; rw [A2_eq]; try rfl)
theorem before3_0 (d : Dev nD) (W : Valuation τ sig (Elt F)) (t : Fin cfg3.N) (x) : (dat3 d W).before 0 t x = iblk3 d W 0 t :=
  ((dat3 d W).before_in_eq_fetched 0 rfl (fun _ => rfl) (fun _ _ _ => rfl) (fun t => by rw [after3_0]; unfold Pipeline.Dat.blockOf iblk3; rw [A3_eq]; try rfl) t x).trans
    (by unfold Pipeline.Dat.fetched Pipeline.Dat.blockOf iblk3; rw [A3_eq]; try rfl)
theorem before3_1 (d : Dev nD) (W : Valuation τ sig (Elt F)) (t : Fin cfg3.N) (x) : (dat3 d W).before 1 t x = iblk3 d W 1 t :=
  ((dat3 d W).before_in_eq_fetched 1 rfl (fun _ => rfl) (fun _ _ _ => rfl) (fun t => by rw [after3_1]; unfold Pipeline.Dat.blockOf iblk3; rw [A3_eq]; try rfl) t x).trans
    (by unfold Pipeline.Dat.fetched Pipeline.Dat.blockOf iblk3; rw [A3_eq]; try rfl)
theorem before3_2 (d : Dev nD) (W : Valuation τ sig (Elt F)) (t : Fin cfg3.N) (x) : (dat3 d W).before 2 t x = iblk3 d W 2 t :=
  ((dat3 d W).before_in_eq_fetched 2 rfl (fun _ => rfl) (fun _ _ _ => rfl) (fun t => by rw [after3_2]; unfold Pipeline.Dat.blockOf iblk3; rw [A3_eq]; try rfl) t x).trans
    (by unfold Pipeline.Dat.fetched Pipeline.Dat.blockOf iblk3; rw [A3_eq]; try rfl)
theorem before3_3 (d : Dev nD) (W : Valuation τ sig (Elt F)) (t : Fin cfg3.N) (x) : (dat3 d W).before 3 t x = iblk3 d W 3 t :=
  ((dat3 d W).before_in_eq_fetched 3 rfl (fun _ => rfl) (fun _ _ _ => rfl) (fun t => by rw [after3_3]; unfold Pipeline.Dat.blockOf iblk3; rw [A3_eq]; try rfl) t x).trans
    (by unfold Pipeline.Dat.fetched Pipeline.Dat.blockOf iblk3; rw [A3_eq]; try rfl)
theorem before3_4 (d : Dev nD) (W : Valuation τ sig (Elt F)) (t : Fin cfg3.N) (x) : (dat3 d W).before 4 t x = iblk3 d W 4 t :=
  ((dat3 d W).before_in_eq_fetched 4 rfl (fun _ => rfl) (fun _ _ _ => rfl) (fun t => by rw [after3_4]; unfold Pipeline.Dat.blockOf iblk3; rw [A3_eq]; try rfl) t x).trans
    (by unfold Pipeline.Dat.fetched Pipeline.Dat.blockOf iblk3; rw [A3_eq]; try rfl)
theorem before3_5 (d : Dev nD) (W : Valuation τ sig (Elt F)) (t : Fin cfg3.N) (x) : (dat3 d W).before 5 t x = iblk3 d W 5 t :=
  ((dat3 d W).before_in_eq_fetched 5 rfl (fun _ => rfl) (fun _ _ _ => rfl) (fun t => by rw [after3_5]; unfold Pipeline.Dat.blockOf iblk3; rw [A3_eq]; try rfl) t x).trans
    (by unfold Pipeline.Dat.fetched Pipeline.Dat.blockOf iblk3; rw [A3_eq]; try rfl)
theorem before3_6 (d : Dev nD) (W : Valuation τ sig (Elt F)) (t : Fin cfg3.N) (x) : (dat3 d W).before 6 t x = iblk3 d W 6 t :=
  ((dat3 d W).before_in_eq_fetched 6 rfl (fun _ => rfl) (fun _ _ _ => rfl) (fun t => by rw [after3_6]; unfold Pipeline.Dat.blockOf iblk3; rw [A3_eq]; try rfl) t x).trans
    (by unfold Pipeline.Dat.fetched Pipeline.Dat.blockOf iblk3; rw [A3_eq]; try rfl)
theorem before3_7 (d : Dev nD) (W : Valuation τ sig (Elt F)) (t : Fin cfg3.N) (x) : (dat3 d W).before 7 t x = iblk3 d W 7 t :=
  ((dat3 d W).before_in_eq_fetched 7 rfl (fun _ => rfl) (fun _ _ _ => rfl) (fun t => by rw [after3_7]; unfold Pipeline.Dat.blockOf iblk3; rw [A3_eq]; try rfl) t x).trans
    (by unfold Pipeline.Dat.fetched Pipeline.Dat.blockOf iblk3; rw [A3_eq]; try rfl)

end Cert.Kernel.TcSide

end
-- ==== Proof.Bits.MainRegions.lean ====
/-
  @main on the TensorCore, after the calls: the first pipeline, the copy of its result into the second's result
  buffer, the second pipeline. Each pipeline takes the unscoped arrays whole and hands them back with its result
  array rewritten; the copy is one host operation over the arrays held whole.
-/
import proofs.«204006_g8589934699_cont_9to1c4b_872_29_alg».proof.Proof.Bits.MainCalls
import proofs.«204006_g8589934699_cont_9to1c4b_872_29_alg».proof.Proof.Bits.TcData

noncomputable section

namespace Cert.Kernel.MainSide

open Cert.Kernel Cert.Kernel.Gen Cert.Kernel.Setup Cert.LibHeld Cert.Kernel.ScSide Cert.Kernel.TcSide

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after)

variable {F : FTy → Type} [FloatOps F]

local notation "𝕄" => MT nD τ sig (HIx 2) (Elt F) ℕ UU ℕ

variable (P : (K (F := F)).Pay (nD := nD) (Val := Elt F) (Name := ℕ) (U := UU))

/-- what the proof of a pipeline gives @main: from the unscoped arrays whole to the same with the result rewritten -/
def RegionStmt0 : Prop :=
  ∀ (κ : GSem nD τ sig → ℕ) (d : Dev nD) (W : Valuation τ sig (Elt F)) (Φ : PUnit → sProp 𝕄),
    iprop((K (F := F)).ctx EH P κ ∗ (K (F := F)).tcSt EH d 2 ∗ boundary (SparseCore.T d) ∗ unscopedBufs d (fun b => W b)
        ∗ ghost (F := F) 0 d
        ∗ (iprop((K (F := F)).tcSt EH d 2 ∗ boundary (SparseCore.T d) ∗ unscopedBufs d (fun b => W2 d W b)) -∗ Φ ⟨⟩))
      ⊢ wp frame (wpE ((K (F := F)).defs (D (F := F))) 𝒱 (SparseCore.T d) none) Set.univ (Prog.lift (.customCall (SparseCore.inner (Pipeline.entry 0)) ())) Φ

def RegionStmt1 : Prop :=
  ∀ (κ : GSem nD τ sig → ℕ) (d : Dev nD) (W : Valuation τ sig (Elt F)) (Φ : PUnit → sProp 𝕄),
    iprop((K (F := F)).ctx EH P κ ∗ (K (F := F)).tcSt EH d 2 ∗ boundary (SparseCore.T d) ∗ unscopedBufs d (fun b => W b)
        ∗ ghost (F := F) 1 d
        ∗ (iprop((K (F := F)).tcSt EH d 2 ∗ boundary (SparseCore.T d) ∗ unscopedBufs d (fun b => W3 d W b)) -∗ Φ ⟨⟩))
      ⊢ wp frame (wpE ((K (F := F)).defs (D (F := F))) 𝒱 (SparseCore.T d) none) Set.univ (Prog.lift (.customCall (SparseCore.inner (Pipeline.entry 1)) ())) Φ

/-- the valuation the program ends at, from the one the calls left -/
def Wf (d : Dev nD) (W : Valuation τ sig (Elt F)) : Valuation τ sig (Elt F) := W3 d ((opCp (F := F)).result (W2 d W))

set_option maxRecDepth 16384 in
/-- The pipelines and the copy between them. -/
theorem regions_run (hr0 : RegionStmt0 P) (hr1 : RegionStmt1 P) (κ : GSem nD τ sig → ℕ) (d : Dev nD) (W : Valuation τ sig (Elt F))
    (Q : PUnit → sProp 𝕄) :
    iprop((K (F := F)).ctx EH P κ ∗ (K (F := F)).tcSt EH d 2 ∗ boundary (SparseCore.T d)
        ∗ (held (SparseCore.T d) (Pipeline.ucRefs τ sig) W : sProp 𝕄) ∗ ghost (F := F) 0 d ∗ ghost (F := F) 1 d
        ∗ (iprop((K (F := F)).tcSt EH d 2 ∗ (held (SparseCore.T d) (Pipeline.ucRefs τ sig) (Wf d W) : sProp 𝕄)) -∗ Q ⟨⟩))
      ⊢ wp frame (wpE ((K (F := F)).defs (D (F := F))) 𝒱 (SparseCore.T d) none) Set.univ (rest2 (F := F) d) Q := by
  simp only [rest2, wp_bind, wp_pure]
  iintro ⟨#Hctx, Hst, Hb, Hheld, Hg0, Hg1, Hk⟩
  -- the first pipeline
  ihave Hu := (Entails.of_eq (Pipeline.unscopedBufs_held (Ix := HIx 2) (Name := ℕ) (U := UU) (Lvl := ℕ) d W).symm) $$ Hheld
  iapply (hr0 κ d W _)
  isplitr; · iexact Hctx
  isplitl [Hst]; · iexact Hst
  isplitl [Hb]; · iexact Hb
  isplitl [Hu]; · iexact Hu
  isplitl [Hg0]; · iexact Hg0
  iintro ⟨Hst, Hb, Hu⟩
  ihave Hheld := (Entails.of_eq (Pipeline.unscopedBufs_held (Ix := HIx 2) (Name := ℕ) (U := UU) (Lvl := ℕ) d (W2 d W))) $$ Hu
  -- the copy
  iapply (wp_hlo_within 𝒱 (SparseCore.T d) none Set.univ (op := opCp (F := F)) (S := Pipeline.ucRefs τ sig) opCp_sub (V := W2 d W)) $$ [Hb Hheld]
  · isplitl [Hb] <;> iassumption
  iintro ⟨Hb, Hheld⟩
  rw [wp_ret]; imodintro
  -- the second pipeline
  ihave Hu := (Entails.of_eq (Pipeline.unscopedBufs_held (Ix := HIx 2) (Name := ℕ) (U := UU) (Lvl := ℕ) d ((opCp (F := F)).result (W2 d W))).symm) $$ Hheld
  iapply (hr1 κ d ((opCp (F := F)).result (W2 d W)) _)
  isplitr; · iexact Hctx
  isplitl [Hst]; · iexact Hst
  isplitl [Hb]; · iexact Hb
  isplitl [Hu]; · iexact Hu
  isplitl [Hg1]; · iexact Hg1
  iintro ⟨Hst, Hb, Hu⟩
  ihave Hheld := (Entails.of_eq (Pipeline.unscopedBufs_held (Ix := HIx 2) (Name := ℕ) (U := UU) (Lvl := ℕ) d (W3 d ((opCp (F := F)).result (W2 d W))))) $$ Hu
  imodintro
  iapply Hk
  isplitl [Hst]; · iexact Hst
  iexact Hheld

end Cert.Kernel.MainSide

end
-- ==== Proof.Bits.MainFinal.lean ====
/-
  @main on the TensorCore, whole, and the program's run.

  The reshapes, the two calls, the two pipelines with the copy between them: the TensorCore ends holding its
  unscoped arrays whole at the last valuation, in which the ten arguments are as launched — no operation, call
  or pipeline writes them — and the result array is what the second pipeline left.
-/
import proofs.«204006_g8589934699_cont_9to1c4b_872_29_alg».proof.Proof.Bits.MainRegions

noncomputable section

namespace Cert.Kernel.MainSide

open Cert.Kernel Cert.Kernel.Gen Cert.Kernel.Setup Cert.LibHeld Cert.Kernel.ScSide Cert.Kernel.TcSide

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within wp_seq seq after after_cons after_nil)

variable {F : FTy → Type} [FloatOps F]

local notation "𝕄" => MT nD τ sig (HIx 2) (Elt F) ℕ UU ℕ

variable (m : (ℓ : Loc nD τ sig) → Buf (Elt F) ℓ) (ρ : Dev nD → PrngReg)

abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v8' : DevRef τ sig := Proc.devRef .tc (main_v8 : Ref sig .tc)
abbrev v9' : DevRef τ sig := Proc.devRef .tc (main_v9 : Ref sig .tc)

/-- the valuation @main ends at -/
def Vfin (d : Dev nD) : Valuation τ sig (Elt F) := Wf d (Wc m d)

/-- the arrays some operation, call or pipeline writes -/
abbrev written : Finset (DevRef τ sig) := {v0', v1', v2', v3', v4', v5', v60', v61', v70', v71', v8', v9'}

/-- An array nothing writes is, at the end, as launched. -/
theorem Vfin_arg (d : Dev nD) (b : DevRef τ sig) (hb : b ∉ written) : Vfin m d b = m (d, b) := by
  have n0 : b ≠ v0' := fun e => hb (by rw [e]; decide)
  have n1 : b ≠ v1' := fun e => hb (by rw [e]; decide)
  have n2 : b ≠ v2' := fun e => hb (by rw [e]; decide)
  have n3 : b ≠ v3' := fun e => hb (by rw [e]; decide)
  have n4 : b ≠ v4' := fun e => hb (by rw [e]; decide)
  have n5 : b ≠ v5' := fun e => hb (by rw [e]; decide)
  have n60 : b ≠ v60' := fun e => hb (by rw [e]; decide)
  have n61 : b ≠ v61' := fun e => hb (by rw [e]; decide)
  have n70 : b ≠ v70' := fun e => hb (by rw [e]; decide)
  have n71 : b ≠ v71' := fun e => hb (by rw [e]; decide)
  have n8 : b ≠ v8' := fun e => hb (by rw [e]; decide)
  have n9 : b ≠ v9' := fun e => hb (by rw [e]; decide)
  unfold Vfin Wf W3 W2 Wc Wb V1 headOps
  rw [Function.update_of_ne n9,
    (opCp (F := F)).result_of_not_mem _ (show b ∉ ({v9'} : Finset (DevRef τ sig)) from fun h => n9 (Finset.mem_singleton.mp h)),
    Function.update_of_ne n8, Function.update_of_ne n71, Function.update_of_ne n70, Function.update_of_ne n61, Function.update_of_ne n60]
  simp only [after_cons, after_nil]
  rw [(opR5 (F := F)).result_of_not_mem _ (show b ∉ ({v5'} : Finset (DevRef τ sig)) from fun h => n5 (Finset.mem_singleton.mp h)),
    (opR4 (F := F)).result_of_not_mem _ (show b ∉ ({v4'} : Finset (DevRef τ sig)) from fun h => n4 (Finset.mem_singleton.mp h)),
    (opR3 (F := F)).result_of_not_mem _ (show b ∉ ({v3'} : Finset (DevRef τ sig)) from fun h => n3 (Finset.mem_singleton.mp h)),
    (opR2 (F := F)).result_of_not_mem _ (show b ∉ ({v2'} : Finset (DevRef τ sig)) from fun h => n2 (Finset.mem_singleton.mp h)),
    (opR1 (F := F)).result_of_not_mem _ (show b ∉ ({v1'} : Finset (DevRef τ sig)) from fun h => n1 (Finset.mem_singleton.mp h)),
    (opR0 (F := F)).result_of_not_mem _ (show b ∉ ({v0'} : Finset (DevRef τ sig)) from fun h => n0 (Finset.mem_singleton.mp h))]
  rfl

omit [FloatOps F] in
theorem G_split (d : Dev nD) : (G (F := F) d : sProp 𝕄) = iprop(ghost (F := F) 0 d ∗ ghost (F := F) 1 d) := by
  unfold G
  rw [show (Finset.univ : Finset (Fin 2)) = {0, 1} by decide, SparseCore.bigSep_insert' (by decide), bigSep_singleton]

/-- @main on device `d`'s TensorCore. -/
theorem hmain (h0 : CallStmt0 m) (h1 : CallStmt1 m) (hr0 : RegionStmt0 (PP m)) (hr1 : RegionStmt1 (PP m))
    (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 2 ∗ FIN (Vfin m) d) := by
  unfold SparseCore.Cfg.tcRes
  rw [unscoped_held]
  iintro ⟨#Hctx, Hst, ⟨Hb, Hheld, -, -⟩, HG⟩
  iapply (head_run m d _) $$ [Hb Hheld]
  · isplitl [Hb] <;> iassumption
  iintro ⟨Hb, Hheld⟩
  iapply (calls_run m h0 h1 κ d _)
  isplitr; · iexact Hctx
  isplitl [Hst]; · iexact Hst
  isplitl [Hheld]; · iexact Hheld
  iintro ⟨Hst, Hheld⟩
  ihave HG' := (Entails.of_eq (G_split (F := F) d)) $$ HG
  icases HG' with ⟨Hg0, Hg1⟩
  iapply (regions_run (PP m) hr0 hr1 κ d (Wc m d) _)
  isplitr; · iexact Hctx
  isplitl [Hst]; · iexact Hst
  isplitl [Hb]; · iexact Hb
  isplitl [Hheld]; · iexact Hheld
  isplitl [Hg0]; · iexact Hg0
  isplitl [Hg1]; · iexact Hg1
  iintro ⟨Hst, Hheld⟩
  isplitl [Hst]; · iexact Hst
  iexact Hheld

/-! ## The run -/

/-- What the run leaves: the result array at the last valuation's, the ten arguments as launched. -/
def QC : PUnit × MemSt nD τ sig (Elt F) → Prop := fun r => ∀ c : Dev nD,
      r.2.mem ((SparseCore.T c).loc main_v9) = Vfin m c v9'
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)

theorem hQ (s' : Phys nD τ sig (Elt F)) (h : ∀ d, fq (Vfin m) d s') : QC m (⟨⟩, s'.mem) := fun c =>
  ⟨h c v9' (by decide),
    (h c (Proc.devRef .tc (main_arg0 : Ref sig .tc)) (by decide)).trans (Vfin_arg m c _ (by decide)),
    (h c (Proc.devRef .tc (main_arg1 : Ref sig .tc)) (by decide)).trans (Vfin_arg m c _ (by decide)),
    (h c (Proc.devRef .tc (main_arg2 : Ref sig .tc)) (by decide)).trans (Vfin_arg m c _ (by decide)),
    (h c (Proc.devRef .tc (main_arg3 : Ref sig .tc)) (by decide)).trans (Vfin_arg m c _ (by decide)),
    (h c (Proc.devRef .tc (main_arg4 : Ref sig .tc)) (by decide)).trans (Vfin_arg m c _ (by decide)),
    (h c (Proc.devRef .tc (main_arg5 : Ref sig .tc)) (by decide)).trans (Vfin_arg m c _ (by decide)),
    (h c (Proc.devRef .tc (main_arg6 : Ref sig .tc)) (by decide)).trans (Vfin_arg m c _ (by decide)),
    (h c (Proc.devRef .tc (main_arg7 : Ref sig .tc)) (by decide)).trans (Vfin_arg m c _ (by decide)),
    (h c (Proc.devRef .tc (main_arg8 : Ref sig .tc)) (by decide)).trans (Vfin_arg m c _ (by decide)),
    (h c (Proc.devRef .tc (main_arg9 : Ref sig .tc)) (by decide)).trans (Vfin_arg m c _ (by decide))⟩

theorem run_main [∀ e, Nonempty (Elt F e)]
    (ht0 : (K (F := F)).TileObl (D (F := F)) 𝒱 (PP m) v₀ 0) (ht1 : (K (F := F)).TileObl (D (F := F)) 𝒱 (PP m) v₀ 1)
    (hv0 : (K (F := F)).VecSplit' (PP m) 0) (hv1 : (K (F := F)).VecSplit' (PP m) 1)
    (h0 : CallStmt0 m) (h1 : CallStmt1 m) (hr0 : RegionStmt0 (PP m)) (hr1 : RegionStmt1 (PP m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq | 1 => nomatch hq)
    (fun q _ => match q with | 0 => ht0 | 1 => ht1)
    (fun q _ => match q with | 0 => SparseCore.Cfg.VecSplit.of_plain hv0 | 1 => SparseCore.Cfg.VecSplit.of_plain hv1)
    m ρ main (G (F := F)) (FIN (Vfin m)) (u₀ (F := F)) (sep_elim_left.trans (hu₀ (PP m) (fun q thr => P_x _ _ _ _ q thr)))
    (hmain m ρ h0 h1 hr0 hr1) (fq (Vfin m)) (hfin (Vfin m)) (QC m) (hQ m)

end Cert.Kernel.MainSide

end
-- ==== Proof.Bits.MainPre.lean ====
/-
  The gathers' indices are in range: the index arrays the calls read are the reshapes of the two id vectors, so
  every entry of them is an entry of an id vector, which the precondition bounds by its table's extent.
-/
import proofs.«204006_g8589934699_cont_9to1c4b_872_29_alg».proof.Proof.Bits.MainCalls
import proofs.«204006_g8589934699_cont_9to1c4b_872_29_alg».proof.Proof.PreRead

noncomputable section

namespace Cert.Kernel.MainSide

open Cert.Kernel Cert.Kernel.Gen Cert.Kernel.Setup Cert.Kernel.ScSide

open Idealize.ShloMosaic Idealize.ShloMosaic.TcCoe
open Idealize.ShloMosaic.SparseCore (S V T)
open Idealize.SL.Sem
open Idealize.ShloMosaic.StableHlo (after after_cons after_nil)

variable {F : FTy → Type} [FloatOps F]

variable (m : (ℓ : Loc nD τ sig) → Buf (Elt F) ℓ)

/-- an entry of the reshaped code ids is the code id at the same row-major position -/
theorem i0F_apply (d : Dev nD) (j : S2x32x2x128.Idx) :
    i0F m d j = m ((SparseCore.T d).loc main_arg0) (Shape.reshapeEquiv shapeCasts_S16384_S2x32x2x128 j) := by
  have h : i0F m d = shapeCast S2x32x2x128 (m ((SparseCore.T d).loc main_arg0)) shapeCasts_S16384_S2x32x2x128 := by
    unfold i0F V1 V0; after_results; rfl
  rw [h]; rfl

theorem i1F_apply (d : Dev nD) (j : S2x32x2x128.Idx) :
    i1F m d j = m ((SparseCore.T d).loc main_arg1) (Shape.reshapeEquiv shapeCasts_S16384_S2x32x2x128 j) := by
  have h : i1F m d = shapeCast S2x32x2x128 (m ((SparseCore.T d).loc main_arg1)) shapeCasts_S16384_S2x32x2x128 := by
    unfold i1F V1 V0; after_results; rfl
  rw [h]; rfl

/-- Under the precondition every index the calls read names a row of its table. -/
theorem inRange_of_pre [Cert.Pre_input_domain.Facts]
    (hpre : ∀ c : Dev nD, Cert.Pre_input_domain.fn (F := F) (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) = (fun _ => 1#1)) :
    ∀ d : Dev nD, (∀ j : S2x32x2x128.Idx, (i0F m d j).toNat < 4096) ∧ (∀ j : S2x32x2x128.Idx, (i1F m d j).toNat < 16384) := by
  intro d
  obtain ⟨h0, h1, -⟩ := Cert.PreRead.ranges_of_pre _ _ _ _ _ _ _ _ _ _ (hpre d)
  exact ⟨fun j => by rw [i0F_apply]; exact h0 _, fun j => by rw [i1F_apply]; exact h1 _⟩

end Cert.Kernel.MainSide

end
-- ==== Proof.Bits.ScTile0.lean ====
/-
  The vector subcore's kernel of a row-gather call, run once at a symbolic subcore: it fetches its two rows of each index
  array, gathers the rows of the two tables they name into its scratch buffers, copies those out to its blocks of the two
  results, and ends with every semaphore at zero. The blocks end at the gathered rows, as pure terms of the tables and
  the index arrays.
-/
import proofs.«204006_g8589934699_cont_9to1c4b_872_29_alg».proof.Proof.Bits.ScPay

noncomputable section

namespace Cert.Kernel.ScSide

open Cert.Kernel Cert.Kernel.Gen Cert.Kernel.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

namespace Tile0

local notation "i0V" => (Memref.whole Cert.Kernel.main_v0_scv : Memref Cert.Kernel.sig Kind.scVector Space.hbm Cert.Kernel.S2x32x2x128 EltTy.i32)
local notation "i1V" => (Memref.whole Cert.Kernel.main_v1_scv : Memref Cert.Kernel.sig Kind.scVector Space.hbm Cert.Kernel.S2x32x2x128 EltTy.i32)
local notation "ctV" => (Memref.whole Cert.Kernel.main_arg3_scv : Memref Cert.Kernel.sig Kind.scVector Space.hbm Cert.Kernel.S4096x128 EltTy.f32)
local notation "ntV" => (Memref.whole Cert.Kernel.main_arg4_scv : Memref Cert.Kernel.sig Kind.scVector Space.hbm Cert.Kernel.S16384x128 EltTy.f32)
local notation "ocV" => (Memref.whole Cert.Kernel.main_v6_0_scv : Memref Cert.Kernel.sig Kind.scVector Space.hbm Cert.Kernel.S8192x128 EltTy.f32)
local notation "onV" => (Memref.whole Cert.Kernel.main_v6_1_scv : Memref Cert.Kernel.sig Kind.scVector Space.hbm Cert.Kernel.S8192x128 EltTy.f32)
local notation "s0V" => (Memref.whole Cert.Kernel.cc0_scratch0 : Memref Cert.Kernel.sig Kind.scVector Space.vmem Cert.Kernel.S2x128 EltTy.i32)
local notation "s1V" => (Memref.whole Cert.Kernel.cc0_scratch1 : Memref Cert.Kernel.sig Kind.scVector Space.vmem Cert.Kernel.S2x128 EltTy.i32)
local notation "s2V" => (Memref.whole Cert.Kernel.cc0_scratch2 : Memref Cert.Kernel.sig Kind.scVector Space.vmem Cert.Kernel.S128x128 EltTy.f32)
local notation "s3V" => (Memref.whole Cert.Kernel.cc0_scratch3 : Memref Cert.Kernel.sig Kind.scVector Space.vmem Cert.Kernel.S128x128 EltTy.f32)
local notation "s4V" => (Memref.whole Cert.Kernel.cc0_scratch4 : Memref Cert.Kernel.sig Kind.scVector Space.vmem Cert.Kernel.S128x128 EltTy.f32)
local notation "s5V" => (Memref.whole Cert.Kernel.cc0_scratch5 : Memref Cert.Kernel.sig Kind.scVector Space.vmem Cert.Kernel.S128x128 EltTy.f32)

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem cell_ne {thr : Thread nD τ} {a b : SemLoc sig} (h : a ≠ b) : ((thr, a) : GSem nD τ sig) ≠ (thr, b) :=
  fun e => h (Prod.ext_iff.mp e).2

set_option maxRecDepth 8192 in
/-- A vector subcore's own semaphores at zero: the ten its kernel uses, and the rest. -/
theorem ownSems0_V :
    (ownSems0 (V d (cV L) (jV L)) : sProp 𝕄)
      = iprop(semVal (((V d (cV L) (jV L)), SemLoc.dma cc0_scratch6.sem) : GSem nD τ sig) 0
          ∗ semVal (((V d (cV L) (jV L)), SemLoc.dma cc0_scratch7.sem) : GSem nD τ sig) 0
          ∗ semVal (((V d (cV L) (jV L)), SemLoc.dma cc0_scratch8.sem) : GSem nD τ sig) 0
          ∗ semVal (((V d (cV L) (jV L)), SemLoc.dma cc0_scratch9.sem) : GSem nD τ sig) 0
          ∗ semVal (((V d (cV L) (jV L)), SemLoc.dma cc0_scratch10.sem) : GSem nD τ sig) 0
          ∗ semVal (((V d (cV L) (jV L)), SemLoc.dma cc0_scratch11.sem) : GSem nD τ sig) 0
          ∗ semVal (((V d (cV L) (jV L)), SemLoc.dma cc0_scratch12.sem) : GSem nD τ sig) 0
          ∗ semVal (((V d (cV L) (jV L)), SemLoc.dma cc0_scratch13.sem) : GSem nD τ sig) 0
          ∗ semVal (((V d (cV L) (jV L)), SemLoc.dma cc0_scoped0.sem) : GSem nD τ sig) 0
          ∗ semVal (((V d (cV L) (jV L)), SemLoc.dma cc0_scoped1.sem) : GSem nD τ sig) 0
          ∗ bigSep (((((((((((ownCells (V d (cV L) (jV L))).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scratch13.sem) : GSem nD τ sig)).erase (((V d (cV L) (jV L)), SemLoc.dma cc0_scoped0.sem) : GSem nD τ sig)).erase (((V d (cV L) (jV L)), SemLoc.dma cc0_scoped1.sem) : GSem nD τ sig)) fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨cell_ne (by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨cell_ne (by decide), Finset.mem_erase.mpr ⟨cell_ne (by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scratch13.sem) : GSem nD τ sig))).mpr ⟨rfl, by show (SemLoc.dma cc0_scratch13.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩⟩⟩⟩⟩)]

set_option maxRecDepth 8192 in
/-- Its own buffers: the six scratch buffers of the kernel, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

variable [FloatOps F]

theorem unit_congr {s : Shape} {off off' sz : Fin s.rank → Nat} {inb : ∀ a, off a + sz a ≤ s.size a} {inb' : ∀ a, off' a + sz a ≤ s.size a}
    (h : off = off') : Rect.unit (s := s) off sz inb = Rect.unit (s := s) off' sz inb' := by subst h; rfl

/-- The blocks of the two results as the kernel slices them. -/
abbrev ocB0 (L : grid0.Coords) : Memref sig .scVector .hbm S128x128 .f32 := (ocV).slice (Rect.unit (s := S8192x128) (k0_off2 L 0#32) S128x128.size (k0_off2_inb L 0)) (fun _ => rfl)
abbrev ocB1 (L : grid0.Coords) : Memref sig .scVector .hbm S128x128 .f32 := (ocV).slice (Rect.unit (s := S8192x128) (k0_off2 L 128#32) S128x128.size (k0_off2_inb L 1)) (fun _ => rfl)
abbrev onB0 (L : grid0.Coords) : Memref sig .scVector .hbm S128x128 .f32 := (onV).slice (Rect.unit (s := S8192x128) (k0_off2 L 0#32) S128x128.size (k0_off2_inb L 0)) (fun _ => rfl)
abbrev onB1 (L : grid0.Coords) : Memref sig .scVector .hbm S128x128 .f32 := (onV).slice (Rect.unit (s := S8192x128) (k0_off2 L 128#32) S128x128.size (k0_off2_inb L 1)) (fun _ => rfl)

omit [FloatOps F] in
theorem rect0_eq : Rect.unit (s := S8192x128) (k0_off2 L 0#32) S128x128.size (k0_off2_inb L 0) = blk (cL L) (jL L) 0 :=
  unit_congr (k0_off2_eq L 0)
omit [FloatOps F] in
theorem rect1_eq : Rect.unit (s := S8192x128) (k0_off2 L 128#32) S128x128.size (k0_off2_inb L 1) = blk (cL L) (jL L) 1 :=
  unit_congr (k0_off2_eq L 1)

omit [FloatOps F] in
theorem set_ocB0 : (ocB0 L).view.set = blkSet (cL L) (jL L) 0 := by
  show ((ocV).view.slice (Rect.unit (s := S8192x128) (k0_off2 L 0#32) S128x128.size (k0_off2_inb L 0))).set = _
  rw [rect0_eq, View.set_slice]; exact Finset.map_refl
omit [FloatOps F] in
theorem set_ocB1 : (ocB1 L).view.set = blkSet (cL L) (jL L) 1 := by
  show ((ocV).view.slice (Rect.unit (s := S8192x128) (k0_off2 L 128#32) S128x128.size (k0_off2_inb L 1))).set = _
  rw [rect1_eq, View.set_slice]; exact Finset.map_refl
omit [FloatOps F] in
theorem set_onB0 : (onB0 L).view.set = blkSet (cL L) (jL L) 0 := by
  show ((onV).view.slice (Rect.unit (s := S8192x128) (k0_off2 L 0#32) S128x128.size (k0_off2_inb L 0))).set = _
  rw [rect0_eq, View.set_slice]; exact Finset.map_refl
omit [FloatOps F] in
theorem set_onB1 : (onB1 L).view.set = blkSet (cL L) (jL L) 1 := by
  show ((onV).view.slice (Rect.unit (s := S8192x128) (k0_off2 L 128#32) S128x128.size (k0_off2_inb L 1))).set = _
  rw [rect1_eq, View.set_slice]; exact Finset.map_refl

omit [FloatOps F] in
theorem pts_ocB0 (f : Buf (Elt F) (oc0Loc d)) :
    ((ocB0 L).view.loc (V d (cV L) (jV L)) ↦[(ocB0 L).view.set]{fullShare} f : sProp 𝕄) = oc0Loc d ↦[blkSet (cL L) (jL L) 0]{fullShare} f := by rw [set_ocB0]
omit [FloatOps F] in
theorem pts_ocB1 (f : Buf (Elt F) (oc0Loc d)) :
    ((ocB1 L).view.loc (V d (cV L) (jV L)) ↦[(ocB1 L).view.set]{fullShare} f : sProp 𝕄) = oc0Loc d ↦[blkSet (cL L) (jL L) 1]{fullShare} f := by rw [set_ocB1]
omit [FloatOps F] in
theorem pts_onB0 (f : Buf (Elt F) (on0Loc d)) :
    ((onB0 L).view.loc (V d (cV L) (jV L)) ↦[(onB0 L).view.set]{fullShare} f : sProp 𝕄) = on0Loc d ↦[blkSet (cL L) (jL L) 0]{fullShare} f := by rw [set_onB0]
omit [FloatOps F] in
theorem pts_onB1 (f : Buf (Elt F) (on0Loc d)) :
    ((onB1 L).view.loc (V d (cV L) (jV L)) ↦[(onB1 L).view.set]{fullShare} f : sProp 𝕄) = on0Loc d ↦[blkSet (cL L) (jL L) 1]{fullShare} f := by rw [set_onB1]

omit [FloatOps F] in
theorem pts_i0V (q : PosShare TreeShare) (f : Buf (Elt F) (v0Loc d)) : ((i0V).view.loc (V d (cV L) (jV L)) ↦{q} f : sProp 𝕄) = v0Loc d ↦{q} f := rfl
omit [FloatOps F] in
theorem pts_i1V (q : PosShare TreeShare) (f : Buf (Elt F) (v1Loc d)) : ((i1V).view.loc (V d (cV L) (jV L)) ↦{q} f : sProp 𝕄) = v1Loc d ↦{q} f := rfl
omit [FloatOps F] in
theorem pts_ctV (q : PosShare TreeShare) (f : Buf (Elt F) (ctLoc d)) : ((ctV).view.loc (V d (cV L) (jV L)) ↦{q} f : sProp 𝕄) = ctLoc d ↦{q} f := rfl
omit [FloatOps F] in
theorem pts_ntV (q : PosShare TreeShare) (f : Buf (Elt F) (ntLoc d)) : ((ntV).view.loc (V d (cV L) (jV L)) ↦{q} f : sProp 𝕄) = ntLoc d ↦{q} f := rfl

omit [FloatOps F] in
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4V (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s5V (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-- The subcore's [2,128] rows of the two index arrays, as the kernel slices them. -/
abbrev i0Row (L : grid0.Coords) : Memref sig .scVector .hbm S2x128 .i32 :=
  ((i0V).slice (Rect.unit (s := S2x32x2x128) (k0_off1 L) S1x1x2x128.size (k0_off1_inb L)) (fun _ => rfl)).squeeze S2x128 squeezes_S1x1x2x128_S2x128
abbrev i1Row (L : grid0.Coords) : Memref sig .scVector .hbm S2x128 .i32 :=
  ((i1V).slice (Rect.unit (s := S2x32x2x128) (k0_off1 L) S1x1x2x128.size (k0_off1_inb L)) (fun _ => rfl)).squeeze S2x128 squeezes_S1x1x2x128_S2x128

omit [FloatOps F] in
/-- The offsets a gather of the code table reads are in range: a row of the fetched index block holds words of the
    index array, whatever the scratch buffer held before the fetch. -/
theorem offs_inb0 (hr : InRange v0 v1) (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128) :
    ∀ x, (View.read (Elt F) (((s0V).slice (Rect.unit (s := S2x128) row S1x128.size hk) (fun _ => rfl)).squeeze S128 hq).view
        (View.write (Elt F) (s0V).view g0 pay Finset.univ) x).toNat < 4096 := by
  subst hpay; intro x
  rw [View.read_apply, cast_eq]
  have hw : View.write (Elt F) (s0V).view g0 ((i0Row L).view.read (Elt F) (v0 d)) Finset.univ = (i0Row L).view.read (Elt F) (v0 d) :=
    View.write_whole_univ cc0_scratch0 g0 _
  rw [hw, View.read_apply, cast_eq]
  exact (hr d).1 _

omit [FloatOps F] in
/-- The same for the name table's gathers. -/
theorem offs_inb1 (hr : InRange v0 v1) (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128) :
    ∀ x, (View.read (Elt F) (((s1V).slice (Rect.unit (s := S2x128) row S1x128.size hk) (fun _ => rfl)).squeeze S128 hq).view
        (View.write (Elt F) (s1V).view g0 pay Finset.univ) x).toNat < 16384 := by
  subst hpay; intro x
  rw [View.read_apply, cast_eq]
  have hw : View.write (Elt F) (s1V).view g0 ((i1Row L).view.read (Elt F) (v1 d)) Finset.univ = (i1Row L).view.read (Elt F) (v1 d) :=
    View.write_whole_univ cc0_scratch1 g0 _
  rw [hw, View.read_apply, cast_eq]
  exact (hr d).2 _

omit [FloatOps F] in
/-- Dropping a leading unit axis keeps the coordinate. -/
theorem sq_S128 (h : S128.numel = S1x128.numel) (z : S128.Idx) :
    Shape.reshapeEquiv h z = ix2 (0 : Fin 1) (⟨(z 0).val, (z 0).isLt⟩ : Fin 128) :=
  Shape.reshapeEquiv_eq_of_rowMajor h (by
    rw [Shape.rowMajor_val_two, Shape.rowMajor_val_one]
    show 0 * 128 + (z 0).val = (z 0).val
    omega)

omit [FloatOps F] in
/-- Dropping two leading unit axes keeps both coordinates. -/
theorem sq_S2x128 (h : S2x128.numel = S1x1x2x128.numel) (w : S2x128.Idx) :
    Shape.reshapeEquiv h w = ix4 (0 : Fin 1) (0 : Fin 1) (⟨(w 0).val, (w 0).isLt⟩ : Fin 2) (⟨(w 1).val, (w 1).isLt⟩ : Fin 128) :=
  Shape.reshapeEquiv_eq_of_rowMajor h (by
    rw [Shape.rowMajor_val_four, Shape.rowMajor_val_two]
    show ((0 * 1 + 0) * 2 + (w 0).val) * 128 + (w 1).val = (w 0).val * 128 + (w 1).val
    omega)

omit [FloatOps F] in
/-- Element w of a subcore's block of index array 0 is element (0, 2 i + c, w) of the array. -/
theorem i0Row_emb (w : S2x128.Idx) :
    (i0Row L).view.emb w = ix4 (0 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k0_off1 L) S1x1x2x128.size (k0_off1_inb L)).emb (Shape.reshapeEquiv _ w) = _
  rw [sq_S2x128]
  funext a; apply Fin.ext
  rw [Rect.emb_apply]
  simp only [Rect.off_unit, Rect.stride_unit, k0_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow0_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s0V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element w of a subcore's block of index array 1 is element (0, 2 i + c, w) of the array. -/
theorem i1Row_emb (w : S2x128.Idx) :
    (i1Row L).view.emb w = ix4 (0 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k0_off1 L) S1x1x2x128.size (k0_off1_inb L)).emb (Shape.reshapeEquiv _ w) = _
  rw [sq_S2x128]
  funext a; apply Fin.ext
  rw [Rect.emb_apply]
  simp only [Rect.off_unit, Rect.stride_unit, k0_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow1_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s1V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element z of list row ρ of the block fetched from index array 0 is element (0, 2 i + c, ρ, z) of the array. -/
theorem list_word0 (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s0V).slice (Rect.unit (s := S2x128) row S1x128.size hk) (fun _ => rfl)).squeeze S128 hq).view
        (View.write (Elt F) (s0V).view g0 pay Finset.univ) z
      = v0 d (ix4 (0 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s0V).view g0 ((i0Row L).view.read (Elt F) (v0 d)) Finset.univ = (i0Row L).view.read (Elt F) (v0 d) :=
    View.write_whole_univ cc0_scratch0 g0 _
  rw [hw, View.read_apply, cast_eq, sRow0_emb row hk hq ρ hrow, i0Row_emb]

omit [FloatOps F] in
/-- What a gather of the code table delivers, read at (y₀, y₁), when word z of its offset list is entry (0, 2 i + c, ρ, z) of
    the index array: the table's row that entry names, which is row 512 i + 256 c + 128 ρ + y₀ of the call's result. -/
theorem gath_val0 (hr : InRange v0 v1) (idx : S128.Idx → Elt F .i32) (ρ : Fin 2)
    (hidx : ∀ z, idx z = v0 d (ix4 (0 : Fin 2) (⟨2 * (jL L).val + (cL L).val, by have := (jL L).isLt; have := (cL L).isLt; omega⟩ : Fin 32) ρ (⟨(z 0).val, (z 0).isLt⟩ : Fin 128)))
    (hn : S128.numel = S128x128.size gathers_S4096x128_S128x128.axis')
    (hin : ∀ x, (idx x).toNat < S4096x128.size gathers_S4096x128_S128x128.axis) (y : S128x128.Idx) :
    SparseCore.gatherPayload gathers_S4096x128_S128x128
        (View.read (Elt F) ((ctV).slice (Rect.unit (s := S4096x128) ![0, 0] S4096x128.size inb_S4096x128_S4096x128_0_0) (fun _ => rfl)).view (ct d))
        (SparseCore.rows idx hn hin) y
      = outC ct v0 d 0 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show ct d _ = ct d _
  congr 1
  funext a; apply Fin.ext
  match a with
  | 0 =>
    show (0 + 1 * (Shape.Gathers.idx gathers_S4096x128_S128x128 (SparseCore.rows idx hn hin) y (0 : Fin 2)).val : Nat) = min _ _
    rw [show Shape.Gathers.idx gathers_S4096x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (0 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).1 (ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 4096) (by decide) _ hlt
    show 0 + 1 * _ = min _ (4096 - 1)
    rw [hcl]; omega
  | 1 =>
    show (0 + 1 * (Shape.Gathers.idx gathers_S4096x128_S128x128 (SparseCore.rows idx hn hin) y (1 : Fin 2)).val : Nat) = (y 1).val
    rw [Shape.Gathers.idx_of_ne gathers_S4096x128_S128x128 (SparseCore.rows idx hn hin) y (1 : Fin 2) (by decide)]
    show 0 + 1 * (y 1).val = (y 1).val
    omega

omit [FloatOps F] in
/-- Element z of list row ρ of the block fetched from index array 1 is element (0, 2 i + c, ρ, z) of the array. -/
theorem list_word1 (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s1V).slice (Rect.unit (s := S2x128) row S1x128.size hk) (fun _ => rfl)).squeeze S128 hq).view
        (View.write (Elt F) (s1V).view g0 pay Finset.univ) z
      = v1 d (ix4 (0 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s1V).view g0 ((i1Row L).view.read (Elt F) (v1 d)) Finset.univ = (i1Row L).view.read (Elt F) (v1 d) :=
    View.write_whole_univ cc0_scratch1 g0 _
  rw [hw, View.read_apply, cast_eq, sRow1_emb row hk hq ρ hrow, i1Row_emb]

omit [FloatOps F] in
/-- What a gather of the name table delivers, read at (y₀, y₁), when word z of its offset list is entry (0, 2 i + c, ρ, z) of
    the index array: the table's row that entry names, which is row 512 i + 256 c + 128 ρ + y₀ of the call's result. -/
theorem gath_val1 (hr : InRange v0 v1) (idx : S128.Idx → Elt F .i32) (ρ : Fin 2)
    (hidx : ∀ z, idx z = v1 d (ix4 (0 : Fin 2) (⟨2 * (jL L).val + (cL L).val, by have := (jL L).isLt; have := (cL L).isLt; omega⟩ : Fin 32) ρ (⟨(z 0).val, (z 0).isLt⟩ : Fin 128)))
    (hn : S128.numel = S128x128.size gathers_S16384x128_S128x128.axis')
    (hin : ∀ x, (idx x).toNat < S16384x128.size gathers_S16384x128_S128x128.axis) (y : S128x128.Idx) :
    SparseCore.gatherPayload gathers_S16384x128_S128x128
        (View.read (Elt F) ((ntV).slice (Rect.unit (s := S16384x128) ![0, 0] S16384x128.size inb_S16384x128_S16384x128_0_0) (fun _ => rfl)).view (nt d))
        (SparseCore.rows idx hn hin) y
      = outN nt v1 d 0 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show nt d _ = nt d _
  congr 1
  funext a; apply Fin.ext
  match a with
  | 0 =>
    show (0 + 1 * (Shape.Gathers.idx gathers_S16384x128_S128x128 (SparseCore.rows idx hn hin) y (0 : Fin 2)).val : Nat) = min _ _
    rw [show Shape.Gathers.idx gathers_S16384x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (0 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).2 (ix4 (0 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 16384) (by decide) _ hlt
    show 0 + 1 * _ = min _ (16384 - 1)
    rw [hcl]; omega
  | 1 =>
    show (0 + 1 * (Shape.Gathers.idx gathers_S16384x128_S128x128 (SparseCore.rows idx hn hin) y (1 : Fin 2)).val : Nat) = (y 1).val
    rw [Shape.Gathers.idx_of_ne gathers_S16384x128_S128x128 (SparseCore.rows idx hn hin) y (1 : Fin 2) (by decide)]
    show 0 + 1 * (y 1).val = (y 1).val
    omega

omit [FloatOps F] in
/-- Element y of block ρ of a result, as the kernel slices it, is element (512 i + 256 c + 128 ρ + y₀, y₁) of the result. -/
theorem oB_emb (ρ : Fin 2) (y : S128x128.Idx) :
    (Rect.unit (s := S8192x128) (k0_off2 L (BitVec.ofNat 32 (128 * ρ.val))) S128x128.size (k0_off2_inb L ρ)).emb y
      = ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128) := by
  funext a; apply Fin.ext
  rw [Rect.emb_apply]
  simp only [Rect.off_unit, Rect.stride_unit, k0_off2_eq]
  match a with
  | 0 => show 512 * (L 1).val + 256 * (L 0).val + 128 * ρ.val + 1 * (y 0).val = 512 * (L 1).val + 256 * (L 0).val + 128 * ρ.val + (y 0).val; omega
  | 1 => show 0 + 1 * (y 1).val = (y 1).val; omega

set_option maxHeartbeats 4000000 in
set_option maxRecDepth 16384 in
theorem tile_body (hF : (K (F := F)).Facts) (hr : InRange v0 v1) (O : CellTallies nD τ sig (HIx 2)) (W : Waits sig (HIx 2)) (hO : ∀ g, O g none = 0) :
    iprop(levAts (K (F := F)).L (K (F := F)).lev ∗ emp
        ∗ tileGo0 ct nt v0 v1 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc0_scratch6 cc0_scratch7 cc0_scratch8 cc0_scratch9 cc0_scratch10 cc0_scratch11 cc0_scratch12 cc0_scratch13 cc0_scoped0 cc0_scoped1)
          fun _ => iprop(tileTd0 ct nt v0 v1 d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨⟨Hv0, Hv1, Hct, Hnt⟩, ⟨⟨%fc0, Hoc0⟩, ⟨%fc1, Hoc1⟩⟩, ⟨⟨%fn0, Hon0⟩, ⟨%fn1, Hon1⟩⟩⟩, ⟨⟨%f0, Hs0⟩, ⟨%f1, Hs1⟩, ⟨%f2, Hs2⟩, ⟨%f3, Hs3⟩, ⟨%f4, Hs4⟩, ⟨%f5, Hs5⟩, Hbufs⟩, ⟨Hm6, Hm7, Hm8, Hm9, Hm10, Hm11, Hm12, Hm13, HmA, HmB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hv0' := (Entails.of_eq (pts_i0V (F := F) d L _ _).symm) $$ Hv0
  ihave Hv1' := (Entails.of_eq (pts_i1V (F := F) d L _ _).symm) $$ Hv1
  -- two gathers read each table at once: a half of the subcore's read share for each
  ihave Hct2 := (pointsTo_share (PosShare.mem_left_op_right (qT (cL L) (jL L)))).1 $$ Hct
  icases Hct2 with ⟨HctA, HctB⟩
  ihave Hnt2 := (pointsTo_share (PosShare.mem_left_op_right (qT (cL L) (jL L)))).1 $$ Hnt
  icases Hnt2 with ⟨HntA, HntB⟩
  ihave HctA' := (Entails.of_eq (pts_ctV (F := F) d L _ _).symm) $$ HctA
  ihave HctB' := (Entails.of_eq (pts_ctV (F := F) d L _ _).symm) $$ HctB
  ihave HntA' := (Entails.of_eq (pts_ntV (F := F) d L _ _).symm) $$ HntA
  ihave HntB' := (Entails.of_eq (pts_ntV (F := F) d L _ _).symm) $$ HntB
  ihave Hoc0' := (Entails.of_eq (pts_ocB0 (F := F) d L _).symm) $$ Hoc0
  ihave Hoc1' := (Entails.of_eq (pts_ocB1 (F := F) d L _).symm) $$ Hoc1
  ihave Hon0' := (Entails.of_eq (pts_onB0 (F := F) d L _).symm) $$ Hon0
  ihave Hon1' := (Entails.of_eq (pts_onB1 (F := F) d L _).symm) $$ Hon1
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hs4' := (Entails.of_eq (pts_s4V (F := F) d L _).symm) $$ Hs4
  ihave Hs5' := (Entails.of_eq (pts_s5V (F := F) d L _).symm) $$ Hs5
  -- the two index fetches and their waits
  sl_exec
  -- the offsets of the four gathers are in range, whatever the index scratch held before its fetch
  have hA0 := fun g => offs_inb0 (F := F) v0 v1 d L hr g (tile_body.sl.dma0 v0 d L) rfl ![0, 0] inb_S2x128_S1x128_0_0 squeezes_S1x128_S128
  have hA1 := fun g => offs_inb0 (F := F) v0 v1 d L hr g (tile_body.sl.dma0 v0 d L) rfl ![1, 0] inb_S2x128_S1x128_1_0 squeezes_S1x128_S128
  have hB0 := fun g => offs_inb1 (F := F) v0 v1 d L hr g (tile_body.sl.dma0_1 v1 d L) rfl ![0, 0] inb_S2x128_S1x128_0_0 squeezes_S1x128_S128
  have hB1 := fun g => offs_inb1 (F := F) v0 v1 d L hr g (tile_body.sl.dma0_1 v1 d L) rfl ![1, 0] inb_S2x128_S1x128_1_0 squeezes_S1x128_S128
  -- the gathers, their waits, the copies out and their waits
  sl_exec
  -- what the four blocks hold: the gathered rows
  have ec0 : ∀ x ∈ (ocB0 L).view.set, ((ocB0 L).view.writes (Elt F) fc0 [⟨Rect.whole S128x128, tile_body.sl.dma0_2 ct v0 d L f0 f2 hA0⟩]) x = outC ct v0 d 0 x := by
    intro x hx
    obtain ⟨y, -, rfl⟩ := Finset.mem_map.mp hx
    have h1 := congrFun (View.read_writes_whole (Val := Elt F) (ocB0 L).view fc0 (tile_body.sl.dma0_2 ct v0 d L f0 f2 hA0)) y
    rw [View.read_apply, cast_eq] at h1
    rw [h1]
    have h2 : tile_body.sl.dma0_2 ct v0 d L f0 f2 hA0 = tile_body.sl.gather0 ct v0 d L f0 hA0 :=
      View.read_writes_whole (Val := Elt F) (s2V).view f2 _
    rw [h2]
    exact (gath_val0 (F := F) ct v0 v1 d L hr _ 0 (fun z => list_word0 (F := F) v0 d L f0 (tile_body.sl.dma0 v0 d L) rfl ![0, 0] inb_S2x128_S1x128_0_0 squeezes_S1x128_S128 0 rfl z) _ (hA0 f0) y).trans
      (congrArg (outC ct v0 d 0) (oB_emb L 0 y).symm)
  have ec1 : ∀ x ∈ (ocB1 L).view.set, ((ocB1 L).view.writes (Elt F) fc1 [⟨Rect.whole S128x128, tile_body.sl.dma0_3 ct v0 d L f0 f3 hA1⟩]) x = outC ct v0 d 0 x := by
    intro x hx
    obtain ⟨y, -, rfl⟩ := Finset.mem_map.mp hx
    have h1 := congrFun (View.read_writes_whole (Val := Elt F) (ocB1 L).view fc1 (tile_body.sl.dma0_3 ct v0 d L f0 f3 hA1)) y
    rw [View.read_apply, cast_eq] at h1
    rw [h1]
    have h2 : tile_body.sl.dma0_3 ct v0 d L f0 f3 hA1 = tile_body.sl.gather1 ct v0 d L f0 hA1 :=
      View.read_writes_whole (Val := Elt F) (s3V).view f3 _
    rw [h2]
    exact (gath_val0 (F := F) ct v0 v1 d L hr _ 1 (fun z => list_word0 (F := F) v0 d L f0 (tile_body.sl.dma0 v0 d L) rfl ![1, 0] inb_S2x128_S1x128_1_0 squeezes_S1x128_S128 1 rfl z) _ (hA1 f0) y).trans
      (congrArg (outC ct v0 d 0) (oB_emb L 1 y).symm)
  have en0 : ∀ x ∈ (onB0 L).view.set, ((onB0 L).view.writes (Elt F) fn0 [⟨Rect.whole S128x128, tile_body.sl.dma0_4 nt v1 d L f1 f4 hB0⟩]) x = outN nt v1 d 0 x := by
    intro x hx
    obtain ⟨y, -, rfl⟩ := Finset.mem_map.mp hx
    have h1 := congrFun (View.read_writes_whole (Val := Elt F) (onB0 L).view fn0 (tile_body.sl.dma0_4 nt v1 d L f1 f4 hB0)) y
    rw [View.read_apply, cast_eq] at h1
    rw [h1]
    have h2 : tile_body.sl.dma0_4 nt v1 d L f1 f4 hB0 = tile_body.sl.gather2 nt v1 d L f1 hB0 :=
      View.read_writes_whole (Val := Elt F) (s4V).view f4 _
    rw [h2]
    exact (gath_val1 (F := F) nt v0 v1 d L hr _ 0 (fun z => list_word1 (F := F) v1 d L f1 (tile_body.sl.dma0_1 v1 d L) rfl ![0, 0] inb_S2x128_S1x128_0_0 squeezes_S1x128_S128 0 rfl z) _ (hB0 f1) y).trans
      (congrArg (outN nt v1 d 0) (oB_emb L 0 y).symm)
  have en1 : ∀ x ∈ (onB1 L).view.set, ((onB1 L).view.writes (Elt F) fn1 [⟨Rect.whole S128x128, tile_body.sl.dma0_5 nt v1 d L f1 f5 hB1⟩]) x = outN nt v1 d 0 x := by
    intro x hx
    obtain ⟨y, -, rfl⟩ := Finset.mem_map.mp hx
    have h1 := congrFun (View.read_writes_whole (Val := Elt F) (onB1 L).view fn1 (tile_body.sl.dma0_5 nt v1 d L f1 f5 hB1)) y
    rw [View.read_apply, cast_eq] at h1
    rw [h1]
    have h2 : tile_body.sl.dma0_5 nt v1 d L f1 f5 hB1 = tile_body.sl.gather3 nt v1 d L f1 hB1 :=
      View.read_writes_whole (Val := Elt F) (s5V).view f5 _
    rw [h2]
    exact (gath_val1 (F := F) nt v0 v1 d L hr _ 1 (fun z => list_word1 (F := F) v1 d L f1 (tile_body.sl.dma0_1 v1 d L) rfl ![1, 0] inb_S2x128_S1x128_1_0 squeezes_S1x128_S128 1 rfl z) _ (hB1 f1) y).trans
      (congrArg (outN nt v1 d 0) (oB_emb L 1 y).symm)
  ihave Hoc0 := (Entails.of_eq ((pointsTo_congr ec0).trans (pts_ocB0 (F := F) d L _))) $$ Hoc0'
  ihave Hoc1 := (Entails.of_eq ((pointsTo_congr ec1).trans (pts_ocB1 (F := F) d L _))) $$ Hoc1'
  ihave Hon0 := (Entails.of_eq ((pointsTo_congr en0).trans (pts_onB0 (F := F) d L _))) $$ Hon0'
  ihave Hon1 := (Entails.of_eq ((pointsTo_congr en1).trans (pts_onB1 (F := F) d L _))) $$ Hon1'
  ihave HctA := (Entails.of_eq (pts_ctV (F := F) d L _ _)) $$ HctA'
  ihave HctB := (Entails.of_eq (pts_ctV (F := F) d L _ _)) $$ HctB'
  ihave Hct := (pointsTo_share (PosShare.mem_left_op_right (qT (cL L) (jL L)))).2 $$ [HctA HctB]; · isplitl [HctA] <;> iassumption
  ihave HntA := (Entails.of_eq (pts_ntV (F := F) d L _ _)) $$ HntA'
  ihave HntB := (Entails.of_eq (pts_ntV (F := F) d L _ _)) $$ HntB'
  ihave Hnt := (pointsTo_share (PosShare.mem_left_op_right (qT (cL L) (jL L)))).2 $$ [HntA HntB]; · isplitl [HntA] <;> iassumption
  ihave Hv0 := (Entails.of_eq (pts_i0V (F := F) d L _ _)) $$ Hv0'
  ihave Hv1 := (Entails.of_eq (pts_i1V (F := F) d L _ _)) $$ Hv1'
  ihave Hs0 := (Entails.of_eq (pts_s0V (F := F) d L _)) $$ Hs0'
  ihave Hs1 := (Entails.of_eq (pts_s1V (F := F) d L _)) $$ Hs1'
  ihave Hs2 := (Entails.of_eq (pts_s2V (F := F) d L _)) $$ Hs2'
  ihave Hs3 := (Entails.of_eq (pts_s3V (F := F) d L _)) $$ Hs3'
  ihave Hs4 := (Entails.of_eq (pts_s4V (F := F) d L _)) $$ Hs4'
  ihave Hs5 := (Entails.of_eq (pts_s5V (F := F) d L _)) $$ Hs5'
  sl_step
  isplitl [Hv0 Hv1 Hct Hnt Hoc0 Hoc1 Hon0 Hon1]
  · isplitl [Hv0 Hv1 Hct Hnt]
    · isplitl [Hv0]; · iexact Hv0
      isplitl [Hv1]; · iexact Hv1
      isplitl [Hct] <;> iassumption
    isplitl [Hoc0 Hoc1]
    · isplitl [Hoc0] <;> iassumption
    · isplitl [Hon0] <;> iassumption
  isplitl [Hs0 Hs1 Hs2 Hs3 Hs4 Hs5 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hm6 Hm7 Hm8 Hm9 Hm10 Hm11 Hm12 Hm13 HmA HmB Hsems]
  · isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [HmA]; · iexact HmA
    isplitl [HmB]; · iexact HmB
    iexact Hsems
  iexists _; isplitr
  swap; · iexact HO
  ipureintro; intro p hp
  simp only [Finset.mem_insert] at hp
  rcases hp with h | h | h | h | h | h | h | h | h | h | h
  all_goals first | exact .inl h | exact .inr (h ▸ rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s) i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore at call 0. -/
theorem tileObl0 (hF : (K (F := F)).Facts) (hr : InRange v0 v1) : (K (F := F)).TileObl (D (F := F)) 𝒱 (P ct nt v0 v1) v₀ 0 := by
  intro d c i O W hO _ _
  simp only [show (P ct nt v0 v1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct nt v0 v1 d (coordsV ⟨_, hci.1⟩ ⟨_, hci.2⟩) hF hr O W hO).trans (wp_mono frame _ _ fun _ => obl_post)

end Tile0

export Tile0 (tileObl0)

end Cert.Kernel.ScSide

end
-- ==== Proof.Bits.ScTile1.lean ====
/-
  The vector subcore's kernel of a row-gather call, run once at a symbolic subcore: it fetches its two rows of each index
  array, gathers the rows of the two tables they name into its scratch buffers, copies those out to its blocks of the two
  results, and ends with every semaphore at zero. The blocks end at the gathered rows, as pure terms of the tables and
  the index arrays.
-/
import proofs.«204006_g8589934699_cont_9to1c4b_872_29_alg».proof.Proof.Bits.ScPay

noncomputable section

namespace Cert.Kernel.ScSide

open Cert.Kernel Cert.Kernel.Gen Cert.Kernel.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

namespace Tile1

local notation "i0V" => (Memref.whole Cert.Kernel.main_v0_scv : Memref Cert.Kernel.sig Kind.scVector Space.hbm Cert.Kernel.S2x32x2x128 EltTy.i32)
local notation "i1V" => (Memref.whole Cert.Kernel.main_v1_scv : Memref Cert.Kernel.sig Kind.scVector Space.hbm Cert.Kernel.S2x32x2x128 EltTy.i32)
local notation "ctV" => (Memref.whole Cert.Kernel.main_arg3_scv : Memref Cert.Kernel.sig Kind.scVector Space.hbm Cert.Kernel.S4096x128 EltTy.f32)
local notation "ntV" => (Memref.whole Cert.Kernel.main_arg4_scv : Memref Cert.Kernel.sig Kind.scVector Space.hbm Cert.Kernel.S16384x128 EltTy.f32)
local notation "ocV" => (Memref.whole Cert.Kernel.main_v7_0_scv : Memref Cert.Kernel.sig Kind.scVector Space.hbm Cert.Kernel.S8192x128 EltTy.f32)
local notation "onV" => (Memref.whole Cert.Kernel.main_v7_1_scv : Memref Cert.Kernel.sig Kind.scVector Space.hbm Cert.Kernel.S8192x128 EltTy.f32)
local notation "s0V" => (Memref.whole Cert.Kernel.cc1_scratch0 : Memref Cert.Kernel.sig Kind.scVector Space.vmem Cert.Kernel.S2x128 EltTy.i32)
local notation "s1V" => (Memref.whole Cert.Kernel.cc1_scratch1 : Memref Cert.Kernel.sig Kind.scVector Space.vmem Cert.Kernel.S2x128 EltTy.i32)
local notation "s2V" => (Memref.whole Cert.Kernel.cc1_scratch2 : Memref Cert.Kernel.sig Kind.scVector Space.vmem Cert.Kernel.S128x128 EltTy.f32)
local notation "s3V" => (Memref.whole Cert.Kernel.cc1_scratch3 : Memref Cert.Kernel.sig Kind.scVector Space.vmem Cert.Kernel.S128x128 EltTy.f32)
local notation "s4V" => (Memref.whole Cert.Kernel.cc1_scratch4 : Memref Cert.Kernel.sig Kind.scVector Space.vmem Cert.Kernel.S128x128 EltTy.f32)
local notation "s5V" => (Memref.whole Cert.Kernel.cc1_scratch5 : Memref Cert.Kernel.sig Kind.scVector Space.vmem Cert.Kernel.S128x128 EltTy.f32)

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

theorem cell_ne {thr : Thread nD τ} {a b : SemLoc sig} (h : a ≠ b) : ((thr, a) : GSem nD τ sig) ≠ (thr, b) :=
  fun e => h (Prod.ext_iff.mp e).2

set_option maxRecDepth 8192 in
/-- A vector subcore's own semaphores at zero: the ten its kernel uses, and the rest. -/
theorem ownSems0_V :
    (ownSems0 (V d (cV L) (jV L)) : sProp 𝕄)
      = iprop(semVal (((V d (cV L) (jV L)), SemLoc.dma cc1_scratch6.sem) : GSem nD τ sig) 0
          ∗ semVal (((V d (cV L) (jV L)), SemLoc.dma cc1_scratch7.sem) : GSem nD τ sig) 0
          ∗ semVal (((V d (cV L) (jV L)), SemLoc.dma cc1_scratch8.sem) : GSem nD τ sig) 0
          ∗ semVal (((V d (cV L) (jV L)), SemLoc.dma cc1_scratch9.sem) : GSem nD τ sig) 0
          ∗ semVal (((V d (cV L) (jV L)), SemLoc.dma cc1_scratch10.sem) : GSem nD τ sig) 0
          ∗ semVal (((V d (cV L) (jV L)), SemLoc.dma cc1_scratch11.sem) : GSem nD τ sig) 0
          ∗ semVal (((V d (cV L) (jV L)), SemLoc.dma cc1_scratch12.sem) : GSem nD τ sig) 0
          ∗ semVal (((V d (cV L) (jV L)), SemLoc.dma cc1_scratch13.sem) : GSem nD τ sig) 0
          ∗ semVal (((V d (cV L) (jV L)), SemLoc.dma cc1_scoped0.sem) : GSem nD τ sig) 0
          ∗ semVal (((V d (cV L) (jV L)), SemLoc.dma cc1_scoped1.sem) : GSem nD τ sig) 0
          ∗ bigSep (((((((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scratch10.sem) : GSem nD τ sig)).erase (((V d (cV L) (jV L)), SemLoc.dma cc1_scratch11.sem) : GSem nD τ sig)).erase (((V d (cV L) (jV L)), SemLoc.dma cc1_scratch12.sem) : GSem nD τ sig)).erase (((V d (cV L) (jV L)), SemLoc.dma cc1_scratch13.sem) : GSem nD τ sig)).erase (((V d (cV L) (jV L)), SemLoc.dma cc1_scoped0.sem) : GSem nD τ sig)).erase (((V d (cV L) (jV L)), SemLoc.dma cc1_scoped1.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨cell_ne (by decide), (mem_ownCells (g := (((V d (cV L) (jV L)), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨cell_ne (by decide), Finset.mem_erase.mpr ⟨cell_ne (by decide), (mem_ownCells (g := (((V d (cV L) (jV L)), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (((V d (cV L) (jV L)), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch10.sem) : GSem nD τ sig))).mpr ⟨rfl, by show (SemLoc.dma cc1_scratch10.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch11.sem) : GSem nD τ sig))).mpr ⟨rfl, by show (SemLoc.dma cc1_scratch11.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch12.sem) : GSem nD τ sig))).mpr ⟨rfl, by show (SemLoc.dma cc1_scratch12.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scratch13.sem) : GSem nD τ sig))).mpr ⟨rfl, by show (SemLoc.dma cc1_scratch13.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩⟩⟩⟩⟩)]

set_option maxRecDepth 8192 in
/-- Its own buffers: the six scratch buffers of the kernel, at some contents, and the rest. -/
theorem ownBufs_V :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

variable [FloatOps F]

theorem unit_congr {s : Shape} {off off' sz : Fin s.rank → Nat} {inb : ∀ a, off a + sz a ≤ s.size a} {inb' : ∀ a, off' a + sz a ≤ s.size a}
    (h : off = off') : Rect.unit (s := s) off sz inb = Rect.unit (s := s) off' sz inb' := by subst h; rfl

/-- The blocks of the two results as the kernel slices them. -/
abbrev ocB0 (L : grid1.Coords) : Memref sig .scVector .hbm S128x128 .f32 := (ocV).slice (Rect.unit (s := S8192x128) (k1_off2 L 0#32) S128x128.size (k1_off2_inb L 0)) (fun _ => rfl)
abbrev ocB1 (L : grid1.Coords) : Memref sig .scVector .hbm S128x128 .f32 := (ocV).slice (Rect.unit (s := S8192x128) (k1_off2 L 128#32) S128x128.size (k1_off2_inb L 1)) (fun _ => rfl)
abbrev onB0 (L : grid1.Coords) : Memref sig .scVector .hbm S128x128 .f32 := (onV).slice (Rect.unit (s := S8192x128) (k1_off2 L 0#32) S128x128.size (k1_off2_inb L 0)) (fun _ => rfl)
abbrev onB1 (L : grid1.Coords) : Memref sig .scVector .hbm S128x128 .f32 := (onV).slice (Rect.unit (s := S8192x128) (k1_off2 L 128#32) S128x128.size (k1_off2_inb L 1)) (fun _ => rfl)

omit [FloatOps F] in
theorem rect0_eq : Rect.unit (s := S8192x128) (k1_off2 L 0#32) S128x128.size (k1_off2_inb L 0) = blk (cL L) (jL L) 0 :=
  unit_congr (k1_off2_eq L 0)
omit [FloatOps F] in
theorem rect1_eq : Rect.unit (s := S8192x128) (k1_off2 L 128#32) S128x128.size (k1_off2_inb L 1) = blk (cL L) (jL L) 1 :=
  unit_congr (k1_off2_eq L 1)

omit [FloatOps F] in
theorem set_ocB0 : (ocB0 L).view.set = blkSet (cL L) (jL L) 0 := by
  show ((ocV).view.slice (Rect.unit (s := S8192x128) (k1_off2 L 0#32) S128x128.size (k1_off2_inb L 0))).set = _
  rw [rect0_eq, View.set_slice]; exact Finset.map_refl
omit [FloatOps F] in
theorem set_ocB1 : (ocB1 L).view.set = blkSet (cL L) (jL L) 1 := by
  show ((ocV).view.slice (Rect.unit (s := S8192x128) (k1_off2 L 128#32) S128x128.size (k1_off2_inb L 1))).set = _
  rw [rect1_eq, View.set_slice]; exact Finset.map_refl
omit [FloatOps F] in
theorem set_onB0 : (onB0 L).view.set = blkSet (cL L) (jL L) 0 := by
  show ((onV).view.slice (Rect.unit (s := S8192x128) (k1_off2 L 0#32) S128x128.size (k1_off2_inb L 0))).set = _
  rw [rect0_eq, View.set_slice]; exact Finset.map_refl
omit [FloatOps F] in
theorem set_onB1 : (onB1 L).view.set = blkSet (cL L) (jL L) 1 := by
  show ((onV).view.slice (Rect.unit (s := S8192x128) (k1_off2 L 128#32) S128x128.size (k1_off2_inb L 1))).set = _
  rw [rect1_eq, View.set_slice]; exact Finset.map_refl

omit [FloatOps F] in
theorem pts_ocB0 (f : Buf (Elt F) (oc1Loc d)) :
    ((ocB0 L).view.loc (V d (cV L) (jV L)) ↦[(ocB0 L).view.set]{fullShare} f : sProp 𝕄) = oc1Loc d ↦[blkSet (cL L) (jL L) 0]{fullShare} f := by rw [set_ocB0]
omit [FloatOps F] in
theorem pts_ocB1 (f : Buf (Elt F) (oc1Loc d)) :
    ((ocB1 L).view.loc (V d (cV L) (jV L)) ↦[(ocB1 L).view.set]{fullShare} f : sProp 𝕄) = oc1Loc d ↦[blkSet (cL L) (jL L) 1]{fullShare} f := by rw [set_ocB1]
omit [FloatOps F] in
theorem pts_onB0 (f : Buf (Elt F) (on1Loc d)) :
    ((onB0 L).view.loc (V d (cV L) (jV L)) ↦[(onB0 L).view.set]{fullShare} f : sProp 𝕄) = on1Loc d ↦[blkSet (cL L) (jL L) 0]{fullShare} f := by rw [set_onB0]
omit [FloatOps F] in
theorem pts_onB1 (f : Buf (Elt F) (on1Loc d)) :
    ((onB1 L).view.loc (V d (cV L) (jV L)) ↦[(onB1 L).view.set]{fullShare} f : sProp 𝕄) = on1Loc d ↦[blkSet (cL L) (jL L) 1]{fullShare} f := by rw [set_onB1]

omit [FloatOps F] in
theorem pts_i0V (q : PosShare TreeShare) (f : Buf (Elt F) (v0Loc d)) : ((i0V).view.loc (V d (cV L) (jV L)) ↦{q} f : sProp 𝕄) = v0Loc d ↦{q} f := rfl
omit [FloatOps F] in
theorem pts_i1V (q : PosShare TreeShare) (f : Buf (Elt F) (v1Loc d)) : ((i1V).view.loc (V d (cV L) (jV L)) ↦{q} f : sProp 𝕄) = v1Loc d ↦{q} f := rfl
omit [FloatOps F] in
theorem pts_ctV (q : PosShare TreeShare) (f : Buf (Elt F) (ctLoc d)) : ((ctV).view.loc (V d (cV L) (jV L)) ↦{q} f : sProp 𝕄) = ctLoc d ↦{q} f := rfl
omit [FloatOps F] in
theorem pts_ntV (q : PosShare TreeShare) (f : Buf (Elt F) (ntLoc d)) : ((ntV).view.loc (V d (cV L) (jV L)) ↦{q} f : sProp 𝕄) = ntLoc d ↦{q} f := rfl

omit [FloatOps F] in
theorem pts_s0V (f : Buf (Elt F) ((V d (cV L) (jV L)).loc cc1_scratch0)) :
    ((s0V).view.loc (V d (cV L) (jV L)) ↦{fullShare} f : sProp 𝕄) = (V d (cV L) (jV L)).loc cc1_scratch0 ↦{fullShare} f := rfl
omit [FloatOps F] in
theorem pts_s1V (f : Buf (Elt F) ((V d (cV L) (jV L)).loc cc1_scratch1)) :
    ((s1V).view.loc (V d (cV L) (jV L)) ↦{fullShare} f : sProp 𝕄) = (V d (cV L) (jV L)).loc cc1_scratch1 ↦{fullShare} f := rfl
omit [FloatOps F] in
theorem pts_s2V (f : Buf (Elt F) ((V d (cV L) (jV L)).loc cc1_scratch2)) :
    ((s2V).view.loc (V d (cV L) (jV L)) ↦{fullShare} f : sProp 𝕄) = (V d (cV L) (jV L)).loc cc1_scratch2 ↦{fullShare} f := rfl
omit [FloatOps F] in
theorem pts_s3V (f : Buf (Elt F) ((V d (cV L) (jV L)).loc cc1_scratch3)) :
    ((s3V).view.loc (V d (cV L) (jV L)) ↦{fullShare} f : sProp 𝕄) = (V d (cV L) (jV L)).loc cc1_scratch3 ↦{fullShare} f := rfl
omit [FloatOps F] in
theorem pts_s4V (f : Buf (Elt F) ((V d (cV L) (jV L)).loc cc1_scratch4)) :
    ((s4V).view.loc (V d (cV L) (jV L)) ↦{fullShare} f : sProp 𝕄) = (V d (cV L) (jV L)).loc cc1_scratch4 ↦{fullShare} f := rfl
omit [FloatOps F] in
theorem pts_s5V (f : Buf (Elt F) ((V d (cV L) (jV L)).loc cc1_scratch5)) :
    ((s5V).view.loc (V d (cV L) (jV L)) ↦{fullShare} f : sProp 𝕄) = (V d (cV L) (jV L)).loc cc1_scratch5 ↦{fullShare} f := rfl

/-- The subcore's [2,128] rows of the two index arrays, as the kernel slices them. -/
abbrev i0Row (L : grid1.Coords) : Memref sig .scVector .hbm S2x128 .i32 :=
  ((i0V).slice (Rect.unit (s := S2x32x2x128) (k1_off1 L) S1x1x2x128.size (k1_off1_inb L)) (fun _ => rfl)).squeeze S2x128 squeezes_S1x1x2x128_S2x128
abbrev i1Row (L : grid1.Coords) : Memref sig .scVector .hbm S2x128 .i32 :=
  ((i1V).slice (Rect.unit (s := S2x32x2x128) (k1_off1 L) S1x1x2x128.size (k1_off1_inb L)) (fun _ => rfl)).squeeze S2x128 squeezes_S1x1x2x128_S2x128

omit [FloatOps F] in
/-- The offsets a gather of the code table reads are in range: a row of the fetched index block holds words of the
    index array, whatever the scratch buffer held before the fetch. -/
theorem offs_inb0 (hr : InRange v0 v1) (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128) :
    ∀ x, (View.read (Elt F) (((s0V).slice (Rect.unit (s := S2x128) row S1x128.size hk) (fun _ => rfl)).squeeze S128 hq).view
        (View.write (Elt F) (s0V).view g0 pay Finset.univ) x).toNat < 4096 := by
  subst hpay; intro x
  rw [View.read_apply, cast_eq]
  have hw : View.write (Elt F) (s0V).view g0 ((i0Row L).view.read (Elt F) (v0 d)) Finset.univ = (i0Row L).view.read (Elt F) (v0 d) :=
    View.write_whole_univ cc1_scratch0 g0 _
  rw [hw, View.read_apply, cast_eq]
  exact (hr d).1 _

omit [FloatOps F] in
/-- The same for the name table's gathers. -/
theorem offs_inb1 (hr : InRange v0 v1) (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128) :
    ∀ x, (View.read (Elt F) (((s1V).slice (Rect.unit (s := S2x128) row S1x128.size hk) (fun _ => rfl)).squeeze S128 hq).view
        (View.write (Elt F) (s1V).view g0 pay Finset.univ) x).toNat < 16384 := by
  subst hpay; intro x
  rw [View.read_apply, cast_eq]
  have hw : View.write (Elt F) (s1V).view g0 ((i1Row L).view.read (Elt F) (v1 d)) Finset.univ = (i1Row L).view.read (Elt F) (v1 d) :=
    View.write_whole_univ cc1_scratch1 g0 _
  rw [hw, View.read_apply, cast_eq]
  exact (hr d).2 _

omit [FloatOps F] in
/-- Dropping a leading unit axis keeps the coordinate. -/
theorem sq_S128 (h : S128.numel = S1x128.numel) (z : S128.Idx) :
    Shape.reshapeEquiv h z = ix2 (0 : Fin 1) (⟨(z 0).val, (z 0).isLt⟩ : Fin 128) :=
  Shape.reshapeEquiv_eq_of_rowMajor h (by
    rw [Shape.rowMajor_val_two, Shape.rowMajor_val_one]
    show 0 * 128 + (z 0).val = (z 0).val
    omega)

omit [FloatOps F] in
/-- Dropping two leading unit axes keeps both coordinates. -/
theorem sq_S2x128 (h : S2x128.numel = S1x1x2x128.numel) (w : S2x128.Idx) :
    Shape.reshapeEquiv h w = ix4 (0 : Fin 1) (0 : Fin 1) (⟨(w 0).val, (w 0).isLt⟩ : Fin 2) (⟨(w 1).val, (w 1).isLt⟩ : Fin 128) :=
  Shape.reshapeEquiv_eq_of_rowMajor h (by
    rw [Shape.rowMajor_val_four, Shape.rowMajor_val_two]
    show ((0 * 1 + 0) * 2 + (w 0).val) * 128 + (w 1).val = (w 0).val * 128 + (w 1).val
    omega)

omit [FloatOps F] in
/-- Element w of a subcore's block of index array 0 is element (1, 2 i + c, w) of the array. -/
theorem i0Row_emb (w : S2x128.Idx) :
    (i0Row L).view.emb w = ix4 (1 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k1_off1 L) S1x1x2x128.size (k1_off1_inb L)).emb (Shape.reshapeEquiv _ w) = _
  rw [sq_S2x128]
  funext a; apply Fin.ext
  rw [Rect.emb_apply]
  simp only [Rect.off_unit, Rect.stride_unit, k1_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow0_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s0V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element w of a subcore's block of index array 1 is element (1, 2 i + c, w) of the array. -/
theorem i1Row_emb (w : S2x128.Idx) :
    (i1Row L).view.emb w = ix4 (1 : Fin 2) (⟨2 * (jL L).val + (cL L).val, by have := (jL L).isLt; have := (cL L).isLt; omega⟩ : Fin 32)
      (⟨(w 0).val, (w 0).isLt⟩ : Fin 2) (⟨(w 1).val, (w 1).isLt⟩ : Fin 128) := by
  show (Rect.unit (s := S2x32x2x128) (k1_off1 L) S1x1x2x128.size (k1_off1_inb L)).emb (Shape.reshapeEquiv _ w) = _
  rw [sq_S2x128]
  funext a; apply Fin.ext
  rw [Rect.emb_apply]
  simp only [Rect.off_unit, Rect.stride_unit, k1_off1_eq]
  match a with
  | 0 => rfl
  | 1 => show 2 * (L 1).val + (L 0).val + 1 * 0 = 2 * (L 1).val + (L 0).val; omega
  | 2 => show 0 + 1 * (w 0).val = (w 0).val; omega
  | 3 => show 0 + 1 * (w 1).val = (w 1).val; omega

omit [FloatOps F] in
/-- Element z of list row ρ of a fetched block is element (ρ, z) of the block. -/
theorem sRow1_emb (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    (((s1V).slice (Rect.unit (s := S2x128) row S1x128.size hk) (fun _ => rfl)).squeeze S128 hq).view.emb z
      = ix2 ρ (⟨(z 0).val, (z 0).isLt⟩ : Fin 128) := by
  subst hrow
  show (Rect.unit (s := S2x128) ![ρ.val, 0] S1x128.size hk).emb (Shape.reshapeEquiv _ z) = _
  rw [sq_S128]
  funext a; apply Fin.ext
  rw [Rect.emb_apply]
  simp only [Rect.off_unit, Rect.stride_unit]
  match a with
  | 0 => show ρ.val + 1 * 0 = ρ.val; omega
  | 1 => show 0 + 1 * (z 0).val = (z 0).val; omega

omit [FloatOps F] in
/-- Element z of list row ρ of the block fetched from index array 0 is element (1, 2 i + c, ρ, z) of the array. -/
theorem list_word0 (g0 : Buf (Elt F) ((s0V).view.loc (V d (cV L) (jV L))))
    (pay : S2x128.Idx → Elt F .i32) (hpay : pay = (i0Row L).view.read (Elt F) (v0 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s0V).slice (Rect.unit (s := S2x128) row S1x128.size hk) (fun _ => rfl)).squeeze S128 hq).view
        (View.write (Elt F) (s0V).view g0 pay Finset.univ) z
      = v0 d (ix4 (1 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s0V).view g0 ((i0Row L).view.read (Elt F) (v0 d)) Finset.univ = (i0Row L).view.read (Elt F) (v0 d) :=
    View.write_whole_univ cc1_scratch0 g0 _
  rw [hw, View.read_apply, cast_eq, sRow0_emb row hk hq ρ hrow, i0Row_emb]

omit [FloatOps F] in
/-- What a gather of the code table delivers, read at (y₀, y₁), when word z of its offset list is entry (1, 2 i + c, ρ, z) of
    the index array: the table's row that entry names, which is row 512 i + 256 c + 128 ρ + y₀ of the call's result. -/
theorem gath_val0 (hr : InRange v0 v1) (idx : S128.Idx → Elt F .i32) (ρ : Fin 2)
    (hidx : ∀ z, idx z = v0 d (ix4 (1 : Fin 2) (⟨2 * (jL L).val + (cL L).val, by have := (jL L).isLt; have := (cL L).isLt; omega⟩ : Fin 32) ρ (⟨(z 0).val, (z 0).isLt⟩ : Fin 128)))
    (hn : S128.numel = S128x128.size gathers_S4096x128_S128x128.axis')
    (hin : ∀ x, (idx x).toNat < S4096x128.size gathers_S4096x128_S128x128.axis) (y : S128x128.Idx) :
    SparseCore.gatherPayload gathers_S4096x128_S128x128
        (View.read (Elt F) ((ctV).slice (Rect.unit (s := S4096x128) ![0, 0] S4096x128.size inb_S4096x128_S4096x128_0_0) (fun _ => rfl)).view (ct d))
        (SparseCore.rows idx hn hin) y
      = outC ct v0 d 1 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show ct d _ = ct d _
  congr 1
  funext a; apply Fin.ext
  match a with
  | 0 =>
    show (0 + 1 * (Shape.Gathers.idx gathers_S4096x128_S128x128 (SparseCore.rows idx hn hin) y (0 : Fin 2)).val : Nat) = min _ _
    rw [show Shape.Gathers.idx gathers_S4096x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (1 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).1 (ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 4096) (by decide) _ hlt
    show 0 + 1 * _ = min _ (4096 - 1)
    rw [hcl]; omega
  | 1 =>
    show (0 + 1 * (Shape.Gathers.idx gathers_S4096x128_S128x128 (SparseCore.rows idx hn hin) y (1 : Fin 2)).val : Nat) = (y 1).val
    rw [Shape.Gathers.idx_of_ne gathers_S4096x128_S128x128 (SparseCore.rows idx hn hin) y (1 : Fin 2) (by decide)]
    show 0 + 1 * (y 1).val = (y 1).val
    omega

omit [FloatOps F] in
/-- Element z of list row ρ of the block fetched from index array 1 is element (1, 2 i + c, ρ, z) of the array. -/
theorem list_word1 (g0 : Buf (Elt F) ((s1V).view.loc (V d (cV L) (jV L))))
    (pay : S2x128.Idx → Elt F .i32) (hpay : pay = (i1Row L).view.read (Elt F) (v1 d))
    (row : Fin 2 → Nat) (hk : ∀ a, row a + S1x128.size a ≤ S2x128.size a) (hq : (Rect.unit (s := S2x128) row S1x128.size hk).shape.Squeezes S128)
    (ρ : Fin 2) (hrow : row = ![ρ.val, 0]) (z : S128.Idx) :
    View.read (Elt F) (((s1V).slice (Rect.unit (s := S2x128) row S1x128.size hk) (fun _ => rfl)).squeeze S128 hq).view
        (View.write (Elt F) (s1V).view g0 pay Finset.univ) z
      = v1 d (ix4 (1 : Fin 2) (⟨2 * (jL L).val + (cL L).val, by have := (jL L).isLt; have := (cL L).isLt; omega⟩ : Fin 32) ρ (⟨(z 0).val, (z 0).isLt⟩ : Fin 128)) := by
  subst hpay
  rw [View.read_apply, cast_eq]
  have hw : View.write (Elt F) (s1V).view g0 ((i1Row L).view.read (Elt F) (v1 d)) Finset.univ = (i1Row L).view.read (Elt F) (v1 d) :=
    View.write_whole_univ cc1_scratch1 g0 _
  rw [hw, View.read_apply, cast_eq, sRow1_emb row hk hq ρ hrow, i1Row_emb]

omit [FloatOps F] in
/-- What a gather of the name table delivers, read at (y₀, y₁), when word z of its offset list is entry (1, 2 i + c, ρ, z) of
    the index array: the table's row that entry names, which is row 512 i + 256 c + 128 ρ + y₀ of the call's result. -/
theorem gath_val1 (hr : InRange v0 v1) (idx : S128.Idx → Elt F .i32) (ρ : Fin 2)
    (hidx : ∀ z, idx z = v1 d (ix4 (1 : Fin 2) (⟨2 * (jL L).val + (cL L).val, by have := (jL L).isLt; have := (cL L).isLt; omega⟩ : Fin 32) ρ (⟨(z 0).val, (z 0).isLt⟩ : Fin 128)))
    (hn : S128.numel = S128x128.size gathers_S16384x128_S128x128.axis')
    (hin : ∀ x, (idx x).toNat < S16384x128.size gathers_S16384x128_S128x128.axis) (y : S128x128.Idx) :
    SparseCore.gatherPayload gathers_S16384x128_S128x128
        (View.read (Elt F) ((ntV).slice (Rect.unit (s := S16384x128) ![0, 0] S16384x128.size inb_S16384x128_S16384x128_0_0) (fun _ => rfl)).view (nt d))
        (SparseCore.rows idx hn hin) y
      = outN nt v1 d 1 (ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128)) := by
  have hy0 : (y 0).val < 128 := (y 0).isLt
  have hj := (jL L).isLt; have hc := (cL L).isLt; have hρ := ρ.isLt
  unfold SparseCore.gatherPayload
  rw [View.read_apply, cast_eq]
  show nt d _ = nt d _
  congr 1
  funext a; apply Fin.ext
  match a with
  | 0 =>
    show (0 + 1 * (Shape.Gathers.idx gathers_S16384x128_S128x128 (SparseCore.rows idx hn hin) y (0 : Fin 2)).val : Nat) = min _ _
    rw [show Shape.Gathers.idx gathers_S16384x128_S128x128 (SparseCore.rows idx hn hin) y (0 : Fin 2)
        = SparseCore.rows idx hn hin (y (0 : Fin 2)) from Shape.Gathers.idx_axis _ _ _]
    show 0 + 1 * (idx (S128.rowMajor.symm ((y 0).cast hn.symm))).toNat = _
    rw [hidx]
    have hz : ((S128.rowMajor.symm ((y 0).cast hn.symm)) 0).val = (y 0).val := by
      have := Shape.rowMajor_val_one (S128.rowMajor.symm ((y 0).cast hn.symm))
      rw [Equiv.apply_symm_apply] at this
      exact this.symm
    have hidx2 : (ix4 (1 : Fin 2) (⟨2 * (jL L).val + (cL L).val, by have := (jL L).isLt; have := (cL L).isLt; omega⟩ : Fin 32) ρ
          (⟨((S128.rowMajor.symm ((y 0).cast hn.symm)) 0).val, ((S128.rowMajor.symm ((y 0).cast hn.symm)) 0).isLt⟩ : Fin 128) : S2x32x2x128.Idx)
        = ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128) := by
      funext b
      match b with
      | 0 => rfl
      | 1 => exact Fin.ext (by show 2 * (jL L).val + (cL L).val = _ / 256; omega)
      | 2 => exact Fin.ext (by show ρ.val = _ / 128 % 2; omega)
      | 3 => exact Fin.ext (by show ((S128.rowMajor.symm ((y 0).cast hn.symm)) 0).val = _ % 128; rw [hz]; omega)
    rw [hidx2]
    have hlt := (hr d).2 (ix4 (1 : Fin 2) (⟨(512 * (jL L).val + 256 * (cL L).val + 128 * ρ.val + (y 0).val) / 256, by omega⟩ : Fin 32)
            (⟨(512 * (jL L).val + 256 * (cL L).val + 128 * ρ.val + (y 0).val) / 128 % 2, by omega⟩ : Fin 2)
            (⟨(512 * (jL L).val + 256 * (cL L).val + 128 * ρ.val + (y 0).val) % 128, by omega⟩ : Fin 128))
    have hcl := clamp_of_lt (N := 16384) (by decide) _ hlt
    show 0 + 1 * _ = min _ (16384 - 1)
    rw [hcl]; omega
  | 1 =>
    show (0 + 1 * (Shape.Gathers.idx gathers_S16384x128_S128x128 (SparseCore.rows idx hn hin) y (1 : Fin 2)).val : Nat) = (y 1).val
    rw [Shape.Gathers.idx_of_ne gathers_S16384x128_S128x128 (SparseCore.rows idx hn hin) y (1 : Fin 2) (by decide)]
    show 0 + 1 * (y 1).val = (y 1).val
    omega

omit [FloatOps F] in
/-- Element y of block ρ of a result, as the kernel slices it, is element (512 i + 256 c + 128 ρ + y₀, y₁) of the result. -/
theorem oB_emb (ρ : Fin 2) (y : S128x128.Idx) :
    (Rect.unit (s := S8192x128) (k1_off2 L (BitVec.ofNat 32 (128 * ρ.val))) S128x128.size (k1_off2_inb L ρ)).emb y
      = ix2 (⟨512 * (jL L).val + 256 * (cL L).val + 128 * ρ.val + (y 0).val,
          by have := (jL L).isLt; have := (cL L).isLt; have := ρ.isLt; have : (y 0).val < 128 := (y 0).isLt; omega⟩ : Fin 8192) (⟨(y 1).val, (y 1).isLt⟩ : Fin 128) := by
  funext a; apply Fin.ext
  rw [Rect.emb_apply]
  simp only [Rect.off_unit, Rect.stride_unit, k1_off2_eq]
  match a with
  | 0 => show 512 * (L 1).val + 256 * (L 0).val + 128 * ρ.val + 1 * (y 0).val = 512 * (L 1).val + 256 * (L 0).val + 128 * ρ.val + (y 0).val; omega
  | 1 => show 0 + 1 * (y 1).val = (y 1).val; omega

set_option maxHeartbeats 4000000 in
set_option maxRecDepth 16384 in
theorem tile_body (hF : (K (F := F)).Facts) (hr : InRange v0 v1) (O : CellTallies nD τ sig (HIx 2)) (W : Waits sig (HIx 2)) (hO : ∀ g, O g none = 0) :
    iprop(levAts (K (F := F)).L (K (F := F)).lev ∗ emp
        ∗ tileGo1 ct nt v0 v1 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc1_scratch6 cc1_scratch7 cc1_scratch8 cc1_scratch9 cc1_scratch10 cc1_scratch11 cc1_scratch12 cc1_scratch13 cc1_scoped0 cc1_scoped1)
          fun _ => iprop(tileTd1 ct nt v0 v1 d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨⟨Hv0, Hv1, Hct, Hnt⟩, ⟨⟨%fc0, Hoc0⟩, ⟨%fc1, Hoc1⟩⟩, ⟨⟨%fn0, Hon0⟩, ⟨%fn1, Hon1⟩⟩⟩, ⟨⟨%f0, Hs0⟩, ⟨%f1, Hs1⟩, ⟨%f2, Hs2⟩, ⟨%f3, Hs3⟩, ⟨%f4, Hs4⟩, ⟨%f5, Hs5⟩, Hbufs⟩, ⟨Hm6, Hm7, Hm8, Hm9, Hm10, Hm11, Hm12, Hm13, HmA, HmB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hv0' := (Entails.of_eq (pts_i0V (F := F) d L _ _).symm) $$ Hv0
  ihave Hv1' := (Entails.of_eq (pts_i1V (F := F) d L _ _).symm) $$ Hv1
  -- two gathers read each table at once: a half of the subcore's read share for each
  ihave Hct2 := (pointsTo_share (PosShare.mem_left_op_right (qT (cL L) (jL L)))).1 $$ Hct
  icases Hct2 with ⟨HctA, HctB⟩
  ihave Hnt2 := (pointsTo_share (PosShare.mem_left_op_right (qT (cL L) (jL L)))).1 $$ Hnt
  icases Hnt2 with ⟨HntA, HntB⟩
  ihave HctA' := (Entails.of_eq (pts_ctV (F := F) d L _ _).symm) $$ HctA
  ihave HctB' := (Entails.of_eq (pts_ctV (F := F) d L _ _).symm) $$ HctB
  ihave HntA' := (Entails.of_eq (pts_ntV (F := F) d L _ _).symm) $$ HntA
  ihave HntB' := (Entails.of_eq (pts_ntV (F := F) d L _ _).symm) $$ HntB
  ihave Hoc0' := (Entails.of_eq (pts_ocB0 (F := F) d L _).symm) $$ Hoc0
  ihave Hoc1' := (Entails.of_eq (pts_ocB1 (F := F) d L _).symm) $$ Hoc1
  ihave Hon0' := (Entails.of_eq (pts_onB0 (F := F) d L _).symm) $$ Hon0
  ihave Hon1' := (Entails.of_eq (pts_onB1 (F := F) d L _).symm) $$ Hon1
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hs4' := (Entails.of_eq (pts_s4V (F := F) d L _).symm) $$ Hs4
  ihave Hs5' := (Entails.of_eq (pts_s5V (F := F) d L _).symm) $$ Hs5
  -- the two index fetches and their waits
  sl_exec
  -- the offsets of the four gathers are in range, whatever the index scratch held before its fetch
  have hA0 := fun g => offs_inb0 (F := F) v0 v1 d L hr g (tile_body.sl.dma0 v0 d L) rfl ![0, 0] inb_S2x128_S1x128_0_0 squeezes_S1x128_S128
  have hA1 := fun g => offs_inb0 (F := F) v0 v1 d L hr g (tile_body.sl.dma0 v0 d L) rfl ![1, 0] inb_S2x128_S1x128_1_0 squeezes_S1x128_S128
  have hB0 := fun g => offs_inb1 (F := F) v0 v1 d L hr g (tile_body.sl.dma0_1 v1 d L) rfl ![0, 0] inb_S2x128_S1x128_0_0 squeezes_S1x128_S128
  have hB1 := fun g => offs_inb1 (F := F) v0 v1 d L hr g (tile_body.sl.dma0_1 v1 d L) rfl ![1, 0] inb_S2x128_S1x128_1_0 squeezes_S1x128_S128
  -- the gathers, their waits, the copies out and their waits
  sl_exec
  -- what the four blocks hold: the gathered rows
  have ec0 : ∀ x ∈ (ocB0 L).view.set, ((ocB0 L).view.writes (Elt F) fc0 [⟨Rect.whole S128x128, tile_body.sl.dma0_2 ct v0 d L f0 f2 hA0⟩]) x = outC ct v0 d 1 x := by
    intro x hx
    obtain ⟨y, -, rfl⟩ := Finset.mem_map.mp hx
    have h1 := congrFun (View.read_writes_whole (Val := Elt F) (ocB0 L).view fc0 (tile_body.sl.dma0_2 ct v0 d L f0 f2 hA0)) y
    rw [View.read_apply, cast_eq] at h1
    rw [h1]
    have h2 : tile_body.sl.dma0_2 ct v0 d L f0 f2 hA0 = tile_body.sl.gather0 ct v0 d L f0 hA0 :=
      View.read_writes_whole (Val := Elt F) (s2V).view f2 _
    rw [h2]
    exact (gath_val0 (F := F) ct v0 v1 d L hr _ 0 (fun z => list_word0 (F := F) v0 d L f0 (tile_body.sl.dma0 v0 d L) rfl ![0, 0] inb_S2x128_S1x128_0_0 squeezes_S1x128_S128 0 rfl z) _ (hA0 f0) y).trans
      (congrArg (outC ct v0 d 1) (oB_emb L 0 y).symm)
  have ec1 : ∀ x ∈ (ocB1 L).view.set, ((ocB1 L).view.writes (Elt F) fc1 [⟨Rect.whole S128x128, tile_body.sl.dma0_3 ct v0 d L f0 f3 hA1⟩]) x = outC ct v0 d 1 x := by
    intro x hx
    obtain ⟨y, -, rfl⟩ := Finset.mem_map.mp hx
    have h1 := congrFun (View.read_writes_whole (Val := Elt F) (ocB1 L).view fc1 (tile_body.sl.dma0_3 ct v0 d L f0 f3 hA1)) y
    rw [View.read_apply, cast_eq] at h1
    rw [h1]
    have h2 : tile_body.sl.dma0_3 ct v0 d L f0 f3 hA1 = tile_body.sl.gather1 ct v0 d L f0 hA1 :=
      View.read_writes_whole (Val := Elt F) (s3V).view f3 _
    rw [h2]
    exact (gath_val0 (F := F) ct v0 v1 d L hr _ 1 (fun z => list_word0 (F := F) v0 d L f0 (tile_body.sl.dma0 v0 d L) rfl ![1, 0] inb_S2x128_S1x128_1_0 squeezes_S1x128_S128 1 rfl z) _ (hA1 f0) y).trans
      (congrArg (outC ct v0 d 1) (oB_emb L 1 y).symm)
  have en0 : ∀ x ∈ (onB0 L).view.set, ((onB0 L).view.writes (Elt F) fn0 [⟨Rect.whole S128x128, tile_body.sl.dma0_4 nt v1 d L f1 f4 hB0⟩]) x = outN nt v1 d 1 x := by
    intro x hx
    obtain ⟨y, -, rfl⟩ := Finset.mem_map.mp hx
    have h1 := congrFun (View.read_writes_whole (Val := Elt F) (onB0 L).view fn0 (tile_body.sl.dma0_4 nt v1 d L f1 f4 hB0)) y
    rw [View.read_apply, cast_eq] at h1
    rw [h1]
    have h2 : tile_body.sl.dma0_4 nt v1 d L f1 f4 hB0 = tile_body.sl.gather2 nt v1 d L f1 hB0 :=
      View.read_writes_whole (Val := Elt F) (s4V).view f4 _
    rw [h2]
    exact (gath_val1 (F := F) nt v0 v1 d L hr _ 0 (fun z => list_word1 (F := F) v1 d L f1 (tile_body.sl.dma0_1 v1 d L) rfl ![0, 0] inb_S2x128_S1x128_0_0 squeezes_S1x128_S128 0 rfl z) _ (hB0 f1) y).trans
      (congrArg (outN nt v1 d 1) (oB_emb L 0 y).symm)
  have en1 : ∀ x ∈ (onB1 L).view.set, ((onB1 L).view.writes (Elt F) fn1 [⟨Rect.whole S128x128, tile_body.sl.dma0_5 nt v1 d L f1 f5 hB1⟩]) x = outN nt v1 d 1 x := by
    intro x hx
    obtain ⟨y, -, rfl⟩ := Finset.mem_map.mp hx
    have h1 := congrFun (View.read_writes_whole (Val := Elt F) (onB1 L).view fn1 (tile_body.sl.dma0_5 nt v1 d L f1 f5 hB1)) y
    rw [View.read_apply, cast_eq] at h1
    rw [h1]
    have h2 : tile_body.sl.dma0_5 nt v1 d L f1 f5 hB1 = tile_body.sl.gather3 nt v1 d L f1 hB1 :=
      View.read_writes_whole (Val := Elt F) (s5V).view f5 _
    rw [h2]
    exact (gath_val1 (F := F) nt v0 v1 d L hr _ 1 (fun z => list_word1 (F := F) v1 d L f1 (tile_body.sl.dma0_1 v1 d L) rfl ![1, 0] inb_S2x128_S1x128_1_0 squeezes_S1x128_S128 1 rfl z) _ (hB1 f1) y).trans
      (congrArg (outN nt v1 d 1) (oB_emb L 1 y).symm)
  ihave Hoc0 := (Entails.of_eq ((pointsTo_congr ec0).trans (pts_ocB0 (F := F) d L _))) $$ Hoc0'
  ihave Hoc1 := (Entails.of_eq ((pointsTo_congr ec1).trans (pts_ocB1 (F := F) d L _))) $$ Hoc1'
  ihave Hon0 := (Entails.of_eq ((pointsTo_congr en0).trans (pts_onB0 (F := F) d L _))) $$ Hon0'
  ihave Hon1 := (Entails.of_eq ((pointsTo_congr en1).trans (pts_onB1 (F := F) d L _))) $$ Hon1'
  ihave HctA := (Entails.of_eq (pts_ctV (F := F) d L _ _)) $$ HctA'
  ihave HctB := (Entails.of_eq (pts_ctV (F := F) d L _ _)) $$ HctB'
  ihave Hct := (pointsTo_share (PosShare.mem_left_op_right (qT (cL L) (jL L)))).2 $$ [HctA HctB]; · isplitl [HctA] <;> iassumption
  ihave HntA := (Entails.of_eq (pts_ntV (F := F) d L _ _)) $$ HntA'
  ihave HntB := (Entails.of_eq (pts_ntV (F := F) d L _ _)) $$ HntB'
  ihave Hnt := (pointsTo_share (PosShare.mem_left_op_right (qT (cL L) (jL L)))).2 $$ [HntA HntB]; · isplitl [HntA] <;> iassumption
  ihave Hv0 := (Entails.of_eq (pts_i0V (F := F) d L _ _)) $$ Hv0'
  ihave Hv1 := (Entails.of_eq (pts_i1V (F := F) d L _ _)) $$ Hv1'
  ihave Hs0 := (Entails.of_eq (pts_s0V (F := F) d L _)) $$ Hs0'
  ihave Hs1 := (Entails.of_eq (pts_s1V (F := F) d L _)) $$ Hs1'
  ihave Hs2 := (Entails.of_eq (pts_s2V (F := F) d L _)) $$ Hs2'
  ihave Hs3 := (Entails.of_eq (pts_s3V (F := F) d L _)) $$ Hs3'
  ihave Hs4 := (Entails.of_eq (pts_s4V (F := F) d L _)) $$ Hs4'
  ihave Hs5 := (Entails.of_eq (pts_s5V (F := F) d L _)) $$ Hs5'
  sl_step
  isplitl [Hv0 Hv1 Hct Hnt Hoc0 Hoc1 Hon0 Hon1]
  · isplitl [Hv0 Hv1 Hct Hnt]
    · isplitl [Hv0]; · iexact Hv0
      isplitl [Hv1]; · iexact Hv1
      isplitl [Hct] <;> iassumption
    isplitl [Hoc0 Hoc1]
    · isplitl [Hoc0] <;> iassumption
    · isplitl [Hon0] <;> iassumption
  isplitl [Hs0 Hs1 Hs2 Hs3 Hs4 Hs5 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hm6 Hm7 Hm8 Hm9 Hm10 Hm11 Hm12 Hm13 HmA HmB Hsems]
  · isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [HmA]; · iexact HmA
    isplitl [HmB]; · iexact HmB
    iexact Hsems
  iexists _; isplitr
  swap; · iexact HO
  ipureintro; intro p hp
  simp only [Finset.mem_insert] at hp
  rcases hp with h | h | h | h | h | h | h | h | h | h | h
  all_goals first | exact .inl h | exact .inr (h ▸ rfl)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s) i0V (Memref.isWhole_whole _) i1V (Memref.isWhole_whole _) ctV (Memref.isWhole_whole _) ntV (Memref.isWhole_whole _) ocV (Memref.isWhole_whole _) onV (Memref.isWhole_whole _) s0V (Memref.isWhole_whole _) s1V (Memref.isWhole_whole _) s2V (Memref.isWhole_whole _) s3V (Memref.isWhole_whole _) s4V (Memref.isWhole_whole _) s5V (Memref.isWhole_whole _) cc1_scratch6 cc1_scratch7 cc1_scratch8 cc1_scratch9 cc1_scratch10 cc1_scratch11 cc1_scratch12 cc1_scratch13 cc1_scoped0 cc1_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore at call 1. -/
theorem tileObl1 (hF : (K (F := F)).Facts) (hr : InRange v0 v1) : (K (F := F)).TileObl (D (F := F)) 𝒱 (P ct nt v0 v1) v₀ 1 := by
  intro d c i O W hO _ _
  simp only [show (P ct nt v0 v1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct nt v0 v1 d (coordsV ⟨_, hci.1⟩ ⟨_, hci.2⟩) hF hr O W hO).trans (wp_mono frame _ _ fun _ => obl_post)

end Tile1

export Tile1 (tileObl1)

end Cert.Kernel.ScSide

end
-- ==== Proof.Bits.ScSplit.lean ====
/-
  How a SparseCore's share of a call goes to its sixteen vector subcores and comes back: the share already lists the
  subcores' tasks, so the split only hands them out and collects what they return beside the remainder of the read share.
-/
import proofs.«204006_g8589934699_cont_9to1c4b_872_29_alg».proof.Proof.Bits.ScPay

noncomputable section

namespace Cert.Kernel.ScSide

open Cert.Kernel Cert.Kernel.Gen Cert.Kernel.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

theorem vecSplit0 : (K (F := F)).VecSplit' (P ct nt v0 v1) 0 := by
  intro d c
  show coreSt0 ct nt v0 v1 d (Fin.cast nCore_zero c) ⊢ |={Set.univ}=> iprop(
      (bigSep Finset.univ fun i : Fin ((K (F := F)).nSub 0) => tileGo0 ct nt v0 v1 d (Fin.cast nCore_zero c) (Fin.cast nSub_zero i))
      ∗ ((bigSep Finset.univ fun i : Fin ((K (F := F)).nSub 0) => tileTd0 ct nt v0 v1 d (Fin.cast nCore_zero c) (Fin.cast nSub_zero i))
          -∗ coreDn0 ct nt v0 v1 d (Fin.cast nCore_zero c)))
  rw [bigSep_tasks0 (F := F) (fun i => tileGo0 ct nt v0 v1 d (Fin.cast nCore_zero c) i),
    bigSep_tasks0 (F := F) (fun i => tileTd0 ct nt v0 v1 d (Fin.cast nCore_zero c) i)]
  iintro ⟨Hr, Hgo⟩; imodintro
  isplitl [Hgo]; · iexact Hgo
  iintro Htd
  isplitl [Hr]; · iexact Hr
  iexact Htd

theorem vecSplit1 : (K (F := F)).VecSplit' (P ct nt v0 v1) 1 := by
  intro d c
  show coreSt1 ct nt v0 v1 d (Fin.cast nCore_one c) ⊢ |={Set.univ}=> iprop(
      (bigSep Finset.univ fun i : Fin ((K (F := F)).nSub 1) => tileGo1 ct nt v0 v1 d (Fin.cast nCore_one c) (Fin.cast nSub_one i))
      ∗ ((bigSep Finset.univ fun i : Fin ((K (F := F)).nSub 1) => tileTd1 ct nt v0 v1 d (Fin.cast nCore_one c) (Fin.cast nSub_one i))
          -∗ coreDn1 ct nt v0 v1 d (Fin.cast nCore_one c)))
  rw [bigSep_tasks1 (F := F) (fun i => tileGo1 ct nt v0 v1 d (Fin.cast nCore_one c) i),
    bigSep_tasks1 (F := F) (fun i => tileTd1 ct nt v0 v1 d (Fin.cast nCore_one c) i)]
  iintro ⟨Hr, Hgo⟩; imodintro
  isplitl [Hgo]; · iexact Hgo
  iintro Htd
  isplitl [Hr]; · iexact Hr
  iexact Htd

end Cert.Kernel.ScSide

end
-- ==== Proof.Bits.ScCall.lean ====
/-
  The two row-gather calls as @main's TensorCore runs them: the four inputs go out as read tokens, one per SparseCore
  and of each one per vector subcore; each result goes out as its 64 blocks of 128 rows and comes back whole at the
  gathered rows.
-/
import proofs.«204006_g8589934699_cont_9to1c4b_872_29_alg».proof.Proof.Bits.ScPay

noncomputable section

namespace Cert.Kernel.ScSide

open Cert.Kernel Cert.Kernel.Gen Cert.Kernel.Setup

open Idealize.ShloMosaic
open Idealize.ShloMosaic.ValueIdx (ix2 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
variable (ct : (d : Dev nD) → Buf (Elt F) (ctLoc d)) (nt : (d : Dev nD) → Buf (Elt F) (ntLoc d))
  (v0 : (d : Dev nD) → Buf (Elt F) (v0Loc d)) (v1 : (d : Dev nD) → Buf (Elt F) (v1Loc d))

/-! ## The 64 blocks of a result tile it -/

/-- Block (c, i, r): rows 512 i + 256 c + 128 r … + 128. -/
abbrev blkT (t : Fin 2 × Fin 16 × Fin 2) : Finset S8192x128.Idx := blkSet t.1 t.2.1 t.2.2

theorem blk_disjoint : ∀ t ∈ (Finset.univ : Finset (Fin 2 × Fin 16 × Fin 2)), ∀ t' ∈ (Finset.univ : Finset (Fin 2 × Fin 16 × Fin 2)), t ≠ t' →
    Disjoint (blkT t) (blkT t') := by
  rintro ⟨c, i, r⟩ - ⟨c', i', r'⟩ - h
  have hne : ¬(c.val = c'.val ∧ i.val = i'.val ∧ r.val = r'.val) := fun ⟨h1, h2, h3⟩ =>
    h (by rw [Fin.ext h1, Fin.ext h2, Fin.ext h3])
  refine Rect.unit_disjoint (0 : Fin 2) ?_
  show 512 * i.val + 256 * c.val + 128 * r.val + 128 ≤ 512 * i'.val + 256 * c'.val + 128 * r'.val
    ∨ 512 * i'.val + 256 * c'.val + 128 * r'.val + 128 ≤ 512 * i.val + 256 * c.val + 128 * r.val
  omega

theorem blk_cover : (Finset.univ : Finset (Fin 2 × Fin 16 × Fin 2)).biUnion blkT = Finset.univ := by
  ext x
  simp only [Finset.mem_biUnion, Finset.mem_univ, true_and, iff_true]
  have hx : (x 0).val < 8192 := (x 0).isLt
  have hy : (x 1).val < 128 := (x 1).isLt
  refine ⟨(⟨(x 0).val / 256 % 2, by omega⟩, ⟨(x 0).val / 512, by omega⟩, ⟨(x 0).val / 128 % 2, by omega⟩), Rect.mem_set_unit.mpr fun a => ?_⟩
  match a with
  | 0 =>
    show 512 * ((x 0).val / 512) + 256 * ((x 0).val / 256 % 2) + 128 * ((x 0).val / 128 % 2) ≤ (x 0).val
      ∧ (x 0).val < 512 * ((x 0).val / 512) + 256 * ((x 0).val / 256 % 2) + 128 * ((x 0).val / 128 % 2) + 128
    omega
  | 1 => exact ⟨Nat.zero_le _, by show (x 1).val < 0 + 128; omega⟩

/-- Result oc0 whole is its 64 blocks; -/
theorem oc0_blocksT (d : Dev nD) (f : Buf (Elt F) (oc0Loc d)) :
    (oc0Loc d ↦{fullShare} f : sProp 𝕄) = bigSep Finset.univ fun t : Fin 2 × Fin 16 × Fin 2 => oc0Loc d ↦[blkT t]{fullShare} f := by
  rw [← pointsTo_biUnion Finset.univ (ℓ := oc0Loc d) blkT blk_disjoint, blk_cover]; try rfl

/-- by SparseCore, subcore and half. -/
theorem oc0_blocks (d : Dev nD) (f : Buf (Elt F) (oc0Loc d)) :
    (oc0Loc d ↦{fullShare} f : sProp 𝕄)
      = bigSep Finset.univ fun c : Fin 2 => bigSep Finset.univ fun i : Fin 16 =>
          iprop((oc0Loc d ↦[blkSet c i 0]{fullShare} f) ∗ (oc0Loc d ↦[blkSet c i 1]{fullShare} f)) := by
  rw [oc0_blocksT, bigSep_univ_prod]
  refine bigSep_congr fun c _ => ?_
  rw [bigSep_univ_prod]
  refine bigSep_congr fun i _ => ?_
  exact bigSep_univ_two _

/-- Result on0 whole is its 64 blocks; -/
theorem on0_blocksT (d : Dev nD) (f : Buf (Elt F) (on0Loc d)) :
    (on0Loc d ↦{fullShare} f : sProp 𝕄) = bigSep Finset.univ fun t : Fin 2 × Fin 16 × Fin 2 => on0Loc d ↦[blkT t]{fullShare} f := by
  rw [← pointsTo_biUnion Finset.univ (ℓ := on0Loc d) blkT blk_disjoint, blk_cover]; try rfl

/-- by SparseCore, subcore and half. -/
theorem on0_blocks (d : Dev nD) (f : Buf (Elt F) (on0Loc d)) :
    (on0Loc d ↦{fullShare} f : sProp 𝕄)
      = bigSep Finset.univ fun c : Fin 2 => bigSep Finset.univ fun i : Fin 16 =>
          iprop((on0Loc d ↦[blkSet c i 0]{fullShare} f) ∗ (on0Loc d ↦[blkSet c i 1]{fullShare} f)) := by
  rw [on0_blocksT, bigSep_univ_prod]
  refine bigSep_congr fun c _ => ?_
  rw [bigSep_univ_prod]
  refine bigSep_congr fun i _ => ?_
  exact bigSep_univ_two _

/-- Result oc1 whole is its 64 blocks; -/
theorem oc1_blocksT (d : Dev nD) (f : Buf (Elt F) (oc1Loc d)) :
    (oc1Loc d ↦{fullShare} f : sProp 𝕄) = bigSep Finset.univ fun t : Fin 2 × Fin 16 × Fin 2 => oc1Loc d ↦[blkT t]{fullShare} f := by
  rw [← pointsTo_biUnion Finset.univ (ℓ := oc1Loc d) blkT blk_disjoint, blk_cover]; try rfl

/-- by SparseCore, subcore and half. -/
theorem oc1_blocks (d : Dev nD) (f : Buf (Elt F) (oc1Loc d)) :
    (oc1Loc d ↦{fullShare} f : sProp 𝕄)
      = bigSep Finset.univ fun c : Fin 2 => bigSep Finset.univ fun i : Fin 16 =>
          iprop((oc1Loc d ↦[blkSet c i 0]{fullShare} f) ∗ (oc1Loc d ↦[blkSet c i 1]{fullShare} f)) := by
  rw [oc1_blocksT, bigSep_univ_prod]
  refine bigSep_congr fun c _ => ?_
  rw [bigSep_univ_prod]
  refine bigSep_congr fun i _ => ?_
  exact bigSep_univ_two _

/-- Result on1 whole is its 64 blocks; -/
theorem on1_blocksT (d : Dev nD) (f : Buf (Elt F) (on1Loc d)) :
    (on1Loc d ↦{fullShare} f : sProp 𝕄) = bigSep Finset.univ fun t : Fin 2 × Fin 16 × Fin 2 => on1Loc d ↦[blkT t]{fullShare} f := by
  rw [← pointsTo_biUnion Finset.univ (ℓ := on1Loc d) blkT blk_disjoint, blk_cover]; try rfl

/-- by SparseCore, subcore and half. -/
theorem on1_blocks (d : Dev nD) (f : Buf (Elt F) (on1Loc d)) :
    (on1Loc d ↦{fullShare} f : sProp 𝕄)
      = bigSep Finset.univ fun c : Fin 2 => bigSep Finset.univ fun i : Fin 16 =>
          iprop((on1Loc d ↦[blkSet c i 0]{fullShare} f) ∗ (on1Loc d ↦[blkSet c i 1]{fullShare} f)) := by
  rw [on1_blocksT, bigSep_univ_prod]
  refine bigSep_congr fun c _ => ?_
  rw [bigSep_univ_prod]
  refine bigSep_congr fun i _ => ?_
  exact bigSep_univ_two _

/-! ## The inputs' read tokens -/

/-- The four inputs at a share are the remainder after n tokens and the n tokens. -/
theorem insAt_toks (d : Dev nD) (q : PosShare TreeShare) (n : ℕ) :
    insAt ct nt v0 v1 d q
      ⊣⊢ iprop(insAt ct nt v0 v1 d (Transfers.shareDrop q n) ∗ bigSep Finset.univ fun i : Fin n => insAt ct nt v0 v1 d (Transfers.shareTok q n i)) := by
  constructor
  · iintro ⟨H0, H1, H2, H3⟩
    ihave H0 := (Transfers.pointsTo_toks_split q n) $$ H0; icases H0 with ⟨H0d, H0t⟩
    ihave H1 := (Transfers.pointsTo_toks_split q n) $$ H1; icases H1 with ⟨H1d, H1t⟩
    ihave H2 := (Transfers.pointsTo_toks_split q n) $$ H2; icases H2 with ⟨H2d, H2t⟩
    ihave H3 := (Transfers.pointsTo_toks_split q n) $$ H3; icases H3 with ⟨H3d, H3t⟩
    isplitl [H0d H1d H2d H3d]
    · isplitl [H0d]; · iexact H0d
      isplitl [H1d]; · iexact H1d
      isplitl [H2d] <;> iassumption
    ihave H23 := (Transfers.bigSep_sep_in Finset.univ (fun i : Fin n => (ctLoc d ↦{Transfers.shareTok q n i} ct d : sProp 𝕄))
        (fun i : Fin n => (ntLoc d ↦{Transfers.shareTok q n i} nt d : sProp 𝕄))) $$ [H2t H3t]
    · isplitl [H2t] <;> iassumption
    ihave H123 := (Transfers.bigSep_sep_in Finset.univ (fun i : Fin n => (v1Loc d ↦{Transfers.shareTok q n i} v1 d : sProp 𝕄)) _) $$ [H1t H23]
    · isplitl [H1t] <;> iassumption
    iapply (Transfers.bigSep_sep_in Finset.univ (fun i : Fin n => (v0Loc d ↦{Transfers.shareTok q n i} v0 d : sProp 𝕄)) _)
    isplitl [H0t] <;> iassumption
  · iintro ⟨⟨H0d, H1d, H2d, H3d⟩, Ht⟩
    ihave Ht := (Transfers.bigSep_sep_out Finset.univ (fun i : Fin n => (v0Loc d ↦{Transfers.shareTok q n i} v0 d : sProp 𝕄)) _) $$ Ht
    icases Ht with ⟨H0t, Ht⟩
    ihave Ht := (Transfers.bigSep_sep_out Finset.univ (fun i : Fin n => (v1Loc d ↦{Transfers.shareTok q n i} v1 d : sProp 𝕄)) _) $$ Ht
    icases Ht with ⟨H1t, Ht⟩
    ihave Ht := (Transfers.bigSep_sep_out Finset.univ (fun i : Fin n => (ctLoc d ↦{Transfers.shareTok q n i} ct d : sProp 𝕄))
        (fun i : Fin n => (ntLoc d ↦{Transfers.shareTok q n i} nt d : sProp 𝕄))) $$ Ht
    icases Ht with ⟨H2t, H3t⟩
    isplitl [H0d H0t]; · iapply (Transfers.pointsTo_toks_join q n); isplitl [H0d] <;> iassumption
    isplitl [H1d H1t]; · iapply (Transfers.pointsTo_toks_join q n); isplitl [H1d] <;> iassumption
    isplitl [H2d H2t]; · iapply (Transfers.pointsTo_toks_join q n); isplitl [H2d] <;> iassumption
    iapply (Transfers.pointsTo_toks_join q n); isplitl [H3d] <;> iassumption

/-- The four inputs whole. -/
abbrev insFull (d : Dev nD) : sProp 𝕄 := insAt ct nt v0 v1 d fullShare

variable [FloatOps F]

theorem st0_eq (d : Dev nD) :
    (bigSep Finset.univ fun c : Fin ((K (F := F)).nCore 0) => (P ct nt v0 v1).st 0 d c)
      = iprop(coreSt0 ct nt v0 v1 d 0 ∗ coreSt0 ct nt v0 v1 d 1) :=
  (bigSep_congr (Φ := fun c : Fin ((K (F := F)).nCore 0) => (P ct nt v0 v1).st 0 d c)
    (Ψ := fun c : Fin 2 => coreSt0 ct nt v0 v1 d c) fun c _ => congrArg (coreSt0 ct nt v0 v1 d) (Fin.ext rfl)).trans (bigSep_univ_two _)
theorem dn0_eq (d : Dev nD) :
    (bigSep Finset.univ fun c : Fin ((K (F := F)).nCore 0) => (P ct nt v0 v1).dn 0 d c)
      = iprop(coreDn0 ct nt v0 v1 d 0 ∗ coreDn0 ct nt v0 v1 d 1) :=
  (bigSep_congr (Φ := fun c : Fin ((K (F := F)).nCore 0) => (P ct nt v0 v1).dn 0 d c)
    (Ψ := fun c : Fin 2 => coreDn0 ct nt v0 v1 d c) fun c _ => congrArg (coreDn0 ct nt v0 v1 d) (Fin.ext rfl)).trans (bigSep_univ_two _)

/-- A subcore's task at call 0, from its read token and its blocks at given contents. -/
theorem tile_in0 (d : Dev nD) (c : Fin 2) (f0 : Buf (Elt F) (oc0Loc d)) (f1 : Buf (Elt F) (on0Loc d)) (i : Fin 16) :
    iprop(insAt ct nt v0 v1 d (qT c i)
        ∗ ((oc0Loc d ↦[blkSet c i 0]{fullShare} f0) ∗ (oc0Loc d ↦[blkSet c i 1]{fullShare} f0))
        ∗ ((on0Loc d ↦[blkSet c i 0]{fullShare} f1) ∗ (on0Loc d ↦[blkSet c i 1]{fullShare} f1)))
      ⊢ tileGo0 ct nt v0 v1 d c i := by
  iintro ⟨Hi, ⟨Hc0, Hc1⟩, ⟨Hn0, Hn1⟩⟩
  isplitl [Hi]; · iexact Hi
  isplitl [Hc0 Hc1]
  · isplitl [Hc0]; · iexists _; iexact Hc0
    iexists _; iexact Hc1
  isplitl [Hn0]; · iexists _; iexact Hn0
  iexists _; iexact Hn1

/-- A SparseCore's share of call 0, from its read token and its blocks of the two results. -/
theorem core_in0 (d : Dev nD) (c : Fin 2) (f0 : Buf (Elt F) (oc0Loc d)) (f1 : Buf (Elt F) (on0Loc d)) :
    iprop(insAt ct nt v0 v1 d (qC c)
        ∗ (bigSep Finset.univ fun i : Fin 16 => iprop((oc0Loc d ↦[blkSet c i 0]{fullShare} f0) ∗ (oc0Loc d ↦[blkSet c i 1]{fullShare} f0)))
        ∗ (bigSep Finset.univ fun i : Fin 16 => iprop((on0Loc d ↦[blkSet c i 0]{fullShare} f1) ∗ (on0Loc d ↦[blkSet c i 1]{fullShare} f1))))
      ⊢ coreSt0 ct nt v0 v1 d c := by
  iintro ⟨Hi, Hc, Hn⟩
  ihave Hi := (insAt_toks ct nt v0 v1 d (qC c) 16).1 $$ Hi
  icases Hi with ⟨Hd, Ht⟩
  isplitl [Hd]; · iexact Hd
  ihave H := (Transfers.bigSep_sep_in Finset.univ
      (fun i : Fin 16 => iprop((oc0Loc d ↦[blkSet c i 0]{fullShare} f0) ∗ (oc0Loc d ↦[blkSet c i 1]{fullShare} f0)))
      (fun i : Fin 16 => iprop((on0Loc d ↦[blkSet c i 0]{fullShare} f1) ∗ (on0Loc d ↦[blkSet c i 1]{fullShare} f1)))) $$ [Hc Hn]
  · isplitl [Hc] <;> iassumption
  ihave H := (Transfers.bigSep_sep_in Finset.univ (fun i : Fin 16 => insAt ct nt v0 v1 d (qT c i)) _) $$ [Ht H]
  · isplitl [Ht] <;> iassumption
  iapply (Transfers.ent (bigSep_mono fun i _ => tile_in0 ct nt v0 v1 d c f0 f1 i)) $$ H

/-- and what it brings back: its read token and its blocks at the gathered rows. -/
theorem core_out0 (d : Dev nD) (c : Fin 2) :
    coreDn0 ct nt v0 v1 d c
      ⊢ iprop(insAt ct nt v0 v1 d (qC c)
        ∗ (bigSep Finset.univ fun i : Fin 16 => iprop((oc0Loc d ↦[blkSet c i 0]{fullShare} outC ct v0 d 0) ∗ (oc0Loc d ↦[blkSet c i 1]{fullShare} outC ct v0 d 0)))
        ∗ (bigSep Finset.univ fun i : Fin 16 => iprop((on0Loc d ↦[blkSet c i 0]{fullShare} outN nt v1 d 0) ∗ (on0Loc d ↦[blkSet c i 1]{fullShare} outN nt v1 d 0)))) := by
  iintro ⟨Hd, H⟩
  ihave H := (Transfers.bigSep_sep_out Finset.univ (fun i : Fin 16 => insAt ct nt v0 v1 d (qT c i)) _) $$ H
  icases H with ⟨Ht, H⟩
  ihave H := (Transfers.bigSep_sep_out Finset.univ
      (fun i : Fin 16 => iprop((oc0Loc d ↦[blkSet c i 0]{fullShare} outC ct v0 d 0) ∗ (oc0Loc d ↦[blkSet c i 1]{fullShare} outC ct v0 d 0)))
      (fun i : Fin 16 => iprop((on0Loc d ↦[blkSet c i 0]{fullShare} outN nt v1 d 0) ∗ (on0Loc d ↦[blkSet c i 1]{fullShare} outN nt v1 d 0)))) $$ H
  icases H with ⟨Hc, Hn⟩
  isplitl [Hd Ht]
  · iapply (insAt_toks ct nt v0 v1 d (qC c) 16).2; isplitl [Hd] <;> iassumption
  isplitl [Hc] <;> iassumption

/-- SparseCore call 0 on the TensorCore: from the four inputs and the two results whole, to the inputs unchanged and the
    results at the gathered rows. -/
theorem call0 (hr : InRange v0 v1) (κ : GSem nD τ sig → ℕ) (d : Dev nD) (f0 : Buf (Elt F) (oc0Loc d)) (f1 : Buf (Elt F) (on0Loc d)) (Φ : PUnit → sProp 𝕄) :
    iprop((K (F := F)).ctx EH (P ct nt v0 v1) κ ∗ (K (F := F)).tcSt EH d 0 ∗ insFull ct nt v0 v1 d
        ∗ (oc0Loc d ↦{fullShare} f0) ∗ (on0Loc d ↦{fullShare} f1)
        ∗ (((K (F := F)).tcSt EH d 1 ∗ insFull ct nt v0 v1 d
            ∗ (oc0Loc d ↦{fullShare} outC ct v0 d 0) ∗ (on0Loc d ↦{fullShare} outN nt v1 d 0)) -∗ Φ ⟨⟩))
      ⊢ wp frame (wpE ((K (F := F)).defs (D (F := F))) 𝒱 (SparseCore.T d) none) Set.univ ((K (F := F)).run d 0) Φ := by
  iintro ⟨#Hctx, Hst, Hins, Ho0, Ho1, Hk⟩
  ihave Hins := (insAt_toks ct nt v0 v1 d fullShare 2).1 $$ Hins
  icases Hins with ⟨Hrest, Hc⟩
  ihave Hc := (Entails.of_eq (bigSep_univ_two (fun c : Fin 2 => insAt ct nt v0 v1 d (qC c)))) $$ Hc
  icases Hc with ⟨Hc0, Hc1⟩
  ihave Ho0 := (Entails.of_eq ((oc0_blocks (F := F) d f0).trans (bigSep_univ_two _))) $$ Ho0
  icases Ho0 with ⟨Ho00, Ho01⟩
  ihave Ho1 := (Entails.of_eq ((on0_blocks (F := F) d f1).trans (bigSep_univ_two _))) $$ Ho1
  icases Ho1 with ⟨Ho10, Ho11⟩
  iapply ((K (F := F)).wp_run (D (F := F)) 𝒱 (EH := EH) (P := P ct nt v0 v1) κ d 0) $$ [Hst Hc0 Hc1 Ho00 Ho01 Ho10 Ho11 Hrest Hk]
  isplitr; · iexact Hctx
  isplitl [Hst]; · iexact Hst
  isplitl [Hc0 Hc1 Ho00 Ho01 Ho10 Ho11]
  · rw [st0_eq]
    isplitl [Hc0 Ho00 Ho10]
    · iapply (core_in0 ct nt v0 v1 d 0 f0 f1); isplitl [Hc0]; · iexact Hc0
      isplitl [Ho00] <;> iassumption
    · iapply (core_in0 ct nt v0 v1 d 1 f0 f1); isplitl [Hc1]; · iexact Hc1
      isplitl [Ho01] <;> iassumption
  iintro ⟨Hst, Hdn⟩
  ihave Hdn := (Entails.of_eq (dn0_eq ct nt v0 v1 d)) $$ Hdn
  icases Hdn with ⟨H0, H1⟩
  ihave H0 := (core_out0 ct nt v0 v1 d 0) $$ H0
  icases H0 with ⟨Hc0, Ho00, Ho10⟩
  ihave H1 := (core_out0 ct nt v0 v1 d 1) $$ H1
  icases H1 with ⟨Hc1, Ho01, Ho11⟩
  iapply Hk
  isplitl [Hst]; · iexact Hst
  isplitl [Hrest Hc0 Hc1]
  · iapply (insAt_toks ct nt v0 v1 d fullShare 2).2
    isplitl [Hrest]; · iexact Hrest
    iapply (Entails.of_eq (bigSep_univ_two (fun c : Fin 2 => insAt ct nt v0 v1 d (qC c))).symm)
    isplitl [Hc0] <;> iassumption
  isplitl [Ho00 Ho01]
  · iapply (Entails.of_eq ((oc0_blocks (F := F) d (outC ct v0 d 0)).trans (bigSep_univ_two _)).symm)
    isplitl [Ho00] <;> iassumption
  · iapply (Entails.of_eq ((on0_blocks (F := F) d (outN nt v1 d 0)).trans (bigSep_univ_two _)).symm)
    isplitl [Ho10] <;> iassumption

theorem st1_eq (d : Dev nD) :
    (bigSep Finset.univ fun c : Fin ((K (F := F)).nCore 1) => (P ct nt v0 v1).st 1 d c)
      = iprop(coreSt1 ct nt v0 v1 d 0 ∗ coreSt1 ct nt v0 v1 d 1) :=
  (bigSep_congr (Φ := fun c : Fin ((K (F := F)).nCore 1) => (P ct nt v0 v1).st 1 d c)
    (Ψ := fun c : Fin 2 => coreSt1 ct nt v0 v1 d c) fun c _ => congrArg (coreSt1 ct nt v0 v1 d) (Fin.ext rfl)).trans (bigSep_univ_two _)
theorem dn1_eq (d : Dev nD) :
    (bigSep Finset.univ fun c : Fin ((K (F := F)).nCore 1) => (P ct nt v0 v1).dn 1 d c)
      = iprop(coreDn1 ct nt v0 v1 d 0 ∗ coreDn1 ct nt v0 v1 d 1) :=
  (bigSep_congr (Φ := fun c : Fin ((K (F := F)).nCore 1) => (P ct nt v0 v1).dn 1 d c)
    (Ψ := fun c : Fin 2 => coreDn1 ct nt v0 v1 d c) fun c _ => congrArg (coreDn1 ct nt v0 v1 d) (Fin.ext rfl)).trans (bigSep_univ_two _)

/-- A subcore's task at call 1, from its read token and its blocks at given contents. -/
theorem tile_in1 (d : Dev nD) (c : Fin 2) (f0 : Buf (Elt F) (oc1Loc d)) (f1 : Buf (Elt F) (on1Loc d)) (i : Fin 16) :
    iprop(insAt ct nt v0 v1 d (qT c i)
        ∗ ((oc1Loc d ↦[blkSet c i 0]{fullShare} f0) ∗ (oc1Loc d ↦[blkSet c i 1]{fullShare} f0))
        ∗ ((on1Loc d ↦[blkSet c i 0]{fullShare} f1) ∗ (on1Loc d ↦[blkSet c i 1]{fullShare} f1)))
      ⊢ tileGo1 ct nt v0 v1 d c i := by
  iintro ⟨Hi, ⟨Hc0, Hc1⟩, ⟨Hn0, Hn1⟩⟩
  isplitl [Hi]; · iexact Hi
  isplitl [Hc0 Hc1]
  · isplitl [Hc0]; · iexists _; iexact Hc0
    iexists _; iexact Hc1
  isplitl [Hn0]; · iexists _; iexact Hn0
  iexists _; iexact Hn1

/-- A SparseCore's share of call 1, from its read token and its blocks of the two results. -/
theorem core_in1 (d : Dev nD) (c : Fin 2) (f0 : Buf (Elt F) (oc1Loc d)) (f1 : Buf (Elt F) (on1Loc d)) :
    iprop(insAt ct nt v0 v1 d (qC c)
        ∗ (bigSep Finset.univ fun i : Fin 16 => iprop((oc1Loc d ↦[blkSet c i 0]{fullShare} f0) ∗ (oc1Loc d ↦[blkSet c i 1]{fullShare} f0)))
        ∗ (bigSep Finset.univ fun i : Fin 16 => iprop((on1Loc d ↦[blkSet c i 0]{fullShare} f1) ∗ (on1Loc d ↦[blkSet c i 1]{fullShare} f1))))
      ⊢ coreSt1 ct nt v0 v1 d c := by
  iintro ⟨Hi, Hc, Hn⟩
  ihave Hi := (insAt_toks ct nt v0 v1 d (qC c) 16).1 $$ Hi
  icases Hi with ⟨Hd, Ht⟩
  isplitl [Hd]; · iexact Hd
  ihave H := (Transfers.bigSep_sep_in Finset.univ
      (fun i : Fin 16 => iprop((oc1Loc d ↦[blkSet c i 0]{fullShare} f0) ∗ (oc1Loc d ↦[blkSet c i 1]{fullShare} f0)))
      (fun i : Fin 16 => iprop((on1Loc d ↦[blkSet c i 0]{fullShare} f1) ∗ (on1Loc d ↦[blkSet c i 1]{fullShare} f1)))) $$ [Hc Hn]
  · isplitl [Hc] <;> iassumption
  ihave H := (Transfers.bigSep_sep_in Finset.univ (fun i : Fin 16 => insAt ct nt v0 v1 d (qT c i)) _) $$ [Ht H]
  · isplitl [Ht] <;> iassumption
  iapply (Transfers.ent (bigSep_mono fun i _ => tile_in1 ct nt v0 v1 d c f0 f1 i)) $$ H

/-- and what it brings back: its read token and its blocks at the gathered rows. -/
theorem core_out1 (d : Dev nD) (c : Fin 2) :
    coreDn1 ct nt v0 v1 d c
      ⊢ iprop(insAt ct nt v0 v1 d (qC c)
        ∗ (bigSep Finset.univ fun i : Fin 16 => iprop((oc1Loc d ↦[blkSet c i 0]{fullShare} outC ct v0 d 1) ∗ (oc1Loc d ↦[blkSet c i 1]{fullShare} outC ct v0 d 1)))
        ∗ (bigSep Finset.univ fun i : Fin 16 => iprop((on1Loc d ↦[blkSet c i 0]{fullShare} outN nt v1 d 1) ∗ (on1Loc d ↦[blkSet c i 1]{fullShare} outN nt v1 d 1)))) := by
  iintro ⟨Hd, H⟩
  ihave H := (Transfers.bigSep_sep_out Finset.univ (fun i : Fin 16 => insAt ct nt v0 v1 d (qT c i)) _) $$ H
  icases H with ⟨Ht, H⟩
  ihave H := (Transfers.bigSep_sep_out Finset.univ
      (fun i : Fin 16 => iprop((oc1Loc d ↦[blkSet c i 0]{fullShare} outC ct v0 d 1) ∗ (oc1Loc d ↦[blkSet c i 1]{fullShare} outC ct v0 d 1)))
      (fun i : Fin 16 => iprop((on1Loc d ↦[blkSet c i 0]{fullShare} outN nt v1 d 1) ∗ (on1Loc d ↦[blkSet c i 1]{fullShare} outN nt v1 d 1)))) $$ H
  icases H with ⟨Hc, Hn⟩
  isplitl [Hd Ht]
  · iapply (insAt_toks ct nt v0 v1 d (qC c) 16).2; isplitl [Hd] <;> iassumption
  isplitl [Hc] <;> iassumption

/-- SparseCore call 1 on the TensorCore: from the four inputs and the two results whole, to the inputs unchanged and the
    results at the gathered rows. -/
theorem call1 (hr : InRange v0 v1) (κ : GSem nD τ sig → ℕ) (d : Dev nD) (f0 : Buf (Elt F) (oc1Loc d)) (f1 : Buf (Elt F) (on1Loc d)) (Φ : PUnit → sProp 𝕄) :
    iprop((K (F := F)).ctx EH (P ct nt v0 v1) κ ∗ (K (F := F)).tcSt EH d 1 ∗ insFull ct nt v0 v1 d
        ∗ (oc1Loc d ↦{fullShare} f0) ∗ (on1Loc d ↦{fullShare} f1)
        ∗ (((K (F := F)).tcSt EH d 2 ∗ insFull ct nt v0 v1 d
            ∗ (oc1Loc d ↦{fullShare} outC ct v0 d 1) ∗ (on1Loc d ↦{fullShare} outN nt v1 d 1)) -∗ Φ ⟨⟩))
      ⊢ wp frame (wpE ((K (F := F)).defs (D (F := F))) 𝒱 (SparseCore.T d) none) Set.univ ((K (F := F)).run d 1) Φ := by
  iintro ⟨#Hctx, Hst, Hins, Ho0, Ho1, Hk⟩
  ihave Hins := (insAt_toks ct nt v0 v1 d fullShare 2).1 $$ Hins
  icases Hins with ⟨Hrest, Hc⟩
  ihave Hc := (Entails.of_eq (bigSep_univ_two (fun c : Fin 2 => insAt ct nt v0 v1 d (qC c)))) $$ Hc
  icases Hc with ⟨Hc0, Hc1⟩
  ihave Ho0 := (Entails.of_eq ((oc1_blocks (F := F) d f0).trans (bigSep_univ_two _))) $$ Ho0
  icases Ho0 with ⟨Ho00, Ho01⟩
  ihave Ho1 := (Entails.of_eq ((on1_blocks (F := F) d f1).trans (bigSep_univ_two _))) $$ Ho1
  icases Ho1 with ⟨Ho10, Ho11⟩
  iapply ((K (F := F)).wp_run (D (F := F)) 𝒱 (EH := EH) (P := P ct nt v0 v1) κ d 1) $$ [Hst Hc0 Hc1 Ho00 Ho01 Ho10 Ho11 Hrest Hk]
  isplitr; · iexact Hctx
  isplitl [Hst]; · iexact Hst
  isplitl [Hc0 Hc1 Ho00 Ho01 Ho10 Ho11]
  · rw [st1_eq]
    isplitl [Hc0 Ho00 Ho10]
    · iapply (core_in1 ct nt v0 v1 d 0 f0 f1); isplitl [Hc0]; · iexact Hc0
      isplitl [Ho00] <;> iassumption
    · iapply (core_in1 ct nt v0 v1 d 1 f0 f1); isplitl [Hc1]; · iexact Hc1
      isplitl [Ho01] <;> iassumption
  iintro ⟨Hst, Hdn⟩
  ihave Hdn := (Entails.of_eq (dn1_eq ct nt v0 v1 d)) $$ Hdn
  icases Hdn with ⟨H0, H1⟩
  ihave H0 := (core_out1 ct nt v0 v1 d 0) $$ H0
  icases H0 with ⟨Hc0, Ho00, Ho10⟩
  ihave H1 := (core_out1 ct nt v0 v1 d 1) $$ H1
  icases H1 with ⟨Hc1, Ho01, Ho11⟩
  iapply Hk
  isplitl [Hst]; · iexact Hst
  isplitl [Hrest Hc0 Hc1]
  · iapply (insAt_toks ct nt v0 v1 d fullShare 2).2
    isplitl [Hrest]; · iexact Hrest
    iapply (Entails.of_eq (bigSep_univ_two (fun c : Fin 2 => insAt ct nt v0 v1 d (qC c))).symm)
    isplitl [Hc0] <;> iassumption
  isplitl [Ho00 Ho01]
  · iapply (Entails.of_eq ((oc1_blocks (F := F) d (outC ct v0 d 1)).trans (bigSep_univ_two _)).symm)
    isplitl [Ho00] <;> iassumption
  · iapply (Entails.of_eq ((on1_blocks (F := F) d (outN nt v1 d 1)).trans (bigSep_univ_two _)).symm)
    isplitl [Ho10] <;> iassumption

end Cert.Kernel.ScSide

end
-- ==== Proof.Bits.TcKernel.lean ====
/-
  The two TensorCore kernel bodies, each run once on whole staging buffers: eight loads, one covering store.
-/
import proofs.«204006_g8589934699_cont_9to1c4b_872_29_alg».proof.Proof.Bits.ScSetup
import Idealize.ShloMosaic.Lib.Pipeline.Value

noncomputable section

namespace Cert.Kernel.TcSide

open Cert.Kernel Cert.Kernel.Gen Cert.Kernel.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body of pipeline 0 on whole staging memrefs, the eight inputs' at read contents and the result's at anything,
    runs to the continuation holding the inputs' as they were and the result's at the payload of the inputs'. -/
theorem sound_kernel2 (c : Dev nD) (E : Set ℕ) (i : grid2.Coords) (arg1 : Memref sig .tc .vmem S1x1x2048 .i32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S32x32 .f32) (harg4 : arg4.IsWhole) (arg5 : Memref sig .tc .vmem S288x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .f32) (harg9 : arg9.IsWhole)
    (x0 : Vec F S1x1x2048 .i32) (x1 : Vec F S2048x128 .f32) (x2 : Vec F S2048x128 .f32) (x3 : Vec F S32x32 .f32) (x4 : Vec F S288x256 .f32) (x5 : Vec F S1x256 .f32) (x6 : Vec F S1x256 .f32) (x7 : Vec F S1x256 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ y, owns (c : Thread nD τ) arg9 fullShare y)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k2_pay1 (k2_pay2 x1 x2 x0 x4 x3 x5) (k2_pay3 x1 x2 x0 x4 x3 x5) (k2_pay4 x1 x2 x0 x4 x3 x5) x6 x7)) -∗ Kc ⟨⟩))
      ⊢ wp frame (wpE (defs₀ (F := F)) Variants.none c none) E (cc2__tc_body_first i arg1 harg1 arg2 harg2 arg3 harg3 arg4 harg4 arg5 harg5 arg6 harg6 arg7 harg7 arg8 harg8 arg9 harg9) Kc := by
  simp only [cc2__tc_body_first_eq_skeleton]; unfold cc2__tc_body_first_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%y8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero hz2 inb_S2048x256_S2048x256_0_0 y⟩), View.canon_unit_zero hz2]
  simp only [View.readAt_eq_ld, View.ld_unit_zero (S := S2048x128) hz2, View.ld_unit_zero (S := S1x1x2048) hz3, View.ld_unit_zero (S := S288x256) hz2,
    View.ld_unit_zero (S := S32x32) hz2, View.ld_unit_zero (S := S1x256) hz2]

set_option maxHeartbeats 1000000 in
/-- The body of pipeline 1 on whole staging memrefs, the eight inputs' at read contents and the result's at anything,
    runs to the continuation holding the inputs' as they were and the result's at the payload of the inputs'. -/
theorem sound_kernel3 (c : Dev nD) (E : Set ℕ) (i : grid3.Coords) (arg1 : Memref sig .tc .hbm S16384x256 .f32) (harg1 : arg1.IsWhole) (arg2 : Memref sig .tc .vmem S1x1x2048 .i32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S32x32 .f32) (harg5 : arg5.IsWhole) (arg6 : Memref sig .tc .vmem S288x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x256 .f32) (harg10 : arg10.IsWhole)
    (x0 : Vec F S1x1x2048 .i32) (x1 : Vec F S2048x128 .f32) (x2 : Vec F S2048x128 .f32) (x3 : Vec F S32x32 .f32) (x4 : Vec F S288x256 .f32) (x5 : Vec F S1x256 .f32) (x6 : Vec F S1x256 .f32) (x7 : Vec F S1x256 .f32) (Kc : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ y, owns (c : Thread nD τ) arg10 fullShare y)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k3_pay1 (k3_pay2 x1 x2 x0 x4 x3 x5) (k3_pay3 x1 x2 x0 x4 x3 x5) (k3_pay4 x1 x2 x0 x4 x3 x5) x6 x7)) -∗ Kc ⟨⟩))
      ⊢ wp frame (wpE (defs₀ (F := F)) Variants.none c none) E (cc3__tc_body_second i arg1 harg1 arg2 harg2 arg3 harg3 arg4 harg4 arg5 harg5 arg6 harg6 arg7 harg7 arg8 harg8 arg9 harg9 arg10 harg10) Kc := by
  simp only [cc3__tc_body_second_eq_skeleton]; unfold cc3__tc_body_second_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%y8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero hz2 inb_S2048x256_S2048x256_0_0 y⟩), View.canon_unit_zero hz2]
  simp only [View.readAt_eq_ld, View.ld_unit_zero (S := S2048x128) hz2, View.ld_unit_zero (S := S1x1x2048) hz3, View.ld_unit_zero (S := S288x256) hz2,
    View.ld_unit_zero (S := S32x32) hz2, View.ld_unit_zero (S := S1x256) hz2]

end Cert.Kernel.TcSide

end
-- ==== Proof.Bits.TcBody.lean ====
/-
  The body obligations of the two TensorCore pipelines: at every grid point the kernel body, called on the windows'
  current staging buffers, leaves each input's buffer at its block and the result's at the payload of the blocks.
-/
import proofs.«204006_g8589934699_cont_9to1c4b_872_29_alg».proof.Proof.Bits.TcData
import proofs.«204006_g8589934699_cont_9to1c4b_872_29_alg».proof.Proof.Bits.TcKernel

noncomputable section

namespace Cert.Kernel.TcSide

open Cert.Kernel Cert.Kernel.Gen Cert.Kernel.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Pipeline 0: the body obligation -/

/-- What the body is called with at point `t`: the invariant, the core's debts, each window's current staging buffer. -/
def bodyPre2 (c : Dev nD) (W : Valuation τ sig (Elt F)) (t : Fin cfg2.N) : sProp 𝕄 :=
  iprop((dat2 c W).Φ t.castSucc ∗ (dat2 c W).owesAt none t.castSucc
    ∗ (∃ x, owns (c : Thread nD τ) (st2_0 t) fullShare ((dat2 c W).before 0 t x))
    ∗ (∃ x, owns (c : Thread nD τ) (st2_1 t) fullShare ((dat2 c W).before 1 t x))
    ∗ (∃ x, owns (c : Thread nD τ) (st2_2 t) fullShare ((dat2 c W).before 2 t x))
    ∗ (∃ x, owns (c : Thread nD τ) (st2_3 t) fullShare ((dat2 c W).before 3 t x))
    ∗ (∃ x, owns (c : Thread nD τ) (st2_4 t) fullShare ((dat2 c W).before 4 t x))
    ∗ (∃ x, owns (c : Thread nD τ) (st2_5 t) fullShare ((dat2 c W).before 5 t x))
    ∗ (∃ x, owns (c : Thread nD τ) (st2_6 t) fullShare ((dat2 c W).before 6 t x))
    ∗ (∃ x, owns (c : Thread nD τ) (st2_7 t) fullShare ((dat2 c W).before 7 t x))
    ∗ (∃ x, owns (c : Thread nD τ) (st2_8 t) fullShare ((dat2 c W).before 8 t x)))

/-- and what it returns. -/
def bodyPost2 (c : Dev nD) (W : Valuation τ sig (Elt F)) (t : Fin cfg2.N) : sProp 𝕄 :=
  iprop((dat2 c W).Φ t.succ ∗ (dat2 c W).owesAt none t.succ
    ∗ owns (c : Thread nD τ) (st2_0 t) fullShare ((dat2 c W).after 0 t)
    ∗ owns (c : Thread nD τ) (st2_1 t) fullShare ((dat2 c W).after 1 t)
    ∗ owns (c : Thread nD τ) (st2_2 t) fullShare ((dat2 c W).after 2 t)
    ∗ owns (c : Thread nD τ) (st2_3 t) fullShare ((dat2 c W).after 3 t)
    ∗ owns (c : Thread nD τ) (st2_4 t) fullShare ((dat2 c W).after 4 t)
    ∗ owns (c : Thread nD τ) (st2_5 t) fullShare ((dat2 c W).after 5 t)
    ∗ owns (c : Thread nD τ) (st2_6 t) fullShare ((dat2 c W).after 6 t)
    ∗ owns (c : Thread nD τ) (st2_7 t) fullShare ((dat2 c W).after 7 t)
    ∗ owns (c : Thread nD τ) (st2_8 t) fullShare ((dat2 c W).after 8 t))

set_option maxHeartbeats 1000000 in
/-- The body at any point: the inputs' buffers hold their blocks, so the kernel's run applies; the invariant and the
    core's debts pass through unread. -/
theorem sound_body2 (c : Dev nD) (W : Valuation τ sig (Elt F)) (t : Fin cfg2.N) :
    bodyPre2 c W t ⊢ wp frame (wpE (defs₀ (F := F)) Variants.none c none) Set.univ (bodyAt2 t) (fun _ => bodyPost2 c W t) := by
  unfold bodyPre2 bodyPost2 bodyAt2
  simp only [before2_0, before2_1, before2_2, before2_3, before2_4, before2_5, before2_6, before2_7]
  rw [show (dat2 c W).Φ t.succ = (dat2 c W).Φ t.castSucc from rfl,
    show (dat2 c W).owesAt none t.succ = (dat2 c W).owesAt none t.castSucc from rfl,
    after2_0, after2_1, after2_2, after2_3, after2_4, after2_5, after2_6, after2_7, after2_8]
  unfold out2
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (sound_kernel2 c Set.univ (grid2.coords t) _ _ _ _ _ _ _ _ _ _ _ _ _ _ _ _ _ _ (iblk2 c W 0 t) (iblk2 c W 1 t) (iblk2 c W 2 t) (iblk2 c W 3 t) (iblk2 c W 4 t) (iblk2 c W 5 t) (iblk2 c W 6 t) (iblk2 c W 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) (W : Valuation τ sig (Elt F)) :
    Pipeline.BodyObligation (dat2 (F := F) c W) (defs₀ (F := F)) Variants.none (none : HIx 2) Set.univ := fun t => by
  rw [bigSep_W2, bigSep_W2]
  exact sound_body2 c W t

/-! ## Pipeline 1: the body obligation -/

/-- What the body is called with at point `t`: the invariant, the core's debts, each window's current staging buffer. -/
def bodyPre3 (c : Dev nD) (W : Valuation τ sig (Elt F)) (t : Fin cfg3.N) : sProp 𝕄 :=
  iprop((dat3 c W).Φ t.castSucc ∗ (dat3 c W).owesAt none t.castSucc
    ∗ (∃ x, owns (c : Thread nD τ) (st3_0 t) fullShare ((dat3 c W).before 0 t x))
    ∗ (∃ x, owns (c : Thread nD τ) (st3_1 t) fullShare ((dat3 c W).before 1 t x))
    ∗ (∃ x, owns (c : Thread nD τ) (st3_2 t) fullShare ((dat3 c W).before 2 t x))
    ∗ (∃ x, owns (c : Thread nD τ) (st3_3 t) fullShare ((dat3 c W).before 3 t x))
    ∗ (∃ x, owns (c : Thread nD τ) (st3_4 t) fullShare ((dat3 c W).before 4 t x))
    ∗ (∃ x, owns (c : Thread nD τ) (st3_5 t) fullShare ((dat3 c W).before 5 t x))
    ∗ (∃ x, owns (c : Thread nD τ) (st3_6 t) fullShare ((dat3 c W).before 6 t x))
    ∗ (∃ x, owns (c : Thread nD τ) (st3_7 t) fullShare ((dat3 c W).before 7 t x))
    ∗ (∃ x, owns (c : Thread nD τ) (st3_8 t) fullShare ((dat3 c W).before 8 t x)))

/-- and what it returns. -/
def bodyPost3 (c : Dev nD) (W : Valuation τ sig (Elt F)) (t : Fin cfg3.N) : sProp 𝕄 :=
  iprop((dat3 c W).Φ t.succ ∗ (dat3 c W).owesAt none t.succ
    ∗ owns (c : Thread nD τ) (st3_0 t) fullShare ((dat3 c W).after 0 t)
    ∗ owns (c : Thread nD τ) (st3_1 t) fullShare ((dat3 c W).after 1 t)
    ∗ owns (c : Thread nD τ) (st3_2 t) fullShare ((dat3 c W).after 2 t)
    ∗ owns (c : Thread nD τ) (st3_3 t) fullShare ((dat3 c W).after 3 t)
    ∗ owns (c : Thread nD τ) (st3_4 t) fullShare ((dat3 c W).after 4 t)
    ∗ owns (c : Thread nD τ) (st3_5 t) fullShare ((dat3 c W).after 5 t)
    ∗ owns (c : Thread nD τ) (st3_6 t) fullShare ((dat3 c W).after 6 t)
    ∗ owns (c : Thread nD τ) (st3_7 t) fullShare ((dat3 c W).after 7 t)
    ∗ owns (c : Thread nD τ) (st3_8 t) fullShare ((dat3 c W).after 8 t))

set_option maxHeartbeats 1000000 in
/-- The body at any point: the inputs' buffers hold their blocks, so the kernel's run applies; the invariant and the
    core's debts pass through unread. -/
theorem sound_body3 (c : Dev nD) (W : Valuation τ sig (Elt F)) (t : Fin cfg3.N) :
    bodyPre3 c W t ⊢ wp frame (wpE (defs₀ (F := F)) Variants.none c none) Set.univ (bodyAt3 t) (fun _ => bodyPost3 c W t) := by
  unfold bodyPre3 bodyPost3 bodyAt3
  simp only [before3_0, before3_1, before3_2, before3_3, before3_4, before3_5, before3_6, before3_7]
  rw [show (dat3 c W).Φ t.succ = (dat3 c W).Φ t.castSucc from rfl,
    show (dat3 c W).owesAt none t.succ = (dat3 c W).owesAt none t.castSucc from rfl,
    after3_0, after3_1, after3_2, after3_3, after3_4, after3_5, after3_6, after3_7, after3_8]
  unfold out3
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (sound_kernel3 c Set.univ (grid3.coords t) _ _ _ _ _ _ _ _ _ _ _ _ _ _ _ _ _ _ _ _ (iblk3 c W 0 t) (iblk3 c W 1 t) (iblk3 c W 2 t) (iblk3 c W 3 t) (iblk3 c W 4 t) (iblk3 c W 5 t) (iblk3 c W 6 t) (iblk3 c W 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) (W : Valuation τ sig (Elt F)) :
    Pipeline.BodyObligation (dat3 (F := F) c W) (defs₀ (F := F)) Variants.none (none : HIx 2) Set.univ := fun t => by
  rw [bigSep_W3, bigSep_W3]
  exact sound_body3 c W t

end Cert.Kernel.TcSide

end
-- ==== Proof.Bits.TcRegion.lean ====
/-
  The two TensorCore pipelines inside the SparseCore program's @main, each as a kernel region of the pipeline
  library entered from the TensorCore's state after both SparseCore calls: the staging cells' invariants are
  allocated from the launch ghost state at the entry, the grid's four points run against the body obligation,
  and the region is left with every unscoped array at the valuation updated at the result array.
-/
import proofs.«204006_g8589934699_cont_9to1c4b_872_29_alg».proof.Proof.Bits.TcBody
import Idealize.ShloMosaic.Lib.Pipeline.RegionsLoop

noncomputable section

namespace Cert.Kernel.TcSide

open Cert.Kernel Cert.Kernel.Gen Cert.Kernel.Setup
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The TensorCore's thread state around a pipeline: every unscoped array at a valuation, and the core owing
    nothing, its recorded pairs at or below level 16 (the two SparseCore calls' handshakes). -/
def thrSt (d : Dev nD) (V : Valuation τ sig (Elt F)) : sProp 𝕄 :=
  iprop(unscopedBufs d (fun b => V b)
    ∗ ∃ W0, ⌜(K (F := F)).WBelow (SparseCore.T d) W0 16⌝ ∗ owes (SparseCore.T d) (0 : CellTallies nD τ sig (HIx 2)) W0)

/-- After both SparseCore calls the TensorCore owes nothing. -/
theorem tcSt_two {EH' : Emb (URounds (GSem nD τ sig) ℕ) 𝕄} (d : Dev nD) :
    (K (F := F)).tcSt EH' d 2 = iprop((∃ W0, ⌜(K (F := F)).WBelow (SparseCore.T d) W0 16⌝ ∗ owes (SparseCore.T d) (0 : CellTallies nD τ sig (HIx 2)) W0)
      ∗ atPos EH' ((K (F := F)).doneCell d) 2 ∅ 0 ∗ reached EH' ((K (F := F)).doneCell d) 2
      ∗ (bigSep Finset.univ fun c : Fin τ.nSC => reached EH' ((K (F := F)).startCell d c) ((K (F := F)).sRank c 2))
      ∗ bigSep (SparseCore.Cfg.callsFrom 2) fun q => bigSep Finset.univ fun c : Fin ((K (F := F)).nCore q) =>
          iprop(dutyTok EH' ((K (F := F)).startCell d ((K (F := F)).core q c)) ((K (F := F)).sRank ((K (F := F)).core q c) q.val) 0
            ∗ cred (tallyAt ((K (F := F)).doneCell d) (some q) 1))) := by
  unfold SparseCore.Cfg.tcSt
  rw [(K (F := F)).Otc_end d (le_refl 2)]

/-- A recorded set within the proof data's bound sits at or below level 16: the pipeline's own waits are at index
    `none`, level 0. -/
theorem below_of_bound2 (c : Dev nD) (W : Valuation τ sig (Elt F)) {W0 : Waits sig (HIx 2)} {t : Fin (cfg2.N + 1)}
    (h : (↑W0 : Set (SemLoc sig × HIx 2)) ⊆ (dat2 (F := F) c W).bound none t) : (K (F := F)).WBelow (SparseCore.T c) W0 16 := fun q hq => by
  rcases h (Finset.mem_coe.mpr hq) with h | ⟨w, s, rfl⟩
  · exact h
  · exact Nat.zero_le _

theorem below_of_bound3 (c : Dev nD) (W : Valuation τ sig (Elt F)) {W0 : Waits sig (HIx 2)} {t : Fin (cfg3.N + 1)}
    (h : (↑W0 : Set (SemLoc sig × HIx 2)) ⊆ (dat3 (F := F) c W).bound none t) : (K (F := F)).WBelow (SparseCore.T c) W0 16 := fun q hq => by
  rcases h (Finset.mem_coe.mpr hq) with h | ⟨w, s, rfl⟩
  · exact h
  · exact Nat.zero_le _

/-! ## Pipeline 0 as a kernel region -/

/-- The region's final arrays are the updated valuation's: an input array is never written back, the result array
    ends at the proof data's final contents. -/
theorem arrAt2_eq (c : Dev nD) (W : Valuation τ sig (Elt F)) (w : Fin (Pipeline.pin (pcfgs (F := F)) adm 0).W) :
    (pdats (F := F) W 0 c).arrAt w (Pipeline.pin (pcfgs (F := F)) adm 0).N = (fun b : Ref sig .tc => W2 c W b) (Pipeline.arrRef (Pipeline.pin (pcfgs (F := F)) adm 0).spec w) := by
  have hin : ∀ w' : Fin cfg2.W, (cfg2.win w').isOut = false → Proc.devRef (τ := τ) .tc (Pipeline.arrRef spec2 w') ≠ Proc.devRef .tc main_v8 →
      (dat2 (F := F) c W).arrAt w' cfg2.N = W2 c W (Proc.devRef .tc (Pipeline.arrRef spec2 w')) := fun w' hw hne => by
    rw [(dat2 c W).arrAt_in w' hw, A2_eq]; unfold W2; rw [Function.update_of_ne hne]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (show W2 c W (Proc.devRef .tc main_v8) = res2 c W from by unfold W2; rw [Function.update_self]).symm

/-- Off the region's arrays the updated valuation is the old one. -/
theorem rest2_eq (c : Dev nD) (W : Valuation τ sig (Elt F)) (b : Ref sig .tc)
    (hb : b ∉ Finset.univ.image (Pipeline.arrRef (Pipeline.pin (pcfgs (F := F)) adm 0).spec)) : (fun b : Ref sig .tc => W2 c W b) b = (fun b : Ref sig .tc => W b) b := by
  have hne : b ≠ main_v8 := fun e => hb (Finset.mem_image.mpr ⟨(8 : Fin 9), Finset.mem_univ _, e.symm ▸ rfl⟩)
  show W2 c W (Proc.devRef .tc b) = W (Proc.devRef .tc b)
  unfold W2; rw [Function.update_of_ne (fun e => hne (Proc.devRef_injective _ e))]

/-- THE REGION: every unscoped array enters at the valuation `W` and leaves at the updated one; the arrays no
    window stages bypass it; the core owes nothing throughout, and its recorded pairs stay at or below level 16. -/
def reg0 (W : Valuation τ sig (Elt F)) (lv : GSem nD τ sig → HIx 2 → ℕ) :
    Pipeline.RegionSeg (pcfgs (F := F)) adm (pdats W) (none : HIx 2) defs₀ 𝒱₀ (K (F := F)).L lv 0 where
  win := launch2.win.to₀
  block_pos := launch2.block_pos
  stage_whole := launch2.stage_whole
  K := PEmpty
  osem k := k.elim
  ho := Pipeline.OwnSemFacts.none _
  hbody c := (body_obligation2 c W).loose
  hwaits c := Pipeline.hwaits_of_owed_zero (pcfgs (F := F)) adm (pdats W) none (K (F := F)).L lv 0 (fun _ _ => rfl) c
  pre c := thrSt c W
  post c := thrSt c (W2 c W)
  X _ := iprop(emp)
  Y _ := iprop(emp)
  Z c := Pipeline.unscopedRest (Ix := HIx 2) (Name := ℕ) (U := UU) (Lvl := ℕ) spec2 c (fun b => W b)
  hentry c := by
    rw [Pipeline.ownSems0_none]
    have hsplit := Pipeline.arrays_of_unscopedBufs (p := (0 : Fin 2)) (pcfgs (F := F)) adm (pdats W) launch2.win launch2.arr_whole c
      ((pdats W 0 c).share_full fun _ => rfl) (fun b => W b) fun _ => rfl
    unfold thrSt
    iintro ⟨⟨Hub, %W0, %hW0, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W0; isplitr; · ipureintro; exact fun q hq => Or.inl (hW0 q (Finset.mem_coe.mp hq))
      iexact HO
    isplitr; · iempintro
    iexact Hr
  hin c := by
    show iprop(_ ∗ _ ∗ _) ⊢ Pipeline.scopedRest (Ix := HIx 2) (Name := ℕ) (U := UU) (Lvl := ℕ) (Val := Elt F) spec2 c
    iintro ⟨-, -, H⟩; iexact H
  hout c := by
    rw [Pipeline.ownSems0_none]
    show Pipeline.scopedRest (Ix := HIx 2) (Name := ℕ) (U := UU) (Lvl := ℕ) (Val := Elt F) spec2 c ⊢ _
    iintro H; isplitr; · iempintro
    isplitr; · iempintro
    iexact H
  hexit c := by
    have hback := Pipeline.unscopedBufs_of_arrays (p := (0 : Fin 2)) (pcfgs (F := F)) adm launch2.win launch2.arr_whole c (pdats W)
      ((pdats W 0 c).share_full fun _ => rfl) (fun b => W b) (fun b => W2 c W b)
      (fun w => (pdats W 0 c).arrAt w (Pipeline.pin (pcfgs (F := F)) adm 0).N) (arrAt2_eq c W) (rest2_eq c W)
    unfold thrSt
    iintro ⟨Ha, HO, -, Hr⟩
    imodintro
    isplitl [Ha Hr]
    · iapply hback; isplitl [Ha] <;> iassumption
    unfold Pipeline.Dat.owesAt Pipeline.owesWithin
    icases HO with ⟨%W0, %hW0, HO⟩
    iexists W0; isplitr; · ipureintro; exact below_of_bound2 c W hW0
    iexact HO

theorem reg0_pre (W : Valuation τ sig (Elt F)) (lv : GSem nD τ sig → HIx 2 → ℕ) (c : Dev nD) : (reg0 (F := F) W lv).pre c = thrSt c W := rfl
theorem reg0_post (W : Valuation τ sig (Elt F)) (lv : GSem nD τ sig → HIx 2 → ℕ) (c : Dev nD) : (reg0 (F := F) W lv).post c = thrSt c (W2 c W) := rfl

-- the region rule's implicit arguments are found by unifying its conclusion with ours, which takes unfolding plain
-- definitions in a metavariable's type
set_option backward.isDefEq.respectTransparency.types false in
/-- Pipeline 0 inside the SparseCore program's @main: from the handshake state after both SparseCore calls, the
    region boundary, every unscoped array at `W` and the pipeline's launch ghost state, the call runs to the same
    with the result array rewritten. -/
theorem region0 {lv : GSem nD τ sig → HIx 2 → ℕ}
    (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx EH P κ lv ∗ (K (F := F)).tcSt EH d 2 ∗ boundary (SparseCore.T d) ∗ unscopedBufs d (fun b => W b)
        ∗ ghost 0 d
        ∗ (iprop((K (F := F)).tcSt EH d 2 ∗ boundary (SparseCore.T d) ∗ unscopedBufs d (fun b => W2 d W b)) -∗ Φ ⟨⟩))
      ⊢ wp frame (wpE ((K (F := F)).defs D) 𝒱 (SparseCore.T d) none) Set.univ (Prog.lift (.customCall (SparseCore.inner (Pipeline.entry 0)) ())) Φ := by
  have hwp := (reg0 (F := F) W lv).wp (pcfgs (F := F)) adm (pdats W) (none : HIx 2) cellOf_inj EP defs₀ 𝒱₀ (K (F := F)).L lv d none
    (fun _ hu => by cases hu) (fun u => .ret u) Φ
  rw [reg0_pre, reg0_post] at hwp
  unfold thrSt at hwp
  have hlift := (K (F := F)).wp_liftProg (D (F := F)) 𝒱 (SparseCore.T d) Set.univ none
    (.op (.customCall (Pipeline.entry 0) ()) fun u => .ret u) Φ
  refine BIBase.Entails.trans ?_ hlift
  refine BIBase.Entails.trans ?_ hwp
  rw [tcSt_two]
  iintro ⟨#Hctx, ⟨⟨%W0, %hW0, HO⟩, Hrest⟩, Hbd, Hub, ⟨Hg, Ht⟩, Hk⟩
  isplitl [Hk Hrest]
  · iintro ⟨Hbd, Hpost⟩
    rw [wp_ret]; imodintro
    iapply Hk
    icases Hpost with ⟨Hub, %W1, %hW1, HO⟩
    isplitl [HO Hrest]
    · isplitl [HO]
      · iexists W1; isplitr; · ipureintro; exact hW1
        iexact HO
      iexact Hrest
    isplitl [Hbd]; · iexact Hbd
    iexact Hub
  isplitl [Hbd]; · iexact Hbd
  isplitl [Hub HO]
  · isplitl [Hub]; · iexact Hub
    iexists W0; isplitr; · ipureintro; exact hW0
    iexact HO
  isplitr; · iapply (K.ctx_levAts (EH := EH) (P := P) κ); iexact Hctx
  isplitl [Hg]; · iexact Hg
  iexact Ht

/-! ## Pipeline 1 as a kernel region -/

/-- The region's final arrays are the updated valuation's: an input array is never written back, the result array
    ends at the proof data's final contents. -/
theorem arrAt3_eq (c : Dev nD) (W : Valuation τ sig (Elt F)) (w : Fin (Pipeline.pin (pcfgs (F := F)) adm 1).W) :
    (pdats (F := F) W 1 c).arrAt w (Pipeline.pin (pcfgs (F := F)) adm 1).N = (fun b : Ref sig .tc => W3 c W b) (Pipeline.arrRef (Pipeline.pin (pcfgs (F := F)) adm 1).spec w) := by
  have hin : ∀ w' : Fin cfg3.W, (cfg3.win w').isOut = false → Proc.devRef (τ := τ) .tc (Pipeline.arrRef spec3 w') ≠ Proc.devRef .tc main_v9 →
      (dat3 (F := F) c W).arrAt w' cfg3.N = W3 c W (Proc.devRef .tc (Pipeline.arrRef spec3 w')) := fun w' hw hne => by
    rw [(dat3 c W).arrAt_in w' hw, A3_eq]; unfold W3; rw [Function.update_of_ne hne]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (show W3 c W (Proc.devRef .tc main_v9) = res3 c W from by unfold W3; rw [Function.update_self]).symm

/-- Off the region's arrays the updated valuation is the old one. -/
theorem rest3_eq (c : Dev nD) (W : Valuation τ sig (Elt F)) (b : Ref sig .tc)
    (hb : b ∉ Finset.univ.image (Pipeline.arrRef (Pipeline.pin (pcfgs (F := F)) adm 1).spec)) : (fun b : Ref sig .tc => W3 c W b) b = (fun b : Ref sig .tc => W b) b := by
  have hne : b ≠ main_v9 := fun e => hb (Finset.mem_image.mpr ⟨(8 : Fin 9), Finset.mem_univ _, e.symm ▸ rfl⟩)
  show W3 c W (Proc.devRef .tc b) = W (Proc.devRef .tc b)
  unfold W3; rw [Function.update_of_ne (fun e => hne (Proc.devRef_injective _ e))]

/-- THE REGION: every unscoped array enters at the valuation `W` and leaves at the updated one; the arrays no
    window stages bypass it; the core owes nothing throughout, and its recorded pairs stay at or below level 16. -/
def reg1 (W : Valuation τ sig (Elt F)) (lv : GSem nD τ sig → HIx 2 → ℕ) :
    Pipeline.RegionSeg (pcfgs (F := F)) adm (pdats W) (none : HIx 2) defs₀ 𝒱₀ (K (F := F)).L lv 1 where
  win := launch3.win.to₀
  block_pos := launch3.block_pos
  stage_whole := launch3.stage_whole
  K := PEmpty
  osem k := k.elim
  ho := Pipeline.OwnSemFacts.none _
  hbody c := (body_obligation3 c W).loose
  hwaits c := Pipeline.hwaits_of_owed_zero (pcfgs (F := F)) adm (pdats W) none (K (F := F)).L lv 1 (fun _ _ => rfl) c
  pre c := thrSt c W
  post c := thrSt c (W3 c W)
  X _ := iprop(emp)
  Y _ := iprop(emp)
  Z c := Pipeline.unscopedRest (Ix := HIx 2) (Name := ℕ) (U := UU) (Lvl := ℕ) spec3 c (fun b => W b)
  hentry c := by
    rw [Pipeline.ownSems0_none]
    have hsplit := Pipeline.arrays_of_unscopedBufs (p := (1 : Fin 2)) (pcfgs (F := F)) adm (pdats W) launch3.win launch3.arr_whole c
      ((pdats W 1 c).share_full fun _ => rfl) (fun b => W b) fun _ => rfl
    unfold thrSt
    iintro ⟨⟨Hub, %W0, %hW0, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W0; isplitr; · ipureintro; exact fun q hq => Or.inl (hW0 q (Finset.mem_coe.mp hq))
      iexact HO
    isplitr; · iempintro
    iexact Hr
  hin c := by
    show iprop(_ ∗ _ ∗ _) ⊢ Pipeline.scopedRest (Ix := HIx 2) (Name := ℕ) (U := UU) (Lvl := ℕ) (Val := Elt F) spec3 c
    iintro ⟨-, -, H⟩; iexact H
  hout c := by
    rw [Pipeline.ownSems0_none]
    show Pipeline.scopedRest (Ix := HIx 2) (Name := ℕ) (U := UU) (Lvl := ℕ) (Val := Elt F) spec3 c ⊢ _
    iintro H; isplitr; · iempintro
    isplitr; · iempintro
    iexact H
  hexit c := by
    have hback := Pipeline.unscopedBufs_of_arrays (p := (1 : Fin 2)) (pcfgs (F := F)) adm launch3.win launch3.arr_whole c (pdats W)
      ((pdats W 1 c).share_full fun _ => rfl) (fun b => W b) (fun b => W3 c W b)
      (fun w => (pdats W 1 c).arrAt w (Pipeline.pin (pcfgs (F := F)) adm 1).N) (arrAt3_eq c W) (rest3_eq c W)
    unfold thrSt
    iintro ⟨Ha, HO, -, Hr⟩
    imodintro
    isplitl [Ha Hr]
    · iapply hback; isplitl [Ha] <;> iassumption
    unfold Pipeline.Dat.owesAt Pipeline.owesWithin
    icases HO with ⟨%W0, %hW0, HO⟩
    iexists W0; isplitr; · ipureintro; exact below_of_bound3 c W hW0
    iexact HO

theorem reg1_pre (W : Valuation τ sig (Elt F)) (lv : GSem nD τ sig → HIx 2 → ℕ) (c : Dev nD) : (reg1 (F := F) W lv).pre c = thrSt c W := rfl
theorem reg1_post (W : Valuation τ sig (Elt F)) (lv : GSem nD τ sig → HIx 2 → ℕ) (c : Dev nD) : (reg1 (F := F) W lv).post c = thrSt c (W3 c W) := rfl

-- the region rule's implicit arguments are found by unifying its conclusion with ours, which takes unfolding plain
-- definitions in a metavariable's type
set_option backward.isDefEq.respectTransparency.types false in
/-- Pipeline 1 inside the SparseCore program's @main: from the handshake state after both SparseCore calls, the
    region boundary, every unscoped array at `W` and the pipeline's launch ghost state, the call runs to the same
    with the result array rewritten. -/
theorem region1 {lv : GSem nD τ sig → HIx 2 → ℕ}
    (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx EH P κ lv ∗ (K (F := F)).tcSt EH d 2 ∗ boundary (SparseCore.T d) ∗ unscopedBufs d (fun b => W b)
        ∗ ghost 1 d
        ∗ (iprop((K (F := F)).tcSt EH d 2 ∗ boundary (SparseCore.T d) ∗ unscopedBufs d (fun b => W3 d W b)) -∗ Φ ⟨⟩))
      ⊢ wp frame (wpE ((K (F := F)).defs D) 𝒱 (SparseCore.T d) none) Set.univ (Prog.lift (.customCall (SparseCore.inner (Pipeline.entry 1)) ())) Φ := by
  have hwp := (reg1 (F := F) W lv).wp (pcfgs (F := F)) adm (pdats W) (none : HIx 2) cellOf_inj EP defs₀ 𝒱₀ (K (F := F)).L lv d none
    (fun _ hu => by cases hu) (fun u => .ret u) Φ
  rw [reg1_pre, reg1_post] at hwp
  unfold thrSt at hwp
  have hlift := (K (F := F)).wp_liftProg (D (F := F)) 𝒱 (SparseCore.T d) Set.univ none
    (.op (.customCall (Pipeline.entry 1) ()) fun u => .ret u) Φ
  refine BIBase.Entails.trans ?_ hlift
  refine BIBase.Entails.trans ?_ hwp
  rw [tcSt_two]
  iintro ⟨#Hctx, ⟨⟨%W0, %hW0, HO⟩, Hrest⟩, Hbd, Hub, ⟨Hg, Ht⟩, Hk⟩
  isplitl [Hk Hrest]
  · iintro ⟨Hbd, Hpost⟩
    rw [wp_ret]; imodintro
    iapply Hk
    icases Hpost with ⟨Hub, %W1, %hW1, HO⟩
    isplitl [HO Hrest]
    · isplitl [HO]
      · iexists W1; isplitr; · ipureintro; exact hW1
        iexact HO
      iexact Hrest
    isplitl [Hbd]; · iexact Hbd
    iexact Hub
  isplitl [Hbd]; · iexact Hbd
  isplitl [Hub HO]
  · isplitl [Hub]; · iexact Hub
    iexists W0; isplitr; · ipureintro; exact hW0
    iexact HO
  isplitr; · iapply (K.ctx_levAts (EH := EH) (P := P) κ); iexact Hctx
  isplitl [Hg]; · iexact Hg
  iexact Ht

end Cert.Kernel.TcSide

end
-- ==== Proof.Bits.KerParts.lean ====
/-
  The kernel program's run under the precondition, for any float instance: the launch theorem's hypotheses are the
  two row-gather kernels' obligations and operand splits, their calls and the two pipelines as @main meets them —
  the gathers' indices in range by the precondition.
-/
import proofs.«204006_g8589934699_cont_9to1c4b_872_29_alg».proof.Proof.Bits.MainFinal
import proofs.«204006_g8589934699_cont_9to1c4b_872_29_alg».proof.Proof.Bits.MainPre
import proofs.«204006_g8589934699_cont_9to1c4b_872_29_alg».proof.Proof.Bits.ScTile0
import proofs.«204006_g8589934699_cont_9to1c4b_872_29_alg».proof.Proof.Bits.ScTile1
import proofs.«204006_g8589934699_cont_9to1c4b_872_29_alg».proof.Proof.Bits.ScSplit
import proofs.«204006_g8589934699_cont_9to1c4b_872_29_alg».proof.Proof.Bits.ScCall
import proofs.«204006_g8589934699_cont_9to1c4b_872_29_alg».proof.Proof.Bits.TcRegion

noncomputable section

namespace Cert.Kernel.MainSide

open Cert.Kernel Cert.Kernel.Gen Cert.Kernel.Setup Cert.Kernel.ScSide Cert.Kernel.TcSide
open Idealize.ShloMosaic Idealize.ShloMosaic.TcCoe Idealize.SL.Sem

variable {F : FTy → Type} [FloatOps F] [∀ e, Nonempty (Elt F e)] [Cert.Pre_input_domain.Facts]

variable (m : (ℓ : Loc nD τ sig) → Buf (Elt F) ℓ) (ρ : Dev nD → PrngReg)

/-- Every weakly fair execution of the kernel program from a memory satisfying the precondition terminates, with
    the ten arguments as launched and the result array at the last valuation's. -/
theorem run_of_pre
    (hpre : ∀ c : Dev nD, Cert.Pre_input_domain.fn (F := F) (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) = (fun _ => 1#1)) :
    θ_run (Cert.Kernel.defs (F := F)) (Cert.Kernel.threads (F := F)) ⟨m, fun _ => 0, ρ⟩ (QC m) :=
  have hr : InRange (i0F m) (i1F m) := inRange_of_pre m hpre
  run_main m ρ
    (tileObl0 (ctF m) (ntF m) (i0F m) (i1F m) facts hr) (tileObl1 (ctF m) (ntF m) (i0F m) (i1F m) facts hr)
    (vecSplit0 (ctF m) (ntF m) (i0F m) (i1F m)) (vecSplit1 (ctF m) (ntF m) (i0F m) (i1F m))
    (fun κ d f0 f1 Φ => call0 (ctF m) (ntF m) (i0F m) (i1F m) hr κ d f0 f1 Φ)
    (fun κ d f0 f1 Φ => call1 (ctF m) (ntF m) (i0F m) (i1F m) hr κ d f0 f1 Φ)
    (fun κ d W Φ => region0 (PP m) κ d W Φ) (fun κ d W Φ => region1 (PP m) κ d W Φ)

end Cert.Kernel.MainSide

end
-- ==== Proof.BitsClaims.lean ====
/-
  The claim about the kernel as printed, at the word level: its frame. The program's text is the idealized one's,
  and so is the proof of its run; the frame forgets the result array's term.
-/
import proofs.«204006_g8589934699_cont_9to1c4b_872_29_alg».proof.Defs
import proofs.«204006_g8589934699_cont_9to1c4b_872_29_alg».proof.Proof.Bits.KerParts

noncomputable section

namespace Cert.Proof.BitsClaims

open Idealize.ShloMosaic Idealize.ShloMosaic.TcCoe Idealize.SL.Sem

variable [Cert.Kernel.Facts] [Cert.Pre_input_domain.Facts]

theorem frame_p : Cert.frame_Kernel :=
  fun m ρ hpre => (θ_run (Cert.Kernel.defs (F := Bits)) _ _).mono (fun _ h c => (h c).2) (Cert.Kernel.MainSide.run_of_pre (F := Bits) m ρ hpre)

end Cert.Proof.BitsClaims

end
-- ==== Proof.lean ====
/- The proof of `Cert.Claim`: the three frames, the idealization's sanction and the equivalence at the ideal instance.

   The kernel program gathers rows of two embedding tables on the vector subcores (two calls, one per half of the
   batch), then on the TensorCore, in two pipelines of four blocks of 2048 rows, multiplies the gathered rows and
   the one-hot nature ids' row of a third table against the three blocks of one weight matrix, adds a bias row and
   normalises each row to zero mean and unit variance before a scale and a shift. The reference gathers the three
   tables' rows, concatenates them and multiplies once. Both programs run to the end from any memory satisfying the
   precondition, leaving the arguments unchanged (the frames); the ideal pass rewrote nothing (the sanction is
   trivial); and at the ideal instance both results are one specification of the arguments, entry by entry: a sum
   over the concatenation splits at the block boundaries, the one-hot product picks the row, and a product with the
   reciprocal square root of a positive real is the quotient by its square root. -/
import proofs.«204006_g8589934699_cont_9to1c4b_872_29_alg».proof.Defs
import proofs.«204006_g8589934699_cont_9to1c4b_872_29_alg».proof.Proof.KerClaims
import proofs.«204006_g8589934699_cont_9to1c4b_872_29_alg».proof.Proof.BitsClaims
import proofs.«204006_g8589934699_cont_9to1c4b_872_29_alg».proof.Proof.RefRun
import proofs.«204006_g8589934699_cont_9to1c4b_872_29_alg».proof.Proof.Gen.Kernel
import proofs.«204006_g8589934699_cont_9to1c4b_872_29_alg».proof.Proof.Gen.KernelIdeal
import proofs.«204006_g8589934699_cont_9to1c4b_872_29_alg».proof.Proof.Gen.ReferenceIdeal
import proofs.«204006_g8589934699_cont_9to1c4b_872_29_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    BitsClaims.frame_p, KerClaims.frame_pi, Cert.ReferenceIdeal.RefRun.frame_ri, trivial, KerClaims.algebraic⟩

end Cert.Proof

end
